-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S4096 : Shape := ⟨1, ![4096]⟩
abbrev S4096x4096 : Shape := ⟨2, ![4096, 4096]⟩
abbrev S8192x8192 : Shape := ⟨2, ![8192, 8192]⟩
abbrev S4096x8192 : Shape := ⟨2, ![4096, 8192]⟩
abbrev S32x64 : Shape := ⟨2, ![32, 64]⟩
abbrev S32 : Shape := ⟨1, ![32]⟩
abbrev S64 : Shape := ⟨1, ![64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S4096x8192 : S_.BroadcastsInDim S4096x8192 (![] : Fin 0 → Fin S4096x8192.rank)
  reducesTo_S4096x8192_S_d0_1 : S4096x8192.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S64 : S_.BroadcastsInDim S64 (![] : Fin 0 → Fin S64.rank)
  reducesTo_S64_S_d0 : S64.ReducesTo [0] S_

variable [Facts]

def fn_part6 {F : FTy → Type} [FloatOps F] (main_arg21 : FVec F S64 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  main_v108

def fn_part5 {F : FTy → Type} [FloatOps F] (main_arg18 : FVec F S64 .f32) (main_arg19 : FVec F S64 .f32) (main_arg20 : FVec F S64 .f32) (main_arg21 : FVec F S64 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg20
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S32x64 .f32) (main_arg15 : FVec F S32 .f32) (main_arg16 : FVec F S32x64 .f32) (main_arg17 : FVec F S32 .f32) (main_arg18 : FVec F S64 .f32) (main_arg19 : FVec F S64 .f32) (main_arg20 : FVec F S64 .f32) (main_arg21 : FVec F S64 .f32) (main_v63 : IVec S_ 1) (main_v67 : IVec S_ 1) : IVec S_ 1 :=
  let main_v68 : IVec S_ 1 := andi main_v63 main_v67
  let main_v69 : FVec F S32x64 .f32 := Host.absf main_arg14
  let main_cst_26 : FVec F S_ .f32 := constant S_ .f32 0x7F800000#32
  let main_v70 : FVec F S32x64 .f32 := broadcastInDim S32x64 ![] bcast_S_S32x64 main_cst_26
  let main_v71 : IVec S32x64 1 := cmpf .olt main_v69 main_v70
  let main_c_27 : IVec S_ 1 := constantI S_ 1 1#1
  let main_v72 : IVec S_ 1 := (fun x v => Host.reduce IntOp.andi x v reducesTo_S32x64_S_d0_1 h_S_) main_v71 main_c_27
  let main_v73 : IVec S_ 1 := andi main_v68 main_v72
  let main_v74 : FVec F S32 .f32 := Host.absf main_arg15
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x64 .f32 := Host.absf main_arg16
  let main_cst_30 : FVec F S_ .f32 := constant S_ .f32 0x7F800000#32
  let main_v80 : FVec F S32x64 .f32 := broadcastInDim S32x64 ![] bcast_S_S32x64 main_cst_30
  let main_v81 : IVec S32x64 1 := cmpf .olt main_v79 main_v80
  let main_c_31 : IVec S_ 1 := constantI S_ 1 1#1
  let main_v82 : IVec S_ 1 := (fun x v => Host.reduce IntOp.andi x v reducesTo_S32x64_S_d0_1 h_S_) main_v81 main_c_31
  let main_v83 : IVec S_ 1 := andi main_v78 main_v82
  let main_v84 : FVec F S32 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S32 .f32) (main_arg12 : FVec F S32x64 .f32) (main_arg13 : FVec F S32 .f32) (main_arg14 : FVec F S32x64 .f32) (main_arg15 : FVec F S32 .f32) (main_arg16 : FVec F S32x64 .f32) (main_arg17 : FVec F S32 .f32) (main_arg18 : FVec F S64 .f32) (main_arg19 : FVec F S64 .f32) (main_arg20 : FVec F S64 .f32) (main_arg21 : FVec F S64 .f32) (main_v48 : IVec S_ 1) (main_v49 : FVec F S32x64 .f32) (main_v50 : FVec F S32x64 .f32) : IVec S_ 1 :=
  let main_v51 : IVec S32x64 1 := cmpf .olt main_v49 main_v50
  let main_c_19 : IVec S_ 1 := constantI S_ 1 1#1
  let main_v52 : IVec S_ 1 := (fun x v => Host.reduce IntOp.andi x v reducesTo_S32x64_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x64 .f32 := Host.absf main_arg12
  let main_cst_22 : FVec F S_ .f32 := constant S_ .f32 0x7F800000#32
  let main_v60 : FVec F S32x64 .f32 := broadcastInDim S32x64 ![] bcast_S_S32x64 main_cst_22
  let main_v61 : IVec S32x64 1 := cmpf .olt main_v59 main_v60
  let main_c_23 : IVec S_ 1 := constantI S_ 1 1#1
  let main_v62 : IVec S_ 1 := (fun x v => Host.reduce IntOp.andi x v reducesTo_S32x64_S_d0_1 h_S_) main_v61 main_c_23
  let main_v63 : IVec S_ 1 := andi main_v58 main_v62
  let main_v64 : FVec F S32 .f32 := Host.absf main_arg13
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S32 .f32) (main_arg8 : FVec F S32x64 .f32) (main_arg9 : FVec F S32 .f32) (main_arg10 : FVec F S32x64 .f32) (main_arg11 : FVec F S32 .f32) (main_arg12 : FVec F S32x64 .f32) (main_arg13 : FVec F S32 .f32) (main_arg14 : FVec F S32x64 .f32) (main_arg15 : FVec F S32 .f32) (main_arg16 : FVec F S32x64 .f32) (main_arg17 : FVec F S32 .f32) (main_arg18 : FVec F S64 .f32) (main_arg19 : FVec F S64 .f32) (main_arg20 : FVec F S64 .f32) (main_arg21 : FVec F S64 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x64 .f32 := Host.absf main_arg8
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x64 .f32 := Host.absf main_arg10
  let main_cst_18 : FVec F S_ .f32 := constant S_ .f32 0x7F800000#32
  let main_v50 : FVec F S32x64 .f32 := broadcastInDim S32x64 ![] bcast_S_S32x64 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S4096x8192 .f32) (main_arg5 : FVec F S4096x8192 .f32) (main_arg6 : FVec F S32x64 .f32) (main_arg7 : FVec F S32 .f32) (main_arg8 : FVec F S32x64 .f32) (main_arg9 : FVec F S32 .f32) (main_arg10 : FVec F S32x64 .f32) (main_arg11 : FVec F S32 .f32) (main_arg12 : FVec F S32x64 .f32) (main_arg13 : FVec F S32 .f32) (main_arg14 : FVec F S32x64 .f32) (main_arg15 : FVec F S32 .f32) (main_arg16 : FVec F S32x64 .f32) (main_arg17 : FVec F S32 .f32) (main_arg18 : FVec F S64 .f32) (main_arg19 : FVec F S64 .f32) (main_arg20 : FVec F S64 .f32) (main_arg21 : FVec F S64 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S4096x8192 .f32 := Host.absf main_arg4
  let main_cst_6 : FVec F S_ .f32 := constant S_ .f32 0x7F800000#32
  let main_v20 : FVec F S4096x8192 .f32 := broadcastInDim S4096x8192 ![] bcast_S_S4096x8192 main_cst_6
  let main_v21 : IVec S4096x8192 1 := cmpf .olt main_v19 main_v20
  let main_c_7 : IVec S_ 1 := constantI S_ 1 1#1
  let main_v22 : IVec S_ 1 := (fun x v => Host.reduce IntOp.andi x v reducesTo_S4096x8192_S_d0_1 h_S_) main_v21 main_c_7
  let main_v23 : IVec S_ 1 := andi main_v18 main_v22
  let main_v24 : FVec F S4096x8192 .f32 := Host.absf main_arg5
  let main_cst_8 : FVec F S_ .f32 := constant S_ .f32 0x7F800000#32
  let main_v25 : FVec F S4096x8192 .f32 := broadcastInDim S4096x8192 ![] bcast_S_S4096x8192 main_cst_8
  let main_v26 : IVec S4096x8192 1 := cmpf .olt main_v24 main_v25
  let main_c_9 : IVec S_ 1 := constantI S_ 1 1#1
  let main_v27 : IVec S_ 1 := (fun x v => Host.reduce IntOp.andi x v reducesTo_S4096x8192_S_d0_1 h_S_) main_v26 main_c_9
  let main_v28 : IVec S_ 1 := andi main_v23 main_v27
  let main_v29 : FVec F S32x64 .f32 := Host.absf main_arg6
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S8192x64 .f32) (main_arg1 : FVec F S4096 .f32) (main_arg2 : FVec F S4096x4096 .f32) (main_arg3 : FVec F S8192x8192 .f32) (main_arg4 : FVec F S4096x8192 .f32) (main_arg5 : FVec F S4096x8192 .f32) (main_arg6 : FVec F S32x64 .f32) (main_arg7 : FVec F S32 .f32) (main_arg8 : FVec F S32x64 .f32) (main_arg9 : FVec F S32 .f32) (main_arg10 : FVec F S32x64 .f32) (main_arg11 : FVec F S32 .f32) (main_arg12 : FVec F S32x64 .f32) (main_arg13 : FVec F S32 .f32) (main_arg14 : FVec F S32x64 .f32) (main_arg15 : FVec F S32 .f32) (main_arg16 : FVec F S32x64 .f32) (main_arg17 : FVec F S32 .f32) (main_arg18 : FVec F S64 .f32) (main_arg19 : FVec F S64 .f32) (main_arg20 : FVec F S64 .f32) (main_arg21 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S8192x64 : Shape := ⟨2, ![8192, 64]⟩
abbrev S4096 : Shape := ⟨1, ![4096]⟩
abbrev S4096x4096 : Shape := ⟨2, ![4096, 4096]⟩
abbrev S8192x8192 : Shape := ⟨2, ![8192, 8192]⟩
abbrev S4096x8192 : Shape := ⟨2, ![4096, 8192]⟩
abbrev S32x64 : Shape := ⟨2, ![32, 64]⟩
abbrev S32 : Shape := ⟨1, ![32]⟩
abbrev S64 : Shape := ⟨1, ![64]⟩
abbrev S1x32 : Shape := ⟨2, ![1, 32]⟩
abbrev S4096x64 : Shape := ⟨2, ![4096, 64]⟩
abbrev S1024x2048 : Shape := ⟨2, ![1024, 2048]⟩
abbrev S2048x64 : Shape := ⟨2, ![2048, 64]⟩
abbrev S1024x64 : Shape := ⟨2, ![1024, 64]⟩
abbrev S64x32 : Shape := ⟨2, ![64, 32]⟩
abbrev S1024x32 : Shape := ⟨2, ![1024, 32]⟩
abbrev S_ : Shape := ⟨0, ![]⟩
abbrev S1x64 : Shape := ⟨2, ![1, 64]⟩
abbrev S2048x1024 : Shape := ⟨2, ![2048, 1024]⟩

abbrev nBuf : Space → Nat
  | .hbm => 91
  | .vmem => 35
  | .smem => 0
  | _ => 0

abbrev bufTy : (tb : Table) → Fin (tcTables nBuf tb) → BufTy
  | .hbm, ⟨0, _⟩ => ⟨S8192x64, .f32⟩
  | .hbm, ⟨1, _⟩ => ⟨S4096, .f32⟩
  | .hbm, ⟨2, _⟩ => ⟨S4096x4096, .f32⟩
  | .hbm, ⟨3, _⟩ => ⟨S8192x8192, .f32⟩
  | .hbm, ⟨4, _⟩ => ⟨S4096x8192, .f32⟩
  | .hbm, ⟨5, _⟩ => ⟨S4096x8192, .f32⟩
  | .hbm, ⟨6, _⟩ => ⟨S32x64, .f32⟩
  | .hbm, ⟨7, _⟩ => ⟨S32, .f32⟩
  | .hbm, ⟨8, _⟩ => ⟨S32x64, .f32⟩
  | .hbm, ⟨9, _⟩ => ⟨S32, .f32⟩
  | .hbm, ⟨10, _⟩ => ⟨S32x64, .f32⟩
  | .hbm, ⟨11, _⟩ => ⟨S32, .f32⟩
  | .hbm, ⟨12, _⟩ => ⟨S32x64, .f32⟩
  | .hbm, ⟨13, _⟩ => ⟨S32, .f32⟩
  | .hbm, ⟨14, _⟩ => ⟨S32x64, .f32⟩
  | .hbm, ⟨15, _⟩ => ⟨S32, .f32⟩
  | .hbm, ⟨16, _⟩ => ⟨S32x64, .f32⟩
  | .hbm, ⟨17, _⟩ => ⟨S32, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S1x32, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S1x32, .f32⟩
  | .hbm, ⟨27, _⟩ => ⟨S1x32, .f32⟩
  | .hbm, ⟨28, _⟩ => ⟨S4096x64, .f32⟩
  | .hbm, ⟨29, _⟩ => ⟨S_, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S1x64, .f32⟩
  | .hbm, ⟨35, _⟩ => ⟨S4096x64, .f32⟩
  | .hbm, ⟨36, _⟩ => ⟨S4096x64, .f32⟩
  | .hbm, ⟨37, _⟩ => ⟨S4096x64, .f32⟩
  | .hbm, ⟨38, _⟩ => ⟨S_, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S1x64, .f32⟩
  | .hbm, ⟨44, _⟩ => ⟨S4096x64, .f32⟩
  | .hbm, ⟨45, _⟩ => ⟨S4096x64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S1x64, .f32⟩
  | .hbm, ⟨51, _⟩ => ⟨S4096x64, .f32⟩
  | .hbm, ⟨52, _⟩ => ⟨S4096x64, .f32⟩
  | .hbm, ⟨53, _⟩ => ⟨S1x64, .f32⟩
  | .hbm, ⟨54, _⟩ => ⟨S4096x64, .f32⟩
  | .hbm, ⟨55, _⟩ => ⟨S4096x64, .f32⟩
  | .hbm, ⟨56, _⟩ => ⟨S1x64, .f32⟩
  | .hbm, ⟨57, _⟩ => ⟨S4096x64, .f32⟩
  | .hbm, ⟨58, _⟩ => ⟨S4096x64, .f32⟩
  | .hbm, ⟨59, _⟩ => ⟨S8192x64, .f32⟩
  | .hbm, ⟨60, _⟩ => ⟨S8192x64, .f32⟩
  | .hbm, ⟨61, _⟩ => ⟨S_, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S1x64, .f32⟩
  | .hbm, ⟨67, _⟩ => ⟨S8192x64, .f32⟩
  | .hbm, ⟨68, _⟩ => ⟨S8192x64, .f32⟩
  | .hbm, ⟨69, _⟩ => ⟨S8192x64, .f32⟩
  | .hbm, ⟨70, _⟩ => ⟨S_, .f32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S1x64, .f32⟩
  | .hbm, ⟨76, _⟩ => ⟨S8192x64, .f32⟩
  | .hbm, ⟨77, _⟩ => ⟨S8192x64, .f32⟩
  | .hbm, ⟨78, _⟩ => ⟨S_, .f32⟩
  | .hbm, ⟨79, _⟩ => ⟨S64, .f32⟩
  | .hbm, ⟨80, _⟩ => ⟨S64, .f32⟩
  | .hbm, ⟨81, _⟩ => ⟨S64, .f32⟩
  | .hbm, ⟨82, _⟩ => ⟨S1x64, .f32⟩
  | .hbm, ⟨83, _⟩ => ⟨S8192x64, .f32⟩
  | .hbm, ⟨84, _⟩ => ⟨S8192x64, .f32⟩
  | .hbm, ⟨85, _⟩ => ⟨S1x64, .f32⟩
  | .hbm, ⟨86, _⟩ => ⟨S8192x64, .f32⟩
  | .hbm, ⟨87, _⟩ => ⟨S8192x64, .f32⟩
  | .hbm, ⟨88, _⟩ => ⟨S1x64, .f32⟩
  | .hbm, ⟨89, _⟩ => ⟨S8192x64, .f32⟩
  | .hbm, ⟨90, _⟩ => ⟨S8192x64, .f32⟩
  | .local _ .vmem, ⟨0, _⟩ => ⟨S1024x2048, .f32⟩
  | .local _ .vmem, ⟨1, _⟩ => ⟨S1024x2048, .f32⟩
  | .local _ .vmem, ⟨2, _⟩ => ⟨S2048x64, .f32⟩
  | .local _ .vmem, ⟨3, _⟩ => ⟨S2048x64, .f32⟩
  | .local _ .vmem, ⟨4, _⟩ => ⟨S32x64, .f32⟩
  | .local _ .vmem, ⟨5, _⟩ => ⟨S1x32, .f32⟩
  | .local _ .vmem, ⟨6, _⟩ => ⟨S32x64, .f32⟩
  | .local _ .vmem, ⟨7, _⟩ => ⟨S1x32, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S2048x1024, .f32⟩
  | .local _ .vmem, ⟨12, _⟩ => ⟨S2048x1024, .f32⟩
  | .local _ .vmem, ⟨13, _⟩ => ⟨S2048x64, .f32⟩
  | .local _ .vmem, ⟨14, _⟩ => ⟨S2048x64, .f32⟩
  | .local _ .vmem, ⟨15, _⟩ => ⟨S1024x64, .f32⟩
  | .local _ .vmem, ⟨16, _⟩ => ⟨S1024x64, .f32⟩
  | .local _ .vmem, ⟨17, _⟩ => ⟨S1024x64, .f32⟩
  | .local _ .vmem, ⟨18, _⟩ => ⟨S1024x2048, .f32⟩
  | .local _ .vmem, ⟨19, _⟩ => ⟨S1024x2048, .f32⟩
  | .local _ .vmem, ⟨20, _⟩ => ⟨S2048x64, .f32⟩
  | .local _ .vmem, ⟨21, _⟩ => ⟨S2048x64, .f32⟩
  | .local _ .vmem, ⟨22, _⟩ => ⟨S1024x64, .f32⟩
  | .local _ .vmem, ⟨23, _⟩ => ⟨S1024x64, .f32⟩
  | .local _ .vmem, ⟨24, _⟩ => ⟨S32x64, .f32⟩
  | .local _ .vmem, ⟨25, _⟩ => ⟨S1x32, .f32⟩
  | .local _ .vmem, ⟨26, _⟩ => ⟨S32x64, .f32⟩
  | .local _ .vmem, ⟨27, _⟩ => ⟨S1x32, .f32⟩
  | .local _ .vmem, ⟨28, _⟩ => ⟨S32x64, .f32⟩
  | .local _ .vmem, ⟨29, _⟩ => ⟨S1x32, .f32⟩
  | .local _ .vmem, ⟨30, _⟩ => ⟨S32x64, .f32⟩
  | .local _ .vmem, ⟨31, _⟩ => ⟨S1x32, .f32⟩
  | .local _ .vmem, ⟨32, _⟩ => ⟨S1024x64, .f32⟩
  | .local _ .vmem, ⟨33, _⟩ => ⟨S1024x64, .f32⟩
  | .local _ .vmem, ⟨34, _⟩ => ⟨S1024x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_cst_2 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_3 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_4 : Ref sig .tc := ⟨.hbm, 61, rfl⟩
abbrev main_v34 : Ref sig .tc := ⟨.hbm, 62, rfl⟩
abbrev main_cst_5 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_6 : Ref sig .tc := ⟨.hbm, 70, rfl⟩
abbrev main_v41 : Ref sig .tc := ⟨.hbm, 71, rfl⟩
abbrev main_cst_7 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_8 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg10_0 : Ref sig .tc := ⟨.vmem, 31, rfl⟩
abbrev cc2_stg11_0 : Ref sig .tc := ⟨.vmem, 32, rfl⟩
abbrev cc2_stg11_1 : Ref sig .tc := ⟨.vmem, 33, rfl⟩
abbrev cc2_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem10_0 : DmaSem sig := 29
abbrev cc2_sem11_0 : DmaSem sig := 30
abbrev cc2_sem11_1 : DmaSem sig := 31

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 2], ![false, false]⟩

def k1_cond2 (i : grid1.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S32x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S32x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S32x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S32x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S1x32 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 2 → Memref sig .tc .vmem S1024x64 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, false]

class Facts₀ : Prop where
  shapeCasts_S32_S1x32 : S32.ShapeCasts S1x32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  concatenates_S1024x32_S1024x32_S1024x64_d1 : Shape.Concatenates [S1024x32, S1024x32] S1024x64 1
  reducesTo_S4096x64_S64_d0 : S4096x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  inb_S2048x1024_S2048x1024_0_0 : ∀ a, (![0, 0] : Fin 2 → Nat) a + S2048x1024.size a ≤ S2048x1024.size a
  h_S2048x1024 : 0 < S2048x1024.numel
  shapeCasts_S2048x64_S2048x64 : S2048x64.ShapeCasts S2048x64
  reducesTo_S8192x64_S64_d0 : S8192x64.ReducesTo [0] S64
  bcast_S1x64_S8192x64_0_1 : S1x64.BroadcastsInDim S8192x64 (![0, 1] : Fin 2 → Fin S8192x64.rank)
  dot_S1024x2048_S2048x64_S1024x64_1_0_0_1_n_n_wf : DotDims.WF S1024x2048 S2048x64 S1024x64 [1] [0] [0] [1] [] []
  dot_S1024x64_S64x32_S1024x32_1_0_0_1_n_n_wf : DotDims.WF S1024x64 S64x32 S1024x32 [1] [0] [0] [1] [] []
  dot_S2048x1024_S2048x64_S1024x64_0_0_1_1_n_n_wf : DotDims.WF S2048x1024 S2048x64 S1024x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x8192.size a
  hwx0_0 : ∀ i : grid0.Coords, EltTy.bits .f32 = 32 ∨ (Rect.block (s := S4096x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .f32 = 32 ∨ (Rect.block (s := S8192x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S4096x64.size a
  hwx0_6 : ∀ i : grid0.Coords, EltTy.bits .f32 = 32 ∨ (Rect.block (s := S4096x64) S1024x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S4096x8192.size a
  hwx1_0 : ∀ i : grid1.Coords, EltTy.bits .f32 = 32 ∨ (Rect.block (s := S4096x8192) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S4096x64.size a
  hwx1_1 : ∀ i : grid1.Coords, EltTy.bits .f32 = 32 ∨ (Rect.block (s := S4096x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S8192x64.size a
  hwx1_2 : ∀ i : grid1.Coords, EltTy.bits .f32 = 32 ∨ (Rect.block (s := S8192x64) S1024x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .f32 = 32 ∨ (Rect.block (s := S8192x8192) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S8192x64.size a
  hwx2_1 : ∀ i : grid2.Coords, EltTy.bits .f32 = 32 ∨ (Rect.block (s := S8192x64) S2048x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S8192x64.size a
  hwx2_2 : ∀ i : grid2.Coords, EltTy.bits .f32 = 32 ∨ (Rect.block (s := S8192x64) S1024x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x64.size a ≤ S32x64.size a
  hwx2_3 : ∀ i : grid2.Coords, EltTy.bits .f32 = 32 ∨ (Rect.block (s := S32x64) S32x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x64.size a ≤ S32x64.size a
  hwx2_5 : ∀ i : grid2.Coords, EltTy.bits .f32 = 32 ∨ (Rect.block (s := S32x64) S32x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32x64.size a ≤ S32x64.size a
  hwx2_7 : ∀ i : grid2.Coords, EltTy.bits .f32 = 32 ∨ (Rect.block (s := S32x64) S32x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x32.size a ≤ S1x32.size a
  hwx2_8 : ∀ i : grid2.Coords, EltTy.bits .f32 = 32 ∨ (Rect.block (s := S1x32) S1x32.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S32x64.size a ≤ S32x64.size a
  hwx2_9 : ∀ i : grid2.Coords, EltTy.bits .f32 = 32 ∨ (Rect.block (s := S32x64) S32x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x32.size a ≤ S1x32.size a
  hwx2_10 : ∀ i : grid2.Coords, EltTy.bits .f32 = 32 ∨ (Rect.block (s := S1x32) S1x32.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S1024x64.size a ≤ S8192x64.size a
  hwx2_11 : ∀ i : grid2.Coords, EltTy.bits .f32 = 32 ∨ (Rect.block (s := S8192x64) S1024x64.size (cc2_transform_11 i) (hinb2_11 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S2048x1024_S2048x64_S1024x64_0_0_1_1_n_n : DotDims S2048x1024 S2048x64 S1024x64 where
  lhsContracting := [0]
  rhsContracting := [0]
  lhsNonContracting := [1]
  rhsNonContracting := [1]
  lhsBatch := []
  rhsBatch := []
  wf := dot_S2048x1024_S2048x64_S1024x64_0_0_1_1_n_n_wf

abbrev win0_0 : Pipeline.Window sig grid0 :=
  Pipeline.Window.ofSpec (Memref.whole main_arg5) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg4) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg3) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1024x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S32x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S32x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v4) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg12) S32x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v3) S1x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg16) S32x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v5) S1x32.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v33) S1024x64.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev idle2 : Fin 12 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k2_cond2 i == 1#1) | ⟨_ + 12, h⟩ => absurd h (Nat.not_lt.2 (Nat.le_add_left _ _))

class Facts : Prop extends Facts₀ where

variable [Facts]
-- ==== ReferenceIdeal.lean ====
abbrev S8192x64 : Shape := ⟨2, ![8192, 64]⟩
abbrev S4096 : Shape := ⟨1, ![4096]⟩
abbrev S4096x4096 : Shape := ⟨2, ![4096, 4096]⟩
abbrev S8192x8192 : Shape := ⟨2, ![8192, 8192]⟩
abbrev S4096x8192 : Shape := ⟨2, ![4096, 8192]⟩
abbrev S32x64 : Shape := ⟨2, ![32, 64]⟩
abbrev S32 : Shape := ⟨1, ![32]⟩
abbrev S64 : Shape := ⟨1, ![64]⟩
abbrev S4096x64 : Shape := ⟨2, ![4096, 64]⟩
abbrev S64x32 : Shape := ⟨2, ![64, 32]⟩
abbrev S4096x32 : Shape := ⟨2, ![4096, 32]⟩
abbrev S1x32 : Shape := ⟨2, ![1, 32]⟩
abbrev S_ : Shape := ⟨0, ![]⟩
abbrev S1x64 : Shape := ⟨2, ![1, 64]⟩
abbrev S8192x4096 : Shape := ⟨2, ![8192, 4096]⟩
abbrev S8192x32 : Shape := ⟨2, ![8192, 32]⟩

abbrev nBuf : Space → Nat
  | .hbm => 126
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S4096, .f32⟩
  | .hbm, ⟨2, _⟩ => ⟨S4096x4096, .f32⟩
  | .hbm, ⟨3, _⟩ => ⟨S8192x8192, .f32⟩
  | .hbm, ⟨4, _⟩ => ⟨S4096x8192, .f32⟩
  | .hbm, ⟨5, _⟩ => ⟨S4096x8192, .f32⟩
  | .hbm, ⟨6, _⟩ => ⟨S32x64, .f32⟩
  | .hbm, ⟨7, _⟩ => ⟨S32, .f32⟩
  | .hbm, ⟨8, _⟩ => ⟨S32x64, .f32⟩
  | .hbm, ⟨9, _⟩ => ⟨S32, .f32⟩
  | .hbm, ⟨10, _⟩ => ⟨S32x64, .f32⟩
  | .hbm, ⟨11, _⟩ => ⟨S32, .f32⟩
  | .hbm, ⟨12, _⟩ => ⟨S32x64, .f32⟩
  | .hbm, ⟨13, _⟩ => ⟨S32, .f32⟩
  | .hbm, ⟨14, _⟩ => ⟨S32x64, .f32⟩
  | .hbm, ⟨15, _⟩ => ⟨S32, .f32⟩
  | .hbm, ⟨16, _⟩ => ⟨S32x64, .f32⟩
  | .hbm, ⟨17, _⟩ => ⟨S32, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S4096x64, .f32⟩
  | .hbm, ⟨23, _⟩ => ⟨S64x32, .f32⟩
  | .hbm, ⟨24, _⟩ => ⟨S4096x32, .f32⟩
  | .hbm, ⟨25, _⟩ => ⟨S1x32, .f32⟩
  | .hbm, ⟨26, _⟩ => ⟨S4096x32, .f32⟩
  | .hbm, ⟨27, _⟩ => ⟨S4096x32, .f32⟩
  | .hbm, ⟨28, _⟩ => ⟨S64x32, .f32⟩
  | .hbm, ⟨29, _⟩ => ⟨S4096x32, .f32⟩
  | .hbm, ⟨30, _⟩ => ⟨S1x32, .f32⟩
  | .hbm, ⟨31, _⟩ => ⟨S4096x32, .f32⟩
  | .hbm, ⟨32, _⟩ => ⟨S4096x32, .f32⟩
  | .hbm, ⟨33, _⟩ => ⟨S_, .f32⟩
  | .hbm, ⟨34, _⟩ => ⟨S4096x32, .f32⟩
  | .hbm, ⟨35, _⟩ => ⟨S4096x32, .f32⟩
  | .hbm, ⟨36, _⟩ => ⟨S4096x64, .f32⟩
  | .hbm, ⟨37, _⟩ => ⟨S_, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S1x64, .f32⟩
  | .hbm, ⟨43, _⟩ => ⟨S4096x64, .f32⟩
  | .hbm, ⟨44, _⟩ => ⟨S4096x64, .f32⟩
  | .hbm, ⟨45, _⟩ => ⟨S4096x64, .f32⟩
  | .hbm, ⟨46, _⟩ => ⟨S_, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S1x64, .f32⟩
  | .hbm, ⟨52, _⟩ => ⟨S4096x64, .f32⟩
  | .hbm, ⟨53, _⟩ => ⟨S4096x64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S1x64, .f32⟩
  | .hbm, ⟨59, _⟩ => ⟨S4096x64, .f32⟩
  | .hbm, ⟨60, _⟩ => ⟨S4096x64, .f32⟩
  | .hbm, ⟨61, _⟩ => ⟨S1x64, .f32⟩
  | .hbm, ⟨62, _⟩ => ⟨S4096x64, .f32⟩
  | .hbm, ⟨63, _⟩ => ⟨S4096x64, .f32⟩
  | .hbm, ⟨64, _⟩ => ⟨S1x64, .f32⟩
  | .hbm, ⟨65, _⟩ => ⟨S4096x64, .f32⟩
  | .hbm, ⟨66, _⟩ => ⟨S4096x64, .f32⟩
  | .hbm, ⟨67, _⟩ => ⟨S8192x4096, .f32⟩
  | .hbm, ⟨68, _⟩ => ⟨S8192x64, .f32⟩
  | .hbm, ⟨69, _⟩ => ⟨S8192x64, .f32⟩
  | .hbm, ⟨70, _⟩ => ⟨S64x32, .f32⟩
  | .hbm, ⟨71, _⟩ => ⟨S8192x32, .f32⟩
  | .hbm, ⟨72, _⟩ => ⟨S1x32, .f32⟩
  | .hbm, ⟨73, _⟩ => ⟨S8192x32, .f32⟩
  | .hbm, ⟨74, _⟩ => ⟨S8192x32, .f32⟩
  | .hbm, ⟨75, _⟩ => ⟨S64x32, .f32⟩
  | .hbm, ⟨76, _⟩ => ⟨S8192x32, .f32⟩
  | .hbm, ⟨77, _⟩ => ⟨S1x32, .f32⟩
  | .hbm, ⟨78, _⟩ => ⟨S8192x32, .f32⟩
  | .hbm, ⟨79, _⟩ => ⟨S8192x32, .f32⟩
  | .hbm, ⟨80, _⟩ => ⟨S8192x32, .f32⟩
  | .hbm, ⟨81, _⟩ => ⟨S64x32, .f32⟩
  | .hbm, ⟨82, _⟩ => ⟨S8192x32, .f32⟩
  | .hbm, ⟨83, _⟩ => ⟨S1x32, .f32⟩
  | .hbm, ⟨84, _⟩ => ⟨S8192x32, .f32⟩
  | .hbm, ⟨85, _⟩ => ⟨S8192x32, .f32⟩
  | .hbm, ⟨86, _⟩ => ⟨S64x32, .f32⟩
  | .hbm, ⟨87, _⟩ => ⟨S8192x32, .f32⟩
  | .hbm, ⟨88, _⟩ => ⟨S1x32, .f32⟩
  | .hbm, ⟨89, _⟩ => ⟨S8192x32, .f32⟩
  | .hbm, ⟨90, _⟩ => ⟨S8192x32, .f32⟩
  | .hbm, ⟨91, _⟩ => ⟨S8192x32, .f32⟩
  | .hbm, ⟨92, _⟩ => ⟨S_, .f32⟩
  | .hbm, ⟨93, _⟩ => ⟨S8192x32, .f32⟩
  | .hbm, ⟨94, _⟩ => ⟨S8192x32, .f32⟩
  | .hbm, ⟨95, _⟩ => ⟨S8192x64, .f32⟩
  | .hbm, ⟨96, _⟩ => ⟨S_, .f32⟩
  | .hbm, ⟨97, _⟩ => ⟨S64, .f32⟩
  | .hbm, ⟨98, _⟩ => ⟨S_, .f32⟩
  | .hbm, ⟨99, _⟩ => ⟨S64, .f32⟩
  | .hbm, ⟨100, _⟩ => ⟨S64, .f32⟩
  | .hbm, ⟨101, _⟩ => ⟨S1x64, .f32⟩
  | .hbm, ⟨102, _⟩ => ⟨S8192x64, .f32⟩
  | .hbm, ⟨103, _⟩ => ⟨S8192x64, .f32⟩
  | .hbm, ⟨104, _⟩ => ⟨S8192x64, .f32⟩
  | .hbm, ⟨105, _⟩ => ⟨S_, .f32⟩
  | .hbm, ⟨106, _⟩ => ⟨S64, .f32⟩
  | .hbm, ⟨107, _⟩ => ⟨S_, .f32⟩
  | .hbm, ⟨108, _⟩ => ⟨S64, .f32⟩
  | .hbm, ⟨109, _⟩ => ⟨S64, .f32⟩
  | .hbm, ⟨110, _⟩ => ⟨S1x64, .f32⟩
  | .hbm, ⟨111, _⟩ => ⟨S8192x64, .f32⟩
  | .hbm, ⟨112, _⟩ => ⟨S8192x64, .f32⟩
  | .hbm, ⟨113, _⟩ => ⟨S_, .f32⟩
  | .hbm, ⟨114, _⟩ => ⟨S64, .f32⟩
  | .hbm, ⟨115, _⟩ => ⟨S64, .f32⟩
  | .hbm, ⟨116, _⟩ => ⟨S64, .f32⟩
  | .hbm, ⟨117, _⟩ => ⟨S1x64, .f32⟩
  | .hbm, ⟨118, _⟩ => ⟨S8192x64, .f32⟩
  | .hbm, ⟨119, _⟩ => ⟨S8192x64, .f32⟩
  | .hbm, ⟨120, _⟩ => ⟨S1x64, .f32⟩
  | .hbm, ⟨121, _⟩ => ⟨S8192x64, .f32⟩
  | .hbm, ⟨122, _⟩ => ⟨S8192x64, .f32⟩
  | .hbm, ⟨123, _⟩ => ⟨S1x64, .f32⟩
  | .hbm, ⟨124, _⟩ => ⟨S8192x64, .f32⟩
  | .hbm, ⟨125, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_call0_cst : Ref sig .tc := ⟨.hbm, 33, rfl⟩
abbrev main_call0_v0 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_cst_0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_1 : Ref sig .tc := ⟨.hbm, 46, rfl⟩
abbrev main_v20 : Ref sig .tc := ⟨.hbm, 47, rfl⟩
abbrev main_cst_2 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_3 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call1_cst : Ref sig .tc := ⟨.hbm, 92, rfl⟩
abbrev main_call1_v0 : Ref sig .tc := ⟨.hbm, 93, rfl⟩
abbrev main_v63 : Ref sig .tc := ⟨.hbm, 94, rfl⟩
abbrev main_v64 : Ref sig .tc := ⟨.hbm, 95, rfl⟩
abbrev main_cst_4 : Ref sig .tc := ⟨.hbm, 96, rfl⟩
abbrev main_v65 : Ref sig .tc := ⟨.hbm, 97, rfl⟩
abbrev main_cst_5 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_6 : Ref sig .tc := ⟨.hbm, 105, rfl⟩
abbrev main_v72 : Ref sig .tc := ⟨.hbm, 106, rfl⟩
abbrev main_cst_7 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_8 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩

abbrev nD : Nat := 1
abbrev τ : Topo := Topo.v7x

variable {F : FTy → Type} [FloatOps F]

class Facts₀ : Prop where
  transposes_S32x64_S64x32_1_0 : S32x64.Transposes [1, 0] S64x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  concatenates_S4096x32_S4096x32_S4096x64_d1 : Shape.Concatenates [S4096x32, S4096x32] S4096x64 1
  reducesTo_S4096x64_S64_d0 : S4096x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  transposes_S4096x8192_S8192x4096_1_0 : S4096x8192.Transposes [1, 0] S8192x4096
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  concatenates_S8192x32_S8192x32_S8192x64_d1 : Shape.Concatenates [S8192x32, S8192x32] S8192x64 1
  reducesTo_S8192x64_S64_d0 : S8192x64.ReducesTo [0] S64
  bcast_S1x64_S8192x64_0_1 : S1x64.BroadcastsInDim S8192x64 (![0, 1] : Fin 2 → Fin S8192x64.rank)
  dot_S4096x8192_S8192x64_S4096x64_1_0_0_1_n_n_wf : DotDims.WF S4096x8192 S8192x64 S4096x64 [1] [0] [0] [1] [] []
  dot_S4096x64_S64x32_S4096x32_1_0_0_1_n_n_wf : DotDims.WF S4096x64 S64x32 S4096x32 [1] [0] [0] [1] [] []
  dot_S8192x4096_S4096x64_S8192x64_1_0_0_1_n_n_wf : DotDims.WF S8192x4096 S4096x64 S8192x64 [1] [0] [0] [1] [] []
  dot_S8192x8192_S8192x64_S8192x64_1_0_0_1_n_n_wf : DotDims.WF S8192x8192 S8192x64 S8192x64 [1] [0] [0] [1] [] []
  dot_S8192x64_S64x32_S8192x32_1_0_0_1_n_n_wf : DotDims.WF S8192x64 S64x32 S8192x32 [1] [0] [0] [1] [] []

variable [Facts₀]

def dot_S4096x8192_S8192x64_S4096x64_1_0_0_1_n_n : DotDims S4096x8192 S8192x64 S4096x64 where
  lhsContracting := [1]
  rhsContracting := [0]
  lhsNonContracting := [0]
  rhsNonContracting := [1]
  lhsBatch := []
  rhsBatch := []
  wf := dot_S4096x8192_S8192x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf

class Facts : Prop extends Facts₀ where

variable [Facts]
-- ==== Proof.BR0Runs.lean ====
/-
  The first pallas_call (pd @ y accumulated over four blocks of the contracted axis, then two linear layers) seen
  from one grid point: the blocks its seven windows hold there, the two conditions of the body in closed form over
  the sixteen grid points (the contracted-axis coordinate is the point's residue modulo four), where the output
  window is idle and where it is written back, the memrefs the body is called with, and the region's class
  invariant opened at the accumulator. Everything here is at any float instance.
-/
import proofs.«103437_j49752901157443_2_alg».proof.Proof.Gen.Kernel.Launch
import proofs.«103437_j49752901157443_2_alg».proof.Proof.Gen.Kernel.Skeleton
import proofs.«103437_j49752901157443_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's proof data are stated at
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The current staging buffer of the `pd` block holds its block at every point, for any proof data whose array is the
    entry contents and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the `y` block. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for the first layer's weight. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The same for the first layer's bias row. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The same for the second layer's weight. -/
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The same for the second layer's bias row. -/
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first block of the contracted axis": the accumulator is zeroed. -/
abbrev cond0 (i : grid0.Coords) : Prop := (Scalar.cmpi .ne (Scalar.extui (Scalar.cmpi .eq (BitVec.ofNat 32 (i 1).val) 0#32)) 0#32) = 1#1
/-- It holds at the points ≡ 0 (mod 4). -/
theorem hcond0 : ∀ t : Fin cfg0.N, cond0 (grid0.coords t) ↔ t.val % 4 = 0 :=
  (by decide +kernel : ∀ t : Fin grid0.N, cond0 (grid0.coords t) ↔ t.val % 4 = 0)

/-- "This is the last block of the contracted axis": the two linear layers are applied to the accumulator and the
    result stored in the output block. -/
abbrev cond1 (i : grid0.Coords) : Prop := k0_cond2 i = 1#1
/-- It holds at the points ≡ 3 (mod 4). -/
theorem hcond1 : ∀ t : Fin cfg0.N, cond1 (grid0.coords t) ↔ t.val % 4 = 3 :=
  (by decide +kernel : ∀ t : Fin grid0.N, cond1 (grid0.coords t) ↔ t.val % 4 = 3)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
/-- At a first block the body stores nothing into the output window, -/
theorem idle_6_first : ∀ t : Fin cfg0.N, cond0 (grid0.coords t) → ¬cond1 (grid0.coords t) → cfg0.idle 6 (grid0.coords t) = true := by decide +kernel
/-- and the pipeline does not write its block back. -/
theorem noFlush_6_first : ∀ t : Fin cfg0.N, cond0 (grid0.coords t) → ¬cond1 (grid0.coords t) → (cfg0.win 6).flush t = false := by decide +kernel
/-- The same at a middle block. -/
theorem idle_6_mid : ∀ t : Fin cfg0.N, ¬cond0 (grid0.coords t) → ¬cond1 (grid0.coords t) → cfg0.idle 6 (grid0.coords t) = true := by decide +kernel
theorem noFlush_6_mid : ∀ t : Fin cfg0.N, ¬cond0 (grid0.coords t) → ¬cond1 (grid0.coords t) → (cfg0.win 6).flush t = false := by decide +kernel
/-- At a last block the body stores the whole output block. -/
theorem live_6_last : ∀ t : Fin cfg0.N, ¬cond0 (grid0.coords t) → cond1 (grid0.coords t) → cfg0.idle 6 (grid0.coords t) = false := by decide +kernel

/-! ## The memrefs the body is called with -/

/-- One staging buffer of the output window, through which its contents are stated. -/
abbrev VO : View sig .tc .vmem S1024x64 .f32 := (Memref.whole cc0_stg6_0 : Memref sig .tc .vmem S1024x64 .f32).view
abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x64 .f32 := win0_6.stage (cfg0.slots t 6)
abbrev hs6 (t : Fin cfg0.N) : (ms6 t).IsWhole := hstage0_6 ((cfg0.slots t 6).cast nbuf0_6)
/-- The accumulator: a whole scoped buffer of the kernel's own. -/
abbrev scM : Memref sig .tc .vmem S1024x64 .f32 := Memref.whole cc0_scratch0
abbrev VS : View sig .tc .vmem S1024x64 .f32 := scM.view

/-- Every other scoped buffer of the core (the other calls' staging buffers and accumulators), unopened. -/
abbrev restBut (c : Dev nD) : sProp 𝕄 :=
  Pipeline.scopedRestBut (Ix := Unit) (Name := ℕ) (U := UR sig nD τ) (Lvl := ℕ) (Val := Elt F) spec0 c [cc0_scratch0]

/-- The class invariant with the accumulator as a memref owned at some contents. -/
theorem PhiA_eq (c : Dev nD) :
    (Pipeline.ΦA spec0 c : sProp 𝕄)
      = iprop(iprop(iprop((∃ d, owns (c : Thread nD τ) scM fullShare d)) ∗ restBut (F := F) c) ∗ (∃ r, prngReg c r)) := by
  unfold Pipeline.ΦA; rw [scopedRest0_split]; simp only [scM, owns_whole]; try rfl

end Cert.Kernel.Reg0

end
-- ==== Proof.BR0RunFirst.lean ====
/-
  The first pallas_call's body run at a grid point where the first block of the contracted axis is met (the
  accumulator is zeroed, then the block's product added; the output block and the four small operands are not
  touched): on whole staging memrefs holding the operand blocks, the body runs to the end; what it stored into the
  accumulator is recorded as the list of pieces the run itself finds, last store first. At any float instance.
-/
import proofs.«103437_j49752901157443_2_alg».proof.Proof.Gen.Kernel.Launch
import proofs.«103437_j49752901157443_2_alg».proof.Proof.Gen.Kernel.Skeleton
import proofs.«103437_j49752901157443_2_alg».proof.Proof.Gen.Kernel.Points
import proofs.«103437_j49752901157443_2_alg».proof.Proof.BR0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First block: the accumulator may hold anything before; the output block `xi6` is handed back untouched. -/
noncomputable def runFirst (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : cond0 i) (hc1 : ¬cond1 i)
    (x0 : Vec F S1024x2048 .f32) (x1 : Vec F S2048x64 .f32) (x2 : Vec F S32x64 .f32) (x3 : Vec F S1x32 .f32) (x4 : Vec F S32x64 .f32) (x5 : Vec F S1x32 .f32) :
    { LS : List (View.Piece (Elt F) S1024x64 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc0__pd_fused_kernel i arg2 harg2 arg3 harg3 arg4 harg4 arg5 harg5 arg6 harg6 arg7 harg7 arg8 harg8 arg9 harg9) K } := by
  refine ⟨?_, fun xi6 E K => ?run⟩
  case run =>
    simp only [cc0__pd_fused_kernel_eq_skeleton]; unfold cc0__pd_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Reg0

end
-- ==== Proof.BR0RunMid.lean ====
/-
  The first pallas_call's body run at a grid point where a middle block of the contracted axis is met (the block's
  product is added to what the accumulator held; the output block and the four small operands are not touched):
  on whole staging memrefs holding the operand blocks, the body runs to the end; what it stored into the
  accumulator is recorded as the list of pieces the run itself finds. At any float instance.
-/
import proofs.«103437_j49752901157443_2_alg».proof.Proof.Gen.Kernel.Launch
import proofs.«103437_j49752901157443_2_alg».proof.Proof.Gen.Kernel.Skeleton
import proofs.«103437_j49752901157443_2_alg».proof.Proof.Gen.Kernel.Points
import proofs.«103437_j49752901157443_2_alg».proof.Proof.BR0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle block: the accumulator holds `xs` (what the point before left); the output block `xi6` is handed back untouched. -/
noncomputable def runMid (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : ¬cond0 i) (hc1 : ¬cond1 i)
    (x0 : Vec F S1024x2048 .f32) (x1 : Vec F S2048x64 .f32) (x2 : Vec F S32x64 .f32) (x3 : Vec F S1x32 .f32) (x4 : Vec F S32x64 .f32) (x5 : Vec F S1x32 .f32) (xs : Vec F S1024x64 .f32) :
    { LS : List (View.Piece (Elt F) S1024x64 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc0__pd_fused_kernel i arg2 harg2 arg3 harg3 arg4 harg4 arg5 harg5 arg6 harg6 arg7 harg7 arg8 harg8 arg9 harg9) K } := by
  refine ⟨?_, fun xi6 E K => ?run⟩
  case run =>
    simp only [cc0__pd_fused_kernel_eq_skeleton]; unfold cc0__pd_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Reg0

end
-- ==== Proof.BR0RunLast.lean ====
/-
  The first pallas_call's body run at a grid point where the last block of the contracted axis is met (the block's
  product is added to what the accumulator held, then the two linear layers of the sum, the second followed by the
  maximum with zero, are joined and stored whole into the output block): on whole staging memrefs holding the
  operand blocks, the body runs to the end; what it stored into the output block and into the accumulator is
  recorded as the lists of pieces the run itself finds. At any float instance.
-/
import proofs.«103437_j49752901157443_2_alg».proof.Proof.Gen.Kernel.Launch
import proofs.«103437_j49752901157443_2_alg».proof.Proof.Gen.Kernel.Skeleton
import proofs.«103437_j49752901157443_2_alg».proof.Proof.Gen.Kernel.Points
import proofs.«103437_j49752901157443_2_alg».proof.Proof.BR0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last block: the accumulator holds `xs` (what the point before left); the output block may hold anything before. -/
noncomputable def runLast (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : ¬cond0 i) (hc1 : cond1 i)
    (x0 : Vec F S1024x2048 .f32) (x1 : Vec F S2048x64 .f32) (x2 : Vec F S32x64 .f32) (x3 : Vec F S1x32 .f32) (x4 : Vec F S32x64 .f32) (x5 : Vec F S1x32 .f32) (xs : Vec F S1024x64 .f32) :
    Σ' (L6 : List (View.Piece (Elt F) S1024x64 .f32)), { LS : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc0__pd_fused_kernel i arg2 harg2 arg3 harg3 arg4 harg4 arg5 harg5 arg6 harg6 arg7 harg7 arg8 harg8 arg9 harg9) K } := by
  refine ⟨?_, ?_, fun E K => ?run⟩
  case run =>
    simp only [cc0__pd_fused_kernel_eq_skeleton]; unfold cc0__pd_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Reg0

end
-- ==== Proof.BR0Frame.lean ====
/-
  The first pallas_call (pd @ y, then two linear layers) as a pipeline's proof data, at any float instance. The
  accumulator is carried over the four blocks of the contracted axis of one output row-block: after a point ≡ 0
  (mod 4) it holds that point's run over a zeroed accumulator, after any other point the run over what the point
  before left; the output block's staging buffer holds the stored result after each point ≡ 3 (mod 4) (it is idle,
  and not written back, at the others). The invariant tracks the accumulator at exactly these contents; every other
  scoped buffer and the generator register ride along unopened. The body obligation is then each point's case run.
-/
import proofs.«103437_j49752901157443_2_alg».proof.Proof.Gen.Kernel.Launch
import proofs.«103437_j49752901157443_2_alg».proof.Proof.Gen.Kernel.Skeleton
import proofs.«103437_j49752901157443_2_alg».proof.Proof.Gen.Kernel.Points
import proofs.«103437_j49752901157443_2_alg».proof.Proof.BR0RunFirst
import proofs.«103437_j49752901157443_2_alg».proof.Proof.BR0RunMid
import proofs.«103437_j49752901157443_2_alg».proof.Proof.BR0RunLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first block's stores into the accumulator tile it. -/
theorem scoverFirst (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : cond0 i) (hc1 : ¬cond1 i)
    (x0 : Vec F S1024x2048 .f32) (x1 : Vec F S2048x64 .f32) (x2 : Vec F S32x64 .f32) (x3 : Vec F S1x32 .f32) (x4 : Vec F S32x64 .f32) (x5 : Vec F S1x32 .f32) (y : S1024x64.Idx) :
    ∃ pc ∈ (runFirst c i arg2 harg2 arg3 harg3 arg4 harg4 arg5 harg5 arg6 harg6 arg7 harg7 arg8 harg8 arg9 harg9 hc0 hc1 x0 x1 x2 x3 x4 x5).1, y ∈ pc.1.set :=
  View.cover_of_tiledL (runFirst c i arg2 harg2 arg3 harg3 arg4 harg4 arg5 harg5 arg6 harg6 arg7 harg7 arg8 harg8 arg9 harg9 hc0 hc1 x0 x1 x2 x3 x4 x5).1 S1024x64.size (by sl_kernel_rfl) y

/-- What a first block leaves in the accumulator. -/
def accFirst (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : cond0 i) (hc1 : ¬cond1 i)
    (x0 : Vec F S1024x2048 .f32) (x1 : Vec F S2048x64 .f32) (x2 : Vec F S32x64 .f32) (x3 : Vec F S1x32 .f32) (x4 : Vec F S32x64 .f32) (x5 : Vec F S1x32 .f32) : Vec F S1024x64 .f32 :=
  VS.read (Elt F) (VS.writes (Elt F) VS.junk (runFirst c i arg2 harg2 arg3 harg3 arg4 harg4 arg5 harg5 arg6 harg6 arg7 harg7 arg8 harg8 arg9 harg9 hc0 hc1 x0 x1 x2 x3 x4 x5).1)

/-- A middle block's store into the accumulator tiles it. -/
theorem scoverMid (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : ¬cond0 i) (hc1 : ¬cond1 i)
    (x0 : Vec F S1024x2048 .f32) (x1 : Vec F S2048x64 .f32) (x2 : Vec F S32x64 .f32) (x3 : Vec F S1x32 .f32) (x4 : Vec F S32x64 .f32) (x5 : Vec F S1x32 .f32) (xs : Vec F S1024x64 .f32) (y : S1024x64.Idx) :
    ∃ pc ∈ (runMid c i arg2 harg2 arg3 harg3 arg4 harg4 arg5 harg5 arg6 harg6 arg7 harg7 arg8 harg8 arg9 harg9 hc0 hc1 x0 x1 x2 x3 x4 x5 xs).1, y ∈ pc.1.set :=
  View.cover_of_tiledL (runMid c i arg2 harg2 arg3 harg3 arg4 harg4 arg5 harg5 arg6 harg6 arg7 harg7 arg8 harg8 arg9 harg9 hc0 hc1 x0 x1 x2 x3 x4 x5 xs).1 S1024x64.size (by sl_kernel_rfl) y

/-- What a middle block leaves in the accumulator. -/
def accMid (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : ¬cond0 i) (hc1 : ¬cond1 i)
    (x0 : Vec F S1024x2048 .f32) (x1 : Vec F S2048x64 .f32) (x2 : Vec F S32x64 .f32) (x3 : Vec F S1x32 .f32) (x4 : Vec F S32x64 .f32) (x5 : Vec F S1x32 .f32) (xs : Vec F S1024x64 .f32) : Vec F S1024x64 .f32 :=
  VS.read (Elt F) (VS.writes (Elt F) VS.junk (runMid c i arg2 harg2 arg3 harg3 arg4 harg4 arg5 harg5 arg6 harg6 arg7 harg7 arg8 harg8 arg9 harg9 hc0 hc1 x0 x1 x2 x3 x4 x5 xs).1)

/-- A last block's store into the output block tiles it. -/
theorem coverLast (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : ¬cond0 i) (hc1 : cond1 i)
    (x0 : Vec F S1024x2048 .f32) (x1 : Vec F S2048x64 .f32) (x2 : Vec F S32x64 .f32) (x3 : Vec F S1x32 .f32) (x4 : Vec F S32x64 .f32) (x5 : Vec F S1x32 .f32) (xs : Vec F S1024x64 .f32) (y : S1024x64.Idx) :
    ∃ pc ∈ (runLast c i arg2 harg2 arg3 harg3 arg4 harg4 arg5 harg5 arg6 harg6 arg7 harg7 arg8 harg8 arg9 harg9 hc0 hc1 x0 x1 x2 x3 x4 x5 xs).1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs).1 S1024x64.size (by sl_kernel_rfl) y

/-- What a last block leaves in the output block's staging buffer. -/
def outLast (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : ¬cond0 i) (hc1 : cond1 i)
    (x0 : Vec F S1024x2048 .f32) (x1 : Vec F S2048x64 .f32) (x2 : Vec F S32x64 .f32) (x3 : Vec F S1x32 .f32) (x4 : Vec F S32x64 .f32) (x5 : Vec F S1x32 .f32) (xs : Vec F S1024x64 .f32) : Vec F S1024x64 .f32 :=
  VO.read (Elt F) (VO.writes (Elt F) VO.junk (runLast c i arg2 harg2 arg3 harg3 arg4 harg4 arg5 harg5 arg6 harg6 arg7 harg7 arg8 harg8 arg9 harg9 hc0 hc1 x0 x1 x2 x3 x4 x5 xs).1)

/-- A last block's store into the accumulator tiles it. -/
theorem scoverLast (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : ¬cond0 i) (hc1 : cond1 i)
    (x0 : Vec F S1024x2048 .f32) (x1 : Vec F S2048x64 .f32) (x2 : Vec F S32x64 .f32) (x3 : Vec F S1x32 .f32) (x4 : Vec F S32x64 .f32) (x5 : Vec F S1x32 .f32) (xs : Vec F S1024x64 .f32) (y : S1024x64.Idx) :
    ∃ pc ∈ (runLast c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs).2.1 S1024x64.size (by sl_kernel_rfl) y

/-- What a last block leaves in the accumulator. -/
def accLast (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : ¬cond0 i) (hc1 : cond1 i)
    (x0 : Vec F S1024x2048 .f32) (x1 : Vec F S2048x64 .f32) (x2 : Vec F S32x64 .f32) (x3 : Vec F S1x32 .f32) (x4 : Vec F S32x64 .f32) (x5 : Vec F S1x32 .f32) (xs : Vec F S1024x64 .f32) : Vec F S1024x64 .f32 :=
  VS.read (Elt F) (VS.writes (Elt F) VS.junk (runLast c i arg2 harg2 arg3 harg3 arg4 harg4 arg5 harg5 arg6 harg6 arg7 harg7 arg8 harg8 arg9 harg9 hc0 hc1 x0 x1 x2 x3 x4 x5 xs).2.1)

/-- The output block's staging buffer at a point where the body stores nothing into it: contents nobody reads
    (the block is neither written back there nor read at the next point). -/
def outIdle : Vec F S1024x64 .f32 := VO.read (Elt F) (VO.writes (Elt F) VO.junk [])

/-! ## The accumulation, point by point -/

/-- What the output block's staging buffer and the accumulator hold after the body at position `n`. -/
def outsAt (c : Dev nD) : (n : ℕ) → n < cfg0.N → Vec F S1024x64 .f32 × Vec F S1024x64 .f32
  | 0, hn => (outIdle, accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM (Memref.isWhole_whole _) ((hcond0 ⟨0, hn⟩).mpr (Nat.zero_mod _)) (fun h => (fun h' => by (try dsimp only at h'); omega) ((hcond1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 4 = 0 then
      (outIdle, accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) ((hcond0 ⟨n + 1, hn⟩).mpr h0) (fun h => (fun h' => by (try dsimp only at h'); omega) ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else if h3 : (n + 1) % 4 = 3 then
      (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcond0 ⟨n + 1, hn⟩).mp h)) ((hcond1 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2,
       accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcond0 ⟨n + 1, hn⟩).mp h)) ((hcond1 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2)
    else
      (outIdle, accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcond0 ⟨n + 1, hn⟩).mp h)) (fun h => h3 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2)

/-- At a point ≡ 0 (mod 4): a first block's contents. -/
theorem outsAt_first (c : Dev nD) (t : Fin cfg0.N) (h0 : t.val % 4 = 0) :
    outsAt V c t.val t.isLt = (outIdle, accFirst c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (fun h => (fun h' => by omega) ((hcond1 t).mp h)) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans rfl

/-- At a point ≡ 1 or 2 (mod 4): a middle block's contents, over what the point before left in the accumulator. -/
theorem outsAt_mid (c : Dev nD) (t : Fin cfg0.N) (h0 : ¬t.val % 4 = 0) (h3 : ¬t.val % 4 = 3) :
    outsAt V c t.val t.isLt = (outIdle, accMid c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (fun h => h3 ((hcond1 t).mp h)) (iblk V c 0 t) (iblk V c 1 t) (iblk V c 2 t) (iblk V c 3 t) (iblk V c 4 t) (iblk V c 5 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

/-- At a point ≡ 3 (mod 4): a last block's contents, over what the point before left in the accumulator. -/
theorem outsAt_last (c : Dev nD) (t : Fin cfg0.N) (h0 : ¬t.val % 4 = 0) (h3 : t.val % 4 = 3) :
    outsAt V c t.val t.isLt = (outLast c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) ((hcond1 t).mpr h3) (iblk V c 0 t) (iblk V c 1 t) (iblk V c 2 t) (iblk V c 3 t) (iblk V c 4 t) (iblk V c 5 t) (outsAt V c (t.val - 1) (Nat.lt_of_le_of_lt (Nat.sub_le _ _) t.isLt)).2,
      accLast c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) ((hcond1 t).mpr h3) (iblk V c 0 t) (iblk V c 1 t) (iblk V c 2 t) (iblk V c 3 t) (iblk V c 4 t) (iblk V c 5 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-! ## The invariant -/

/-- Before position `n`: the class's invariant before the first point (the accumulator at anything); afterwards the
    accumulator at what the point before left, the other scoped buffers unopened, the generator register at some state. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ restBut (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare ((outsAt V c n hn).2) ∗ restBut (F := F) c) ∗ (∃ r, prngReg c r)) := rfl

theorem PhiS_pos (c : Dev nD) (n : ℕ) (h : n ≤ cfg0.N) (hz : n ≠ 0) :
    PhiS V c n h = iprop(iprop(owns (c : Thread nD τ) scM fullShare ((outsAt V c (n - 1) (by omega)).2) ∗ restBut (F := F) c) ∗ (∃ r, prngReg c r)) := by
  cases n with
  | zero => exact absurd rfl hz
  | succ n => rfl

/-! ## The proof data -/

/-- The arrays as the region finds them; after the body at point `t` each operand's buffer at its block and the
    output's at the accumulation's first component; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4800000 in
/-- The body at any point: the operands' memrefs hold their blocks; the point's residue modulo four says which case
    it is in; the invariant hands the body the accumulator (at anything at the very first point, else at what the
    point before left) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  rw [show (dat V c).leavesExact 4 t = owns (c : Thread nD τ) (ms4 t) fullShare ((dat V c).after 4 t) from by
    unfold Dat.leavesExact; rw [live_4 t], after_4]
  rw [show (dat V c).leavesExact 5 t = owns (c : Thread nD τ) (ms5 t) fullShare ((dat V c).after 5 t) from by
    unfold Dat.leavesExact; rw [live_5 t], after_5]
  by_cases h0 : t.val % 4 = 0
  · have hc0 : cond0 (grid0.coords t) := (hcond0 t).mpr h0
    have hc1 : ¬cond1 (grid0.coords t) := fun h => (fun h' => by omega) ((hcond1 t).mp h)
    rw [Dat.leavesExact_idle (dat V c) 6 t (idle_6_first t hc0 hc1) (noFlush_6_first t hc0 hc1)]
    rw [outsAt_first V c t h0]
    unfold accFirst; (try dsimp only)
    by_cases hz : t.val = 0
    · rw [PhiS_castSucc V c t, PhiS_zero V c _ _ hz, PhiA_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ hc0 hc1 (iblk V c 0 t) (iblk V c 1 t) (iblk V c 2 t) (iblk V c 3 t) (iblk V c 4 t) (iblk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverFirst c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ hc0 hc1 (iblk V c 0 t) (iblk V c 1 t) (iblk V c 2 t) (iblk V c 3 t) (iblk V c 4 t) (iblk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverFirst c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hc0 : ¬cond0 (grid0.coords t) := fun h => h0 ((hcond0 t).mp h)
    have hz : t.val ≠ 0 := fun hz => h0 (by rw [hz])
    by_cases h3 : t.val % 4 = 3
    · have hc1 : cond1 (grid0.coords t) := (hcond1 t).mpr h3
      rw [show (dat V c).leavesExact 6 t = owns (c : Thread nD τ) (ms6 t) fullShare ((dat V c).after 6 t) from by
        unfold Dat.leavesExact; rw [live_6_last t hc0 hc1], after_6]
      rw [outsAt_last V c t h0 h3]
      unfold outLast accLast; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) _ _ _ _ _ _ _ _ _ _ _ _ _ _ _ _ hc0 hc1 (iblk V c 0 t) (iblk V c 1 t) (iblk V c 2 t) (iblk V c 3 t) (iblk V c 4 t) (iblk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverLast c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLast c _ _ _ _ _ _ _ _ _ _ _ _ _ _ _ _ _ _ _ _ _ _ _ _ _ _)
    · have hc1 : ¬cond1 (grid0.coords t) := fun h => h3 ((hcond1 t).mp h)
      rw [Dat.leavesExact_idle (dat V c) 6 t (idle_6_mid t hc0 hc1) (noFlush_6_mid t hc0 hc1)]
      rw [outsAt_mid V c t h0 h3]
      unfold accMid; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid c (grid0.coords t) _ _ _ _ _ _ _ _ _ _ _ _ _ _ _ _ hc0 hc1 (iblk V c 0 t) (iblk V c 1 t) (iblk V c 2 t) (iblk V c 3 t) (iblk V c 4 t) (iblk V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverMid c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Reg0

end
-- ==== Proof.BR1Runs.lean ====
/-
  The second pallas_call (pm.T @ x, accumulated over two blocks of the contracted axis) seen from one grid point:
  the blocks its three windows hold there, the two conditions of the body in closed form over the sixteen grid
  points (the contracted-axis coordinate is the point's parity), where the output window is idle and where it is
  written back, the memrefs the body is called with, and the region's class invariant opened at the accumulator.
  Everything here is at any float instance.
-/
import proofs.«103437_j49752901157443_2_alg».proof.Proof.Gen.Kernel.Launch
import proofs.«103437_j49752901157443_2_alg».proof.Proof.Gen.Kernel.Skeleton
import proofs.«103437_j49752901157443_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's proof data are stated at
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's current staging buffer holds its block at every point, for any proof data whose array is the
    entry contents and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the right operand. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first block of the contracted axis": the accumulator is zeroed. -/
abbrev cond0 (i : grid1.Coords) : Prop := (Scalar.cmpi .ne (Scalar.extui (Scalar.cmpi .eq (BitVec.ofNat 32 (i 1).val) 0#32)) 0#32) = 1#1
/-- It holds at the even points. -/
theorem hcond0 : ∀ t : Fin cfg1.N, cond0 (grid1.coords t) ↔ t.val % 2 = 0 :=
  (by decide +kernel : ∀ t : Fin grid1.N, cond0 (grid1.coords t) ↔ t.val % 2 = 0)

/-- "This is the last block of the contracted axis": the accumulator is copied to the output block. -/
abbrev cond1 (i : grid1.Coords) : Prop := k1_cond2 i = 1#1
/-- It holds at the odd points. -/
theorem hcond1 : ∀ t : Fin cfg1.N, cond1 (grid1.coords t) ↔ t.val % 2 = 1 :=
  (by decide +kernel : ∀ t : Fin grid1.N, cond1 (grid1.coords t) ↔ t.val % 2 = 1)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
/-- At a first block the body stores nothing into the output window, -/
theorem idle_2_first : ∀ t : Fin cfg1.N, cond0 (grid1.coords t) → ¬cond1 (grid1.coords t) → cfg1.idle 2 (grid1.coords t) = true := by decide +kernel
/-- and the pipeline does not write its block back. -/
theorem noFlush_2_first : ∀ t : Fin cfg1.N, cond0 (grid1.coords t) → ¬cond1 (grid1.coords t) → (cfg1.win 2).flush t = false := by decide +kernel
/-- At a last block the body stores the whole output block. -/
theorem live_2_last : ∀ t : Fin cfg1.N, ¬cond0 (grid1.coords t) → cond1 (grid1.coords t) → cfg1.idle 2 (grid1.coords t) = false := by decide +kernel

/-! ## The memrefs the body is called with -/

/-- One staging buffer of the output window, through which its contents are stated. -/
abbrev VO : View sig .tc .vmem S1024x64 .f32 := (Memref.whole cc1_stg2_0 : Memref sig .tc .vmem S1024x64 .f32).view
abbrev ms0 (t : Fin cfg1.N) : Memref sig .tc .vmem S2048x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x64 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x64 .f32 := win1_2.stage (cfg1.slots t 2)
abbrev hs2 (t : Fin cfg1.N) : (ms2 t).IsWhole := hstage1_2 ((cfg1.slots t 2).cast nbuf1_2)
/-- The accumulator: a whole scoped buffer of the kernel's own. -/
abbrev scM : Memref sig .tc .vmem S1024x64 .f32 := Memref.whole cc1_scratch0
abbrev VS : View sig .tc .vmem S1024x64 .f32 := scM.view

/-- Every other scoped buffer of the core (the other calls' staging buffers and accumulators), unopened. -/
abbrev restBut (c : Dev nD) : sProp 𝕄 :=
  Pipeline.scopedRestBut (Ix := Unit) (Name := ℕ) (U := UR sig nD τ) (Lvl := ℕ) (Val := Elt F) spec1 c [cc1_scratch0]

/-- The class invariant with the accumulator as a memref owned at some contents. -/
theorem PhiA_eq (c : Dev nD) :
    (Pipeline.ΦA spec1 c : sProp 𝕄)
      = iprop(iprop(iprop((∃ d, owns (c : Thread nD τ) scM fullShare d)) ∗ restBut (F := F) c) ∗ (∃ r, prngReg c r)) := by
  unfold Pipeline.ΦA; rw [scopedRest1_split]; simp only [scM, owns_whole]; try rfl

end Cert.Kernel.Reg1

end
-- ==== Proof.BR1RunFirst.lean ====
/-
  The second pallas_call's body run at a grid point where the first block of the contracted axis is met (the accumulator is zeroed, then the block's product added; the output block is not touched): on whole staging memrefs holding the two operand
  blocks, the body runs to the end; what it stored into the accumulator (and, at a last block, into the output
  block) is recorded as the list of pieces the run itself finds, last store first. At any float instance.
-/
import proofs.«103437_j49752901157443_2_alg».proof.Proof.Gen.Kernel.Launch
import proofs.«103437_j49752901157443_2_alg».proof.Proof.Gen.Kernel.Skeleton
import proofs.«103437_j49752901157443_2_alg».proof.Proof.Gen.Kernel.Points
import proofs.«103437_j49752901157443_2_alg».proof.Proof.BR1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First block: the accumulator may hold anything before; the output block `xi2` is handed back untouched. -/
noncomputable def runFirst (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond0 i) (hc1 : ¬cond1 i)
    (x0 : Vec F S2048x1024 .f32) (x1 : Vec F S2048x64 .f32) :
    { LS : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__matmulT_kernel i arg2 harg2 arg3 harg3 arg4 harg4 arg5 harg5) K } := by
  refine ⟨?_, fun xi2 E K => ?run⟩
  case run =>
    simp only [cc1__matmulT_kernel_eq_skeleton]; unfold cc1__matmulT_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Reg1

end
-- ==== Proof.BR1RunLast.lean ====
/-
  The second pallas_call's body run at a grid point where the last block of the contracted axis is met and it is not the first (the block's product is added to what the accumulator held, and the sum copied to the output block): on whole staging memrefs holding the two operand
  blocks, the body runs to the end; what it stored into the accumulator (and, at a last block, into the output
  block) is recorded as the list of pieces the run itself finds, last store first. At any float instance.
-/
import proofs.«103437_j49752901157443_2_alg».proof.Proof.Gen.Kernel.Launch
import proofs.«103437_j49752901157443_2_alg».proof.Proof.Gen.Kernel.Skeleton
import proofs.«103437_j49752901157443_2_alg».proof.Proof.Gen.Kernel.Points
import proofs.«103437_j49752901157443_2_alg».proof.Proof.BR1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last block: the accumulator holds `xs` (what the point before left); the output block may hold anything before. -/
noncomputable def runLast (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0 i) (hc1 : cond1 i)
    (x0 : Vec F S2048x1024 .f32) (x1 : Vec F S2048x64 .f32) (xs : Vec F S1024x64 .f32) :
    Σ' (L2 : List (View.Piece (Elt F) S1024x64 .f32)), { LS : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__matmulT_kernel i arg2 harg2 arg3 harg3 arg4 harg4 arg5 harg5) K } := by
  refine ⟨?_, ?_, fun E K => ?run⟩
  case run =>
    simp only [cc1__matmulT_kernel_eq_skeleton]; unfold cc1__matmulT_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Reg1

end
-- ==== Proof.BR1Frame.lean ====
/-
  The second pallas_call (pm.T @ x) as a pipeline's proof data, at any float instance. The accumulator is carried
  from a first block to the last block of the same output row-block: after an even point it holds that point's
  run over a zeroed accumulator, after an odd point the run over what the point before left, and the output
  block's staging buffer holds the accumulated sum after each odd point (it is idle, and not written back, at the
  even ones). The invariant tracks the accumulator at exactly these contents; every other scoped buffer and the
  generator register ride along unopened. The body obligation is then each point's case run.
-/
import proofs.«103437_j49752901157443_2_alg».proof.Proof.Gen.Kernel.Launch
import proofs.«103437_j49752901157443_2_alg».proof.Proof.Gen.Kernel.Skeleton
import proofs.«103437_j49752901157443_2_alg».proof.Proof.Gen.Kernel.Points
import proofs.«103437_j49752901157443_2_alg».proof.Proof.BR1RunFirst
import proofs.«103437_j49752901157443_2_alg».proof.Proof.BR1RunLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first block's stores into the accumulator tile it. -/
theorem scoverFirst (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond0 i) (hc1 : ¬cond1 i)
    (x0 : Vec F S2048x1024 .f32) (x1 : Vec F S2048x64 .f32) (y : S1024x64.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x64.size (by sl_kernel_rfl) y

/-- What a first block leaves in the accumulator. -/
def accFirst (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond0 i) (hc1 : ¬cond1 i)
    (x0 : Vec F S2048x1024 .f32) (x1 : Vec F S2048x64 .f32) : Vec F S1024x64 .f32 :=
  VS.read (Elt F) (VS.writes (Elt F) VS.junk (runFirst c i arg2 harg2 arg3 harg3 arg4 harg4 arg5 harg5 hc0 hc1 x0 x1).1)

/-- A last block's store into the output block tiles it. -/
theorem coverLast (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0 i) (hc1 : cond1 i)
    (x0 : Vec F S2048x1024 .f32) (x1 : Vec F S2048x64 .f32) (xs : Vec F S1024x64 .f32) (y : S1024x64.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x64.size (by sl_kernel_rfl) y

/-- What a last block leaves in the output block's staging buffer. -/
def outLast (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0 i) (hc1 : cond1 i)
    (x0 : Vec F S2048x1024 .f32) (x1 : Vec F S2048x64 .f32) (xs : Vec F S1024x64 .f32) : Vec F S1024x64 .f32 :=
  VO.read (Elt F) (VO.writes (Elt F) VO.junk (runLast c i arg2 harg2 arg3 harg3 arg4 harg4 arg5 harg5 hc0 hc1 x0 x1 xs).1)

/-- A last block's store into the accumulator tiles it. -/
theorem scoverLast (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0 i) (hc1 : cond1 i)
    (x0 : Vec F S2048x1024 .f32) (x1 : Vec F S2048x64 .f32) (xs : Vec F S1024x64 .f32) (y : S1024x64.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x64.size (by sl_kernel_rfl) y

/-- What a last block leaves in the accumulator. -/
def accLast (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0 i) (hc1 : cond1 i)
    (x0 : Vec F S2048x1024 .f32) (x1 : Vec F S2048x64 .f32) (xs : Vec F S1024x64 .f32) : Vec F S1024x64 .f32 :=
  VS.read (Elt F) (VS.writes (Elt F) VS.junk (runLast c i arg2 harg2 arg3 harg3 arg4 harg4 arg5 harg5 hc0 hc1 x0 x1 xs).2.1)

/-- The output block's staging buffer at a point where the body stores nothing into it: contents nobody reads
    (the block is neither written back there nor read at the next point). -/
def outIdle : Vec F S1024x64 .f32 := VO.read (Elt F) (VO.writes (Elt F) VO.junk [])

/-! ## The accumulation, point by point -/

/-- What the output block's staging buffer and the accumulator hold after the body at position `n`. -/
def outsAt (c : Dev nD) : (n : ℕ) → n < cfg1.N → Vec F S1024x64 .f32 × Vec F S1024x64 .f32
  | 0, hn => (outIdle, accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcond0 ⟨0, hn⟩).mpr (Nat.zero_mod _)) (fun h => (fun h' => by (try dsimp only at h'); omega) ((hcond1 ⟨0, hn⟩).mp h)) (iblk V c 0 ⟨0, hn⟩) (iblk V c 1 ⟨0, hn⟩))
  | n + 1, hn =>
    if h0 : (n + 1) % 2 = 0 then
      (outIdle, accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) ((hcond0 ⟨n + 1, hn⟩).mpr h0) (fun h => (fun h' => by (try dsimp only at h'); omega) ((hcond1 ⟨n + 1, hn⟩).mp h)) (iblk V c 0 ⟨n + 1, hn⟩) (iblk V c 1 ⟨n + 1, hn⟩))
    else
      (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcond0 ⟨n + 1, hn⟩).mp h)) ((hcond1 ⟨n + 1, hn⟩).mpr (show (n + 1) % 2 = 1 by omega)) (iblk V c 0 ⟨n + 1, hn⟩) (iblk V c 1 ⟨n + 1, hn⟩) (outsAt c n (Nat.lt_of_succ_lt hn)).2,
       accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcond0 ⟨n + 1, hn⟩).mp h)) ((hcond1 ⟨n + 1, hn⟩).mpr (show (n + 1) % 2 = 1 by omega)) (iblk V c 0 ⟨n + 1, hn⟩) (iblk V c 1 ⟨n + 1, hn⟩) (outsAt c n (Nat.lt_of_succ_lt hn)).2)

/-- At an even point: a first block's contents. -/
theorem outsAt_first (c : Dev nD) (t : Fin cfg1.N) (h0 : t.val % 2 = 0) :
    outsAt V c t.val t.isLt = (outIdle, accFirst c (grid1.coords t) (ms0 t) (hs0 t) (ms1 t) (hs1 t) (ms2 t) (hs2 t) scM (Memref.isWhole_whole _) ((hcond0 t).mpr h0) (fun h => (fun h' => by omega) ((hcond1 t).mp h)) (iblk V c 0 t) (iblk V c 1 t)) := by
  obtain ⟨n, hn⟩ := t
  cases n with
  | zero => exact rfl
  | succ n => exact (dif_pos h0).trans rfl

/-- At an odd point: a last block's contents, over what the point before left in the accumulator. -/
theorem outsAt_last (c : Dev nD) (t : Fin cfg1.N) (h0 : ¬t.val % 2 = 0) :
    outsAt V c t.val t.isLt = (outLast c (grid1.coords t) (ms0 t) (hs0 t) (ms1 t) (hs1 t) (ms2 t) (hs2 t) scM (Memref.isWhole_whole _) (fun h => h0 ((hcond0 t).mp h)) ((hcond1 t).mpr (by omega)) (iblk V c 0 t) (iblk V c 1 t) (outsAt V c (t.val - 1) (Nat.lt_of_le_of_lt (Nat.sub_le _ _) t.isLt)).2,
      accLast c (grid1.coords t) (ms0 t) (hs0 t) (ms1 t) (hs1 t) (ms2 t) (hs2 t) scM (Memref.isWhole_whole _) (fun h => h0 ((hcond0 t).mp h)) ((hcond1 t).mpr (by omega)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant -/

/-- Before position `n`: the class's invariant before the first point (the accumulator at anything); afterwards the
    accumulator at what the point before left, the other scoped buffers unopened, the generator register at some state. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ restBut (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare ((outsAt V c n hn).2) ∗ restBut (F := F) c) ∗ (∃ r, prngReg c r)) := rfl

theorem PhiS_pos (c : Dev nD) (n : ℕ) (h : n ≤ cfg1.N) (hz : n ≠ 0) :
    PhiS V c n h = iprop(iprop(owns (c : Thread nD τ) scM fullShare ((outsAt V c (n - 1) (by omega)).2) ∗ restBut (F := F) c) ∗ (∃ r, prngReg c r)) := by
  cases n with
  | zero => exact absurd rfl hz
  | succ n => rfl

/-! ## The proof data -/

/-- The arrays as the region finds them; after the body at point `t` each operand's buffer at its block and the
    output's at the accumulation's first component; the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the operands' memrefs hold their blocks; the point's parity says which case it is in; the
    invariant hands the body the accumulator (at anything at the very first point, else at what the point before left)
    and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  by_cases h0 : t.val % 2 = 0
  · have hc0 : cond0 (grid1.coords t) := (hcond0 t).mpr h0
    have hc1 : ¬cond1 (grid1.coords t) := fun h => (fun h' => by omega) ((hcond1 t).mp h)
    rw [Dat.leavesExact_idle (dat V c) 2 t (idle_2_first t hc0 hc1) (noFlush_2_first t hc0 hc1)]
    rw [outsAt_first V c t h0]
    unfold accFirst; (try dsimp only)
    by_cases hz : t.val = 0
    · rw [PhiS_castSucc V c t, PhiS_zero V c _ _ hz, PhiA_eq]
      iintro ⟨⟨⟨HS0, HR⟩, Hg⟩, Ho, ⟨%d0, H0⟩, ⟨%d1, H1⟩, ⟨%d2, H2⟩⟩
      iapply ((runFirst c (grid1.coords t) _ _ _ _ _ _ _ _ hc0 hc1 (iblk V c 0 t) (iblk V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverFirst c _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HR⟩, Hg⟩, Ho, ⟨%d0, H0⟩, ⟨%d1, H1⟩, ⟨%d2, H2⟩⟩
      iapply ((runFirst c (grid1.coords t) _ _ _ _ _ _ _ _ hc0 hc1 (iblk V c 0 t) (iblk V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverFirst c _ _ _ _ _ _ _ _ _ _ _ _ _)
          iexact HR
        iexact Hg
      isplitl [Ho]; · iexact Ho
      isplitl [H0]; · iexact H0
      isplitl [H1]; · iexact H1
      iexists _; iexact H2
  · have hc0 : ¬cond0 (grid1.coords t) := fun h => h0 ((hcond0 t).mp h)
    have hc1 : cond1 (grid1.coords t) := (hcond1 t).mpr (by omega)
    have hz : t.val ≠ 0 := fun hz => h0 (by rw [hz])
    rw [show (dat V c).leavesExact 2 t = owns (c : Thread nD τ) (ms2 t) fullShare ((dat V c).after 2 t) from by
      unfold Dat.leavesExact; rw [live_2_last t hc0 hc1], after_2]
    rw [outsAt_last V c t h0]
    unfold outLast accLast; (try dsimp only)
    rw [PhiS_castSucc V c t, PhiS_pos V c _ _ hz]
    iintro ⟨⟨⟨HS0, HR⟩, Hg⟩, Ho, ⟨%d0, H0⟩, ⟨%d1, H1⟩, ⟨%d2, H2⟩⟩
    iapply ((runLast c (grid1.coords t) _ _ _ _ _ _ _ _ hc0 hc1 (iblk V c 0 t) (iblk V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scoverLast c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (coverLast c _ _ _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Reg1

end
-- ==== Proof.BR2Runs.lean ====
/-
  The third pallas_call (lg_a1 @ y, accumulated over four blocks of the contracted axis, with the epilogue that
  combines the accumulated product with the pm_x row block through the eight small weight and bias arrays) seen
  from one grid point: the blocks its twelve windows hold there, the two conditions of the body in closed form over
  the thirty-two grid points (the contracted-axis coordinate is the point's residue mod 4), where the output window
  is idle and where it is written back, the memrefs the body is called with, and the region's class invariant opened
  at the accumulator. Everything here is at any float instance.
-/
import proofs.«103437_j49752901157443_2_alg».proof.Proof.Gen.Kernel.Launch
import proofs.«103437_j49752901157443_2_alg».proof.Proof.Gen.Kernel.Skeleton
import proofs.«103437_j49752901157443_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's proof data are stated at
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point — fetched there or not: where it is not,
    the block index has not moved since the point before — for any proof data whose array is the entry contents and
    whose body leaves the block in place. -/

/-- Window 0 (the left operand's row block by contracted-axis block). -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1 (the right operand's contracted-axis block). -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Window 2 (the second summand's row block). -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Window 3 (the first weight matrix). -/
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Window 4 (the first bias row). -/
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Window 5 (the second weight matrix). -/
theorem before_5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Window 6 (the second bias row). -/
theorem before_6_of {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Window 7 (the third weight matrix). -/
theorem before_7_of {c : Dev nD} (dat : Dat τ (Elt F) Unit ℕ (UR sig nD τ) ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Window 8 (the third bias row). -/
theorem before_8_of {c : Dev nD} (dat : Dat τ (Elt F) Unit ℕ (UR sig nD τ) ℕ cfg2 c) (hA : dat.A 8 = V c (Pipeline.arrRef spec2 8))
    (hafter : ∀ t, dat.after 8 t = iblk V c 8 t) (t : Fin cfg2.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Window 9 (the fourth weight matrix). -/
theorem before_9_of {c : Dev nD} (dat : Dat τ (Elt F) Unit ℕ (UR sig nD τ) ℕ cfg2 c) (hA : dat.A 9 = V c (Pipeline.arrRef spec2 9))
    (hafter : ∀ t, dat.after 9 t = iblk V c 9 t) (t : Fin cfg2.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Window 10 (the fourth bias row). -/
theorem before_10_of {c : Dev nD} (dat : Dat τ (Elt F) Unit ℕ (UR sig nD τ) ℕ cfg2 c) (hA : dat.A 10 = V c (Pipeline.arrRef spec2 10))
    (hafter : ∀ t, dat.after 10 t = iblk V c 10 t) (t : Fin cfg2.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first block of the contracted axis": the accumulator is zeroed. -/
abbrev cond0 (i : grid2.Coords) : Prop := (Scalar.cmpi .ne (Scalar.extui (Scalar.cmpi .eq (BitVec.ofNat 32 (i 1).val) 0#32)) 0#32) = 1#1
/-- It holds at the points ≡ 0 (mod 4). -/
theorem hcond0 : ∀ t : Fin cfg2.N, cond0 (grid2.coords t) ↔ t.val % 4 = 0 :=
  (by decide +kernel : ∀ t : Fin grid2.N, cond0 (grid2.coords t) ↔ t.val % 4 = 0)

/-- "This is the last block of the contracted axis": the epilogue runs and the output block is stored. -/
abbrev cond1 (i : grid2.Coords) : Prop := k2_cond2 i = 1#1
/-- It holds at the points ≡ 3 (mod 4). -/
theorem hcond1 : ∀ t : Fin cfg2.N, cond1 (grid2.coords t) ↔ t.val % 4 = 3 :=
  (by decide +kernel : ∀ t : Fin grid2.N, cond1 (grid2.coords t) ↔ t.val % 4 = 3)

/-! ## Where the windows are idle -/

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
theorem live_3 : ∀ t : Fin cfg2.N, cfg2.idle 3 (grid2.coords t) = false := by decide +kernel
theorem live_4 : ∀ t : Fin cfg2.N, cfg2.idle 4 (grid2.coords t) = false := by decide +kernel
theorem live_5 : ∀ t : Fin cfg2.N, cfg2.idle 5 (grid2.coords t) = false := by decide +kernel
theorem live_6 : ∀ t : Fin cfg2.N, cfg2.idle 6 (grid2.coords t) = false := by decide +kernel
theorem live_7 : ∀ t : Fin cfg2.N, cfg2.idle 7 (grid2.coords t) = false := by decide +kernel
theorem live_8 : ∀ t : Fin cfg2.N, cfg2.idle 8 (grid2.coords t) = false := by decide +kernel
theorem live_9 : ∀ t : Fin cfg2.N, cfg2.idle 9 (grid2.coords t) = false := by decide +kernel
theorem live_10 : ∀ t : Fin cfg2.N, cfg2.idle 10 (grid2.coords t) = false := by decide +kernel
/-- At a first block the body stores nothing into the output window, -/
theorem idle_11_first : ∀ t : Fin cfg2.N, cond0 (grid2.coords t) → ¬cond1 (grid2.coords t) → cfg2.idle 11 (grid2.coords t) = true := by decide +kernel
/-- and the pipeline does not write its block back. -/
theorem noFlush_11_first : ∀ t : Fin cfg2.N, cond0 (grid2.coords t) → ¬cond1 (grid2.coords t) → (cfg2.win 11).flush t = false := by decide +kernel
/-- The same at a middle block. -/
theorem idle_11_mid : ∀ t : Fin cfg2.N, ¬cond0 (grid2.coords t) → ¬cond1 (grid2.coords t) → cfg2.idle 11 (grid2.coords t) = true := by decide +kernel
theorem noFlush_11_mid : ∀ t : Fin cfg2.N, ¬cond0 (grid2.coords t) → ¬cond1 (grid2.coords t) → (cfg2.win 11).flush t = false := by decide +kernel
/-- At a last block the body stores the whole output block. -/
theorem live_11_last : ∀ t : Fin cfg2.N, ¬cond0 (grid2.coords t) → cond1 (grid2.coords t) → cfg2.idle 11 (grid2.coords t) = false := by decide +kernel

/-! ## The memrefs the body is called with -/

/-- One staging buffer of the output window, through which its contents are stated. -/
abbrev VO : View sig .tc .vmem S1024x64 .f32 := (Memref.whole cc2_stg11_0 : Memref sig .tc .vmem S1024x64 .f32).view
abbrev ms0 (t : Fin cfg2.N) : Memref sig .tc .vmem S1024x2048 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S2048x64 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1024x64 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S32x64 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x32 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S32x64 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S1x32 .f32 := win2_6.stage (cfg2.slots t 6)
abbrev hs6 (t : Fin cfg2.N) : (ms6 t).IsWhole := hstage2_6 ((cfg2.slots t 6).cast nbuf2_6)
abbrev ms7 (t : Fin cfg2.N) : Memref sig .tc .vmem S32x64 .f32 := win2_7.stage (cfg2.slots t 7)
abbrev hs7 (t : Fin cfg2.N) : (ms7 t).IsWhole := hstage2_7 ((cfg2.slots t 7).cast nbuf2_7)
abbrev ms8 (t : Fin cfg2.N) : Memref sig .tc .vmem S1x32 .f32 := win2_8.stage (cfg2.slots t 8)
abbrev hs8 (t : Fin cfg2.N) : (ms8 t).IsWhole := hstage2_8 ((cfg2.slots t 8).cast nbuf2_8)
abbrev ms9 (t : Fin cfg2.N) : Memref sig .tc .vmem S32x64 .f32 := win2_9.stage (cfg2.slots t 9)
abbrev hs9 (t : Fin cfg2.N) : (ms9 t).IsWhole := hstage2_9 ((cfg2.slots t 9).cast nbuf2_9)
abbrev ms10 (t : Fin cfg2.N) : Memref sig .tc .vmem S1x32 .f32 := win2_10.stage (cfg2.slots t 10)
abbrev hs10 (t : Fin cfg2.N) : (ms10 t).IsWhole := hstage2_10 ((cfg2.slots t 10).cast nbuf2_10)
abbrev ms11 (t : Fin cfg2.N) : Memref sig .tc .vmem S1024x64 .f32 := win2_11.stage (cfg2.slots t 11)
abbrev hs11 (t : Fin cfg2.N) : (ms11 t).IsWhole := hstage2_11 ((cfg2.slots t 11).cast nbuf2_11)
/-- The accumulator: a whole scoped buffer of the kernel's own. -/
abbrev scM : Memref sig .tc .vmem S1024x64 .f32 := Memref.whole cc2_scratch0
abbrev VS : View sig .tc .vmem S1024x64 .f32 := scM.view

/-- The core's scoped buffers that are no staging buffer of this call, split at the accumulator: its points-to at
    some contents, then every other one unopened. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop(iprop((∃ f : Buf Val ((c : Thread nD τ).loc cc2_scratch0), ((c : Thread nD τ).loc cc2_scratch0) ↦{fullShare} f))
          ∗ Pipeline.scopedRestBut (Ix := Ix) (Name := Name) (U := U) (Lvl := Lvl) (Val := Val) spec2 c [cc2_scratch0]) :=
  Pipeline.scopedRest_split_of_list spec2 c [cc2_scratch0] (by decide) (by decide)

/-- Every other scoped buffer of the core (the other calls' staging buffers and accumulators), unopened. -/
abbrev restBut (c : Dev nD) : sProp 𝕄 :=
  Pipeline.scopedRestBut (Ix := Unit) (Name := ℕ) (U := UR sig nD τ) (Lvl := ℕ) (Val := Elt F) spec2 c [cc2_scratch0]

/-- The class invariant with the accumulator as a memref owned at some contents. -/
theorem PhiA_eq (c : Dev nD) :
    (Pipeline.ΦA spec2 c : sProp 𝕄)
      = iprop(iprop(iprop((∃ d, owns (c : Thread nD τ) scM fullShare d)) ∗ restBut (F := F) c) ∗ (∃ r, prngReg c r)) := by
  unfold Pipeline.ΦA; rw [scopedRest2_split]; simp only [scM, owns_whole]; try rfl

end Cert.Kernel.Reg2

end
-- ==== Proof.BR2RunFirst.lean ====
/-
  The third pallas_call's body run at a grid point where the first block of the contracted axis is met (the accumulator is
  zeroed, then the block's product added; the output block is not touched): on whole staging memrefs holding the eleven
  operand blocks, the body runs to the end; what it stored into the accumulator is recorded as the list of pieces the
  run itself finds, last store first. At any float instance.
-/
import proofs.«103437_j49752901157443_2_alg».proof.Proof.Gen.Kernel.Launch
import proofs.«103437_j49752901157443_2_alg».proof.Proof.Gen.Kernel.Skeleton
import proofs.«103437_j49752901157443_2_alg».proof.Proof.Gen.Kernel.Points
import proofs.«103437_j49752901157443_2_alg».proof.Proof.BR2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- First block: the accumulator may hold anything before; the output block `xi11` is handed back untouched. -/
noncomputable def runFirst (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : cond0 i) (hc1 : ¬cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) :
    { LS : List (View.Piece (Elt F) S1024x64 .f32) //
      ∀ (xi11 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ f, arg14.view.loc (c : Thread nD τ) ↦[arg14.view.set]{fullShare} arg14.view.writes (Elt F) f LS)) -∗ K ⟨⟩))
          ⊢ wp frame (wpE (defs₀ (F := F)) Variants.none c none) E (cc2__lg_fused_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun xi11 E K => ?run⟩
  case run =>
    simp only [cc2__lg_fused_kernel_eq_skeleton]; unfold cc2__lg_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact HS0

end Cert.Kernel.Reg2

end
-- ==== Proof.BR2RunMid.lean ====
/-
  The third pallas_call's body run at a grid point where a middle block of the contracted axis is met (the block's product
  is added to what the accumulator held; the output block is not touched): on whole staging memrefs holding the eleven
  operand blocks, the body runs to the end; what it stored into the accumulator is recorded as the list of pieces the
  run itself finds. At any float instance.
-/
import proofs.«103437_j49752901157443_2_alg».proof.Proof.Gen.Kernel.Launch
import proofs.«103437_j49752901157443_2_alg».proof.Proof.Gen.Kernel.Skeleton
import proofs.«103437_j49752901157443_2_alg».proof.Proof.Gen.Kernel.Points
import proofs.«103437_j49752901157443_2_alg».proof.Proof.BR2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Middle block: the accumulator holds `xs` (what the point before left); the output block `xi11` is handed back untouched. -/
noncomputable def runMid (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : ¬cond0 i) (hc1 : ¬cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) (xs : Vec F S1024x64 .f32) :
    { LS : List (View.Piece (Elt F) S1024x64 .f32) //
      ∀ (xi11 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ f, arg14.view.loc (c : Thread nD τ) ↦[arg14.view.set]{fullShare} arg14.view.writes (Elt F) f LS)) -∗ K ⟨⟩))
          ⊢ wp frame (wpE (defs₀ (F := F)) Variants.none c none) E (cc2__lg_fused_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun xi11 E K => ?run⟩
  case run =>
    simp only [cc2__lg_fused_kernel_eq_skeleton]; unfold cc2__lg_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact HS0

end Cert.Kernel.Reg2

end
-- ==== Proof.BR2RunLast.lean ====
/-
  The third pallas_call's body run at a grid point where the last block of the contracted axis is met (the block's product
  is added to what the accumulator held; then the epilogue combines the accumulated product with the second summand's
  row block through the weight and bias arrays and stores the result over the whole output block): on whole staging
  memrefs holding the eleven operand blocks, the body runs to the end; what it stored into the output block and into
  the accumulator is recorded as the lists of pieces the run itself finds, last store first. At any float instance.
-/
import proofs.«103437_j49752901157443_2_alg».proof.Proof.Gen.Kernel.Launch
import proofs.«103437_j49752901157443_2_alg».proof.Proof.Gen.Kernel.Skeleton
import proofs.«103437_j49752901157443_2_alg».proof.Proof.Gen.Kernel.Points
import proofs.«103437_j49752901157443_2_alg».proof.Proof.BR2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Last block: the accumulator holds `xs` (what the point before left); the output block may hold anything before. -/
noncomputable def runLast (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : ¬cond0 i) (hc1 : cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) (xs : Vec F S1024x64 .f32) :
    Σ' (L11 : List (View.Piece (Elt F) S1024x64 .f32)), { LS : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS)) -∗ K ⟨⟩))
          ⊢ wp frame (wpE (defs₀ (F := F)) Variants.none c none) E (cc2__lg_fused_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc2__lg_fused_kernel_eq_skeleton]; unfold cc2__lg_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    iexists _; iexact HS0

end Cert.Kernel.Reg2

end
-- ==== Proof.BR2Frame.lean ====
/-
  The third pallas_call (lg_a1 @ y with the epilogue) as a pipeline's proof data, at any float instance. The
  accumulator is carried along the four blocks of the contracted axis of one output row-block: after a point ≡ 0
  (mod 4) it holds that point's run over a zeroed accumulator, after every other point the run over what the point
  before left; the output block's staging buffer holds what the epilogue stored after each point ≡ 3 (mod 4) (it is
  idle, and not written back, at the others). The invariant tracks the accumulator at exactly these contents; every
  other scoped buffer and the generator register ride along unopened. The body obligation is then each point's
  case run.
-/
import proofs.«103437_j49752901157443_2_alg».proof.Proof.Gen.Kernel.Launch
import proofs.«103437_j49752901157443_2_alg».proof.Proof.Gen.Kernel.Skeleton
import proofs.«103437_j49752901157443_2_alg».proof.Proof.Gen.Kernel.Points
import proofs.«103437_j49752901157443_2_alg».proof.Proof.BR2RunFirst
import proofs.«103437_j49752901157443_2_alg».proof.Proof.BR2RunMid
import proofs.«103437_j49752901157443_2_alg».proof.Proof.BR2RunLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first block's stores into the accumulator tile it. -/
theorem scoverFirst (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : cond0 i) (hc1 : ¬cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) (y : S1024x64.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10).1, y ∈ pc.1.set :=
  View.cover_of_tiledL (runFirst c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10).1 S1024x64.size (by sl_kernel_rfl) y

/-- What a first block leaves in the accumulator. -/
def accFirst (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : cond0 i) (hc1 : ¬cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) : Vec F S1024x64 .f32 :=
  VS.read (Elt F) (VS.writes (Elt F) VS.junk (runFirst c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10).1)

/-- A middle block's store into the accumulator tiles it. -/
theorem scoverMid (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : ¬cond0 i) (hc1 : ¬cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) (xs : Vec F S1024x64 .f32) (y : S1024x64.Idx) :
    ∃ pc ∈ (runMid c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs).1, y ∈ pc.1.set :=
  View.cover_of_tiledL (runMid c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs).1 S1024x64.size (by sl_kernel_rfl) y

/-- What a middle block leaves in the accumulator. -/
def accMid (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : ¬cond0 i) (hc1 : ¬cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) (xs : Vec F S1024x64 .f32) : Vec F S1024x64 .f32 :=
  VS.read (Elt F) (VS.writes (Elt F) VS.junk (runMid c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs).1)

/-- A last block's store into the output block tiles it. -/
theorem coverLast (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : ¬cond0 i) (hc1 : cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) (xs : Vec F S1024x64 .f32) (y : S1024x64.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs).1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs).1 S1024x64.size (by sl_kernel_rfl) y

/-- What a last block leaves in the output block's staging buffer. -/
def outLast (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : ¬cond0 i) (hc1 : cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) (xs : Vec F S1024x64 .f32) : Vec F S1024x64 .f32 :=
  VO.read (Elt F) (VO.writes (Elt F) VO.junk (runLast c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs).1)

/-- A last block's store into the accumulator tiles it. -/
theorem scoverLast (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : ¬cond0 i) (hc1 : cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) (xs : Vec F S1024x64 .f32) (y : S1024x64.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs).2.1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs).2.1 S1024x64.size (by sl_kernel_rfl) y

/-- What a last block leaves in the accumulator. -/
def accLast (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : ¬cond0 i) (hc1 : cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) (xs : Vec F S1024x64 .f32) : Vec F S1024x64 .f32 :=
  VS.read (Elt F) (VS.writes (Elt F) VS.junk (runLast c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs).2.1)

/-- The output block's staging buffer at a point where the body stores nothing into it: contents nobody reads
    (the block is neither written back there nor read at the next point). -/
def outIdle : Vec F S1024x64 .f32 := VO.read (Elt F) (VO.writes (Elt F) VO.junk [])

/-! ## The accumulation, point by point -/

/-- What the output block's staging buffer and the accumulator hold after the body at position `n`. -/
def outsAt (c : Dev nD) : (n : ℕ) → n < cfg2.N → Vec F S1024x64 .f32 × Vec F S1024x64 .f32
  | 0, hn => (outIdle, accFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) (ms11 ⟨0, hn⟩) (hs11 ⟨0, hn⟩) scM (Memref.isWhole_whole _) ((hcond0 ⟨0, hn⟩).mpr (Nat.zero_mod _)) (fun h => (fun h' => by (try dsimp only at h'); omega) ((hcond1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩))
  | n + 1, hn =>
    if h0 : (n + 1) % 4 = 0 then
      (outIdle, accFirst c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) scM (Memref.isWhole_whole _) ((hcond0 ⟨n + 1, hn⟩).mpr h0) (fun h => (fun h' => by (try dsimp only at h'); omega) ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩))
    else if h3 : (n + 1) % 4 = 3 then
      (outLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) scM (Memref.isWhole_whole _) (fun h => h0 ((hcond0 ⟨n + 1, hn⟩).mp h)) ((hcond1 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (outsAt c n (Nat.lt_of_succ_lt hn)).2,
       accLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) scM (Memref.isWhole_whole _) (fun h => h0 ((hcond0 ⟨n + 1, hn⟩).mp h)) ((hcond1 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (outsAt c n (Nat.lt_of_succ_lt hn)).2)
    else
      (outIdle, accMid c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) scM (Memref.isWhole_whole _) (fun h => h0 ((hcond0 ⟨n + 1, hn⟩).mp h)) (fun h => h3 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (outsAt c n (Nat.lt_of_succ_lt hn)).2)

/-- At a point ≡ 0 (mod 4): a first block's contents. -/
theorem outsAt_first (c : Dev nD) (t : Fin cfg2.N) (h0 : t.val % 4 = 0) :
    outsAt V c t.val t.isLt = (outIdle, accFirst c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) ((hcond0 t).mpr h0) (fun h => (fun h' => by omega) ((hcond1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t)) := by
  obtain ⟨n, hn⟩ := t
  cases n with
  | zero => exact rfl
  | succ n => exact (dif_pos h0).trans rfl

/-- At a point ≡ 1 or 2 (mod 4): a middle block's contents, over what the point before left in the accumulator. -/
theorem outsAt_mid (c : Dev nD) (t : Fin cfg2.N) (h0 : ¬t.val % 4 = 0) (h3 : ¬t.val % 4 = 3) :
    outsAt V c t.val t.isLt = (outIdle, accMid c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (fun h => h0 ((hcond0 t).mp h)) (fun h => h3 ((hcond1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

/-- At a point ≡ 3 (mod 4): a last block's contents, over what the point before left in the accumulator. -/
theorem outsAt_last (c : Dev nD) (t : Fin cfg2.N) (h0 : ¬t.val % 4 = 0) (h3 : t.val % 4 = 3) :
    outsAt V c t.val t.isLt = (outLast c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (fun h => h0 ((hcond0 t).mp h)) ((hcond1 t).mpr h3) (iblk V c 0 t) (iblk V c 1 t) (iblk V c 2 t) (iblk V c 3 t) (iblk V c 4 t) (iblk V c 5 t) (iblk V c 6 t) (iblk V c 7 t) (iblk V c 8 t) (iblk V c 9 t) (iblk V c 10 t) (outsAt V c (t.val - 1) (Nat.lt_of_le_of_lt (Nat.sub_le _ _) t.isLt)).2,
      accLast c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (fun h => h0 ((hcond0 t).mp h)) ((hcond1 t).mpr h3) (iblk V c 0 t) (iblk V c 1 t) (iblk V c 2 t) (iblk V c 3 t) (iblk V c 4 t) (iblk V c 5 t) (iblk V c 6 t) (iblk V c 7 t) (iblk V c 8 t) (iblk V c 9 t) (iblk V c 10 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-! ## The invariant -/

/-- Before position `n`: the class's invariant before the first point (the accumulator at anything); afterwards the
    accumulator at what the point before left, the other scoped buffers unopened, the generator register at some state. -/
def PhiS (c : Dev nD) : (n : ℕ) → n ≤ cfg2.N → sProp 𝕄
  | 0, _ => Pipeline.ΦA spec2 c
  | n + 1, hn => iprop(iprop(owns (c : Thread nD τ) scM fullShare ((outsAt V c n hn).2) ∗ restBut (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM fullShare ((outsAt V c n hn).2) ∗ restBut (F := F) c) ∗ (∃ r, prngReg c r)) := rfl

theorem PhiS_pos (c : Dev nD) (n : ℕ) (h : n ≤ cfg2.N) (hz : n ≠ 0) :
    PhiS V c n h = iprop(iprop(owns (c : Thread nD τ) scM fullShare ((outsAt V c (n - 1) (by omega)).2) ∗ restBut (F := F) c) ∗ (∃ r, prngReg c r)) := by
  cases n with
  | zero => exact absurd rfl hz
  | succ n => rfl

/-! ## The proof data -/

/-- The arrays as the region finds them; after the body at point `t` each operand's buffer at its block and the
    output's at the accumulation's first component; the invariant above; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = iblk V c 8 t := by dsimp only [dat]
theorem after_9 (c : Dev nD) (t : Fin cfg2.N) : (dat V c).after 9 t = iblk V c 9 t := by dsimp only [dat]
theorem after_10 (c : Dev nD) (t : Fin cfg2.N) : (dat V c).after 10 t = iblk V c 10 t := by dsimp only [dat]
theorem after_11 (c : Dev nD) (t : Fin cfg2.N) : (dat V c).after 11 t = (outsAt V c t.val t.isLt).1 := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d
theorem before_5 (c : Dev nD) (t : Fin cfg2.N) (d) : (dat V c).before 5 t d = iblk V c 5 t :=
  before_5_of V (dat V c) (A_eq V c 5) (after_5 V c) t d
theorem before_6 (c : Dev nD) (t : Fin cfg2.N) (d) : (dat V c).before 6 t d = iblk V c 6 t :=
  before_6_of V (dat V c) (A_eq V c 6) (after_6 V c) t d
theorem before_7 (c : Dev nD) (t : Fin cfg2.N) (d) : (dat V c).before 7 t d = iblk V c 7 t :=
  before_7_of V (dat V c) (A_eq V c 7) (after_7 V c) t d
theorem before_8 (c : Dev nD) (t : Fin cfg2.N) (d) : (dat V c).before 8 t d = iblk V c 8 t :=
  before_8_of V (dat V c) (A_eq V c 8) (after_8 V c) t d
theorem before_9 (c : Dev nD) (t : Fin cfg2.N) (d) : (dat V c).before 9 t d = iblk V c 9 t :=
  before_9_of V (dat V c) (A_eq V c 9) (after_9 V c) t d
theorem before_10 (c : Dev nD) (t : Fin cfg2.N) (d) : (dat V c).before 10 t d = iblk V c 10 t :=
  before_10_of V (dat V c) (A_eq V c 10) (after_10 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d))
    ∗ (∃ d, owns (c : Thread nD τ) (ms11 t) fullShare ((dat V c).before 11 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t)

set_option maxHeartbeats 16000000 in
/-- The body at any point: the operands' memrefs hold their blocks; the point's residue mod 4 says which case it is in;
    the invariant hands the body the accumulator (at anything at the very first point, else at what the point before
    left) and takes it back at this point's contents. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8, before_9, before_10]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  rw [show (dat V c).leavesExact 4 t = owns (c : Thread nD τ) (ms4 t) fullShare ((dat V c).after 4 t) from by
    unfold Dat.leavesExact; rw [live_4 t], after_4]
  rw [show (dat V c).leavesExact 5 t = owns (c : Thread nD τ) (ms5 t) fullShare ((dat V c).after 5 t) from by
    unfold Dat.leavesExact; rw [live_5 t], after_5]
  rw [show (dat V c).leavesExact 6 t = owns (c : Thread nD τ) (ms6 t) fullShare ((dat V c).after 6 t) from by
    unfold Dat.leavesExact; rw [live_6 t], after_6]
  rw [show (dat V c).leavesExact 7 t = owns (c : Thread nD τ) (ms7 t) fullShare ((dat V c).after 7 t) from by
    unfold Dat.leavesExact; rw [live_7 t], after_7]
  rw [show (dat V c).leavesExact 8 t = owns (c : Thread nD τ) (ms8 t) fullShare ((dat V c).after 8 t) from by
    unfold Dat.leavesExact; rw [live_8 t], after_8]
  rw [show (dat V c).leavesExact 9 t = owns (c : Thread nD τ) (ms9 t) fullShare ((dat V c).after 9 t) from by
    unfold Dat.leavesExact; rw [live_9 t], after_9]
  rw [show (dat V c).leavesExact 10 t = owns (c : Thread nD τ) (ms10 t) fullShare ((dat V c).after 10 t) from by
    unfold Dat.leavesExact; rw [live_10 t], after_10]
  by_cases h0 : t.val % 4 = 0
  · have hc0 : cond0 (grid2.coords t) := (hcond0 t).mpr h0
    have hc1 : ¬cond1 (grid2.coords t) := fun h => (fun h' => by omega) ((hcond1 t).mp h)
    rw [Dat.leavesExact_idle (dat V c) 11 t (idle_11_first t hc0 hc1) (noFlush_11_first t hc0 hc1)]
    rw [outsAt_first V c t h0]
    unfold accFirst; (try dsimp only)
    by_cases hz : t.val = 0
    · rw [PhiS_castSucc V c t, PhiS_zero V c _ _ hz, PhiA_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runFirst c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) (iblk V c 10 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      iintro ⟨H0, H1, H2, H3, H4, H5, H6, H7, H8, H9, H10, H11, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverFirst c _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runFirst c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) (iblk V c 10 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexists _; iexact HS0
      iintro ⟨H0, H1, H2, H3, H4, H5, H6, H7, H8, H9, H10, H11, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverFirst c _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
  · have hc0 : ¬cond0 (grid2.coords t) := fun h => h0 ((hcond0 t).mp h)
    have hz : t.val ≠ 0 := fun hz => h0 (by rw [hz])
    by_cases h3 : t.val % 4 = 3
    · have hc1 : cond1 (grid2.coords t) := (hcond1 t).mpr h3
      rw [show (dat V c).leavesExact 11 t = owns (c : Thread nD τ) (ms11 t) fullShare ((dat V c).after 11 t) from by
        unfold Dat.leavesExact; rw [live_11_last t hc0 hc1], after_11]
      rw [outsAt_last V c t h0 h3]
      unfold outLast accLast; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runLast c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) (iblk V c 10 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      iintro ⟨H0, H1, H2, H3, H4, H5, H6, H7, H8, H9, H10, ⟨%e11, H11⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverLast c _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (coverLast c _ _ _ _ _ _ _ _ _ _ _ _ _ _ _ _ _ _ _ _ _ _ _ _ _ _ _ _ _ _ _ _ _ _ _ _ _ _ _ _ _)
    · have hc1 : ¬cond1 (grid2.coords t) := fun h => h3 ((hcond1 t).mp h)
      rw [Dat.leavesExact_idle (dat V c) 11 t (idle_11_mid t hc0 hc1) (noFlush_11_mid t hc0 hc1)]
      rw [outsAt_mid V c t h0 h3]
      unfold accMid; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runMid c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) (iblk V c 10 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      iintro ⟨H0, H1, H2, H3, H4, H5, H6, H7, H8, H9, H10, H11, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverMid c _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Reg2

end
-- ==== Proof.BKRun.lean ====
/-
  The kernel program's whole run, at any float instance: @main is bias reshapes, the first pallas_call, a batch-norm
  stretch of host operations, the second and third pallas_calls, a second batch-norm stretch. Each pallas_call enters
  from the thread state "every unscoped buffer at the contents so far" and leaves with its one output array at what
  its pipeline wrote back; the host stretches apply their operations. Chained, the run ends with every unscoped
  buffer at the last of these contents: the arguments as launched (the frame), and the result array named.
-/
import proofs.«103437_j49752901157443_2_alg».proof.Proof.Gen.Kernel.Launch
import proofs.«103437_j49752901157443_2_alg».proof.Proof.Gen.Kernel.Skeleton
import proofs.«103437_j49752901157443_2_alg».proof.Proof.Gen.Kernel.Points
import proofs.«103437_j49752901157443_2_alg».proof.Proof.Gen.Kernel.Regions
import proofs.«103437_j49752901157443_2_alg».proof.Proof.BR0Frame
import proofs.«103437_j49752901157443_2_alg».proof.Proof.BR1Frame
import proofs.«103437_j49752901157443_2_alg».proof.Proof.BR2Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev Vat (W : Dev nD → Valuation τ sig (Elt F)) : (c : Dev nD) → (b : Ref sig .tc) → Buf (Elt F) ((c : Thread nD τ).loc b) := fun c b => W c b

/-! ## What the three regions leave -/

/-- Every buffer at the first region's exit: its arrays at what its pipeline leaves, the rest as entered. -/
def U2 (c : Dev nD) : Valuation τ sig (Elt F) :=
  Pipeline.withArrays spec0 c (V1 m c) fun w => (Reg0.dat (Vat (V1 m)) c).arrAt w cfg0.N
def outs₂ : Outs (F := F) := fun _ r c => U2 m c r
/-- Every buffer at the second region's exit. -/
def U4 (c : Dev nD) : Valuation τ sig (Elt F) :=
  Pipeline.withArrays spec1 c (V3 m (outs₂ m) c) fun w => (Reg1.dat (Vat (V3 m (outs₂ m))) c).arrAt w cfg1.N
def outs₄ : Outs (F := F) := fun J r c => if J = 2 then U2 m c r else U4 m c r
/-- Every buffer at the third region's exit. -/
def U5 (c : Dev nD) : Valuation τ sig (Elt F) :=
  Pipeline.withArrays spec2 c (V4 m (outs₄ m) c) fun w => (Reg2.dat (Vat (V4 m (outs₄ m))) c).arrAt w cfg2.N
/-- What each region leaves in the one buffer it may change. -/
def outs : Outs (F := F) := fun J r c => if J = 2 then U2 m c r else if J = 4 then U4 m c r else U5 m c r

theorem V3_outs (c : Dev nD) : V3 m (outs m) c = V3 m (outs₂ m) c := rfl
theorem V4_outs (c : Dev nD) : V4 m (outs m) c = V4 m (outs₄ m) c := rfl
theorem V3_outs₄ (c : Dev nD) : V3 m (outs₄ m) c = V3 m (outs₂ m) c := rfl

/-! ## The proof data family and what rides beside the buffers -/

def pdats : (p : Fin 3) → (c : Dev nD) → Dat τ (Elt F) Unit ℕ (UR sig nD τ) ℕ (cfgs p) c
  | ⟨0, _⟩ => fun c => Reg0.dat (Vat (V1 m)) c
  | ⟨1, _⟩ => fun c => Reg1.dat (Vat (V3 m (outs₂ m))) c
  | ⟨2, _⟩ => fun c => Reg2.dat (Vat (V4 m (outs₄ m))) c

abbrev 𝒱₀ : Variants := Variants.none
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)

/-! ## Region 0 -/

set_option maxHeartbeats 4000000 in
theorem hF0 (c : Dev nD) (w : Fin cfg0.W) :
    (Reg0.dat (Vat (V1 m)) c).arrAt w cfg0.N = Vat (V2 m (outs₂ m)) c (Pipeline.arrRef spec0 w) := by
  fin_cases w
  · exact (((Reg0.dat (Vat (V1 m)) c).arrAt_in 0 rfl _).trans (Reg0.A_eq _ c 0)).trans (V2_of m (outs₂ m) c main_arg5 (by decide)).symm
  · exact (((Reg0.dat (Vat (V1 m)) c).arrAt_in 1 rfl _).trans (Reg0.A_eq _ c 1)).trans (V2_of m (outs₂ m) c main_arg0 (by decide)).symm
  · exact (((Reg0.dat (Vat (V1 m)) c).arrAt_in 2 rfl _).trans (Reg0.A_eq _ c 2)).trans (V2_of m (outs₂ m) c main_arg6 (by decide)).symm
  · exact (((Reg0.dat (Vat (V1 m)) c).arrAt_in 3 rfl _).trans (Reg0.A_eq _ c 3)).trans (V2_of m (outs₂ m) c main_v0 (by decide)).symm
  · exact (((Reg0.dat (Vat (V1 m)) c).arrAt_in 4 rfl _).trans (Reg0.A_eq _ c 4)).trans (V2_of m (outs₂ m) c main_arg8 (by decide)).symm
  · exact (((Reg0.dat (Vat (V1 m)) c).arrAt_in 5 rfl _).trans (Reg0.A_eq _ c 5)).trans (V2_of m (outs₂ m) c main_v1 (by decide)).symm
  · show _ = Function.update (V1 m c) main_v6 (outs₂ m 2 main_v6 c) main_v6
    rw [Function.update_self]
    show _ = U2 m c (Proc.devRef .tc (Pipeline.arrRef spec0 6))
    unfold U2
    exact (Pipeline.withArrays_arr spec0 launch0.win.arr_inj c (V1 m c) (fun w => (Reg0.dat (Vat (V1 m)) c).arrAt w cfg0.N) 6).symm

theorem hrest0 (c : Dev nD) : ∀ b, b ∉ Finset.univ.image (Pipeline.arrRef spec0) → Vat (V2 m (outs₂ m)) c b = Vat (V1 m) c b :=
  fun b hb => V2_of m (outs₂ m) c b (fun h => hb (Finset.mem_image.mpr ⟨6, Finset.mem_univ _, (List.mem_singleton.mp h).symm⟩))

set_option backward.isDefEq.respectTransparency.types false in
/-- Region 0 over the thread state: entered from every unscoped buffer at the contents after the bias reshapes, left with `main_v6` at what the pipeline wrote back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (Vat (V1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs₂ m) c) ∗ R c)
  X c := iprop(∃ r, prngReg c r)
  Y c := iprop(∃ r, prngReg c r)
  Z c := Pipeline.unscopedRest (Ix := Unit) (Name := ℕ) (U := UR sig nD τ) (Lvl := ℕ) spec0 c (Vat (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vat (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Reg0.PhiS (Vat (V1 m)) c (15 + 1) (Nat.le_of_eq N_0.symm) from rfl, Reg0.PhiS_succ]
    have back : (iprop(iprop(owns (c : Thread nD τ) Reg0.scM fullShare ((Reg0.outsAt (Vat (V1 m)) c 15 (Nat.le_of_eq N_0.symm)).2) ∗ Reg0.restBut (F := F) c) ∗ (∃ r, prngReg c r)) : sProp 𝕄)
        ⊢ Pipeline.ΦA spec0 c := by
      rw [Reg0.PhiA_eq]
      iintro ⟨⟨HS, HR⟩, Hp⟩
      isplitl [HS HR]
      · isplitl [HS]; · iexists _; iexact HS
        iexact HR
      iexact Hp
    refine back.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vat (V1 m) c) (Vat (V2 m (outs₂ m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

theorem hF1 (c : Dev nD) (w : Fin cfg1.W) :
    (Reg1.dat (Vat (V3 m (outs₂ m))) c).arrAt w cfg1.N = Vat (V4 m (outs₄ m)) c (Pipeline.arrRef spec1 w) := by
  fin_cases w
  · exact (((Reg1.dat (Vat (V3 m (outs₂ m))) c).arrAt_in 0 rfl _).trans (Reg1.A_eq _ c 0)).trans (V4_of m (outs₄ m) c main_arg4 (by decide)).symm
  · exact (((Reg1.dat (Vat (V3 m (outs₂ m))) c).arrAt_in 1 rfl _).trans (Reg1.A_eq _ c 1)).trans (V4_of m (outs₄ m) c main_v31 (by decide)).symm
  · show _ = Function.update (V3 m (outs₄ m) c) main_v32 (outs₄ m 4 main_v32 c) main_v32
    rw [Function.update_self]
    show _ = U4 m c (Proc.devRef .tc (Pipeline.arrRef spec1 2))
    unfold U4
    exact (Pipeline.withArrays_arr spec1 launch1.win.arr_inj c (V3 m (outs₂ m) c) (fun w => (Reg1.dat (Vat (V3 m (outs₂ m))) c).arrAt w cfg1.N) 2).symm

theorem hrest1 (c : Dev nD) : ∀ b, b ∉ Finset.univ.image (Pipeline.arrRef spec1) → Vat (V4 m (outs₄ m)) c b = Vat (V3 m (outs₂ m)) c b :=
  fun b hb => V4_of m (outs₄ m) c b (fun h => hb (Finset.mem_image.mpr ⟨2, Finset.mem_univ _, (List.mem_singleton.mp h).symm⟩))

set_option backward.isDefEq.respectTransparency.types false in
/-- Region 1 over the thread state: entered from every unscoped buffer at the contents after the first batch-norm stretch, left with `main_v32` at what the pipeline wrote back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (Vat (V3 m (outs₂ m))) c).loose
  hwaits := Pipeline.hwaits_of_owed_zero _ _ _ _ L lv 1 fun _ _ => rfl
  pre c := iprop(StableHlo.held (c : Thread nD τ) (Pipeline.ucRefs τ sig) (V3 m (outs₂ m) c) ∗ R c)
  post c := iprop(StableHlo.held (c : Thread nD τ) (Pipeline.ucRefs τ sig) (V4 m (outs₄ m) c) ∗ R c)
  X c := iprop(∃ r, prngReg c r)
  Y c := iprop(∃ r, prngReg c r)
  Z c := Pipeline.unscopedRest (Ix := Unit) (Name := ℕ) (U := UR sig nD τ) (Lvl := ℕ) spec1 c (Vat (V3 m (outs₂ m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vat (V3 m (outs₂ m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Reg1.PhiS (Vat (V3 m (outs₂ m))) c (15 + 1) (Nat.le_of_eq N_1.symm) from rfl, Reg1.PhiS_succ]
    have back : (iprop(iprop(owns (c : Thread nD τ) Reg1.scM fullShare ((Reg1.outsAt (Vat (V3 m (outs₂ m))) c 15 (Nat.le_of_eq N_1.symm)).2) ∗ Reg1.restBut (F := F) c) ∗ (∃ r, prngReg c r)) : sProp 𝕄)
        ⊢ Pipeline.ΦA spec1 c := by
      rw [Reg1.PhiA_eq]
      iintro ⟨⟨HS, HR⟩, Hp⟩
      isplitl [HS HR]
      · isplitl [HS]; · iexists _; iexact HS
        iexact HR
      iexact Hp
    refine back.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vat (V3 m (outs₂ m)) c) (Vat (V4 m (outs₄ m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

set_option maxHeartbeats 4000000 in
theorem hF2 (c : Dev nD) (w : Fin cfg2.W) :
    (Reg2.dat (Vat (V4 m (outs₄ m))) c).arrAt w cfg2.N = Vat (V5 m (outs m)) c (Pipeline.arrRef spec2 w) := by
  fin_cases w
  · exact (((Reg2.dat (Vat (V4 m (outs₄ m))) c).arrAt_in 0 rfl _).trans (Reg2.A_eq _ c 0)).trans (V5_of m (outs m) c main_arg3 (by decide)).symm
  · exact (((Reg2.dat (Vat (V4 m (outs₄ m))) c).arrAt_in 1 rfl _).trans (Reg2.A_eq _ c 1)).trans (V5_of m (outs m) c main_arg0 (by decide)).symm
  · exact (((Reg2.dat (Vat (V4 m (outs₄ m))) c).arrAt_in 2 rfl _).trans (Reg2.A_eq _ c 2)).trans (V5_of m (outs m) c main_v32 (by decide)).symm
  · exact (((Reg2.dat (Vat (V4 m (outs₄ m))) c).arrAt_in 3 rfl _).trans (Reg2.A_eq _ c 3)).trans (V5_of m (outs m) c main_arg10 (by decide)).symm
  · exact (((Reg2.dat (Vat (V4 m (outs₄ m))) c).arrAt_in 4 rfl _).trans (Reg2.A_eq _ c 4)).trans (V5_of m (outs m) c main_v2 (by decide)).symm
  · exact (((Reg2.dat (Vat (V4 m (outs₄ m))) c).arrAt_in 5 rfl _).trans (Reg2.A_eq _ c 5)).trans (V5_of m (outs m) c main_arg14 (by decide)).symm
  · exact (((Reg2.dat (Vat (V4 m (outs₄ m))) c).arrAt_in 6 rfl _).trans (Reg2.A_eq _ c 6)).trans (V5_of m (outs m) c main_v4 (by decide)).symm
  · exact (((Reg2.dat (Vat (V4 m (outs₄ m))) c).arrAt_in 7 rfl _).trans (Reg2.A_eq _ c 7)).trans (V5_of m (outs m) c main_arg12 (by decide)).symm
  · exact (((Reg2.dat (Vat (V4 m (outs₄ m))) c).arrAt_in 8 rfl _).trans (Reg2.A_eq _ c 8)).trans (V5_of m (outs m) c main_v3 (by decide)).symm
  · exact (((Reg2.dat (Vat (V4 m (outs₄ m))) c).arrAt_in 9 rfl _).trans (Reg2.A_eq _ c 9)).trans (V5_of m (outs m) c main_arg16 (by decide)).symm
  · exact (((Reg2.dat (Vat (V4 m (outs₄ m))) c).arrAt_in 10 rfl _).trans (Reg2.A_eq _ c 10)).trans (V5_of m (outs m) c main_v5 (by decide)).symm
  · show _ = Function.update (V4 m (outs m) c) main_v33 (outs m 5 main_v33 c) main_v33
    rw [Function.update_self]
    show _ = U5 m c (Proc.devRef .tc (Pipeline.arrRef spec2 11))
    unfold U5
    exact (Pipeline.withArrays_arr spec2 launch2.win.arr_inj c (V4 m (outs₄ m) c) (fun w => (Reg2.dat (Vat (V4 m (outs₄ m))) c).arrAt w cfg2.N) 11).symm

theorem hrest2 (c : Dev nD) : ∀ b, b ∉ Finset.univ.image (Pipeline.arrRef spec2) → Vat (V5 m (outs m)) c b = Vat (V4 m (outs₄ m)) c b :=
  fun b hb => V5_of m (outs m) c b (fun h => hb (Finset.mem_image.mpr ⟨11, Finset.mem_univ _, (List.mem_singleton.mp h).symm⟩))

set_option backward.isDefEq.respectTransparency.types false in
/-- Region 2 over the thread state: entered from the second region's exit contents, left with `main_v33` at what the pipeline wrote back. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (Vat (V4 m (outs₄ m))) c).loose
  hwaits := Pipeline.hwaits_of_owed_zero _ _ _ _ L lv 2 fun _ _ => rfl
  pre c := iprop(StableHlo.held (c : Thread nD τ) (Pipeline.ucRefs τ sig) (V4 m (outs₄ m) c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Vat (V4 m (outs₄ m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vat (V4 m (outs₄ m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Reg2.PhiS (Vat (V4 m (outs₄ m))) c (31 + 1) (Nat.le_of_eq N_2.symm) from rfl, Reg2.PhiS_succ]
    have back : (iprop(iprop(owns (c : Thread nD τ) Reg2.scM fullShare ((Reg2.outsAt (Vat (V4 m (outs₄ m))) c 31 (Nat.le_of_eq N_2.symm)).2) ∗ Reg2.restBut (F := F) c) ∗ (∃ r, prngReg c r)) : sProp 𝕄)
        ⊢ Pipeline.ΦA spec2 c := by
      rw [Reg2.PhiA_eq]
      iintro ⟨⟨HS, HR⟩, Hp⟩
      isplitl [HS HR]
      · isplitl [HS]; · iexists _; iexact HS
        iexact HR
      iexact Hp
    refine back.trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vat (V4 m (outs₄ m)) c) (Vat (V5 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- What rides beside the buffers through every host stretch. -/
abbrev E4 : Fin 4 → Dev nD → sProp 𝕄 := fun _ c => R c

/-- @main's six items in order: the bias reshapes, the first region, the first batch-norm stretch, the second and the
    third region, the second batch-norm stretch. -/
abbrev segs : List (Pipeline.Seg (pcfgs (F := F)) adm (pdats m) () defs₀ 𝒱₀ L lv) :=
  [ .host (seg0 m 𝒱₀ L lv E4),
    .region (reg0 m),
    .host (seg2 m (outs₂ m) 𝒱₀ L lv E4),
    .region (reg1 m),
    .region (reg2 m),
    .host (seg5 m (outs m) 𝒱₀ L lv E4) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, at any float instance: from any memory with zero counters every weakly fair execution of @main terminates,
    nothing faulting, and every final memory holds each unscoped buffer at the last valuation of the fold through
    @main — the launch contents, each host stretch's operations applied, each region's output array at what its
    pipeline wrote back. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V6 m (outs m) c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V6 m (outs m) c))
    (hch := ⟨fun _ => .rfl, fun _ => .rfl, fun _ => .rfl, fun _ => .rfl, fun _ => .rfl, fun _ => .rfl,
      fun c => sep_mono .rfl (show R c ⊢ _ from by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V6 m (outs m) c b)
    (hfin := fun c s' => by
      iintro ⟨Hh, HSI⟩
      unfold StableHlo.held
      imodintro
      iapply (pointsTo_read_all (Pipeline.ucRefs τ sig) (fun b => (((c : Thread nD τ)).1, b)) (V6 m (outs m) c) s')
      isplitl [Hh] <;> iassumption)
    (hQ := fun s h => h)

/-- THE FRAME, at any float instance: every argument array ends as launched (no host stretch writes one, no region may
    change one). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨(h c _ (mem_uc main_arg0 (by decide))).trans (V6_main_arg0 m (outs m) c),
      (h c _ (mem_uc main_arg1 (by decide))).trans (V6_main_arg1 m (outs m) c),
      (h c _ (mem_uc main_arg2 (by decide))).trans (V6_main_arg2 m (outs m) c),
      (h c _ (mem_uc main_arg3 (by decide))).trans (V6_main_arg3 m (outs m) c),
      (h c _ (mem_uc main_arg4 (by decide))).trans (V6_main_arg4 m (outs m) c),
      (h c _ (mem_uc main_arg5 (by decide))).trans (V6_main_arg5 m (outs m) c),
      (h c _ (mem_uc main_arg6 (by decide))).trans (V6_main_arg6 m (outs m) c),
      (h c _ (mem_uc main_arg7 (by decide))).trans (V6_main_arg7 m (outs m) c),
      (h c _ (mem_uc main_arg8 (by decide))).trans (V6_main_arg8 m (outs m) c),
      (h c _ (mem_uc main_arg9 (by decide))).trans (V6_main_arg9 m (outs m) c),
      (h c _ (mem_uc main_arg10 (by decide))).trans (V6_main_arg10 m (outs m) c),
      (h c _ (mem_uc main_arg11 (by decide))).trans (V6_main_arg11 m (outs m) c),
      (h c _ (mem_uc main_arg12 (by decide))).trans (V6_main_arg12 m (outs m) c),
      (h c _ (mem_uc main_arg13 (by decide))).trans (V6_main_arg13 m (outs m) c),
      (h c _ (mem_uc main_arg14 (by decide))).trans (V6_main_arg14 m (outs m) c),
      (h c _ (mem_uc main_arg15 (by decide))).trans (V6_main_arg15 m (outs m) c),
      (h c _ (mem_uc main_arg16 (by decide))).trans (V6_main_arg16 m (outs m) c),
      (h c _ (mem_uc main_arg17 (by decide))).trans (V6_main_arg17 m (outs m) c),
      (h c _ (mem_uc main_arg18 (by decide))).trans (V6_main_arg18 m (outs m) c),
      (h c _ (mem_uc main_arg19 (by decide))).trans (V6_main_arg19 m (outs m) c),
      (h c _ (mem_uc main_arg20 (by decide))).trans (V6_main_arg20 m (outs m) c),
      (h c _ (mem_uc main_arg21 (by decide))).trans (V6_main_arg21 m (outs m) c)⟩) (run_all m ρ)

/-- The result array after the run: the second batch-norm stretch applied to the third region's exit contents. -/
theorem result_at (ρ : Dev nD → PrngReg) :
    θ_run defs (onTc (τ := τ) (main (F := F))) ⟨m, fun _ => 0, ρ⟩ (fun r => ∀ c : Dev nD,
      r.2.mem ((c.tc : Thread nD τ).loc main_v58) = V6 m (outs m) c main_v58) :=
  (θ_run defs _ _).mono (fun r h c => h c _ (mem_uc main_v58 (by decide))) (run_all m ρ)

end Cert.Kernel.Asm

end
-- ==== Proof.R0Runs.lean ====
/-
  The first pallas_call (pd @ y accumulated over four blocks of the contracted axis, then two linear layers) seen
  from one grid point: the blocks its seven windows hold there, the two conditions of the body in closed form over
  the sixteen grid points (the contracted-axis coordinate is the point's residue modulo four), where the output
  window is idle and where it is written back, the memrefs the body is called with, and the region's class
  invariant opened at the accumulator. Everything here is at any float instance.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's proof data are stated at
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The current staging buffer of the `pd` block holds its block at every point, for any proof data whose array is the
    entry contents and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the `y` block. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for the first layer's weight. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The same for the first layer's bias row. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The same for the second layer's weight. -/
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The same for the second layer's bias row. -/
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first block of the contracted axis": the accumulator is zeroed. -/
abbrev cond0 (i : grid0.Coords) : Prop := (Scalar.cmpi .ne (Scalar.extui (Scalar.cmpi .eq (BitVec.ofNat 32 (i 1).val) 0#32)) 0#32) = 1#1
/-- It holds at the points ≡ 0 (mod 4). -/
theorem hcond0 : ∀ t : Fin cfg0.N, cond0 (grid0.coords t) ↔ t.val % 4 = 0 :=
  (by decide +kernel : ∀ t : Fin grid0.N, cond0 (grid0.coords t) ↔ t.val % 4 = 0)

/-- "This is the last block of the contracted axis": the two linear layers are applied to the accumulator and the
    result stored in the output block. -/
abbrev cond1 (i : grid0.Coords) : Prop := k0_cond2 i = 1#1
/-- It holds at the points ≡ 3 (mod 4). -/
theorem hcond1 : ∀ t : Fin cfg0.N, cond1 (grid0.coords t) ↔ t.val % 4 = 3 :=
  (by decide +kernel : ∀ t : Fin grid0.N, cond1 (grid0.coords t) ↔ t.val % 4 = 3)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
/-- At a first block the body stores nothing into the output window, -/
theorem idle_6_first : ∀ t : Fin cfg0.N, cond0 (grid0.coords t) → ¬cond1 (grid0.coords t) → cfg0.idle 6 (grid0.coords t) = true := by decide +kernel
/-- and the pipeline does not write its block back. -/
theorem noFlush_6_first : ∀ t : Fin cfg0.N, cond0 (grid0.coords t) → ¬cond1 (grid0.coords t) → (cfg0.win 6).flush t = false := by decide +kernel
/-- The same at a middle block. -/
theorem idle_6_mid : ∀ t : Fin cfg0.N, ¬cond0 (grid0.coords t) → ¬cond1 (grid0.coords t) → cfg0.idle 6 (grid0.coords t) = true := by decide +kernel
theorem noFlush_6_mid : ∀ t : Fin cfg0.N, ¬cond0 (grid0.coords t) → ¬cond1 (grid0.coords t) → (cfg0.win 6).flush t = false := by decide +kernel
/-- At a last block the body stores the whole output block. -/
theorem live_6_last : ∀ t : Fin cfg0.N, ¬cond0 (grid0.coords t) → cond1 (grid0.coords t) → cfg0.idle 6 (grid0.coords t) = false := by decide +kernel

/-! ## The memrefs the body is called with -/

/-- One staging buffer of the output window, through which its contents are stated. -/
abbrev VO : View sig .tc .vmem S1024x64 .f32 := (Memref.whole cc0_stg6_0 : Memref sig .tc .vmem S1024x64 .f32).view
abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x64 .f32 := win0_6.stage (cfg0.slots t 6)
abbrev hs6 (t : Fin cfg0.N) : (ms6 t).IsWhole := hstage0_6 ((cfg0.slots t 6).cast nbuf0_6)
/-- The accumulator: a whole scoped buffer of the kernel's own. -/
abbrev scM : Memref sig .tc .vmem S1024x64 .f32 := Memref.whole cc0_scratch0
abbrev VS : View sig .tc .vmem S1024x64 .f32 := scM.view

/-- Every other scoped buffer of the core (the other calls' staging buffers and accumulators), unopened. -/
abbrev restBut (c : Dev nD) : sProp 𝕄 :=
  Pipeline.scopedRestBut (Ix := Unit) (Name := ℕ) (U := UR sig nD τ) (Lvl := ℕ) (Val := Elt F) spec0 c [cc0_scratch0]

/-- The class invariant with the accumulator as a memref owned at some contents. -/
theorem PhiA_eq (c : Dev nD) :
    (Pipeline.ΦA spec0 c : sProp 𝕄)
      = iprop(iprop(iprop((∃ d, owns (c : Thread nD τ) scM fullShare d)) ∗ restBut (F := F) c) ∗ (∃ r, prngReg c r)) := by
  unfold Pipeline.ΦA; rw [scopedRest0_split]; simp only [scM, owns_whole]; try rfl

end Cert.KernelIdeal.Reg0

end
-- ==== Proof.R0RunFirst.lean ====
/-
  The first pallas_call's body run at a grid point where the first block of the contracted axis is met (the
  accumulator is zeroed, then the block's product added; the output block and the four small operands are not
  touched): on whole staging memrefs holding the operand blocks, the body runs to the end; what it stored into the
  accumulator is recorded as the list of pieces the run itself finds, last store first. At any float instance.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First block: the accumulator may hold anything before; the output block `xi6` is handed back untouched. -/
noncomputable def runFirst (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : cond0 i) (hc1 : ¬cond1 i)
    (x0 : Vec F S1024x2048 .f32) (x1 : Vec F S2048x64 .f32) (x2 : Vec F S32x64 .f32) (x3 : Vec F S1x32 .f32) (x4 : Vec F S32x64 .f32) (x5 : Vec F S1x32 .f32) :
    { LS : List (View.Piece (Elt F) S1024x64 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc0__pd_fused_kernel i arg2 harg2 arg3 harg3 arg4 harg4 arg5 harg5 arg6 harg6 arg7 harg7 arg8 harg8 arg9 harg9) K } := by
  refine ⟨?_, fun xi6 E K => ?run⟩
  case run =>
    simp only [cc0__pd_fused_kernel_eq_skeleton]; unfold cc0__pd_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Reg0

end
-- ==== Proof.R0RunMid.lean ====
/-
  The first pallas_call's body run at a grid point where a middle block of the contracted axis is met (the block's
  product is added to what the accumulator held; the output block and the four small operands are not touched):
  on whole staging memrefs holding the operand blocks, the body runs to the end; what it stored into the
  accumulator is recorded as the list of pieces the run itself finds. At any float instance.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle block: the accumulator holds `xs` (what the point before left); the output block `xi6` is handed back untouched. -/
noncomputable def runMid (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : ¬cond0 i) (hc1 : ¬cond1 i)
    (x0 : Vec F S1024x2048 .f32) (x1 : Vec F S2048x64 .f32) (x2 : Vec F S32x64 .f32) (x3 : Vec F S1x32 .f32) (x4 : Vec F S32x64 .f32) (x5 : Vec F S1x32 .f32) (xs : Vec F S1024x64 .f32) :
    { LS : List (View.Piece (Elt F) S1024x64 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc0__pd_fused_kernel i arg2 harg2 arg3 harg3 arg4 harg4 arg5 harg5 arg6 harg6 arg7 harg7 arg8 harg8 arg9 harg9) K } := by
  refine ⟨?_, fun xi6 E K => ?run⟩
  case run =>
    simp only [cc0__pd_fused_kernel_eq_skeleton]; unfold cc0__pd_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Reg0

end
-- ==== Proof.R0RunLast.lean ====
/-
  The first pallas_call's body run at a grid point where the last block of the contracted axis is met (the block's
  product is added to what the accumulator held, then the two linear layers of the sum, the second followed by the
  maximum with zero, are joined and stored whole into the output block): on whole staging memrefs holding the
  operand blocks, the body runs to the end; what it stored into the output block and into the accumulator is
  recorded as the lists of pieces the run itself finds. At any float instance.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last block: the accumulator holds `xs` (what the point before left); the output block may hold anything before. -/
noncomputable def runLast (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : ¬cond0 i) (hc1 : cond1 i)
    (x0 : Vec F S1024x2048 .f32) (x1 : Vec F S2048x64 .f32) (x2 : Vec F S32x64 .f32) (x3 : Vec F S1x32 .f32) (x4 : Vec F S32x64 .f32) (x5 : Vec F S1x32 .f32) (xs : Vec F S1024x64 .f32) :
    Σ' (L6 : List (View.Piece (Elt F) S1024x64 .f32)), { LS : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc0__pd_fused_kernel i arg2 harg2 arg3 harg3 arg4 harg4 arg5 harg5 arg6 harg6 arg7 harg7 arg8 harg8 arg9 harg9) K } := by
  refine ⟨?_, ?_, fun E K => ?run⟩
  case run =>
    simp only [cc0__pd_fused_kernel_eq_skeleton]; unfold cc0__pd_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Reg0

end
-- ==== Proof.R0Frame.lean ====
/-
  The first pallas_call (pd @ y, then two linear layers) as a pipeline's proof data, at any float instance. The
  accumulator is carried over the four blocks of the contracted axis of one output row-block: after a point ≡ 0
  (mod 4) it holds that point's run over a zeroed accumulator, after any other point the run over what the point
  before left; the output block's staging buffer holds the stored result after each point ≡ 3 (mod 4) (it is idle,
  and not written back, at the others). The invariant tracks the accumulator at exactly these contents; every other
  scoped buffer and the generator register ride along unopened. The body obligation is then each point's case run.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.R0RunFirst
import proofs.«103437_j49752901157443_2_alg».proof.Proof.R0RunMid
import proofs.«103437_j49752901157443_2_alg».proof.Proof.R0RunLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first block's stores into the accumulator tile it. -/
theorem scoverFirst (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : cond0 i) (hc1 : ¬cond1 i)
    (x0 : Vec F S1024x2048 .f32) (x1 : Vec F S2048x64 .f32) (x2 : Vec F S32x64 .f32) (x3 : Vec F S1x32 .f32) (x4 : Vec F S32x64 .f32) (x5 : Vec F S1x32 .f32) (y : S1024x64.Idx) :
    ∃ pc ∈ (runFirst c i arg2 harg2 arg3 harg3 arg4 harg4 arg5 harg5 arg6 harg6 arg7 harg7 arg8 harg8 arg9 harg9 hc0 hc1 x0 x1 x2 x3 x4 x5).1, y ∈ pc.1.set :=
  View.cover_of_tiledL (runFirst c i arg2 harg2 arg3 harg3 arg4 harg4 arg5 harg5 arg6 harg6 arg7 harg7 arg8 harg8 arg9 harg9 hc0 hc1 x0 x1 x2 x3 x4 x5).1 S1024x64.size (by sl_kernel_rfl) y

/-- What a first block leaves in the accumulator. -/
def accFirst (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : cond0 i) (hc1 : ¬cond1 i)
    (x0 : Vec F S1024x2048 .f32) (x1 : Vec F S2048x64 .f32) (x2 : Vec F S32x64 .f32) (x3 : Vec F S1x32 .f32) (x4 : Vec F S32x64 .f32) (x5 : Vec F S1x32 .f32) : Vec F S1024x64 .f32 :=
  VS.read (Elt F) (VS.writes (Elt F) VS.junk (runFirst c i arg2 harg2 arg3 harg3 arg4 harg4 arg5 harg5 arg6 harg6 arg7 harg7 arg8 harg8 arg9 harg9 hc0 hc1 x0 x1 x2 x3 x4 x5).1)

/-- A middle block's store into the accumulator tiles it. -/
theorem scoverMid (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : ¬cond0 i) (hc1 : ¬cond1 i)
    (x0 : Vec F S1024x2048 .f32) (x1 : Vec F S2048x64 .f32) (x2 : Vec F S32x64 .f32) (x3 : Vec F S1x32 .f32) (x4 : Vec F S32x64 .f32) (x5 : Vec F S1x32 .f32) (xs : Vec F S1024x64 .f32) (y : S1024x64.Idx) :
    ∃ pc ∈ (runMid c i arg2 harg2 arg3 harg3 arg4 harg4 arg5 harg5 arg6 harg6 arg7 harg7 arg8 harg8 arg9 harg9 hc0 hc1 x0 x1 x2 x3 x4 x5 xs).1, y ∈ pc.1.set :=
  View.cover_of_tiledL (runMid c i arg2 harg2 arg3 harg3 arg4 harg4 arg5 harg5 arg6 harg6 arg7 harg7 arg8 harg8 arg9 harg9 hc0 hc1 x0 x1 x2 x3 x4 x5 xs).1 S1024x64.size (by sl_kernel_rfl) y

/-- What a middle block leaves in the accumulator. -/
def accMid (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : ¬cond0 i) (hc1 : ¬cond1 i)
    (x0 : Vec F S1024x2048 .f32) (x1 : Vec F S2048x64 .f32) (x2 : Vec F S32x64 .f32) (x3 : Vec F S1x32 .f32) (x4 : Vec F S32x64 .f32) (x5 : Vec F S1x32 .f32) (xs : Vec F S1024x64 .f32) : Vec F S1024x64 .f32 :=
  VS.read (Elt F) (VS.writes (Elt F) VS.junk (runMid c i arg2 harg2 arg3 harg3 arg4 harg4 arg5 harg5 arg6 harg6 arg7 harg7 arg8 harg8 arg9 harg9 hc0 hc1 x0 x1 x2 x3 x4 x5 xs).1)

/-- A last block's store into the output block tiles it. -/
theorem coverLast (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : ¬cond0 i) (hc1 : cond1 i)
    (x0 : Vec F S1024x2048 .f32) (x1 : Vec F S2048x64 .f32) (x2 : Vec F S32x64 .f32) (x3 : Vec F S1x32 .f32) (x4 : Vec F S32x64 .f32) (x5 : Vec F S1x32 .f32) (xs : Vec F S1024x64 .f32) (y : S1024x64.Idx) :
    ∃ pc ∈ (runLast c i arg2 harg2 arg3 harg3 arg4 harg4 arg5 harg5 arg6 harg6 arg7 harg7 arg8 harg8 arg9 harg9 hc0 hc1 x0 x1 x2 x3 x4 x5 xs).1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs).1 S1024x64.size (by sl_kernel_rfl) y

/-- What a last block leaves in the output block's staging buffer. -/
def outLast (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : ¬cond0 i) (hc1 : cond1 i)
    (x0 : Vec F S1024x2048 .f32) (x1 : Vec F S2048x64 .f32) (x2 : Vec F S32x64 .f32) (x3 : Vec F S1x32 .f32) (x4 : Vec F S32x64 .f32) (x5 : Vec F S1x32 .f32) (xs : Vec F S1024x64 .f32) : Vec F S1024x64 .f32 :=
  VO.read (Elt F) (VO.writes (Elt F) VO.junk (runLast c i arg2 harg2 arg3 harg3 arg4 harg4 arg5 harg5 arg6 harg6 arg7 harg7 arg8 harg8 arg9 harg9 hc0 hc1 x0 x1 x2 x3 x4 x5 xs).1)

/-- A last block's store into the accumulator tiles it. -/
theorem scoverLast (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : ¬cond0 i) (hc1 : cond1 i)
    (x0 : Vec F S1024x2048 .f32) (x1 : Vec F S2048x64 .f32) (x2 : Vec F S32x64 .f32) (x3 : Vec F S1x32 .f32) (x4 : Vec F S32x64 .f32) (x5 : Vec F S1x32 .f32) (xs : Vec F S1024x64 .f32) (y : S1024x64.Idx) :
    ∃ pc ∈ (runLast c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs).2.1 S1024x64.size (by sl_kernel_rfl) y

/-- What a last block leaves in the accumulator. -/
def accLast (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : ¬cond0 i) (hc1 : cond1 i)
    (x0 : Vec F S1024x2048 .f32) (x1 : Vec F S2048x64 .f32) (x2 : Vec F S32x64 .f32) (x3 : Vec F S1x32 .f32) (x4 : Vec F S32x64 .f32) (x5 : Vec F S1x32 .f32) (xs : Vec F S1024x64 .f32) : Vec F S1024x64 .f32 :=
  VS.read (Elt F) (VS.writes (Elt F) VS.junk (runLast c i arg2 harg2 arg3 harg3 arg4 harg4 arg5 harg5 arg6 harg6 arg7 harg7 arg8 harg8 arg9 harg9 hc0 hc1 x0 x1 x2 x3 x4 x5 xs).2.1)

/-- The output block's staging buffer at a point where the body stores nothing into it: contents nobody reads
    (the block is neither written back there nor read at the next point). -/
def outIdle : Vec F S1024x64 .f32 := VO.read (Elt F) (VO.writes (Elt F) VO.junk [])

/-! ## The accumulation, point by point -/

/-- What the output block's staging buffer and the accumulator hold after the body at position `n`. -/
def outsAt (c : Dev nD) : (n : ℕ) → n < cfg0.N → Vec F S1024x64 .f32 × Vec F S1024x64 .f32
  | 0, hn => (outIdle, accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM (Memref.isWhole_whole _) ((hcond0 ⟨0, hn⟩).mpr (Nat.zero_mod _)) (fun h => (fun h' => by (try dsimp only at h'); omega) ((hcond1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 4 = 0 then
      (outIdle, accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) ((hcond0 ⟨n + 1, hn⟩).mpr h0) (fun h => (fun h' => by (try dsimp only at h'); omega) ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else if h3 : (n + 1) % 4 = 3 then
      (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcond0 ⟨n + 1, hn⟩).mp h)) ((hcond1 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2,
       accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcond0 ⟨n + 1, hn⟩).mp h)) ((hcond1 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2)
    else
      (outIdle, accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcond0 ⟨n + 1, hn⟩).mp h)) (fun h => h3 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2)

/-- At a point ≡ 0 (mod 4): a first block's contents. -/
theorem outsAt_first (c : Dev nD) (t : Fin cfg0.N) (h0 : t.val % 4 = 0) :
    outsAt V c t.val t.isLt = (outIdle, accFirst c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (fun h => (fun h' => by omega) ((hcond1 t).mp h)) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans rfl

/-- At a point ≡ 1 or 2 (mod 4): a middle block's contents, over what the point before left in the accumulator. -/
theorem outsAt_mid (c : Dev nD) (t : Fin cfg0.N) (h0 : ¬t.val % 4 = 0) (h3 : ¬t.val % 4 = 3) :
    outsAt V c t.val t.isLt = (outIdle, accMid c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (fun h => h3 ((hcond1 t).mp h)) (iblk V c 0 t) (iblk V c 1 t) (iblk V c 2 t) (iblk V c 3 t) (iblk V c 4 t) (iblk V c 5 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

/-- At a point ≡ 3 (mod 4): a last block's contents, over what the point before left in the accumulator. -/
theorem outsAt_last (c : Dev nD) (t : Fin cfg0.N) (h0 : ¬t.val % 4 = 0) (h3 : t.val % 4 = 3) :
    outsAt V c t.val t.isLt = (outLast c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) ((hcond1 t).mpr h3) (iblk V c 0 t) (iblk V c 1 t) (iblk V c 2 t) (iblk V c 3 t) (iblk V c 4 t) (iblk V c 5 t) (outsAt V c (t.val - 1) (Nat.lt_of_le_of_lt (Nat.sub_le _ _) t.isLt)).2,
      accLast c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) ((hcond1 t).mpr h3) (iblk V c 0 t) (iblk V c 1 t) (iblk V c 2 t) (iblk V c 3 t) (iblk V c 4 t) (iblk V c 5 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-! ## The invariant -/

/-- Before position `n`: the class's invariant before the first point (the accumulator at anything); afterwards the
    accumulator at what the point before left, the other scoped buffers unopened, the generator register at some state. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ restBut (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare ((outsAt V c n hn).2) ∗ restBut (F := F) c) ∗ (∃ r, prngReg c r)) := rfl

theorem PhiS_pos (c : Dev nD) (n : ℕ) (h : n ≤ cfg0.N) (hz : n ≠ 0) :
    PhiS V c n h = iprop(iprop(owns (c : Thread nD τ) scM fullShare ((outsAt V c (n - 1) (by omega)).2) ∗ restBut (F := F) c) ∗ (∃ r, prngReg c r)) := by
  cases n with
  | zero => exact absurd rfl hz
  | succ n => rfl

/-! ## The proof data -/

/-- The arrays as the region finds them; after the body at point `t` each operand's buffer at its block and the
    output's at the accumulation's first component; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4800000 in
/-- The body at any point: the operands' memrefs hold their blocks; the point's residue modulo four says which case
    it is in; the invariant hands the body the accumulator (at anything at the very first point, else at what the
    point before left) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  rw [show (dat V c).leavesExact 4 t = owns (c : Thread nD τ) (ms4 t) fullShare ((dat V c).after 4 t) from by
    unfold Dat.leavesExact; rw [live_4 t], after_4]
  rw [show (dat V c).leavesExact 5 t = owns (c : Thread nD τ) (ms5 t) fullShare ((dat V c).after 5 t) from by
    unfold Dat.leavesExact; rw [live_5 t], after_5]
  by_cases h0 : t.val % 4 = 0
  · have hc0 : cond0 (grid0.coords t) := (hcond0 t).mpr h0
    have hc1 : ¬cond1 (grid0.coords t) := fun h => (fun h' => by omega) ((hcond1 t).mp h)
    rw [Dat.leavesExact_idle (dat V c) 6 t (idle_6_first t hc0 hc1) (noFlush_6_first t hc0 hc1)]
    rw [outsAt_first V c t h0]
    unfold accFirst; (try dsimp only)
    by_cases hz : t.val = 0
    · rw [PhiS_castSucc V c t, PhiS_zero V c _ _ hz, PhiA_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ hc0 hc1 (iblk V c 0 t) (iblk V c 1 t) (iblk V c 2 t) (iblk V c 3 t) (iblk V c 4 t) (iblk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverFirst c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ hc0 hc1 (iblk V c 0 t) (iblk V c 1 t) (iblk V c 2 t) (iblk V c 3 t) (iblk V c 4 t) (iblk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverFirst c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hc0 : ¬cond0 (grid0.coords t) := fun h => h0 ((hcond0 t).mp h)
    have hz : t.val ≠ 0 := fun hz => h0 (by rw [hz])
    by_cases h3 : t.val % 4 = 3
    · have hc1 : cond1 (grid0.coords t) := (hcond1 t).mpr h3
      rw [show (dat V c).leavesExact 6 t = owns (c : Thread nD τ) (ms6 t) fullShare ((dat V c).after 6 t) from by
        unfold Dat.leavesExact; rw [live_6_last t hc0 hc1], after_6]
      rw [outsAt_last V c t h0 h3]
      unfold outLast accLast; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) _ _ _ _ _ _ _ _ _ _ _ _ _ _ _ _ hc0 hc1 (iblk V c 0 t) (iblk V c 1 t) (iblk V c 2 t) (iblk V c 3 t) (iblk V c 4 t) (iblk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverLast c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLast c _ _ _ _ _ _ _ _ _ _ _ _ _ _ _ _ _ _ _ _ _ _ _ _ _ _)
    · have hc1 : ¬cond1 (grid0.coords t) := fun h => h3 ((hcond1 t).mp h)
      rw [Dat.leavesExact_idle (dat V c) 6 t (idle_6_mid t hc0 hc1) (noFlush_6_mid t hc0 hc1)]
      rw [outsAt_mid V c t h0 h3]
      unfold accMid; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid c (grid0.coords t) _ _ _ _ _ _ _ _ _ _ _ _ _ _ _ _ hc0 hc1 (iblk V c 0 t) (iblk V c 1 t) (iblk V c 2 t) (iblk V c 3 t) (iblk V c 4 t) (iblk V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverMid c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Reg0

end
-- ==== Proof.R1Runs.lean ====
/-
  The second pallas_call (pm.T @ x, accumulated over two blocks of the contracted axis) seen from one grid point:
  the blocks its three windows hold there, the two conditions of the body in closed form over the sixteen grid
  points (the contracted-axis coordinate is the point's parity), where the output window is idle and where it is
  written back, the memrefs the body is called with, and the region's class invariant opened at the accumulator.
  Everything here is at any float instance.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's proof data are stated at
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's current staging buffer holds its block at every point, for any proof data whose array is the
    entry contents and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the right operand. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first block of the contracted axis": the accumulator is zeroed. -/
abbrev cond0 (i : grid1.Coords) : Prop := (Scalar.cmpi .ne (Scalar.extui (Scalar.cmpi .eq (BitVec.ofNat 32 (i 1).val) 0#32)) 0#32) = 1#1
/-- It holds at the even points. -/
theorem hcond0 : ∀ t : Fin cfg1.N, cond0 (grid1.coords t) ↔ t.val % 2 = 0 :=
  (by decide +kernel : ∀ t : Fin grid1.N, cond0 (grid1.coords t) ↔ t.val % 2 = 0)

/-- "This is the last block of the contracted axis": the accumulator is copied to the output block. -/
abbrev cond1 (i : grid1.Coords) : Prop := k1_cond2 i = 1#1
/-- It holds at the odd points. -/
theorem hcond1 : ∀ t : Fin cfg1.N, cond1 (grid1.coords t) ↔ t.val % 2 = 1 :=
  (by decide +kernel : ∀ t : Fin grid1.N, cond1 (grid1.coords t) ↔ t.val % 2 = 1)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
/-- At a first block the body stores nothing into the output window, -/
theorem idle_2_first : ∀ t : Fin cfg1.N, cond0 (grid1.coords t) → ¬cond1 (grid1.coords t) → cfg1.idle 2 (grid1.coords t) = true := by decide +kernel
/-- and the pipeline does not write its block back. -/
theorem noFlush_2_first : ∀ t : Fin cfg1.N, cond0 (grid1.coords t) → ¬cond1 (grid1.coords t) → (cfg1.win 2).flush t = false := by decide +kernel
/-- At a last block the body stores the whole output block. -/
theorem live_2_last : ∀ t : Fin cfg1.N, ¬cond0 (grid1.coords t) → cond1 (grid1.coords t) → cfg1.idle 2 (grid1.coords t) = false := by decide +kernel

/-! ## The memrefs the body is called with -/

/-- One staging buffer of the output window, through which its contents are stated. -/
abbrev VO : View sig .tc .vmem S1024x64 .f32 := (Memref.whole cc1_stg2_0 : Memref sig .tc .vmem S1024x64 .f32).view
abbrev ms0 (t : Fin cfg1.N) : Memref sig .tc .vmem S2048x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x64 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x64 .f32 := win1_2.stage (cfg1.slots t 2)
abbrev hs2 (t : Fin cfg1.N) : (ms2 t).IsWhole := hstage1_2 ((cfg1.slots t 2).cast nbuf1_2)
/-- The accumulator: a whole scoped buffer of the kernel's own. -/
abbrev scM : Memref sig .tc .vmem S1024x64 .f32 := Memref.whole cc1_scratch0
abbrev VS : View sig .tc .vmem S1024x64 .f32 := scM.view

/-- Every other scoped buffer of the core (the other calls' staging buffers and accumulators), unopened. -/
abbrev restBut (c : Dev nD) : sProp 𝕄 :=
  Pipeline.scopedRestBut (Ix := Unit) (Name := ℕ) (U := UR sig nD τ) (Lvl := ℕ) (Val := Elt F) spec1 c [cc1_scratch0]

/-- The class invariant with the accumulator as a memref owned at some contents. -/
theorem PhiA_eq (c : Dev nD) :
    (Pipeline.ΦA spec1 c : sProp 𝕄)
      = iprop(iprop(iprop((∃ d, owns (c : Thread nD τ) scM fullShare d)) ∗ restBut (F := F) c) ∗ (∃ r, prngReg c r)) := by
  unfold Pipeline.ΦA; rw [scopedRest1_split]; simp only [scM, owns_whole]; try rfl

end Cert.KernelIdeal.Reg1

end
-- ==== Proof.R1RunFirst.lean ====
/-
  The second pallas_call's body run at a grid point where the first block of the contracted axis is met (the accumulator is zeroed, then the block's product added; the output block is not touched): on whole staging memrefs holding the two operand
  blocks, the body runs to the end; what it stored into the accumulator (and, at a last block, into the output
  block) is recorded as the list of pieces the run itself finds, last store first. At any float instance.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First block: the accumulator may hold anything before; the output block `xi2` is handed back untouched. -/
noncomputable def runFirst (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond0 i) (hc1 : ¬cond1 i)
    (x0 : Vec F S2048x1024 .f32) (x1 : Vec F S2048x64 .f32) :
    { LS : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__matmulT_kernel i arg2 harg2 arg3 harg3 arg4 harg4 arg5 harg5) K } := by
  refine ⟨?_, fun xi2 E K => ?run⟩
  case run =>
    simp only [cc1__matmulT_kernel_eq_skeleton]; unfold cc1__matmulT_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Reg1

end
-- ==== Proof.R1RunLast.lean ====
/-
  The second pallas_call's body run at a grid point where the last block of the contracted axis is met and it is not the first (the block's product is added to what the accumulator held, and the sum copied to the output block): on whole staging memrefs holding the two operand
  blocks, the body runs to the end; what it stored into the accumulator (and, at a last block, into the output
  block) is recorded as the list of pieces the run itself finds, last store first. At any float instance.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last block: the accumulator holds `xs` (what the point before left); the output block may hold anything before. -/
noncomputable def runLast (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0 i) (hc1 : cond1 i)
    (x0 : Vec F S2048x1024 .f32) (x1 : Vec F S2048x64 .f32) (xs : Vec F S1024x64 .f32) :
    Σ' (L2 : List (View.Piece (Elt F) S1024x64 .f32)), { LS : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__matmulT_kernel i arg2 harg2 arg3 harg3 arg4 harg4 arg5 harg5) K } := by
  refine ⟨?_, ?_, fun E K => ?run⟩
  case run =>
    simp only [cc1__matmulT_kernel_eq_skeleton]; unfold cc1__matmulT_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Reg1

end
-- ==== Proof.R1Frame.lean ====
/-
  The second pallas_call (pm.T @ x) as a pipeline's proof data, at any float instance. The accumulator is carried
  from a first block to the last block of the same output row-block: after an even point it holds that point's
  run over a zeroed accumulator, after an odd point the run over what the point before left, and the output
  block's staging buffer holds the accumulated sum after each odd point (it is idle, and not written back, at the
  even ones). The invariant tracks the accumulator at exactly these contents; every other scoped buffer and the
  generator register ride along unopened. The body obligation is then each point's case run.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.R1RunFirst
import proofs.«103437_j49752901157443_2_alg».proof.Proof.R1RunLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first block's stores into the accumulator tile it. -/
theorem scoverFirst (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond0 i) (hc1 : ¬cond1 i)
    (x0 : Vec F S2048x1024 .f32) (x1 : Vec F S2048x64 .f32) (y : S1024x64.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x64.size (by sl_kernel_rfl) y

/-- What a first block leaves in the accumulator. -/
def accFirst (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond0 i) (hc1 : ¬cond1 i)
    (x0 : Vec F S2048x1024 .f32) (x1 : Vec F S2048x64 .f32) : Vec F S1024x64 .f32 :=
  VS.read (Elt F) (VS.writes (Elt F) VS.junk (runFirst c i arg2 harg2 arg3 harg3 arg4 harg4 arg5 harg5 hc0 hc1 x0 x1).1)

/-- A last block's store into the output block tiles it. -/
theorem coverLast (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0 i) (hc1 : cond1 i)
    (x0 : Vec F S2048x1024 .f32) (x1 : Vec F S2048x64 .f32) (xs : Vec F S1024x64 .f32) (y : S1024x64.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x64.size (by sl_kernel_rfl) y

/-- What a last block leaves in the output block's staging buffer. -/
def outLast (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0 i) (hc1 : cond1 i)
    (x0 : Vec F S2048x1024 .f32) (x1 : Vec F S2048x64 .f32) (xs : Vec F S1024x64 .f32) : Vec F S1024x64 .f32 :=
  VO.read (Elt F) (VO.writes (Elt F) VO.junk (runLast c i arg2 harg2 arg3 harg3 arg4 harg4 arg5 harg5 hc0 hc1 x0 x1 xs).1)

/-- A last block's store into the accumulator tiles it. -/
theorem scoverLast (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0 i) (hc1 : cond1 i)
    (x0 : Vec F S2048x1024 .f32) (x1 : Vec F S2048x64 .f32) (xs : Vec F S1024x64 .f32) (y : S1024x64.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x64.size (by sl_kernel_rfl) y

/-- What a last block leaves in the accumulator. -/
def accLast (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0 i) (hc1 : cond1 i)
    (x0 : Vec F S2048x1024 .f32) (x1 : Vec F S2048x64 .f32) (xs : Vec F S1024x64 .f32) : Vec F S1024x64 .f32 :=
  VS.read (Elt F) (VS.writes (Elt F) VS.junk (runLast c i arg2 harg2 arg3 harg3 arg4 harg4 arg5 harg5 hc0 hc1 x0 x1 xs).2.1)

/-- The output block's staging buffer at a point where the body stores nothing into it: contents nobody reads
    (the block is neither written back there nor read at the next point). -/
def outIdle : Vec F S1024x64 .f32 := VO.read (Elt F) (VO.writes (Elt F) VO.junk [])

/-! ## The accumulation, point by point -/

/-- What the output block's staging buffer and the accumulator hold after the body at position `n`. -/
def outsAt (c : Dev nD) : (n : ℕ) → n < cfg1.N → Vec F S1024x64 .f32 × Vec F S1024x64 .f32
  | 0, hn => (outIdle, accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcond0 ⟨0, hn⟩).mpr (Nat.zero_mod _)) (fun h => (fun h' => by (try dsimp only at h'); omega) ((hcond1 ⟨0, hn⟩).mp h)) (iblk V c 0 ⟨0, hn⟩) (iblk V c 1 ⟨0, hn⟩))
  | n + 1, hn =>
    if h0 : (n + 1) % 2 = 0 then
      (outIdle, accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) ((hcond0 ⟨n + 1, hn⟩).mpr h0) (fun h => (fun h' => by (try dsimp only at h'); omega) ((hcond1 ⟨n + 1, hn⟩).mp h)) (iblk V c 0 ⟨n + 1, hn⟩) (iblk V c 1 ⟨n + 1, hn⟩))
    else
      (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcond0 ⟨n + 1, hn⟩).mp h)) ((hcond1 ⟨n + 1, hn⟩).mpr (show (n + 1) % 2 = 1 by omega)) (iblk V c 0 ⟨n + 1, hn⟩) (iblk V c 1 ⟨n + 1, hn⟩) (outsAt c n (Nat.lt_of_succ_lt hn)).2,
       accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcond0 ⟨n + 1, hn⟩).mp h)) ((hcond1 ⟨n + 1, hn⟩).mpr (show (n + 1) % 2 = 1 by omega)) (iblk V c 0 ⟨n + 1, hn⟩) (iblk V c 1 ⟨n + 1, hn⟩) (outsAt c n (Nat.lt_of_succ_lt hn)).2)

/-- At an even point: a first block's contents. -/
theorem outsAt_first (c : Dev nD) (t : Fin cfg1.N) (h0 : t.val % 2 = 0) :
    outsAt V c t.val t.isLt = (outIdle, accFirst c (grid1.coords t) (ms0 t) (hs0 t) (ms1 t) (hs1 t) (ms2 t) (hs2 t) scM (Memref.isWhole_whole _) ((hcond0 t).mpr h0) (fun h => (fun h' => by omega) ((hcond1 t).mp h)) (iblk V c 0 t) (iblk V c 1 t)) := by
  obtain ⟨n, hn⟩ := t
  cases n with
  | zero => exact rfl
  | succ n => exact (dif_pos h0).trans rfl

/-- At an odd point: a last block's contents, over what the point before left in the accumulator. -/
theorem outsAt_last (c : Dev nD) (t : Fin cfg1.N) (h0 : ¬t.val % 2 = 0) :
    outsAt V c t.val t.isLt = (outLast c (grid1.coords t) (ms0 t) (hs0 t) (ms1 t) (hs1 t) (ms2 t) (hs2 t) scM (Memref.isWhole_whole _) (fun h => h0 ((hcond0 t).mp h)) ((hcond1 t).mpr (by omega)) (iblk V c 0 t) (iblk V c 1 t) (outsAt V c (t.val - 1) (Nat.lt_of_le_of_lt (Nat.sub_le _ _) t.isLt)).2,
      accLast c (grid1.coords t) (ms0 t) (hs0 t) (ms1 t) (hs1 t) (ms2 t) (hs2 t) scM (Memref.isWhole_whole _) (fun h => h0 ((hcond0 t).mp h)) ((hcond1 t).mpr (by omega)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant -/

/-- Before position `n`: the class's invariant before the first point (the accumulator at anything); afterwards the
    accumulator at what the point before left, the other scoped buffers unopened, the generator register at some state. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ restBut (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare ((outsAt V c n hn).2) ∗ restBut (F := F) c) ∗ (∃ r, prngReg c r)) := rfl

theorem PhiS_pos (c : Dev nD) (n : ℕ) (h : n ≤ cfg1.N) (hz : n ≠ 0) :
    PhiS V c n h = iprop(iprop(owns (c : Thread nD τ) scM fullShare ((outsAt V c (n - 1) (by omega)).2) ∗ restBut (F := F) c) ∗ (∃ r, prngReg c r)) := by
  cases n with
  | zero => exact absurd rfl hz
  | succ n => rfl

/-! ## The proof data -/

/-- The arrays as the region finds them; after the body at point `t` each operand's buffer at its block and the
    output's at the accumulation's first component; the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the operands' memrefs hold their blocks; the point's parity says which case it is in; the
    invariant hands the body the accumulator (at anything at the very first point, else at what the point before left)
    and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  by_cases h0 : t.val % 2 = 0
  · have hc0 : cond0 (grid1.coords t) := (hcond0 t).mpr h0
    have hc1 : ¬cond1 (grid1.coords t) := fun h => (fun h' => by omega) ((hcond1 t).mp h)
    rw [Dat.leavesExact_idle (dat V c) 2 t (idle_2_first t hc0 hc1) (noFlush_2_first t hc0 hc1)]
    rw [outsAt_first V c t h0]
    unfold accFirst; (try dsimp only)
    by_cases hz : t.val = 0
    · rw [PhiS_castSucc V c t, PhiS_zero V c _ _ hz, PhiA_eq]
      iintro ⟨⟨⟨HS0, HR⟩, Hg⟩, Ho, ⟨%d0, H0⟩, ⟨%d1, H1⟩, ⟨%d2, H2⟩⟩
      iapply ((runFirst c (grid1.coords t) _ _ _ _ _ _ _ _ hc0 hc1 (iblk V c 0 t) (iblk V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverFirst c _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HR⟩, Hg⟩, Ho, ⟨%d0, H0⟩, ⟨%d1, H1⟩, ⟨%d2, H2⟩⟩
      iapply ((runFirst c (grid1.coords t) _ _ _ _ _ _ _ _ hc0 hc1 (iblk V c 0 t) (iblk V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverFirst c _ _ _ _ _ _ _ _ _ _ _ _ _)
          iexact HR
        iexact Hg
      isplitl [Ho]; · iexact Ho
      isplitl [H0]; · iexact H0
      isplitl [H1]; · iexact H1
      iexists _; iexact H2
  · have hc0 : ¬cond0 (grid1.coords t) := fun h => h0 ((hcond0 t).mp h)
    have hc1 : cond1 (grid1.coords t) := (hcond1 t).mpr (by omega)
    have hz : t.val ≠ 0 := fun hz => h0 (by rw [hz])
    rw [show (dat V c).leavesExact 2 t = owns (c : Thread nD τ) (ms2 t) fullShare ((dat V c).after 2 t) from by
      unfold Dat.leavesExact; rw [live_2_last t hc0 hc1], after_2]
    rw [outsAt_last V c t h0]
    unfold outLast accLast; (try dsimp only)
    rw [PhiS_castSucc V c t, PhiS_pos V c _ _ hz]
    iintro ⟨⟨⟨HS0, HR⟩, Hg⟩, Ho, ⟨%d0, H0⟩, ⟨%d1, H1⟩, ⟨%d2, H2⟩⟩
    iapply ((runLast c (grid1.coords t) _ _ _ _ _ _ _ _ hc0 hc1 (iblk V c 0 t) (iblk V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scoverLast c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (coverLast c _ _ _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Reg1

end
-- ==== Proof.R2Runs.lean ====
/-
  The third pallas_call (lg_a1 @ y, accumulated over four blocks of the contracted axis, with the epilogue that
  combines the accumulated product with the pm_x row block through the eight small weight and bias arrays) seen
  from one grid point: the blocks its twelve windows hold there, the two conditions of the body in closed form over
  the thirty-two grid points (the contracted-axis coordinate is the point's residue mod 4), where the output window
  is idle and where it is written back, the memrefs the body is called with, and the region's class invariant opened
  at the accumulator. Everything here is at any float instance.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's proof data are stated at
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point — fetched there or not: where it is not,
    the block index has not moved since the point before — for any proof data whose array is the entry contents and
    whose body leaves the block in place. -/

/-- Window 0 (the left operand's row block by contracted-axis block). -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1 (the right operand's contracted-axis block). -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Window 2 (the second summand's row block). -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Window 3 (the first weight matrix). -/
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Window 4 (the first bias row). -/
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Window 5 (the second weight matrix). -/
theorem before_5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Window 6 (the second bias row). -/
theorem before_6_of {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Window 7 (the third weight matrix). -/
theorem before_7_of {c : Dev nD} (dat : Dat τ (Elt F) Unit ℕ (UR sig nD τ) ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Window 8 (the third bias row). -/
theorem before_8_of {c : Dev nD} (dat : Dat τ (Elt F) Unit ℕ (UR sig nD τ) ℕ cfg2 c) (hA : dat.A 8 = V c (Pipeline.arrRef spec2 8))
    (hafter : ∀ t, dat.after 8 t = iblk V c 8 t) (t : Fin cfg2.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Window 9 (the fourth weight matrix). -/
theorem before_9_of {c : Dev nD} (dat : Dat τ (Elt F) Unit ℕ (UR sig nD τ) ℕ cfg2 c) (hA : dat.A 9 = V c (Pipeline.arrRef spec2 9))
    (hafter : ∀ t, dat.after 9 t = iblk V c 9 t) (t : Fin cfg2.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Window 10 (the fourth bias row). -/
theorem before_10_of {c : Dev nD} (dat : Dat τ (Elt F) Unit ℕ (UR sig nD τ) ℕ cfg2 c) (hA : dat.A 10 = V c (Pipeline.arrRef spec2 10))
    (hafter : ∀ t, dat.after 10 t = iblk V c 10 t) (t : Fin cfg2.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first block of the contracted axis": the accumulator is zeroed. -/
abbrev cond0 (i : grid2.Coords) : Prop := (Scalar.cmpi .ne (Scalar.extui (Scalar.cmpi .eq (BitVec.ofNat 32 (i 1).val) 0#32)) 0#32) = 1#1
/-- It holds at the points ≡ 0 (mod 4). -/
theorem hcond0 : ∀ t : Fin cfg2.N, cond0 (grid2.coords t) ↔ t.val % 4 = 0 :=
  (by decide +kernel : ∀ t : Fin grid2.N, cond0 (grid2.coords t) ↔ t.val % 4 = 0)

/-- "This is the last block of the contracted axis": the epilogue runs and the output block is stored. -/
abbrev cond1 (i : grid2.Coords) : Prop := k2_cond2 i = 1#1
/-- It holds at the points ≡ 3 (mod 4). -/
theorem hcond1 : ∀ t : Fin cfg2.N, cond1 (grid2.coords t) ↔ t.val % 4 = 3 :=
  (by decide +kernel : ∀ t : Fin grid2.N, cond1 (grid2.coords t) ↔ t.val % 4 = 3)

/-! ## Where the windows are idle -/

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
theorem live_3 : ∀ t : Fin cfg2.N, cfg2.idle 3 (grid2.coords t) = false := by decide +kernel
theorem live_4 : ∀ t : Fin cfg2.N, cfg2.idle 4 (grid2.coords t) = false := by decide +kernel
theorem live_5 : ∀ t : Fin cfg2.N, cfg2.idle 5 (grid2.coords t) = false := by decide +kernel
theorem live_6 : ∀ t : Fin cfg2.N, cfg2.idle 6 (grid2.coords t) = false := by decide +kernel
theorem live_7 : ∀ t : Fin cfg2.N, cfg2.idle 7 (grid2.coords t) = false := by decide +kernel
theorem live_8 : ∀ t : Fin cfg2.N, cfg2.idle 8 (grid2.coords t) = false := by decide +kernel
theorem live_9 : ∀ t : Fin cfg2.N, cfg2.idle 9 (grid2.coords t) = false := by decide +kernel
theorem live_10 : ∀ t : Fin cfg2.N, cfg2.idle 10 (grid2.coords t) = false := by decide +kernel
/-- At a first block the body stores nothing into the output window, -/
theorem idle_11_first : ∀ t : Fin cfg2.N, cond0 (grid2.coords t) → ¬cond1 (grid2.coords t) → cfg2.idle 11 (grid2.coords t) = true := by decide +kernel
/-- and the pipeline does not write its block back. -/
theorem noFlush_11_first : ∀ t : Fin cfg2.N, cond0 (grid2.coords t) → ¬cond1 (grid2.coords t) → (cfg2.win 11).flush t = false := by decide +kernel
/-- The same at a middle block. -/
theorem idle_11_mid : ∀ t : Fin cfg2.N, ¬cond0 (grid2.coords t) → ¬cond1 (grid2.coords t) → cfg2.idle 11 (grid2.coords t) = true := by decide +kernel
theorem noFlush_11_mid : ∀ t : Fin cfg2.N, ¬cond0 (grid2.coords t) → ¬cond1 (grid2.coords t) → (cfg2.win 11).flush t = false := by decide +kernel
/-- At a last block the body stores the whole output block. -/
theorem live_11_last : ∀ t : Fin cfg2.N, ¬cond0 (grid2.coords t) → cond1 (grid2.coords t) → cfg2.idle 11 (grid2.coords t) = false := by decide +kernel

/-! ## The memrefs the body is called with -/

/-- One staging buffer of the output window, through which its contents are stated. -/
abbrev VO : View sig .tc .vmem S1024x64 .f32 := (Memref.whole cc2_stg11_0 : Memref sig .tc .vmem S1024x64 .f32).view
abbrev ms0 (t : Fin cfg2.N) : Memref sig .tc .vmem S1024x2048 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S2048x64 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1024x64 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S32x64 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x32 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S32x64 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S1x32 .f32 := win2_6.stage (cfg2.slots t 6)
abbrev hs6 (t : Fin cfg2.N) : (ms6 t).IsWhole := hstage2_6 ((cfg2.slots t 6).cast nbuf2_6)
abbrev ms7 (t : Fin cfg2.N) : Memref sig .tc .vmem S32x64 .f32 := win2_7.stage (cfg2.slots t 7)
abbrev hs7 (t : Fin cfg2.N) : (ms7 t).IsWhole := hstage2_7 ((cfg2.slots t 7).cast nbuf2_7)
abbrev ms8 (t : Fin cfg2.N) : Memref sig .tc .vmem S1x32 .f32 := win2_8.stage (cfg2.slots t 8)
abbrev hs8 (t : Fin cfg2.N) : (ms8 t).IsWhole := hstage2_8 ((cfg2.slots t 8).cast nbuf2_8)
abbrev ms9 (t : Fin cfg2.N) : Memref sig .tc .vmem S32x64 .f32 := win2_9.stage (cfg2.slots t 9)
abbrev hs9 (t : Fin cfg2.N) : (ms9 t).IsWhole := hstage2_9 ((cfg2.slots t 9).cast nbuf2_9)
abbrev ms10 (t : Fin cfg2.N) : Memref sig .tc .vmem S1x32 .f32 := win2_10.stage (cfg2.slots t 10)
abbrev hs10 (t : Fin cfg2.N) : (ms10 t).IsWhole := hstage2_10 ((cfg2.slots t 10).cast nbuf2_10)
abbrev ms11 (t : Fin cfg2.N) : Memref sig .tc .vmem S1024x64 .f32 := win2_11.stage (cfg2.slots t 11)
abbrev hs11 (t : Fin cfg2.N) : (ms11 t).IsWhole := hstage2_11 ((cfg2.slots t 11).cast nbuf2_11)
/-- The accumulator: a whole scoped buffer of the kernel's own. -/
abbrev scM : Memref sig .tc .vmem S1024x64 .f32 := Memref.whole cc2_scratch0
abbrev VS : View sig .tc .vmem S1024x64 .f32 := scM.view

/-- The core's scoped buffers that are no staging buffer of this call, split at the accumulator: its points-to at
    some contents, then every other one unopened. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop(iprop((∃ f : Buf Val ((c : Thread nD τ).loc cc2_scratch0), ((c : Thread nD τ).loc cc2_scratch0) ↦{fullShare} f))
          ∗ Pipeline.scopedRestBut (Ix := Ix) (Name := Name) (U := U) (Lvl := Lvl) (Val := Val) spec2 c [cc2_scratch0]) :=
  Pipeline.scopedRest_split_of_list spec2 c [cc2_scratch0] (by decide) (by decide)

/-- Every other scoped buffer of the core (the other calls' staging buffers and accumulators), unopened. -/
abbrev restBut (c : Dev nD) : sProp 𝕄 :=
  Pipeline.scopedRestBut (Ix := Unit) (Name := ℕ) (U := UR sig nD τ) (Lvl := ℕ) (Val := Elt F) spec2 c [cc2_scratch0]

/-- The class invariant with the accumulator as a memref owned at some contents. -/
theorem PhiA_eq (c : Dev nD) :
    (Pipeline.ΦA spec2 c : sProp 𝕄)
      = iprop(iprop(iprop((∃ d, owns (c : Thread nD τ) scM fullShare d)) ∗ restBut (F := F) c) ∗ (∃ r, prngReg c r)) := by
  unfold Pipeline.ΦA; rw [scopedRest2_split]; simp only [scM, owns_whole]; try rfl

end Cert.KernelIdeal.Reg2

end
-- ==== Proof.R2RunFirst.lean ====
/-
  The third pallas_call's body run at a grid point where the first block of the contracted axis is met (the accumulator is
  zeroed, then the block's product added; the output block is not touched): on whole staging memrefs holding the eleven
  operand blocks, the body runs to the end; what it stored into the accumulator is recorded as the list of pieces the
  run itself finds, last store first. At any float instance.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- First block: the accumulator may hold anything before; the output block `xi11` is handed back untouched. -/
noncomputable def runFirst (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : cond0 i) (hc1 : ¬cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) :
    { LS : List (View.Piece (Elt F) S1024x64 .f32) //
      ∀ (xi11 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ f, arg14.view.loc (c : Thread nD τ) ↦[arg14.view.set]{fullShare} arg14.view.writes (Elt F) f LS)) -∗ K ⟨⟩))
          ⊢ wp frame (wpE (defs₀ (F := F)) Variants.none c none) E (cc2__lg_fused_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun xi11 E K => ?run⟩
  case run =>
    simp only [cc2__lg_fused_kernel_eq_skeleton]; unfold cc2__lg_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact HS0

end Cert.KernelIdeal.Reg2

end
-- ==== Proof.R2RunMid.lean ====
/-
  The third pallas_call's body run at a grid point where a middle block of the contracted axis is met (the block's product
  is added to what the accumulator held; the output block is not touched): on whole staging memrefs holding the eleven
  operand blocks, the body runs to the end; what it stored into the accumulator is recorded as the list of pieces the
  run itself finds. At any float instance.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Middle block: the accumulator holds `xs` (what the point before left); the output block `xi11` is handed back untouched. -/
noncomputable def runMid (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : ¬cond0 i) (hc1 : ¬cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) (xs : Vec F S1024x64 .f32) :
    { LS : List (View.Piece (Elt F) S1024x64 .f32) //
      ∀ (xi11 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ f, arg14.view.loc (c : Thread nD τ) ↦[arg14.view.set]{fullShare} arg14.view.writes (Elt F) f LS)) -∗ K ⟨⟩))
          ⊢ wp frame (wpE (defs₀ (F := F)) Variants.none c none) E (cc2__lg_fused_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun xi11 E K => ?run⟩
  case run =>
    simp only [cc2__lg_fused_kernel_eq_skeleton]; unfold cc2__lg_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact HS0

end Cert.KernelIdeal.Reg2

end
-- ==== Proof.R2RunLast.lean ====
/-
  The third pallas_call's body run at a grid point where the last block of the contracted axis is met (the block's product
  is added to what the accumulator held; then the epilogue combines the accumulated product with the second summand's
  row block through the weight and bias arrays and stores the result over the whole output block): on whole staging
  memrefs holding the eleven operand blocks, the body runs to the end; what it stored into the output block and into
  the accumulator is recorded as the lists of pieces the run itself finds, last store first. At any float instance.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Last block: the accumulator holds `xs` (what the point before left); the output block may hold anything before. -/
noncomputable def runLast (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : ¬cond0 i) (hc1 : cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) (xs : Vec F S1024x64 .f32) :
    Σ' (L11 : List (View.Piece (Elt F) S1024x64 .f32)), { LS : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS)) -∗ K ⟨⟩))
          ⊢ wp frame (wpE (defs₀ (F := F)) Variants.none c none) E (cc2__lg_fused_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc2__lg_fused_kernel_eq_skeleton]; unfold cc2__lg_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    iexists _; iexact HS0

end Cert.KernelIdeal.Reg2

end
-- ==== Proof.R2Frame.lean ====
/-
  The third pallas_call (lg_a1 @ y with the epilogue) as a pipeline's proof data, at any float instance. The
  accumulator is carried along the four blocks of the contracted axis of one output row-block: after a point ≡ 0
  (mod 4) it holds that point's run over a zeroed accumulator, after every other point the run over what the point
  before left; the output block's staging buffer holds what the epilogue stored after each point ≡ 3 (mod 4) (it is
  idle, and not written back, at the others). The invariant tracks the accumulator at exactly these contents; every
  other scoped buffer and the generator register ride along unopened. The body obligation is then each point's
  case run.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.R2RunFirst
import proofs.«103437_j49752901157443_2_alg».proof.Proof.R2RunMid
import proofs.«103437_j49752901157443_2_alg».proof.Proof.R2RunLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first block's stores into the accumulator tile it. -/
theorem scoverFirst (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : cond0 i) (hc1 : ¬cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) (y : S1024x64.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10).1, y ∈ pc.1.set :=
  View.cover_of_tiledL (runFirst c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10).1 S1024x64.size (by sl_kernel_rfl) y

/-- What a first block leaves in the accumulator. -/
def accFirst (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : cond0 i) (hc1 : ¬cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) : Vec F S1024x64 .f32 :=
  VS.read (Elt F) (VS.writes (Elt F) VS.junk (runFirst c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10).1)

/-- A middle block's store into the accumulator tiles it. -/
theorem scoverMid (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : ¬cond0 i) (hc1 : ¬cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) (xs : Vec F S1024x64 .f32) (y : S1024x64.Idx) :
    ∃ pc ∈ (runMid c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs).1, y ∈ pc.1.set :=
  View.cover_of_tiledL (runMid c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs).1 S1024x64.size (by sl_kernel_rfl) y

/-- What a middle block leaves in the accumulator. -/
def accMid (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : ¬cond0 i) (hc1 : ¬cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) (xs : Vec F S1024x64 .f32) : Vec F S1024x64 .f32 :=
  VS.read (Elt F) (VS.writes (Elt F) VS.junk (runMid c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs).1)

/-- A last block's store into the output block tiles it. -/
theorem coverLast (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : ¬cond0 i) (hc1 : cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) (xs : Vec F S1024x64 .f32) (y : S1024x64.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs).1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs).1 S1024x64.size (by sl_kernel_rfl) y

/-- What a last block leaves in the output block's staging buffer. -/
def outLast (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : ¬cond0 i) (hc1 : cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) (xs : Vec F S1024x64 .f32) : Vec F S1024x64 .f32 :=
  VO.read (Elt F) (VO.writes (Elt F) VO.junk (runLast c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs).1)

/-- A last block's store into the accumulator tiles it. -/
theorem scoverLast (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : ¬cond0 i) (hc1 : cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) (xs : Vec F S1024x64 .f32) (y : S1024x64.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs).2.1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs).2.1 S1024x64.size (by sl_kernel_rfl) y

/-- What a last block leaves in the accumulator. -/
def accLast (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : ¬cond0 i) (hc1 : cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) (xs : Vec F S1024x64 .f32) : Vec F S1024x64 .f32 :=
  VS.read (Elt F) (VS.writes (Elt F) VS.junk (runLast c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs).2.1)

/-- The output block's staging buffer at a point where the body stores nothing into it: contents nobody reads
    (the block is neither written back there nor read at the next point). -/
def outIdle : Vec F S1024x64 .f32 := VO.read (Elt F) (VO.writes (Elt F) VO.junk [])

/-! ## The accumulation, point by point -/

/-- What the output block's staging buffer and the accumulator hold after the body at position `n`. -/
def outsAt (c : Dev nD) : (n : ℕ) → n < cfg2.N → Vec F S1024x64 .f32 × Vec F S1024x64 .f32
  | 0, hn => (outIdle, accFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) (ms11 ⟨0, hn⟩) (hs11 ⟨0, hn⟩) scM (Memref.isWhole_whole _) ((hcond0 ⟨0, hn⟩).mpr (Nat.zero_mod _)) (fun h => (fun h' => by (try dsimp only at h'); omega) ((hcond1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩))
  | n + 1, hn =>
    if h0 : (n + 1) % 4 = 0 then
      (outIdle, accFirst c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) scM (Memref.isWhole_whole _) ((hcond0 ⟨n + 1, hn⟩).mpr h0) (fun h => (fun h' => by (try dsimp only at h'); omega) ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩))
    else if h3 : (n + 1) % 4 = 3 then
      (outLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) scM (Memref.isWhole_whole _) (fun h => h0 ((hcond0 ⟨n + 1, hn⟩).mp h)) ((hcond1 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (outsAt c n (Nat.lt_of_succ_lt hn)).2,
       accLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) scM (Memref.isWhole_whole _) (fun h => h0 ((hcond0 ⟨n + 1, hn⟩).mp h)) ((hcond1 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (outsAt c n (Nat.lt_of_succ_lt hn)).2)
    else
      (outIdle, accMid c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) scM (Memref.isWhole_whole _) (fun h => h0 ((hcond0 ⟨n + 1, hn⟩).mp h)) (fun h => h3 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (outsAt c n (Nat.lt_of_succ_lt hn)).2)

/-- At a point ≡ 0 (mod 4): a first block's contents. -/
theorem outsAt_first (c : Dev nD) (t : Fin cfg2.N) (h0 : t.val % 4 = 0) :
    outsAt V c t.val t.isLt = (outIdle, accFirst c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) ((hcond0 t).mpr h0) (fun h => (fun h' => by omega) ((hcond1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t)) := by
  obtain ⟨n, hn⟩ := t
  cases n with
  | zero => exact rfl
  | succ n => exact (dif_pos h0).trans rfl

/-- At a point ≡ 1 or 2 (mod 4): a middle block's contents, over what the point before left in the accumulator. -/
theorem outsAt_mid (c : Dev nD) (t : Fin cfg2.N) (h0 : ¬t.val % 4 = 0) (h3 : ¬t.val % 4 = 3) :
    outsAt V c t.val t.isLt = (outIdle, accMid c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (fun h => h0 ((hcond0 t).mp h)) (fun h => h3 ((hcond1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

/-- At a point ≡ 3 (mod 4): a last block's contents, over what the point before left in the accumulator. -/
theorem outsAt_last (c : Dev nD) (t : Fin cfg2.N) (h0 : ¬t.val % 4 = 0) (h3 : t.val % 4 = 3) :
    outsAt V c t.val t.isLt = (outLast c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (fun h => h0 ((hcond0 t).mp h)) ((hcond1 t).mpr h3) (iblk V c 0 t) (iblk V c 1 t) (iblk V c 2 t) (iblk V c 3 t) (iblk V c 4 t) (iblk V c 5 t) (iblk V c 6 t) (iblk V c 7 t) (iblk V c 8 t) (iblk V c 9 t) (iblk V c 10 t) (outsAt V c (t.val - 1) (Nat.lt_of_le_of_lt (Nat.sub_le _ _) t.isLt)).2,
      accLast c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (fun h => h0 ((hcond0 t).mp h)) ((hcond1 t).mpr h3) (iblk V c 0 t) (iblk V c 1 t) (iblk V c 2 t) (iblk V c 3 t) (iblk V c 4 t) (iblk V c 5 t) (iblk V c 6 t) (iblk V c 7 t) (iblk V c 8 t) (iblk V c 9 t) (iblk V c 10 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-! ## The invariant -/

/-- Before position `n`: the class's invariant before the first point (the accumulator at anything); afterwards the
    accumulator at what the point before left, the other scoped buffers unopened, the generator register at some state. -/
def PhiS (c : Dev nD) : (n : ℕ) → n ≤ cfg2.N → sProp 𝕄
  | 0, _ => Pipeline.ΦA spec2 c
  | n + 1, hn => iprop(iprop(owns (c : Thread nD τ) scM fullShare ((outsAt V c n hn).2) ∗ restBut (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM fullShare ((outsAt V c n hn).2) ∗ restBut (F := F) c) ∗ (∃ r, prngReg c r)) := rfl

theorem PhiS_pos (c : Dev nD) (n : ℕ) (h : n ≤ cfg2.N) (hz : n ≠ 0) :
    PhiS V c n h = iprop(iprop(owns (c : Thread nD τ) scM fullShare ((outsAt V c (n - 1) (by omega)).2) ∗ restBut (F := F) c) ∗ (∃ r, prngReg c r)) := by
  cases n with
  | zero => exact absurd rfl hz
  | succ n => rfl

/-! ## The proof data -/

/-- The arrays as the region finds them; after the body at point `t` each operand's buffer at its block and the
    output's at the accumulation's first component; the invariant above; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = iblk V c 8 t := by dsimp only [dat]
theorem after_9 (c : Dev nD) (t : Fin cfg2.N) : (dat V c).after 9 t = iblk V c 9 t := by dsimp only [dat]
theorem after_10 (c : Dev nD) (t : Fin cfg2.N) : (dat V c).after 10 t = iblk V c 10 t := by dsimp only [dat]
theorem after_11 (c : Dev nD) (t : Fin cfg2.N) : (dat V c).after 11 t = (outsAt V c t.val t.isLt).1 := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d
theorem before_5 (c : Dev nD) (t : Fin cfg2.N) (d) : (dat V c).before 5 t d = iblk V c 5 t :=
  before_5_of V (dat V c) (A_eq V c 5) (after_5 V c) t d
theorem before_6 (c : Dev nD) (t : Fin cfg2.N) (d) : (dat V c).before 6 t d = iblk V c 6 t :=
  before_6_of V (dat V c) (A_eq V c 6) (after_6 V c) t d
theorem before_7 (c : Dev nD) (t : Fin cfg2.N) (d) : (dat V c).before 7 t d = iblk V c 7 t :=
  before_7_of V (dat V c) (A_eq V c 7) (after_7 V c) t d
theorem before_8 (c : Dev nD) (t : Fin cfg2.N) (d) : (dat V c).before 8 t d = iblk V c 8 t :=
  before_8_of V (dat V c) (A_eq V c 8) (after_8 V c) t d
theorem before_9 (c : Dev nD) (t : Fin cfg2.N) (d) : (dat V c).before 9 t d = iblk V c 9 t :=
  before_9_of V (dat V c) (A_eq V c 9) (after_9 V c) t d
theorem before_10 (c : Dev nD) (t : Fin cfg2.N) (d) : (dat V c).before 10 t d = iblk V c 10 t :=
  before_10_of V (dat V c) (A_eq V c 10) (after_10 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d))
    ∗ (∃ d, owns (c : Thread nD τ) (ms11 t) fullShare ((dat V c).before 11 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t)

set_option maxHeartbeats 16000000 in
/-- The body at any point: the operands' memrefs hold their blocks; the point's residue mod 4 says which case it is in;
    the invariant hands the body the accumulator (at anything at the very first point, else at what the point before
    left) and takes it back at this point's contents. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8, before_9, before_10]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  rw [show (dat V c).leavesExact 4 t = owns (c : Thread nD τ) (ms4 t) fullShare ((dat V c).after 4 t) from by
    unfold Dat.leavesExact; rw [live_4 t], after_4]
  rw [show (dat V c).leavesExact 5 t = owns (c : Thread nD τ) (ms5 t) fullShare ((dat V c).after 5 t) from by
    unfold Dat.leavesExact; rw [live_5 t], after_5]
  rw [show (dat V c).leavesExact 6 t = owns (c : Thread nD τ) (ms6 t) fullShare ((dat V c).after 6 t) from by
    unfold Dat.leavesExact; rw [live_6 t], after_6]
  rw [show (dat V c).leavesExact 7 t = owns (c : Thread nD τ) (ms7 t) fullShare ((dat V c).after 7 t) from by
    unfold Dat.leavesExact; rw [live_7 t], after_7]
  rw [show (dat V c).leavesExact 8 t = owns (c : Thread nD τ) (ms8 t) fullShare ((dat V c).after 8 t) from by
    unfold Dat.leavesExact; rw [live_8 t], after_8]
  rw [show (dat V c).leavesExact 9 t = owns (c : Thread nD τ) (ms9 t) fullShare ((dat V c).after 9 t) from by
    unfold Dat.leavesExact; rw [live_9 t], after_9]
  rw [show (dat V c).leavesExact 10 t = owns (c : Thread nD τ) (ms10 t) fullShare ((dat V c).after 10 t) from by
    unfold Dat.leavesExact; rw [live_10 t], after_10]
  by_cases h0 : t.val % 4 = 0
  · have hc0 : cond0 (grid2.coords t) := (hcond0 t).mpr h0
    have hc1 : ¬cond1 (grid2.coords t) := fun h => (fun h' => by omega) ((hcond1 t).mp h)
    rw [Dat.leavesExact_idle (dat V c) 11 t (idle_11_first t hc0 hc1) (noFlush_11_first t hc0 hc1)]
    rw [outsAt_first V c t h0]
    unfold accFirst; (try dsimp only)
    by_cases hz : t.val = 0
    · rw [PhiS_castSucc V c t, PhiS_zero V c _ _ hz, PhiA_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runFirst c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) (iblk V c 10 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      iintro ⟨H0, H1, H2, H3, H4, H5, H6, H7, H8, H9, H10, H11, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverFirst c _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runFirst c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) (iblk V c 10 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexists _; iexact HS0
      iintro ⟨H0, H1, H2, H3, H4, H5, H6, H7, H8, H9, H10, H11, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverFirst c _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
  · have hc0 : ¬cond0 (grid2.coords t) := fun h => h0 ((hcond0 t).mp h)
    have hz : t.val ≠ 0 := fun hz => h0 (by rw [hz])
    by_cases h3 : t.val % 4 = 3
    · have hc1 : cond1 (grid2.coords t) := (hcond1 t).mpr h3
      rw [show (dat V c).leavesExact 11 t = owns (c : Thread nD τ) (ms11 t) fullShare ((dat V c).after 11 t) from by
        unfold Dat.leavesExact; rw [live_11_last t hc0 hc1], after_11]
      rw [outsAt_last V c t h0 h3]
      unfold outLast accLast; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runLast c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) (iblk V c 10 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      iintro ⟨H0, H1, H2, H3, H4, H5, H6, H7, H8, H9, H10, ⟨%e11, H11⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverLast c _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (coverLast c _ _ _ _ _ _ _ _ _ _ _ _ _ _ _ _ _ _ _ _ _ _ _ _ _ _ _ _ _ _ _ _ _ _ _ _ _ _ _ _ _)
    · have hc1 : ¬cond1 (grid2.coords t) := fun h => h3 ((hcond1 t).mp h)
      rw [Dat.leavesExact_idle (dat V c) 11 t (idle_11_mid t hc0 hc1) (noFlush_11_mid t hc0 hc1)]
      rw [outsAt_mid V c t h0 h3]
      unfold accMid; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runMid c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) hc0 hc1 (iblk V c 0 t) (iblk V c 1 t) (iblk V c 2 t) (iblk V c 3 t) (iblk V c 4 t) (iblk V c 5 t) (iblk V c 6 t) (iblk V c 7 t) (iblk V c 8 t) (iblk V c 9 t) (iblk V c 10 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      iintro ⟨H0, H1, H2, H3, H4, H5, H6, H7, H8, H9, H10, H11, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverMid c _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Reg2

end
-- ==== Proof.KRun.lean ====
/-
  The kernel program's whole run, at any float instance: @main is bias reshapes, the first pallas_call, a batch-norm
  stretch of host operations, the second and third pallas_calls, a second batch-norm stretch. Each pallas_call enters
  from the thread state "every unscoped buffer at the contents so far" and leaves with its one output array at what
  its pipeline wrote back; the host stretches apply their operations. Chained, the run ends with every unscoped
  buffer at the last of these contents: the arguments as launched (the frame), and the result array named.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.Gen.KernelIdeal.Regions
import proofs.«103437_j49752901157443_2_alg».proof.Proof.R0Frame
import proofs.«103437_j49752901157443_2_alg».proof.Proof.R1Frame
import proofs.«103437_j49752901157443_2_alg».proof.Proof.R2Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev Vat (W : Dev nD → Valuation τ sig (Elt F)) : (c : Dev nD) → (b : Ref sig .tc) → Buf (Elt F) ((c : Thread nD τ).loc b) := fun c b => W c b

/-! ## What the three regions leave -/

/-- Every buffer at the first region's exit: its arrays at what its pipeline leaves, the rest as entered. -/
def U2 (c : Dev nD) : Valuation τ sig (Elt F) :=
  Pipeline.withArrays spec0 c (V1 m c) fun w => (Reg0.dat (Vat (V1 m)) c).arrAt w cfg0.N
def outs₂ : Outs (F := F) := fun _ r c => U2 m c r
/-- Every buffer at the second region's exit. -/
def U4 (c : Dev nD) : Valuation τ sig (Elt F) :=
  Pipeline.withArrays spec1 c (V3 m (outs₂ m) c) fun w => (Reg1.dat (Vat (V3 m (outs₂ m))) c).arrAt w cfg1.N
def outs₄ : Outs (F := F) := fun J r c => if J = 2 then U2 m c r else U4 m c r
/-- Every buffer at the third region's exit. -/
def U5 (c : Dev nD) : Valuation τ sig (Elt F) :=
  Pipeline.withArrays spec2 c (V4 m (outs₄ m) c) fun w => (Reg2.dat (Vat (V4 m (outs₄ m))) c).arrAt w cfg2.N
/-- What each region leaves in the one buffer it may change. -/
def outs : Outs (F := F) := fun J r c => if J = 2 then U2 m c r else if J = 4 then U4 m c r else U5 m c r

theorem V3_outs (c : Dev nD) : V3 m (outs m) c = V3 m (outs₂ m) c := rfl
theorem V4_outs (c : Dev nD) : V4 m (outs m) c = V4 m (outs₄ m) c := rfl
theorem V3_outs₄ (c : Dev nD) : V3 m (outs₄ m) c = V3 m (outs₂ m) c := rfl

/-! ## The proof data family and what rides beside the buffers -/

def pdats : (p : Fin 3) → (c : Dev nD) → Dat τ (Elt F) Unit ℕ (UR sig nD τ) ℕ (cfgs p) c
  | ⟨0, _⟩ => fun c => Reg0.dat (Vat (V1 m)) c
  | ⟨1, _⟩ => fun c => Reg1.dat (Vat (V3 m (outs₂ m))) c
  | ⟨2, _⟩ => fun c => Reg2.dat (Vat (V4 m (outs₄ m))) c

abbrev 𝒱₀ : Variants := Variants.none
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)

/-! ## Region 0 -/

set_option maxHeartbeats 4000000 in
theorem hF0 (c : Dev nD) (w : Fin cfg0.W) :
    (Reg0.dat (Vat (V1 m)) c).arrAt w cfg0.N = Vat (V2 m (outs₂ m)) c (Pipeline.arrRef spec0 w) := by
  fin_cases w
  · exact (((Reg0.dat (Vat (V1 m)) c).arrAt_in 0 rfl _).trans (Reg0.A_eq _ c 0)).trans (V2_of m (outs₂ m) c main_arg5 (by decide)).symm
  · exact (((Reg0.dat (Vat (V1 m)) c).arrAt_in 1 rfl _).trans (Reg0.A_eq _ c 1)).trans (V2_of m (outs₂ m) c main_arg0 (by decide)).symm
  · exact (((Reg0.dat (Vat (V1 m)) c).arrAt_in 2 rfl _).trans (Reg0.A_eq _ c 2)).trans (V2_of m (outs₂ m) c main_arg6 (by decide)).symm
  · exact (((Reg0.dat (Vat (V1 m)) c).arrAt_in 3 rfl _).trans (Reg0.A_eq _ c 3)).trans (V2_of m (outs₂ m) c main_v0 (by decide)).symm
  · exact (((Reg0.dat (Vat (V1 m)) c).arrAt_in 4 rfl _).trans (Reg0.A_eq _ c 4)).trans (V2_of m (outs₂ m) c main_arg8 (by decide)).symm
  · exact (((Reg0.dat (Vat (V1 m)) c).arrAt_in 5 rfl _).trans (Reg0.A_eq _ c 5)).trans (V2_of m (outs₂ m) c main_v1 (by decide)).symm
  · show _ = Function.update (V1 m c) main_v6 (outs₂ m 2 main_v6 c) main_v6
    rw [Function.update_self]
    show _ = U2 m c (Proc.devRef .tc (Pipeline.arrRef spec0 6))
    unfold U2
    exact (Pipeline.withArrays_arr spec0 launch0.win.arr_inj c (V1 m c) (fun w => (Reg0.dat (Vat (V1 m)) c).arrAt w cfg0.N) 6).symm

theorem hrest0 (c : Dev nD) : ∀ b, b ∉ Finset.univ.image (Pipeline.arrRef spec0) → Vat (V2 m (outs₂ m)) c b = Vat (V1 m) c b :=
  fun b hb => V2_of m (outs₂ m) c b (fun h => hb (Finset.mem_image.mpr ⟨6, Finset.mem_univ _, (List.mem_singleton.mp h).symm⟩))

set_option backward.isDefEq.respectTransparency.types false in
/-- Region 0 over the thread state: entered from every unscoped buffer at the contents after the bias reshapes, left with `main_v6` at what the pipeline wrote back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (Vat (V1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs₂ m) c) ∗ R c)
  X c := iprop(∃ r, prngReg c r)
  Y c := iprop(∃ r, prngReg c r)
  Z c := Pipeline.unscopedRest (Ix := Unit) (Name := ℕ) (U := UR sig nD τ) (Lvl := ℕ) spec0 c (Vat (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vat (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Reg0.PhiS (Vat (V1 m)) c (15 + 1) (Nat.le_of_eq N_0.symm) from rfl, Reg0.PhiS_succ]
    have back : (iprop(iprop(owns (c : Thread nD τ) Reg0.scM fullShare ((Reg0.outsAt (Vat (V1 m)) c 15 (Nat.le_of_eq N_0.symm)).2) ∗ Reg0.restBut (F := F) c) ∗ (∃ r, prngReg c r)) : sProp 𝕄)
        ⊢ Pipeline.ΦA spec0 c := by
      rw [Reg0.PhiA_eq]
      iintro ⟨⟨HS, HR⟩, Hp⟩
      isplitl [HS HR]
      · isplitl [HS]; · iexists _; iexact HS
        iexact HR
      iexact Hp
    refine back.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vat (V1 m) c) (Vat (V2 m (outs₂ m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

theorem hF1 (c : Dev nD) (w : Fin cfg1.W) :
    (Reg1.dat (Vat (V3 m (outs₂ m))) c).arrAt w cfg1.N = Vat (V4 m (outs₄ m)) c (Pipeline.arrRef spec1 w) := by
  fin_cases w
  · exact (((Reg1.dat (Vat (V3 m (outs₂ m))) c).arrAt_in 0 rfl _).trans (Reg1.A_eq _ c 0)).trans (V4_of m (outs₄ m) c main_arg4 (by decide)).symm
  · exact (((Reg1.dat (Vat (V3 m (outs₂ m))) c).arrAt_in 1 rfl _).trans (Reg1.A_eq _ c 1)).trans (V4_of m (outs₄ m) c main_v31 (by decide)).symm
  · show _ = Function.update (V3 m (outs₄ m) c) main_v32 (outs₄ m 4 main_v32 c) main_v32
    rw [Function.update_self]
    show _ = U4 m c (Proc.devRef .tc (Pipeline.arrRef spec1 2))
    unfold U4
    exact (Pipeline.withArrays_arr spec1 launch1.win.arr_inj c (V3 m (outs₂ m) c) (fun w => (Reg1.dat (Vat (V3 m (outs₂ m))) c).arrAt w cfg1.N) 2).symm

theorem hrest1 (c : Dev nD) : ∀ b, b ∉ Finset.univ.image (Pipeline.arrRef spec1) → Vat (V4 m (outs₄ m)) c b = Vat (V3 m (outs₂ m)) c b :=
  fun b hb => V4_of m (outs₄ m) c b (fun h => hb (Finset.mem_image.mpr ⟨2, Finset.mem_univ _, (List.mem_singleton.mp h).symm⟩))

set_option backward.isDefEq.respectTransparency.types false in
/-- Region 1 over the thread state: entered from every unscoped buffer at the contents after the first batch-norm stretch, left with `main_v32` at what the pipeline wrote back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (Vat (V3 m (outs₂ m))) c).loose
  hwaits := Pipeline.hwaits_of_owed_zero _ _ _ _ L lv 1 fun _ _ => rfl
  pre c := iprop(StableHlo.held (c : Thread nD τ) (Pipeline.ucRefs τ sig) (V3 m (outs₂ m) c) ∗ R c)
  post c := iprop(StableHlo.held (c : Thread nD τ) (Pipeline.ucRefs τ sig) (V4 m (outs₄ m) c) ∗ R c)
  X c := iprop(∃ r, prngReg c r)
  Y c := iprop(∃ r, prngReg c r)
  Z c := Pipeline.unscopedRest (Ix := Unit) (Name := ℕ) (U := UR sig nD τ) (Lvl := ℕ) spec1 c (Vat (V3 m (outs₂ m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vat (V3 m (outs₂ m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Reg1.PhiS (Vat (V3 m (outs₂ m))) c (15 + 1) (Nat.le_of_eq N_1.symm) from rfl, Reg1.PhiS_succ]
    have back : (iprop(iprop(owns (c : Thread nD τ) Reg1.scM fullShare ((Reg1.outsAt (Vat (V3 m (outs₂ m))) c 15 (Nat.le_of_eq N_1.symm)).2) ∗ Reg1.restBut (F := F) c) ∗ (∃ r, prngReg c r)) : sProp 𝕄)
        ⊢ Pipeline.ΦA spec1 c := by
      rw [Reg1.PhiA_eq]
      iintro ⟨⟨HS, HR⟩, Hp⟩
      isplitl [HS HR]
      · isplitl [HS]; · iexists _; iexact HS
        iexact HR
      iexact Hp
    refine back.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vat (V3 m (outs₂ m)) c) (Vat (V4 m (outs₄ m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

set_option maxHeartbeats 4000000 in
theorem hF2 (c : Dev nD) (w : Fin cfg2.W) :
    (Reg2.dat (Vat (V4 m (outs₄ m))) c).arrAt w cfg2.N = Vat (V5 m (outs m)) c (Pipeline.arrRef spec2 w) := by
  fin_cases w
  · exact (((Reg2.dat (Vat (V4 m (outs₄ m))) c).arrAt_in 0 rfl _).trans (Reg2.A_eq _ c 0)).trans (V5_of m (outs m) c main_arg3 (by decide)).symm
  · exact (((Reg2.dat (Vat (V4 m (outs₄ m))) c).arrAt_in 1 rfl _).trans (Reg2.A_eq _ c 1)).trans (V5_of m (outs m) c main_arg0 (by decide)).symm
  · exact (((Reg2.dat (Vat (V4 m (outs₄ m))) c).arrAt_in 2 rfl _).trans (Reg2.A_eq _ c 2)).trans (V5_of m (outs m) c main_v32 (by decide)).symm
  · exact (((Reg2.dat (Vat (V4 m (outs₄ m))) c).arrAt_in 3 rfl _).trans (Reg2.A_eq _ c 3)).trans (V5_of m (outs m) c main_arg10 (by decide)).symm
  · exact (((Reg2.dat (Vat (V4 m (outs₄ m))) c).arrAt_in 4 rfl _).trans (Reg2.A_eq _ c 4)).trans (V5_of m (outs m) c main_v2 (by decide)).symm
  · exact (((Reg2.dat (Vat (V4 m (outs₄ m))) c).arrAt_in 5 rfl _).trans (Reg2.A_eq _ c 5)).trans (V5_of m (outs m) c main_arg14 (by decide)).symm
  · exact (((Reg2.dat (Vat (V4 m (outs₄ m))) c).arrAt_in 6 rfl _).trans (Reg2.A_eq _ c 6)).trans (V5_of m (outs m) c main_v4 (by decide)).symm
  · exact (((Reg2.dat (Vat (V4 m (outs₄ m))) c).arrAt_in 7 rfl _).trans (Reg2.A_eq _ c 7)).trans (V5_of m (outs m) c main_arg12 (by decide)).symm
  · exact (((Reg2.dat (Vat (V4 m (outs₄ m))) c).arrAt_in 8 rfl _).trans (Reg2.A_eq _ c 8)).trans (V5_of m (outs m) c main_v3 (by decide)).symm
  · exact (((Reg2.dat (Vat (V4 m (outs₄ m))) c).arrAt_in 9 rfl _).trans (Reg2.A_eq _ c 9)).trans (V5_of m (outs m) c main_arg16 (by decide)).symm
  · exact (((Reg2.dat (Vat (V4 m (outs₄ m))) c).arrAt_in 10 rfl _).trans (Reg2.A_eq _ c 10)).trans (V5_of m (outs m) c main_v5 (by decide)).symm
  · show _ = Function.update (V4 m (outs m) c) main_v33 (outs m 5 main_v33 c) main_v33
    rw [Function.update_self]
    show _ = U5 m c (Proc.devRef .tc (Pipeline.arrRef spec2 11))
    unfold U5
    exact (Pipeline.withArrays_arr spec2 launch2.win.arr_inj c (V4 m (outs₄ m) c) (fun w => (Reg2.dat (Vat (V4 m (outs₄ m))) c).arrAt w cfg2.N) 11).symm

theorem hrest2 (c : Dev nD) : ∀ b, b ∉ Finset.univ.image (Pipeline.arrRef spec2) → Vat (V5 m (outs m)) c b = Vat (V4 m (outs₄ m)) c b :=
  fun b hb => V5_of m (outs m) c b (fun h => hb (Finset.mem_image.mpr ⟨11, Finset.mem_univ _, (List.mem_singleton.mp h).symm⟩))

set_option backward.isDefEq.respectTransparency.types false in
/-- Region 2 over the thread state: entered from the second region's exit contents, left with `main_v33` at what the pipeline wrote back. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (Vat (V4 m (outs₄ m))) c).loose
  hwaits := Pipeline.hwaits_of_owed_zero _ _ _ _ L lv 2 fun _ _ => rfl
  pre c := iprop(StableHlo.held (c : Thread nD τ) (Pipeline.ucRefs τ sig) (V4 m (outs₄ m) c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Vat (V4 m (outs₄ m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vat (V4 m (outs₄ m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Reg2.PhiS (Vat (V4 m (outs₄ m))) c (31 + 1) (Nat.le_of_eq N_2.symm) from rfl, Reg2.PhiS_succ]
    have back : (iprop(iprop(owns (c : Thread nD τ) Reg2.scM fullShare ((Reg2.outsAt (Vat (V4 m (outs₄ m))) c 31 (Nat.le_of_eq N_2.symm)).2) ∗ Reg2.restBut (F := F) c) ∗ (∃ r, prngReg c r)) : sProp 𝕄)
        ⊢ Pipeline.ΦA spec2 c := by
      rw [Reg2.PhiA_eq]
      iintro ⟨⟨HS, HR⟩, Hp⟩
      isplitl [HS HR]
      · isplitl [HS]; · iexists _; iexact HS
        iexact HR
      iexact Hp
    refine back.trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vat (V4 m (outs₄ m)) c) (Vat (V5 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- What rides beside the buffers through every host stretch. -/
abbrev E4 : Fin 4 → Dev nD → sProp 𝕄 := fun _ c => R c

/-- @main's six items in order: the bias reshapes, the first region, the first batch-norm stretch, the second and the
    third region, the second batch-norm stretch. -/
abbrev segs : List (Pipeline.Seg (pcfgs (F := F)) adm (pdats m) () defs₀ 𝒱₀ L lv) :=
  [ .host (seg0 m 𝒱₀ L lv E4),
    .region (reg0 m),
    .host (seg2 m (outs₂ m) 𝒱₀ L lv E4),
    .region (reg1 m),
    .region (reg2 m),
    .host (seg5 m (outs m) 𝒱₀ L lv E4) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, at any float instance: from any memory with zero counters every weakly fair execution of @main terminates,
    nothing faulting, and every final memory holds each unscoped buffer at the last valuation of the fold through
    @main — the launch contents, each host stretch's operations applied, each region's output array at what its
    pipeline wrote back. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V6 m (outs m) c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V6 m (outs m) c))
    (hch := ⟨fun _ => .rfl, fun _ => .rfl, fun _ => .rfl, fun _ => .rfl, fun _ => .rfl, fun _ => .rfl,
      fun c => sep_mono .rfl (show R c ⊢ _ from by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V6 m (outs m) c b)
    (hfin := fun c s' => by
      iintro ⟨Hh, HSI⟩
      unfold StableHlo.held
      imodintro
      iapply (pointsTo_read_all (Pipeline.ucRefs τ sig) (fun b => (((c : Thread nD τ)).1, b)) (V6 m (outs m) c) s')
      isplitl [Hh] <;> iassumption)
    (hQ := fun s h => h)

/-- THE FRAME, at any float instance: every argument array ends as launched (no host stretch writes one, no region may
    change one). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨(h c _ (mem_uc main_arg0 (by decide))).trans (V6_main_arg0 m (outs m) c),
      (h c _ (mem_uc main_arg1 (by decide))).trans (V6_main_arg1 m (outs m) c),
      (h c _ (mem_uc main_arg2 (by decide))).trans (V6_main_arg2 m (outs m) c),
      (h c _ (mem_uc main_arg3 (by decide))).trans (V6_main_arg3 m (outs m) c),
      (h c _ (mem_uc main_arg4 (by decide))).trans (V6_main_arg4 m (outs m) c),
      (h c _ (mem_uc main_arg5 (by decide))).trans (V6_main_arg5 m (outs m) c),
      (h c _ (mem_uc main_arg6 (by decide))).trans (V6_main_arg6 m (outs m) c),
      (h c _ (mem_uc main_arg7 (by decide))).trans (V6_main_arg7 m (outs m) c),
      (h c _ (mem_uc main_arg8 (by decide))).trans (V6_main_arg8 m (outs m) c),
      (h c _ (mem_uc main_arg9 (by decide))).trans (V6_main_arg9 m (outs m) c),
      (h c _ (mem_uc main_arg10 (by decide))).trans (V6_main_arg10 m (outs m) c),
      (h c _ (mem_uc main_arg11 (by decide))).trans (V6_main_arg11 m (outs m) c),
      (h c _ (mem_uc main_arg12 (by decide))).trans (V6_main_arg12 m (outs m) c),
      (h c _ (mem_uc main_arg13 (by decide))).trans (V6_main_arg13 m (outs m) c),
      (h c _ (mem_uc main_arg14 (by decide))).trans (V6_main_arg14 m (outs m) c),
      (h c _ (mem_uc main_arg15 (by decide))).trans (V6_main_arg15 m (outs m) c),
      (h c _ (mem_uc main_arg16 (by decide))).trans (V6_main_arg16 m (outs m) c),
      (h c _ (mem_uc main_arg17 (by decide))).trans (V6_main_arg17 m (outs m) c),
      (h c _ (mem_uc main_arg18 (by decide))).trans (V6_main_arg18 m (outs m) c),
      (h c _ (mem_uc main_arg19 (by decide))).trans (V6_main_arg19 m (outs m) c),
      (h c _ (mem_uc main_arg20 (by decide))).trans (V6_main_arg20 m (outs m) c),
      (h c _ (mem_uc main_arg21 (by decide))).trans (V6_main_arg21 m (outs m) c)⟩) (run_all m ρ)

/-- The result array after the run: the second batch-norm stretch applied to the third region's exit contents. -/
theorem result_at (ρ : Dev nD → PrngReg) :
    θ_run defs (onTc (τ := τ) (main (F := F))) ⟨m, fun _ => 0, ρ⟩ (fun r => ∀ c : Dev nD,
      r.2.mem ((c.tc : Thread nD τ).loc main_v58) = V6 m (outs m) c main_v58) :=
  (θ_run defs _ _).mono (fun r h c => h c _ (mem_uc main_v58 (by decide))) (run_all m ρ)

end Cert.KernelIdeal.Asm

end
-- ==== Proof.RefStagesSpec.lean ====
/-
  The reference computation of this certificate as a chain of stages over arrays of extended reals, each stage ONE
  function of its input arrays, read index by index over the literal shapes.

  With y [8192,64], lg [8192,8192], pm [4096,8192], pd [4096,8192], the eight [32,64] weights and [32] biases and the
  four [64] batch-norm vectors, the stages are, in the order and with exactly the association in which the reference
  performs them:

    pdY  = pd · y                                   pdY(p,f)  = ∑ k : Fin 8192, pd(p,k) * y(k,f)
    xPre = [pdY·twᵀ + tb | relu(pdY·twrᵀ + tbr)]    xPre(p,q) = (∑ f : Fin 64, pdY(p,f) * tw(q,f)) + tb(q)             for q < 32
                                                    xPre(p,q) = max ((∑ f, pdY(p,f) * twr(q-32,f)) + tbr(q-32)) 0       for 32 ≤ q
    x    = bnX xPre bnxw bnxb                       (batch norm down the 4096 rows, kept closed: see below)
    pmX  = pmᵀ · x                                  pmX(e,j)  = ∑ n : Fin 4096, pm(n,e) * x(n,j)
    lgY  = lg · y                                   lgY(e,f)  = ∑ k : Fin 8192, lg(e,k) * y(k,f)
    yPre                                            yPre(e,q) = ((∑ f, lgY(e,f) * gaw(q,f)) + gab(q)) + ((∑ f, pmX(e,f) * gxw(q,f)) + gxb(q))          for q < 32
                                                    yPre(e,q) = max (((∑ f, lgY(e,f) * garw(q-32,f)) + garb(q-32))
                                                                     + ((∑ f, pmX(e,f) * gxrw(q-32,f)) + gxrb(q-32))) 0                                  for 32 ≤ q
    out  = bnY yPre bnyw bnyb                       (batch norm down the 8192 rows)

  In every matrix product the factor coming from the LEFT operand is written on the left of the product, the sum runs
  over the contracted coordinate, and a bias is added AFTER the sum, on the right. The linear half of a stage is its
  columns 0 … 31, the rectified half its columns 32 … 63; the rectifier is max (·) 0 with the value on the left.

  The two batch norms are compositions of the host's own operations (column sum from zero, division by the row count,
  subtraction of the broadcast mean, square, column sum, division, plus epsilon, reciprocal square root, the two
  broadcast products and the broadcast sum), in the order the reference performs them. Nothing about their value is
  used: a program that applies the same operations to an array equal to a stage's input produces an equal output, and
  that is all the comparison of two programs needs of them.
-/
import Idealize.ShloMosaic.Lib.ValueIdx
import Idealize.ShloMosaic.PureOps.Ideal.Laws

noncomputable section

open scoped BigOperators

namespace Cert.RefStages

open Idealize.ShloMosaic Idealize.ShloMosaic.ValueIdx

/-! ## Shapes and arrays -/

/-- The shape of a matrix with r rows and c columns. -/
abbrev Sh2 (r c : Nat) : Shape := ⟨2, ![r, c]⟩
/-- The shape of a vector of length n. -/
abbrev Sh1 (n : Nat) : Shape := ⟨1, ![n]⟩
/-- The shape of a scalar. -/
abbrev Sh0 : Shape := ⟨0, ![]⟩

/-- An f32 array of shape S read at the ideal instance: an extended real at every index. -/
abbrev Arr (S : Shape) : Type := FVec Ideal S .f32

/-! ## The three large matrix products -/

/-- pd · y : element (p,f) is ∑ k, pd(p,k) * y(k,f). -/
def pdY (pd : Arr (Sh2 4096 8192)) (y : Arr (Sh2 8192 64)) : Arr (Sh2 4096 64) :=
  fun i => ∑ k : Fin 8192, pd (ix2 (⟨(i 0).val, idx2_lt0 i⟩ : Fin 4096) k) * y (ix2 k (⟨(i 1).val, idx2_lt1 i⟩ : Fin 64))

theorem pdY_apply (pd : Arr (Sh2 4096 8192)) (y : Arr (Sh2 8192 64)) (p : Fin 4096) (f : Fin 64) :
    pdY pd y (ix2 p f) = ∑ k : Fin 8192, pd (ix2 p k) * y (ix2 k f) := rfl

/-- lg · y : element (e,f) is ∑ k, lg(e,k) * y(k,f). -/
def lgY (lg : Arr (Sh2 8192 8192)) (y : Arr (Sh2 8192 64)) : Arr (Sh2 8192 64) :=
  fun i => ∑ k : Fin 8192, lg (ix2 (⟨(i 0).val, idx2_lt0 i⟩ : Fin 8192) k) * y (ix2 k (⟨(i 1).val, idx2_lt1 i⟩ : Fin 64))

theorem lgY_apply (lg : Arr (Sh2 8192 8192)) (y : Arr (Sh2 8192 64)) (e : Fin 8192) (f : Fin 64) :
    lgY lg y (ix2 e f) = ∑ k : Fin 8192, lg (ix2 e k) * y (ix2 k f) := rfl

/-- pmᵀ · x : element (e,j) is ∑ n, pm(n,e) * x(n,j). -/
def pmX (pm : Arr (Sh2 4096 8192)) (x : Arr (Sh2 4096 64)) : Arr (Sh2 8192 64) :=
  fun i => ∑ n : Fin 4096, pm (ix2 n (⟨(i 0).val, idx2_lt0 i⟩ : Fin 8192)) * x (ix2 n (⟨(i 1).val, idx2_lt1 i⟩ : Fin 64))

theorem pmX_apply (pm : Arr (Sh2 4096 8192)) (x : Arr (Sh2 4096 64)) (e : Fin 8192) (j : Fin 64) :
    pmX pm x (ix2 e j) = ∑ n : Fin 4096, pm (ix2 n e) * x (ix2 n j) := rfl

/-! ## A linear layer's element -/

/-- (a · wᵀ + b)(r,j) = (∑ f : Fin 64, a(r,f) * w(j,f)) + b(j): the sum over the 64 features first, the bias added
    last, on the right. -/
def linear64 {R : Nat} (a : Arr (Sh2 R 64)) (w : Arr (Sh2 32 64)) (b : Arr (Sh1 32)) (r : Fin R) (j : Fin 32) : EReal :=
  (∑ f : Fin 64, a (ix2 r f) * w (ix2 j f)) + b (ix1 j)

theorem linear64_def {R : Nat} (a : Arr (Sh2 R 64)) (w : Arr (Sh2 32 64)) (b : Arr (Sh1 32)) (r : Fin R) (j : Fin 32) :
    linear64 a w b r j = (∑ f : Fin 64, a (ix2 r f) * w (ix2 j f)) + b (ix1 j) := rfl

/-! ## The array that is batch-normalised into x -/

/-- The element in row p, column q. Columns 0 … 31: pdY · twᵀ + tb. Columns 32 … 63: max (pdY · twrᵀ + tbr) 0. -/
def xPreAt (pd : Arr (Sh2 4096 8192)) (y : Arr (Sh2 8192 64)) (tw : Arr (Sh2 32 64)) (tb : Arr (Sh1 32))
    (twr : Arr (Sh2 32 64)) (tbr : Arr (Sh1 32)) (p : Fin 4096) (q : Fin 64) : EReal :=
  if h : q.val < 32 then linear64 (pdY pd y) tw tb p ⟨q.val, h⟩
  else max (linear64 (pdY pd y) twr tbr p ⟨q.val - 32, by have := q.isLt; omega⟩) 0

/-- The array of those elements. -/
def xPre (pd : Arr (Sh2 4096 8192)) (y : Arr (Sh2 8192 64)) (tw : Arr (Sh2 32 64)) (tb : Arr (Sh1 32))
    (twr : Arr (Sh2 32 64)) (tbr : Arr (Sh1 32)) : Arr (Sh2 4096 64) :=
  fun i => xPreAt pd y tw tb twr tbr (⟨(i 0).val, idx2_lt0 i⟩ : Fin 4096) (⟨(i 1).val, idx2_lt1 i⟩ : Fin 64)

theorem xPre_apply (pd : Arr (Sh2 4096 8192)) (y : Arr (Sh2 8192 64)) (tw : Arr (Sh2 32 64)) (tb : Arr (Sh1 32))
    (twr : Arr (Sh2 32 64)) (tbr : Arr (Sh1 32)) (p : Fin 4096) (q : Fin 64) :
    xPre pd y tw tb twr tbr (ix2 p q) = xPreAt pd y tw tb twr tbr p q := rfl

/-- A column of the linear half. -/
theorem xPreAt_linear (pd : Arr (Sh2 4096 8192)) (y : Arr (Sh2 8192 64)) (tw : Arr (Sh2 32 64)) (tb : Arr (Sh1 32))
    (twr : Arr (Sh2 32 64)) (tbr : Arr (Sh1 32)) (p : Fin 4096) (q : Fin 64) (h : q.val < 32) :
    xPreAt pd y tw tb twr tbr p q
      = (∑ f : Fin 64, (∑ k : Fin 8192, pd (ix2 p k) * y (ix2 k f)) * tw (ix2 (⟨q.val, h⟩ : Fin 32) f))
        + tb (ix1 (⟨q.val, h⟩ : Fin 32)) := by
  unfold xPreAt
  rw [dif_pos h]
  rfl

/-- A column of the rectified half. -/
theorem xPreAt_relu (pd : Arr (Sh2 4096 8192)) (y : Arr (Sh2 8192 64)) (tw : Arr (Sh2 32 64)) (tb : Arr (Sh1 32))
    (twr : Arr (Sh2 32 64)) (tbr : Arr (Sh1 32)) (p : Fin 4096) (q : Fin 64) (h : ¬ q.val < 32) :
    xPreAt pd y tw tb twr tbr p q
      = max ((∑ f : Fin 64, (∑ k : Fin 8192, pd (ix2 p k) * y (ix2 k f))
            * twr (ix2 (⟨q.val - 32, by have := q.isLt; omega⟩ : Fin 32) f))
          + tbr (ix1 (⟨q.val - 32, by have := q.isLt; omega⟩ : Fin 32))) 0 := by
  unfold xPreAt
  rw [dif_neg h]
  rfl

/-! ## The array that is batch-normalised into the result -/

/-- The element in row e, column q. Columns 0 … 31: (lgY · gawᵀ + gab) + (pmX · gxwᵀ + gxb). Columns 32 … 63:
    max ((lgY · garwᵀ + garb) + (pmX · gxrwᵀ + gxrb)) 0. -/
def yPreAt (lgy pmx : Arr (Sh2 8192 64)) (gaw : Arr (Sh2 32 64)) (gab : Arr (Sh1 32)) (gxw : Arr (Sh2 32 64))
    (gxb : Arr (Sh1 32)) (garw : Arr (Sh2 32 64)) (garb : Arr (Sh1 32)) (gxrw : Arr (Sh2 32 64)) (gxrb : Arr (Sh1 32))
    (e : Fin 8192) (q : Fin 64) : EReal :=
  if h : q.val < 32 then linear64 lgy gaw gab e ⟨q.val, h⟩ + linear64 pmx gxw gxb e ⟨q.val, h⟩
  else max (linear64 lgy garw garb e ⟨q.val - 32, by have := q.isLt; omega⟩
    + linear64 pmx gxrw gxrb e ⟨q.val - 32, by have := q.isLt; omega⟩) 0

/-- The array of those elements. -/
def yPre (lgy pmx : Arr (Sh2 8192 64)) (gaw : Arr (Sh2 32 64)) (gab : Arr (Sh1 32)) (gxw : Arr (Sh2 32 64))
    (gxb : Arr (Sh1 32)) (garw : Arr (Sh2 32 64)) (garb : Arr (Sh1 32)) (gxrw : Arr (Sh2 32 64)) (gxrb : Arr (Sh1 32)) :
    Arr (Sh2 8192 64) :=
  fun i => yPreAt lgy pmx gaw gab gxw gxb garw garb gxrw gxrb
    (⟨(i 0).val, idx2_lt0 i⟩ : Fin 8192) (⟨(i 1).val, idx2_lt1 i⟩ : Fin 64)

theorem yPre_apply (lgy pmx : Arr (Sh2 8192 64)) (gaw : Arr (Sh2 32 64)) (gab : Arr (Sh1 32)) (gxw : Arr (Sh2 32 64))
    (gxb : Arr (Sh1 32)) (garw : Arr (Sh2 32 64)) (garb : Arr (Sh1 32)) (gxrw : Arr (Sh2 32 64)) (gxrb : Arr (Sh1 32))
    (e : Fin 8192) (q : Fin 64) :
    yPre lgy pmx gaw gab gxw gxb garw garb gxrw gxrb (ix2 e q)
      = yPreAt lgy pmx gaw gab gxw gxb garw garb gxrw gxrb e q := rfl

/-- A column of the linear half. -/
theorem yPreAt_linear (lgy pmx : Arr (Sh2 8192 64)) (gaw : Arr (Sh2 32 64)) (gab : Arr (Sh1 32)) (gxw : Arr (Sh2 32 64))
    (gxb : Arr (Sh1 32)) (garw : Arr (Sh2 32 64)) (garb : Arr (Sh1 32)) (gxrw : Arr (Sh2 32 64)) (gxrb : Arr (Sh1 32))
    (e : Fin 8192) (q : Fin 64) (h : q.val < 32) :
    yPreAt lgy pmx gaw gab gxw gxb garw garb gxrw gxrb e q
      = ((∑ f : Fin 64, lgy (ix2 e f) * gaw (ix2 (⟨q.val, h⟩ : Fin 32) f)) + gab (ix1 (⟨q.val, h⟩ : Fin 32)))
        + ((∑ f : Fin 64, pmx (ix2 e f) * gxw (ix2 (⟨q.val, h⟩ : Fin 32) f)) + gxb (ix1 (⟨q.val, h⟩ : Fin 32))) := by
  unfold yPreAt
  rw [dif_pos h]
  rfl

/-- A column of the rectified half. -/
theorem yPreAt_relu (lgy pmx : Arr (Sh2 8192 64)) (gaw : Arr (Sh2 32 64)) (gab : Arr (Sh1 32)) (gxw : Arr (Sh2 32 64))
    (gxb : Arr (Sh1 32)) (garw : Arr (Sh2 32 64)) (garb : Arr (Sh1 32)) (gxrw : Arr (Sh2 32 64)) (gxrb : Arr (Sh1 32))
    (e : Fin 8192) (q : Fin 64) (h : ¬ q.val < 32) :
    yPreAt lgy pmx gaw gab gxw gxb garw garb gxrw gxrb e q
      = max (((∑ f : Fin 64, lgy (ix2 e f) * garw (ix2 (⟨q.val - 32, by have := q.isLt; omega⟩ : Fin 32) f))
            + garb (ix1 (⟨q.val - 32, by have := q.isLt; omega⟩ : Fin 32)))
          + ((∑ f : Fin 64, pmx (ix2 e f) * gxrw (ix2 (⟨q.val - 32, by have := q.isLt; omega⟩ : Fin 32) f))
            + gxrb (ix1 (⟨q.val - 32, by have := q.isLt; omega⟩ : Fin 32)))) 0 := by
  unfold yPreAt
  rw [dif_neg h]
  rfl

/-! ## The two batch norms, as compositions of the host's operations -/

theorem reduces_rows4096 : (Sh2 4096 64).ReducesTo [0] (Sh1 64) := by decide
theorem reduces_rows8192 : (Sh2 8192 64).ReducesTo [0] (Sh1 64) := by decide
theorem scalar_nonempty : 0 < Sh0.numel := by decide
theorem bcast_scalar_vec : Sh0.BroadcastsInDim (Sh1 64) (![] : Fin 0 → Fin (Sh1 64).rank) := by decide
theorem bcast_vec_row : (Sh1 64).BroadcastsInDim (Sh2 1 64) (![1] : Fin 1 → Fin (Sh2 1 64).rank) := by decide
theorem bcast_row_rows4096 : (Sh2 1 64).BroadcastsInDim (Sh2 4096 64) (![0, 1] : Fin 2 → Fin (Sh2 4096 64).rank) := by decide
theorem bcast_row_rows8192 : (Sh2 1 64).BroadcastsInDim (Sh2 8192 64) (![0, 1] : Fin 2 → Fin (Sh2 8192 64).rank) := by decide

/-- A [64] vector repeated down 4096 rows: first as a [1,64] row, then down the rows. -/
def downRows4096 (v : Arr (Sh1 64)) : Arr (Sh2 4096 64) :=
  broadcastInDim (Sh2 4096 64) ![0, 1] bcast_row_rows4096 (broadcastInDim (Sh2 1 64) ![1] bcast_vec_row v)

/-- A [64] vector repeated down 8192 rows. -/
def downRows8192 (v : Arr (Sh1 64)) : Arr (Sh2 8192 64) :=
  broadcastInDim (Sh2 8192 64) ![0, 1] bcast_row_rows8192 (broadcastInDim (Sh2 1 64) ![1] bcast_vec_row v)

/-- A scalar word repeated along a [64] vector. -/
def splat64 (b : BitVec 32) : Arr (Sh1 64) :=
  broadcastInDim (Sh1 64) ![] bcast_scalar_vec (constant (F := Ideal) Sh0 .f32 b)

/-- The column means of a [4096,64] array: the column sums from zero, divided by 4096. -/
def colMean4096 (a : Arr (Sh2 4096 64)) : Arr (Sh1 64) :=
  Host.divf (F := Ideal) (Host.reduceAdd (F := Ideal) a (constant (F := Ideal) Sh0 .f32 0x00000000#32) reduces_rows4096 scalar_nonempty)
    (splat64 0x45800000#32)

/-- The column means of a [8192,64] array: the column sums from zero, divided by 8192. -/
def colMean8192 (a : Arr (Sh2 8192 64)) : Arr (Sh1 64) :=
  Host.divf (F := Ideal) (Host.reduceAdd (F := Ideal) a (constant (F := Ideal) Sh0 .f32 0x00000000#32) reduces_rows8192 scalar_nonempty)
    (splat64 0x46000000#32)

/-- Batch norm down the 4096 rows: ((a − mean) · rsqrt (mean ((a − mean)²) + ε)) · w + b, the mean and the scale
    vectors repeated down the rows, every operation the host's. -/
def bnX (a : Arr (Sh2 4096 64)) (w b : Arr (Sh1 64)) : Arr (Sh2 4096 64) :=
  addf (mulf (mulf (subf a (downRows4096 (colMean4096 a)))
      (downRows4096 (Host.rsqrt (F := Ideal) (addf
        (colMean4096 (mulf (subf a (downRows4096 (colMean4096 a))) (subf a (downRows4096 (colMean4096 a)))))
        (splat64 0x3727C5AC#32)))))
    (downRows4096 w)) (downRows4096 b)

/-- Batch norm down the 8192 rows. -/
def bnY (a : Arr (Sh2 8192 64)) (w b : Arr (Sh1 64)) : Arr (Sh2 8192 64) :=
  addf (mulf (mulf (subf a (downRows8192 (colMean8192 a)))
      (downRows8192 (Host.rsqrt (F := Ideal) (addf
        (colMean8192 (mulf (subf a (downRows8192 (colMean8192 a))) (subf a (downRows8192 (colMean8192 a)))))
        (splat64 0x3727C5AC#32)))))
    (downRows8192 w)) (downRows8192 b)

/-! ## The whole reference -/

/-- The reference's result as one function of its twenty argument arrays (in the order of the program's arguments
    that it reads: y, lg, pm, pd, then the six (weight, bias) pairs, then the four batch-norm vectors). -/
def refOut (y : Arr (Sh2 8192 64)) (lg : Arr (Sh2 8192 8192)) (pm pd : Arr (Sh2 4096 8192))
    (tw : Arr (Sh2 32 64)) (tb : Arr (Sh1 32)) (twr : Arr (Sh2 32 64)) (tbr : Arr (Sh1 32))
    (gaw : Arr (Sh2 32 64)) (gab : Arr (Sh1 32)) (gxw : Arr (Sh2 32 64)) (gxb : Arr (Sh1 32))
    (garw : Arr (Sh2 32 64)) (garb : Arr (Sh1 32)) (gxrw : Arr (Sh2 32 64)) (gxrb : Arr (Sh1 32))
    (bnxw bnxb bnyw bnyb : Arr (Sh1 64)) : Arr (Sh2 8192 64) :=
  bnY (yPre (lgY lg y) (pmX pm (bnX (xPre pd y tw tb twr tbr) bnxw bnxb)) gaw gab gxw gxb garw garb gxrw gxrb) bnyw bnyb

end Cert.RefStages

end
-- ==== Proof.KHost.lean ====
/-
  The host operations around the three pallas_calls, read at the extended reals. The six bias vectors enter the
  kernels as one-row matrices: row 0, column j of the reshaped array is entry j of the vector. Each of the two
  batch-norm stretches is, operation for operation, the reference's own batch-norm chain (column mean, centred
  squares' mean plus the epsilon literal, reciprocal square root, scale, shift), so it is carried as that one
  function and never opened. Buffers no stretch writes and no region may change read as launched.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.Gen.KernelIdeal.Regions
import proofs.«103437_j49752901157443_2_alg».proof.Proof.RefStagesSpec
import Idealize.ShloMosaic.Lib.StableHlo.Run
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Host

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.RefStages Idealize.ShloMosaic.ValueIdx

variable (m : (ℓ : Loc nD τ sig) → Buf (Elt Ideal) ℓ) (outs : Outs (F := Ideal))

/-- A vector of 32 cast to one row of 32: row 0, column j is entry j. -/
theorem rowCast_apply {α : Type} (x : S32.Idx → α) (j : Fin 32) :
    shapeCast S1x32 x shapeCasts_S32_S1x32 (ix2 (0 : Fin 1) j) = x (ix1 j) :=
  shapeCast_apply x shapeCasts_S32_S1x32 (ix2 (0 : Fin 1) j) (ix1 j) (by
    rw [Shape.rowMajor_val_one, Shape.rowMajor_val_two]
    simp [ix1, ix2])

theorem bias_v0 (c : Dev nD) (j : Fin 32) : V1 m c main_v0 (ix2 (0 : Fin 1) j) = m ((c : Thread nD τ).loc main_arg7) (ix1 j) := by
  have e : (V1 m c main_v0 : S1x32.Idx → EReal) = shapeCast S1x32 (m ((c : Thread nD τ).loc main_arg7)) shapeCasts_S32_S1x32 := by
    show StableHlo.after hostOps0 (V0 m c) (Proc.devRef .tc main_v0) = _
    after_results
    rfl
  rw [e]
  exact rowCast_apply _ j

theorem bias_v1 (c : Dev nD) (j : Fin 32) : V1 m c main_v1 (ix2 (0 : Fin 1) j) = m ((c : Thread nD τ).loc main_arg9) (ix1 j) := by
  have e : (V1 m c main_v1 : S1x32.Idx → EReal) = shapeCast S1x32 (m ((c : Thread nD τ).loc main_arg9)) shapeCasts_S32_S1x32 := by
    show StableHlo.after hostOps0 (V0 m c) (Proc.devRef .tc main_v1) = _
    after_results
    rfl
  rw [e]
  exact rowCast_apply _ j

theorem bias_v2 (c : Dev nD) (j : Fin 32) : V1 m c main_v2 (ix2 (0 : Fin 1) j) = m ((c : Thread nD τ).loc main_arg11) (ix1 j) := by
  have e : (V1 m c main_v2 : S1x32.Idx → EReal) = shapeCast S1x32 (m ((c : Thread nD τ).loc main_arg11)) shapeCasts_S32_S1x32 := by
    show StableHlo.after hostOps0 (V0 m c) (Proc.devRef .tc main_v2) = _
    after_results
    rfl
  rw [e]
  exact rowCast_apply _ j

theorem bias_v3 (c : Dev nD) (j : Fin 32) : V1 m c main_v3 (ix2 (0 : Fin 1) j) = m ((c : Thread nD τ).loc main_arg13) (ix1 j) := by
  have e : (V1 m c main_v3 : S1x32.Idx → EReal) = shapeCast S1x32 (m ((c : Thread nD τ).loc main_arg13)) shapeCasts_S32_S1x32 := by
    show StableHlo.after hostOps0 (V0 m c) (Proc.devRef .tc main_v3) = _
    after_results
    rfl
  rw [e]
  exact rowCast_apply _ j

theorem bias_v4 (c : Dev nD) (j : Fin 32) : V1 m c main_v4 (ix2 (0 : Fin 1) j) = m ((c : Thread nD τ).loc main_arg15) (ix1 j) := by
  have e : (V1 m c main_v4 : S1x32.Idx → EReal) = shapeCast S1x32 (m ((c : Thread nD τ).loc main_arg15)) shapeCasts_S32_S1x32 := by
    show StableHlo.after hostOps0 (V0 m c) (Proc.devRef .tc main_v4) = _
    after_results
    rfl
  rw [e]
  exact rowCast_apply _ j

theorem bias_v5 (c : Dev nD) (j : Fin 32) : V1 m c main_v5 (ix2 (0 : Fin 1) j) = m ((c : Thread nD τ).loc main_arg17) (ix1 j) := by
  have e : (V1 m c main_v5 : S1x32.Idx → EReal) = shapeCast S1x32 (m ((c : Thread nD τ).loc main_arg17)) shapeCasts_S32_S1x32 := by
    show StableHlo.after hostOps0 (V0 m c) (Proc.devRef .tc main_v5) = _
    after_results
    rfl
  rw [e]
  exact rowCast_apply _ j

/-! ## Buffers nobody writes -/

theorem V1_keep (c : Dev nD) (r : Ref sig .tc) (h1 : r ∉ hostOps0_W) : V1 m c r = m ((c : Thread nD τ).loc r) :=
  (V1_of m c r h1).trans rfl
theorem V2_keep (c : Dev nD) (r : Ref sig .tc) (h1 : r ∉ hostOps0_W) (h2 : r ∉ ([main_v6] : List (Ref sig .tc))) :
    V2 m outs c r = m ((c : Thread nD τ).loc r) :=
  (V2_of m outs c r h2).trans (V1_keep m c r h1)
theorem V3_keep (c : Dev nD) (r : Ref sig .tc) (h1 : r ∉ hostOps0_W) (h2 : r ∉ ([main_v6] : List (Ref sig .tc))) (h3 : r ∉ hostOps1_W) :
    V3 m outs c r = m ((c : Thread nD τ).loc r) :=
  (V3_of m outs c r h3).trans (V2_keep m outs c r h1 h2)
theorem V4_keep (c : Dev nD) (r : Ref sig .tc) (h1 : r ∉ hostOps0_W) (h2 : r ∉ ([main_v6] : List (Ref sig .tc))) (h3 : r ∉ hostOps1_W)
    (h4 : r ∉ ([main_v32] : List (Ref sig .tc))) : V4 m outs c r = m ((c : Thread nD τ).loc r) :=
  (V4_of m outs c r h4).trans (V3_keep m outs c r h1 h2 h3)
theorem V5_keep (c : Dev nD) (r : Ref sig .tc) (h1 : r ∉ hostOps0_W) (h2 : r ∉ ([main_v6] : List (Ref sig .tc))) (h3 : r ∉ hostOps1_W)
    (h4 : r ∉ ([main_v32] : List (Ref sig .tc))) (h5 : r ∉ ([main_v33] : List (Ref sig .tc))) : V5 m outs c r = m ((c : Thread nD τ).loc r) :=
  (V5_of m outs c r h5).trans (V4_keep m outs c r h1 h2 h3 h4)
/-- A bias row, written by the first stretch only, is unchanged at the third region's entry. -/
theorem V4_row (c : Dev nD) (r : Ref sig .tc) (h2 : r ∉ ([main_v6] : List (Ref sig .tc))) (h3 : r ∉ hostOps1_W)
    (h4 : r ∉ ([main_v32] : List (Ref sig .tc))) : V4 m outs c r = V1 m c r :=
  (V4_of m outs c r h4).trans ((V3_of m outs c r h3).trans (V2_of m outs c r h2))

/-! ## The two batch-norm stretches -/

set_option maxHeartbeats 2000000 in
/-- The result array is the batch-norm chain of the third region's output with the last two arguments. -/
theorem v58_eq (c : Dev nD) :
    V6 m outs c main_v58 = bnY (V5 m outs c main_v33) (V5 m outs c main_arg20) (V5 m outs c main_arg21) := by
  show StableHlo.after hostOps3 (V5 m outs c) (Proc.devRef .tc main_v58) = _
  after_results
  rfl

set_option maxHeartbeats 2000000 in
/-- The second region's right operand is the batch-norm chain of the first region's output. -/
theorem v31_eq (c : Dev nD) :
    V3 m outs c main_v31 = bnX (V2 m outs c main_v6) (V2 m outs c main_arg18) (V2 m outs c main_arg19) := by
  show StableHlo.after hostOps1 (V2 m outs c) (Proc.devRef .tc main_v31) = _
  after_results
  rfl

end Cert.KernelIdeal.Host

end
-- ==== Proof.R0ValueCases.lean ====
/-
  What each case of the first pallas_call's body leaves, as the body's payloads of the blocks it loaded (at any
  float instance; the payloads stay folded): a first block leaves in the accumulator the accumulation step over the
  zero block, a middle or last block the accumulation step over what the accumulator held, and a last block leaves
  in the output block the epilogue of the accumulator it has just stored.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.R0Frame
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- A middle block leaves `acc + block product`: its one covering store's payload, whose loads read the whole buffers. -/
theorem accMid_eq (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : ¬cond0 i) (hc1 : ¬cond1 i)
    (x0 : Vec F S1024x2048 .f32) (x1 : Vec F S2048x64 .f32) (x2 : Vec F S32x64 .f32) (x3 : Vec F S1x32 .f32) (x4 : Vec F S32x64 .f32) (x5 : Vec F S1x32 .f32) (xs : Vec F S1024x64 .f32) :
    accMid c i arg2 harg2 arg3 harg3 arg4 harg4 arg5 harg5 arg6 harg6 arg7 harg7 arg8 harg8 arg9 harg9 hc0 hc1 x0 x1 x2 x3 x4 x5 xs = k0_pay2 x0 x1 xs := by
  unfold accMid
  rw [View.read_writes_eq_canon _ _ _ (scoverMid c i arg2 harg2 arg3 harg3 arg4 harg4 arg5 harg5 arg6 harg6 arg7 harg7 arg8 harg8 arg9 harg9 hc0 hc1 x0 x1 x2 x3 x4 x5 xs)]
  unfold runMid
  dsimp only
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x2048) hz, View.ld_unit_zero (S := S2048x64) hz, View.ld_unit_zero (S := S32x64) hz, View.ld_unit_zero (S := S1x32) hz, View.ld_unit_zero (S := S1024x64) hz]

/-- A first block stores the zero block, reads it back, and leaves `zero + block product`. -/
theorem accFirst_eq (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : cond0 i) (hc1 : ¬cond1 i)
    (x0 : Vec F S1024x2048 .f32) (x1 : Vec F S2048x64 .f32) (x2 : Vec F S32x64 .f32) (x3 : Vec F S1x32 .f32) (x4 : Vec F S32x64 .f32) (x5 : Vec F S1x32 .f32) :
    accFirst c i arg2 harg2 arg3 harg3 arg4 harg4 arg5 harg5 arg6 harg6 arg7 harg7 arg8 harg8 arg9 harg9 hc0 hc1 x0 x1 x2 x3 x4 x5 = k0_pay2 x0 x1 (k0_pay1 (F := F)) := by
  unfold accFirst
  rw [View.read_writes_eq_canon _ _ _ (scoverFirst c i arg2 harg2 arg3 harg3 arg4 harg4 arg5 harg5 arg6 harg6 arg7 harg7 arg8 harg8 arg9 harg9 hc0 hc1 x0 x1 x2 x3 x4 x5)]
  unfold runFirst
  dsimp only
  sl_unfold_words
  rw [View.canon_cons_unit_zero (S := S1024x64) hz, View.readCov_unit_zero (S := S1024x64) _ hz]
  simp only [View.readAt_eq_ld, harg2.read_unread, harg3.read_unread, harg4.read_unread, harg5.read_unread, harg6.read_unread, harg7.read_unread, harg8.read_unread, harg9.read_unread, View.ld_unit_zero (S := S1024x2048) hz, View.ld_unit_zero (S := S2048x64) hz, View.ld_unit_zero (S := S32x64) hz, View.ld_unit_zero (S := S1x32) hz, View.ld_unit_zero (S := S1024x64) hz]

/-- A last block leaves in the accumulator `acc + block product`, as a middle block does. -/
theorem accLast_eq (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : ¬cond0 i) (hc1 : cond1 i)
    (x0 : Vec F S1024x2048 .f32) (x1 : Vec F S2048x64 .f32) (x2 : Vec F S32x64 .f32) (x3 : Vec F S1x32 .f32) (x4 : Vec F S32x64 .f32) (x5 : Vec F S1x32 .f32) (xs : Vec F S1024x64 .f32) :
    accLast c i arg2 harg2 arg3 harg3 arg4 harg4 arg5 harg5 arg6 harg6 arg7 harg7 arg8 harg8 arg9 harg9 hc0 hc1 x0 x1 x2 x3 x4 x5 xs = k0_pay2 x0 x1 xs := by
  unfold accLast
  rw [View.read_writes_eq_canon _ _ _ (scoverLast c i arg2 harg2 arg3 harg3 arg4 harg4 arg5 harg5 arg6 harg6 arg7 harg7 arg8 harg8 arg9 harg9 hc0 hc1 x0 x1 x2 x3 x4 x5 xs)]
  unfold runLast
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x2048) hz, View.ld_unit_zero (S := S2048x64) hz, View.ld_unit_zero (S := S32x64) hz, View.ld_unit_zero (S := S1x32) hz, View.ld_unit_zero (S := S1024x64) hz]

/-- A last block leaves in the output block the epilogue of the accumulator it has just stored, with the two weights
    and the two bias rows in the payload's order: first weight, second weight, first bias, second bias. -/
theorem outLast_eq (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S1x32 .f32) (harg7 : arg7.IsWhole) (arg8 : Memref sig .tc .vmem S1024x64 .f32) (harg8 : arg8.IsWhole) (arg9 : Memref sig .tc .vmem S1024x64 .f32) (harg9 : arg9.IsWhole) (hc0 : ¬cond0 i) (hc1 : cond1 i)
    (x0 : Vec F S1024x2048 .f32) (x1 : Vec F S2048x64 .f32) (x2 : Vec F S32x64 .f32) (x3 : Vec F S1x32 .f32) (x4 : Vec F S32x64 .f32) (x5 : Vec F S1x32 .f32) (xs : Vec F S1024x64 .f32) :
    outLast c i arg2 harg2 arg3 harg3 arg4 harg4 arg5 harg5 arg6 harg6 arg7 harg7 arg8 harg8 arg9 harg9 hc0 hc1 x0 x1 x2 x3 x4 x5 xs = k0_pay3 (k0_pay2 x0 x1 xs) x2 x4 x3 x5 := by
  unfold outLast
  rw [View.read_writes_eq_canon _ _ _ (coverLast c i arg2 harg2 arg3 harg3 arg4 harg4 arg5 harg5 arg6 harg6 arg7 harg7 arg8 harg8 arg9 harg9 hc0 hc1 x0 x1 x2 x3 x4 x5 xs)]
  unfold runLast
  dsimp only
  sl_unfold_words
  rw [View.canon_unit_zero hz, View.readCov_unit_zero (S := S1024x64) _ hz]
  simp only [View.readAt_eq_ld, harg2.read_unread, harg3.read_unread, harg4.read_unread, harg5.read_unread, harg6.read_unread, harg7.read_unread, harg8.read_unread, harg9.read_unread, View.ld_unit_zero (S := S1024x2048) hz, View.ld_unit_zero (S := S2048x64) hz, View.ld_unit_zero (S := S32x64) hz, View.ld_unit_zero (S := S1x32) hz, View.ld_unit_zero (S := S1024x64) hz]

end Cert.KernelIdeal.Reg0

end
-- ==== Proof.R0ValueChain.lean ====
/-
  The first pallas_call's accumulation in closed form, at any float instance, the payloads folded: after a point ≡ 0
  (mod 4) the accumulator holds the accumulation step over the zero block, after any other point the step over what
  the point before left; so at a point ≡ 3 (mod 4) the output block's staging buffer holds the epilogue of four nested
  accumulation steps, over the blocks of that point and of the three points before it.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.R0ValueCases
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The second component of a pair given by an equation. -/
theorem snd_eq_of_eq {α β : Type} {p : α × β} {a : α} {b : β} (h : p = (a, b)) : p.2 = b := by rw [h]
/-- The first component of a pair given by an equation. -/
theorem fst_eq_of_eq {α β : Type} {p : α × β} {a : α} {b : β} (h : p = (a, b)) : p.1 = a := by rw [h]

/-- The point before (the first point's is itself). -/
abbrev prev (t : Fin cfg0.N) : Fin cfg0.N := ⟨t.val - 1, Nat.lt_of_le_of_lt (Nat.sub_le _ _) t.isLt⟩

/-- After a first block the accumulator holds the step over the zero block. -/
theorem acc_first (c : Dev nD) (t : Fin cfg0.N) (h0 : t.val % 4 = 0) :
    (outsAt V c t.val t.isLt).2 = k0_pay2 (iblk V c 0 t) (iblk V c 1 t) (k0_pay1 (F := F)) := by
  exact (snd_eq_of_eq (outsAt_first V c t h0)).trans
    (accFirst_eq (F := F) c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (fun h => (fun h' => by omega) ((hcond1 t).mp h)) (iblk V c 0 t) (iblk V c 1 t) (iblk V c 2 t) (iblk V c 3 t) (iblk V c 4 t) (iblk V c 5 t))

/-- After any other block it holds the step over what the point before left. -/
theorem acc_next (c : Dev nD) (t : Fin cfg0.N) (h0 : ¬t.val % 4 = 0) :
    (outsAt V c t.val t.isLt).2 = k0_pay2 (iblk V c 0 t) (iblk V c 1 t) (outsAt V c (prev t).val (prev t).isLt).2 := by
  by_cases h3 : t.val % 4 = 3
  · exact (snd_eq_of_eq (outsAt_last V c t h0 h3)).trans
      (accLast_eq (F := F) c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) ((hcond1 t).mpr h3) (iblk V c 0 t) (iblk V c 1 t) (iblk V c 2 t) (iblk V c 3 t) (iblk V c 4 t) (iblk V c 5 t) (outsAt V c (prev t).val (prev t).isLt).2)
  · exact (snd_eq_of_eq (outsAt_mid V c t h0 h3)).trans
      (accMid_eq (F := F) c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (fun h => h3 ((hcond1 t).mp h)) (iblk V c 0 t) (iblk V c 1 t) (iblk V c 2 t) (iblk V c 3 t) (iblk V c 4 t) (iblk V c 5 t) (outsAt V c (prev t).val (prev t).isLt).2)

/-- After a last block the output block's staging buffer holds the epilogue of the accumulator just stored. -/
theorem out_last (c : Dev nD) (t : Fin cfg0.N) (h3 : t.val % 4 = 3) :
    (outsAt V c t.val t.isLt).1
      = k0_pay3 (k0_pay2 (iblk V c 0 t) (iblk V c 1 t) (outsAt V c (prev t).val (prev t).isLt).2)
          (iblk V c 2 t) (iblk V c 4 t) (iblk V c 3 t) (iblk V c 5 t) := by
  have h0 : ¬t.val % 4 = 0 := by omega
  exact (fst_eq_of_eq (outsAt_last V c t h0 h3)).trans
    (outLast_eq (F := F) c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) ((hcond1 t).mpr h3) (iblk V c 0 t) (iblk V c 1 t) (iblk V c 2 t) (iblk V c 3 t) (iblk V c 4 t) (iblk V c 5 t) (outsAt V c (prev t).val (prev t).isLt).2)

/-- The closed form at a last block: four nested accumulation steps from the zero block, then the epilogue. -/
theorem out_last_closed (c : Dev nD) (t : Fin cfg0.N) (h3 : t.val % 4 = 3) :
    (outsAt V c t.val t.isLt).1
      = k0_pay3 (k0_pay2 (iblk V c 0 t) (iblk V c 1 t)
            (k0_pay2 (iblk V c 0 (prev t)) (iblk V c 1 (prev t))
              (k0_pay2 (iblk V c 0 (prev (prev t))) (iblk V c 1 (prev (prev t)))
                (k0_pay2 (iblk V c 0 (prev (prev (prev t)))) (iblk V c 1 (prev (prev (prev t)))) (k0_pay1 (F := F))))))
          (iblk V c 2 t) (iblk V c 4 t) (iblk V c 3 t) (iblk V c 5 t) := by
  rw [out_last V c t h3,
    acc_next V c (prev t) (by show ¬(t.val - 1) % 4 = 0; omega),
    acc_next V c (prev (prev t)) (by show ¬(t.val - 1 - 1) % 4 = 0; omega),
    acc_first V c (prev (prev (prev t))) (by show (t.val - 1 - 1 - 1) % 4 = 0; omega)]

end Cert.KernelIdeal.Reg0

end
-- ==== Proof.R0ValueBlocks.lean ====
/-
  The first pallas_call's windows read at an index given by coordinates, at any float instance. Point `t` of the
  sixteen has output row-block `t / 4` and contracted-axis block `t % 4`: the `pd` window's block there is rows
  `(t / 4) · 1024 …`, columns `(t % 4) · 2048 …` of its array, the `y` window's block rows `(t % 4) · 2048 …`, the four
  small windows' block is their whole array, and the output window's block is rows `(t / 4) · 1024 …` of its array.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.R0Runs
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps, decided over the grid. -/
theorem idx_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val / 4 ∧ win0_6.index t (1 : Fin 2) = 0 :=
  (by decide +kernel : ∀ t : Fin grid0.N, _)

/-- The `pd` window's block at `(r, k)`: the array at row `(t / 4) · 1024 + r`, column `(t % 4) · 2048 + k`. -/
theorem iblk_0_apply (c : Dev nD) (t : Fin cfg0.N) (r : Fin 1024) (k : Fin 2048) (P : Fin 4096) (K : Fin 8192)
    (hP : P.val = t.val / 4 * 1024 + r.val) (hK : K.val = t.val % 4 * 2048 + k.val) :
    (iblk V c 0 t : Vec F S1024x2048 .f32) (ix2 r k) = V c main_arg5 (ix2 P K) := by
  obtain ⟨e0, e1, -⟩ := idx_facts t
  unfold iblk
  rw [View.read_apply]
  show V c main_arg5 _ = V c main_arg5 _
  congr 1
  funext a
  apply Fin.ext
  match a with
  | ⟨0, _⟩ => show win0_0.index t (0 : Fin 2) * 1024 + 1 * r.val = P.val; rw [e0, hP]; omega
  | ⟨1, _⟩ => show win0_0.index t (1 : Fin 2) * 2048 + 1 * k.val = K.val; rw [e1, hK]; omega

/-- The `y` window's block at `(k, f)`: the array at row `(t % 4) · 2048 + k`, column `f`. -/
theorem iblk_1_apply (c : Dev nD) (t : Fin cfg0.N) (k : Fin 2048) (f : Fin 64) (K : Fin 8192)
    (hK : K.val = t.val % 4 * 2048 + k.val) :
    (iblk V c 1 t : Vec F S2048x64 .f32) (ix2 k f) = V c main_arg0 (ix2 K f) := by
  obtain ⟨-, -, e0, e1, -⟩ := idx_facts t
  unfold iblk
  rw [View.read_apply]
  show V c main_arg0 _ = V c main_arg0 _
  congr 1
  funext a
  apply Fin.ext
  match a with
  | ⟨0, _⟩ => show win0_1.index t (0 : Fin 2) * 2048 + 1 * k.val = K.val; rw [e0, hK]; omega
  | ⟨1, _⟩ => show win0_1.index t (1 : Fin 2) * 64 + 1 * f.val = f.val; rw [e1]; omega

/-- The first weight's window holds the whole [32, 64] array. -/
theorem iblk_2_apply (c : Dev nD) (t : Fin cfg0.N) (j : Fin 32) (f : Fin 64) :
    (iblk V c 2 t : Vec F S32x64 .f32) (ix2 j f) = V c main_arg6 (ix2 j f) := by
  obtain ⟨-, -, -, -, e0, e1, -⟩ := idx_facts t
  unfold iblk
  rw [View.read_apply]
  show V c main_arg6 _ = V c main_arg6 _
  congr 1
  funext a
  apply Fin.ext
  match a with
  | ⟨0, _⟩ => show win0_2.index t (0 : Fin 2) * 32 + 1 * j.val = j.val; rw [e0]; omega
  | ⟨1, _⟩ => show win0_2.index t (1 : Fin 2) * 64 + 1 * f.val = f.val; rw [e1]; omega

/-- The first bias row's window holds the whole [1, 32] array. -/
theorem iblk_3_apply (c : Dev nD) (t : Fin cfg0.N) (z : Fin 1) (j : Fin 32) :
    (iblk V c 3 t : Vec F S1x32 .f32) (ix2 z j) = V c main_v0 (ix2 z j) := by
  obtain ⟨-, -, -, -, -, -, e0, e1, -⟩ := idx_facts t
  unfold iblk
  rw [View.read_apply]
  show V c main_v0 _ = V c main_v0 _
  congr 1
  funext a
  apply Fin.ext
  match a with
  | ⟨0, _⟩ => show win0_3.index t (0 : Fin 2) * 1 + 1 * z.val = z.val; rw [e0]; omega
  | ⟨1, _⟩ => show win0_3.index t (1 : Fin 2) * 32 + 1 * j.val = j.val; rw [e1]; omega

/-- The second weight's window holds the whole [32, 64] array. -/
theorem iblk_4_apply (c : Dev nD) (t : Fin cfg0.N) (j : Fin 32) (f : Fin 64) :
    (iblk V c 4 t : Vec F S32x64 .f32) (ix2 j f) = V c main_arg8 (ix2 j f) := by
  obtain ⟨-, -, -, -, -, -, -, -, e0, e1, -⟩ := idx_facts t
  unfold iblk
  rw [View.read_apply]
  show V c main_arg8 _ = V c main_arg8 _
  congr 1
  funext a
  apply Fin.ext
  match a with
  | ⟨0, _⟩ => show win0_4.index t (0 : Fin 2) * 32 + 1 * j.val = j.val; rw [e0]; omega
  | ⟨1, _⟩ => show win0_4.index t (1 : Fin 2) * 64 + 1 * f.val = f.val; rw [e1]; omega

/-- The second bias row's window holds the whole [1, 32] array. -/
theorem iblk_5_apply (c : Dev nD) (t : Fin cfg0.N) (z : Fin 1) (j : Fin 32) :
    (iblk V c 5 t : Vec F S1x32 .f32) (ix2 z j) = V c main_v1 (ix2 z j) := by
  obtain ⟨-, -, -, -, -, -, -, -, -, -, e0, e1, -⟩ := idx_facts t
  unfold iblk
  rw [View.read_apply]
  show V c main_v1 _ = V c main_v1 _
  congr 1
  funext a
  apply Fin.ext
  match a with
  | ⟨0, _⟩ => show win0_5.index t (0 : Fin 2) * 1 + 1 * z.val = z.val; rw [e0]; omega
  | ⟨1, _⟩ => show win0_5.index t (1 : Fin 2) * 32 + 1 * j.val = j.val; rw [e1]; omega

/-- The output window's block at `(r, q)` sits in its array at row `(t / 4) · 1024 + r`, column `q`. -/
theorem blk6_emb (t : Fin cfg0.N) (r : Fin 1024) (q : Fin 64) (P : Fin 4096) (hP : P.val = t.val / 4 * 1024 + r.val) :
    ((cfg0.win 6).blk t).view.emb (ix2 r q) = ix2 P q := by
  obtain ⟨-, -, -, -, -, -, -, -, -, -, -, -, e0, e1⟩ := idx_facts t
  funext a
  apply Fin.ext
  match a with
  | ⟨0, _⟩ => show win0_6.index t (0 : Fin 2) * 1024 + 1 * r.val = P.val; rw [e0, hP]; omega
  | ⟨1, _⟩ => show win0_6.index t (1 : Fin 2) * 64 + 1 * q.val = q.val; rw [e1]; omega

/-- An index of the output array is in point `t`'s block iff its row is in the block's range. -/
theorem mem_blk6 (t : Fin cfg0.N) (P : Fin 4096) (q : Fin 64) :
    (ix2 P q : S4096x64.Idx) ∈ ((cfg0.win 6).blk t).view.set ↔ t.val / 4 * 1024 ≤ P.val ∧ P.val < t.val / 4 * 1024 + 1024 := by
  obtain ⟨-, -, -, -, -, -, -, -, -, -, -, -, e0, e1⟩ := idx_facts t
  show (ix2 P q : S4096x64.Idx) ∈ ((View.whole main_v6).slice (win0_6.rect t)).set ↔ _
  rw [View.set_slice_whole, Rect.mem_set_unit]
  constructor
  · intro h
    have h0 : win0_6.index t (0 : Fin 2) * 1024 ≤ P.val ∧ P.val < win0_6.index t (0 : Fin 2) * 1024 + 1024 := h 0
    rw [e0] at h0
    exact h0
  · intro h a
    match a with
    | ⟨0, _⟩ => show win0_6.index t (0 : Fin 2) * 1024 ≤ P.val ∧ P.val < win0_6.index t (0 : Fin 2) * 1024 + 1024; rw [e0]; exact h
    | ⟨1, _⟩ => show win0_6.index t (1 : Fin 2) * 64 ≤ q.val ∧ q.val < win0_6.index t (1 : Fin 2) * 64 + 64; rw [e1]; have := q.isLt; omega

end Cert.KernelIdeal.Reg0

end
-- ==== Proof.PayAtIndexDots.lean ====
/-
  The two plain matrix products the first and third kernels use, and the layout operations of their epilogues,
  each read at an index given by coordinates, at the ideal values.

  * the block product [1024, 2048] · [2048, 64] into the zero accumulator: `∑ k : Fin 2048, l (p, k) * r (k, q)`;
  * the linear layer [1024, 64] · [64, 32] into the zero accumulator: `∑ k : Fin 64, l (p, k) * r (k, j)`, and with
    the [32, 64] weight transposed first: `∑ k : Fin 64, x (p, k) * w (j, k)`;
  * a [1, 32] bias row broadcast over the 1024 rows reads the row at the column;
  * the concatenation of two [1024, 32] halves along the columns reads the first half at a column below 32 and the
    second half, 32 columns to the left, from column 32 on.
-/
import proofs.«103437_j49752901157443_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayAt

open Cert.KernelIdeal Cert.KernelIdeal.Gen Idealize.ShloMosaic Idealize.ShloMosaic.ValueIdx

/-! ### The block product [1024, 2048] · [2048, 64] -/

/-- The left operand's row is the result's row. -/
theorem blockDot_lhs_0 (i : S1024x64.Idx) (κ : dot_S1024x2048_S2048x64_S1024x64_1_0_0_1_n_n.contr.Idx) :
    (dot_S1024x2048_S2048x64_S1024x64_1_0_0_1_n_n.lhsIdx i κ 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
/-- The left operand's column is the contraction position. -/
theorem blockDot_lhs_1 (i : S1024x64.Idx) (κ : dot_S1024x2048_S2048x64_S1024x64_1_0_0_1_n_n.contr.Idx) :
    (dot_S1024x2048_S2048x64_S1024x64_1_0_0_1_n_n.lhsIdx i κ 1).val = (κ ⟨0, by decide⟩).val :=
  dot_S1024x2048_S2048x64_S1024x64_1_0_0_1_n_n.lhsIdx_val_of_single rfl i κ
/-- The right operand's row is the contraction position. -/
theorem blockDot_rhs_0 (i : S1024x64.Idx) (κ : dot_S1024x2048_S2048x64_S1024x64_1_0_0_1_n_n.contr.Idx) :
    (dot_S1024x2048_S2048x64_S1024x64_1_0_0_1_n_n.rhsIdx i κ 0).val = (κ ⟨0, by decide⟩).val :=
  dot_S1024x2048_S2048x64_S1024x64_1_0_0_1_n_n.rhsIdx_val_of_single rfl i κ
/-- The right operand's column is the result's column. -/
theorem blockDot_rhs_1 (i : S1024x64.Idx) (κ : dot_S1024x2048_S2048x64_S1024x64_1_0_0_1_n_n.contr.Idx) :
    (dot_S1024x2048_S2048x64_S1024x64_1_0_0_1_n_n.rhsIdx i κ 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The block product into the zero accumulator, at `(p, q)`: `∑ k : Fin 2048, l (p, k) * r (k, q)`. -/
theorem blockDot_zero_apply (l : FVec Ideal S1024x2048 .bf16) (r : FVec Ideal S2048x64 .bf16) (p : Fin 1024) (q : Fin 64) :
    matmul (F := Ideal) dot_S1024x2048_S2048x64_S1024x64_1_0_0_1_n_n none l r (constant (F := Ideal) S1024x64 .f32 0x00000000#32) (ix2 p q)
      = ∑ k : Fin 2048, l (ix2 p k) * r (ix2 k q) := by
  refine (Ideal.matmul_constant_zero_apply dot_S1024x2048_S2048x64_S1024x64_1_0_0_1_n_n none l r (ix2 p q)).trans ?_
  rw [← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 p q) ((contrEquiv1 dot_S1024x2048_S2048x64_S1024x64_1_0_0_1_n_n 2048 rfl rfl).symm k) = ix2 p k := funext fun a => Fin.ext (by
    match a with
    | ⟨0, _⟩ => exact blockDot_lhs_0 _ _
    | ⟨1, _⟩ => exact (blockDot_lhs_1 _ _).trans hk)
  have er : dot_S1024x2048_S2048x64_S1024x64_1_0_0_1_n_n.rhsIdx (ix2 p q) ((contrEquiv1 dot_S1024x2048_S2048x64_S1024x64_1_0_0_1_n_n 2048 rfl rfl).symm k) = ix2 k q := funext fun a => Fin.ext (by
    match a with
    | ⟨0, _⟩ => exact (blockDot_rhs_0 _ _).trans hk
    | ⟨1, _⟩ => exact blockDot_rhs_1 _ _)
  rw [el, er]

/-! ### The linear layer [1024, 64] · [64, 32] -/

/-- The left operand's row is the result's row. -/
theorem linDot_lhs_0 (i : S1024x32.Idx) (κ : dot_S1024x64_S64x32_S1024x32_1_0_0_1_n_n.contr.Idx) :
    (dot_S1024x64_S64x32_S1024x32_1_0_0_1_n_n.lhsIdx i κ 0).val = (i 0).val := by
  unfold DotDims.lhsIdx
  rw [dif_neg (show ¬(0 : Fin S1024x64.rank) ∈ dot_S1024x64_S64x32_S1024x32_1_0_0_1_n_n.lhsBatch by decide), dif_pos (show (0 : Fin S1024x64.rank) ∈ dot_S1024x64_S64x32_S1024x32_1_0_0_1_n_n.lhsNonContracting by decide)]
  rfl
/-- The left operand's column is the contraction position. -/
theorem linDot_lhs_1 (i : S1024x32.Idx) (κ : dot_S1024x64_S64x32_S1024x32_1_0_0_1_n_n.contr.Idx) :
    (dot_S1024x64_S64x32_S1024x32_1_0_0_1_n_n.lhsIdx i κ 1).val = (κ ⟨0, by decide⟩).val :=
  dot_S1024x64_S64x32_S1024x32_1_0_0_1_n_n.lhsIdx_val_of_single rfl i κ
/-- The right operand's row is the contraction position. -/
theorem linDot_rhs_0 (i : S1024x32.Idx) (κ : dot_S1024x64_S64x32_S1024x32_1_0_0_1_n_n.contr.Idx) :
    (dot_S1024x64_S64x32_S1024x32_1_0_0_1_n_n.rhsIdx i κ 0).val = (κ ⟨0, by decide⟩).val :=
  dot_S1024x64_S64x32_S1024x32_1_0_0_1_n_n.rhsIdx_val_of_single rfl i κ
/-- The right operand's column is the result's column. -/
theorem linDot_rhs_1 (i : S1024x32.Idx) (κ : dot_S1024x64_S64x32_S1024x32_1_0_0_1_n_n.contr.Idx) :
    (dot_S1024x64_S64x32_S1024x32_1_0_0_1_n_n.rhsIdx i κ 1).val = (i 1).val := by
  unfold DotDims.rhsIdx
  rw [dif_neg (show ¬(1 : Fin S64x32.rank) ∈ dot_S1024x64_S64x32_S1024x32_1_0_0_1_n_n.rhsBatch by decide), dif_pos (show (1 : Fin S64x32.rank) ∈ dot_S1024x64_S64x32_S1024x32_1_0_0_1_n_n.rhsNonContracting by decide)]
  rfl

/-- The [1024, 64] · [64, 32] product into the zero accumulator, at `(p, q)`: `∑ k : Fin 64, l (p, k) * r (k, q)`. -/
theorem linDot_zero_apply (l : FVec Ideal S1024x64 .bf16) (r : FVec Ideal S64x32 .bf16) (p : Fin 1024) (q : Fin 32) :
    matmul (F := Ideal) dot_S1024x64_S64x32_S1024x32_1_0_0_1_n_n none l r (constant (F := Ideal) S1024x32 .f32 0x00000000#32) (ix2 p q)
      = ∑ k : Fin 64, l (ix2 p k) * r (ix2 k q) := by
  refine (Ideal.matmul_constant_zero_apply dot_S1024x64_S64x32_S1024x32_1_0_0_1_n_n none l r (ix2 p q)).trans ?_
  rw [← Equiv.sum_comp (contrEquiv1 dot_S1024x64_S64x32_S1024x32_1_0_0_1_n_n 64 rfl rfl).symm]
  refine Finset.sum_congr rfl fun k _ => ?_
  have hk := contrEquiv1_symm_val dot_S1024x64_S64x32_S1024x32_1_0_0_1_n_n 64 rfl rfl k
  have el : dot_S1024x64_S64x32_S1024x32_1_0_0_1_n_n.lhsIdx (ix2 p q) ((contrEquiv1 dot_S1024x64_S64x32_S1024x32_1_0_0_1_n_n 64 rfl rfl).symm k) = ix2 p k := funext fun a => Fin.ext (by
    match a with
    | ⟨0, _⟩ => exact linDot_lhs_0 _ _
    | ⟨1, _⟩ => exact (linDot_lhs_1 _ _).trans hk)
  have er : dot_S1024x64_S64x32_S1024x32_1_0_0_1_n_n.rhsIdx (ix2 p q) ((contrEquiv1 dot_S1024x64_S64x32_S1024x32_1_0_0_1_n_n 64 rfl rfl).symm k) = ix2 k q := funext fun a => Fin.ext (by
    match a with
    | ⟨0, _⟩ => exact (linDot_rhs_0 _ _).trans hk
    | ⟨1, _⟩ => exact linDot_rhs_1 _ _)
  rw [el, er]

/-- A [32, 64] weight transposed reads, at `(k, j)`, the weight at `(j, k)`. -/
theorem weightT_apply {α : Type} (w : S32x64.Idx → α) (k : Fin 64) (j : Fin 32) :
    transpose S64x32 [1, 0] w transposes_S32x64_p1_0_S64x32 (ix2 k j) = w (ix2 j k) :=
  transpose_ix2_apply w transposes_S32x64_p1_0_S64x32 k j

/-- The linear layer `x · wᵀ` with a [32, 64] weight, into the zero accumulator, at `(p, j)`:
    `∑ k : Fin 64, x (p, k) * w (j, k)`. -/
theorem linear_apply (x : FVec Ideal S1024x64 .bf16) (w : FVec Ideal S32x64 .bf16) (p : Fin 1024) (j : Fin 32) :
    matmul (F := Ideal) dot_S1024x64_S64x32_S1024x32_1_0_0_1_n_n none x (transpose S64x32 [1, 0] w transposes_S32x64_p1_0_S64x32)
        (constant (F := Ideal) S1024x32 .f32 0x00000000#32) (ix2 p j)
      = ∑ k : Fin 64, x (ix2 p k) * w (ix2 j k) := by
  refine (linDot_zero_apply x _ p j).trans ?_
  exact Finset.sum_congr rfl fun k _ => congrArg (x (ix2 p k) * ·) (weightT_apply w k j)

/-- A [1, 32] bias row, cast to its own shape and broadcast over the 1024 rows, reads at `(p, j)` the row at `j`. -/
theorem biasRow_apply {α : Type} (b : S1x32.Idx → α) (p : Fin 1024) (j : Fin 32) :
    broadcastTo S1024x32 (shapeCast S1x32 b shapeCasts_S1x32_S1x32) broadcasts_S1x32_S1024x32 (ix2 p j)
      = b (ix2 (0 : Fin 1) j) := by
  refine (broadcastTo_1b_ab_apply _ broadcasts_S1x32_S1024x32 p j).trans ?_
  exact congrFun (shapeCast_self b shapeCasts_S1x32_S1x32) (ix2 (0 : Fin 1) j)

/-- The two halves joined along the columns, at a column below 32: the first half at that column. -/
theorem concat_left_apply {α : Type} (x₁ x₂ : S1024x32.Idx → α) (p : Fin 1024) (q : Fin 64) (hq : q.val < 32) :
    concatenate S1024x64 1 [⟨S1024x32, x₁⟩, ⟨S1024x32, x₂⟩] concatenates_S1024x32_S1024x32_S1024x64_d1 (ix2 p q)
      = x₁ (ix2 p (⟨q.val, hq⟩ : Fin 32)) :=
  concatenate_pair_apply_left (1 : Fin S1024x64.rank) x₁ x₂ concatenates_S1024x32_S1024x32_S1024x64_d1 (ix2 p q) rfl
    (ix2 p (⟨q.val, hq⟩ : Fin 32)) fun b => match b with | ⟨0, _⟩ => rfl | ⟨1, _⟩ => rfl

/-- The two halves joined along the columns, at a column from 32 on: the second half, 32 columns to the left. -/
theorem concat_right_apply {α : Type} (x₁ x₂ : S1024x32.Idx → α) (p : Fin 1024) (q : Fin 64) (hq : 32 ≤ q.val) :
    concatenate S1024x64 1 [⟨S1024x32, x₁⟩, ⟨S1024x32, x₂⟩] concatenates_S1024x32_S1024x32_S1024x64_d1 (ix2 p q)
      = x₂ (ix2 p (⟨q.val - 32, by have := q.isLt; omega⟩ : Fin 32)) :=
  concatenate_pair_apply_right (1 : Fin S1024x64.rank) x₁ x₂ concatenates_S1024x32_S1024x32_S1024x64_d1 (ix2 p q) rfl rfl
    (ix2 p (⟨q.val - 32, by have := q.isLt; omega⟩ : Fin 32))
    (fun b => match b with | ⟨0, _⟩ => fun _ => rfl | ⟨1, _⟩ => fun h => absurd rfl h)
    (show q.val - 32 + 32 = q.val by omega)

end Cert.KernelIdeal.PayAt
-- ==== Proof.PayAtIndexK0.lean ====
/-
  The first kernel's three payloads read at an index, at the ideal values.

  The first kernel computes `pd @ y` block by block — the accumulator starts at zero and each grid step adds the
  product of a [1024, 2048] block of `pd` with a [2048, 64] block of `y`, the accumulator being the LEFT summand —
  and at the last step applies two linear layers 64 → 32 with their bias rows, the second followed by `max · 0`,
  and joins the two [1024, 32] results along the columns.
-/
import proofs.«103437_j49752901157443_2_alg».proof.Proof.Gen.KernelIdeal.Skeleton
import proofs.«103437_j49752901157443_2_alg».proof.Proof.PayAtIndexDots
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayAt

open Cert.KernelIdeal Cert.KernelIdeal.Gen Idealize.ShloMosaic Idealize.ShloMosaic.ValueIdx

/-- The accumulator's first value: zero at every index. -/
theorem k0_pay1_apply (p : Fin 1024) (q : Fin 64) : k0_pay1 (F := Ideal) (ix2 p q) = 0 := by
  unfold k0_pay1
  refine (congrFun (shapeCast_self _ _) (ix2 p q)).trans ?_
  exact Ideal.ofBits_zero_f32

/-- The accumulation step at `(p, q)`: the accumulator (LEFT summand) plus the block product,
    `acc (p, q) + ∑ k : Fin 2048, pd (p, k) * y (k, q)`. -/
theorem k0_pay2_apply (v3 : Vec Ideal S1024x2048 .f32) (v5 : Vec Ideal S2048x64 .f32) (v7 : Vec Ideal S1024x64 .f32)
    (p : Fin 1024) (q : Fin 64) :
    k0_pay2 (F := Ideal) v3 v5 v7 (ix2 p q) = v7 (ix2 p q) + ∑ k : Fin 2048, v3 (ix2 p k) * v5 (ix2 k q) := by
  unfold k0_pay2
  refine (congrFun (shapeCast_self _ _) (ix2 p q)).trans ?_
  refine congrArg (v7 (ix2 p q) + ·) ?_
  exact blockDot_zero_apply _ _ p q

/-- The epilogue at a column below 32: the first linear layer and its bias,
    `(∑ k : Fin 64, acc (p, k) * w (q, k)) + b (0, q)` — the product first, the bias second. -/
theorem k0_pay3_apply_left (v16 : Vec Ideal S1024x64 .f32) (v18 v20 : Vec Ideal S32x64 .f32) (v24 v30 : Vec Ideal S1x32 .f32)
    (p : Fin 1024) (q : Fin 64) (hq : q.val < 32) :
    k0_pay3 (F := Ideal) v16 v18 v20 v24 v30 (ix2 p q)
      = (∑ k : Fin 64, v16 (ix2 p k) * v18 (ix2 (⟨q.val, hq⟩ : Fin 32) k)) + v24 (ix2 (0 : Fin 1) (⟨q.val, hq⟩ : Fin 32)) := by
  unfold k0_pay3
  refine (concat_left_apply _ _ p q hq).trans ?_
  exact congrArg₂ (· + ·) (linear_apply _ _ p _) (biasRow_apply v24 p _)

/-- The epilogue at a column from 32 on: the second linear layer and its bias, then the maximum with zero,
    `max ((∑ k : Fin 64, acc (p, k) * wr (q - 32, k)) + br (0, q - 32)) 0`. -/
theorem k0_pay3_apply_right (v16 : Vec Ideal S1024x64 .f32) (v18 v20 : Vec Ideal S32x64 .f32) (v24 v30 : Vec Ideal S1x32 .f32)
    (p : Fin 1024) (q : Fin 64) (hq : 32 ≤ q.val) :
    k0_pay3 (F := Ideal) v16 v18 v20 v24 v30 (ix2 p q)
      = max ((∑ k : Fin 64, v16 (ix2 p k) * v20 (ix2 (⟨q.val - 32, by have := q.isLt; omega⟩ : Fin 32) k))
          + v30 (ix2 (0 : Fin 1) (⟨q.val - 32, by have := q.isLt; omega⟩ : Fin 32))) 0 := by
  unfold k0_pay3
  refine (concat_right_apply _ _ p q hq).trans ?_
  refine (maximumf_apply _ _ _).trans ?_
  refine congrArg₂ max ?_ Ideal.ofBits_zero_f32
  exact congrArg₂ (· + ·) (linear_apply _ _ p _) (biasRow_apply v30 p _)

/-- The same two readings with the column given inside its half: column `j` of the first half … -/
theorem k0_pay3_apply_fst (v16 : Vec Ideal S1024x64 .f32) (v18 v20 : Vec Ideal S32x64 .f32) (v24 v30 : Vec Ideal S1x32 .f32)
    (p : Fin 1024) (j : Fin 32) :
    k0_pay3 (F := Ideal) v16 v18 v20 v24 v30 (ix2 p (⟨j.val, by have := j.isLt; omega⟩ : Fin 64))
      = (∑ k : Fin 64, v16 (ix2 p k) * v18 (ix2 j k)) + v24 (ix2 (0 : Fin 1) j) :=
  k0_pay3_apply_left v16 v18 v20 v24 v30 p ⟨j.val, by have := j.isLt; omega⟩ j.isLt

/-- … and column `j` of the second half, which is column `j + 32` of the result. -/
theorem k0_pay3_apply_snd (v16 : Vec Ideal S1024x64 .f32) (v18 v20 : Vec Ideal S32x64 .f32) (v24 v30 : Vec Ideal S1x32 .f32)
    (p : Fin 1024) (j : Fin 32) :
    k0_pay3 (F := Ideal) v16 v18 v20 v24 v30 (ix2 p (⟨j.val + 32, by have := j.isLt; omega⟩ : Fin 64))
      = max ((∑ k : Fin 64, v16 (ix2 p k) * v20 (ix2 j k)) + v30 (ix2 (0 : Fin 1) j)) 0 := by
  have h := k0_pay3_apply_right v16 v18 v20 v24 v30 p ⟨j.val + 32, by have := j.isLt; omega⟩ (Nat.le_add_left 32 j.val)
  have e : (⟨(⟨j.val + 32, by have := j.isLt; omega⟩ : Fin 64).val - 32, by have := j.isLt; omega⟩ : Fin 32) = j :=
    Fin.ext (show j.val + 32 - 32 = j.val by omega)
  rw [e] at h
  exact h

end Cert.KernelIdeal.PayAt
-- ==== Proof.LibBlockedSum.lean ====
/-
  Sums over a range of indices cut into equal consecutive blocks, and the closed form of an accumulator
  that starts from a given value and adds one term per step. Nothing here is specific to one kernel: the
  statements are over an arbitrary additive commutative monoid, with two instances at literal extents.
-/
import Mathlib.Algebra.BigOperators.Fin
import Mathlib.Data.Fintype.BigOperators
import Mathlib.Logic.Equiv.Fin.Basic

open scoped BigOperators

namespace BlockedSum

/-- The position `b * bs + j` of offset `j` inside block `b`, of `nb` blocks of `bs` positions each, is below
    the total extent `nb * bs`. -/
theorem block_pos_lt {nb bs : ℕ} (b : Fin nb) (j : Fin bs) : b.val * bs + j.val < nb * bs :=
  calc b.val * bs + j.val < b.val * bs + bs := Nat.add_lt_add_left j.isLt _
    _ = (b.val + 1) * bs := (Nat.succ_mul _ _).symm
    _ ≤ nb * bs := Nat.mul_le_mul_right _ b.isLt

/-- A sum over `nb * bs` consecutive positions is the sum over the `nb` blocks of the sums inside each block:
    `∑ b, ∑ j, f (b * bs + j) = ∑ k, f k`, in any additive commutative monoid. -/
theorem sum_blocks {M : Type*} [AddCommMonoid M] {nb bs : ℕ} (f : Fin (nb * bs) → M) :
    ∑ b : Fin nb, ∑ j : Fin bs, f ⟨b.val * bs + j.val, block_pos_lt b j⟩ = ∑ k : Fin (nb * bs), f k := by
  rw [← Equiv.sum_comp (finProdFinEquiv (m := nb) (n := bs)) f, Fintype.sum_prod_type]
  refine Finset.sum_congr rfl fun b _ => Finset.sum_congr rfl fun j _ => congrArg f (Fin.ext ?_)
  show b.val * bs + j.val = j.val + bs * b.val
  rw [Nat.add_comm, Nat.mul_comm]

/-- The same with the summand given on natural numbers below the extent (the proof of the bound is irrelevant). -/
theorem sum_blocks' {M : Type*} [AddCommMonoid M] {nb bs : ℕ} (f : (k : ℕ) → k < nb * bs → M) :
    ∑ b : Fin nb, ∑ j : Fin bs, f (b.val * bs + j.val) (block_pos_lt b j) = ∑ k : Fin (nb * bs), f k.val k.isLt :=
  sum_blocks (fun k => f k.val k.isLt)

/-- Four blocks of 2048 make 8192: `∑ b : Fin 4, ∑ j : Fin 2048, f (b * 2048 + j) = ∑ k : Fin 8192, f k`. -/
theorem sum_blocks_4_2048 {M : Type*} [AddCommMonoid M] (f : Fin 8192 → M) :
    ∑ b : Fin 4, ∑ j : Fin 2048, f ⟨b.val * 2048 + j.val, by have := b.isLt; have := j.isLt; omega⟩ = ∑ k : Fin 8192, f k :=
  sum_blocks (nb := 4) (bs := 2048) f

/-- Two blocks of 2048 make 4096: `∑ b : Fin 2, ∑ j : Fin 2048, f (b * 2048 + j) = ∑ k : Fin 4096, f k`. -/
theorem sum_blocks_2_2048 {M : Type*} [AddCommMonoid M] (f : Fin 4096 → M) :
    ∑ b : Fin 2, ∑ j : Fin 2048, f ⟨b.val * 2048 + j.val, by have := b.isLt; have := j.isLt; omega⟩ = ∑ k : Fin 4096, f k :=
  sum_blocks (nb := 2) (bs := 2048) f

/-- The running form: a sequence that starts at `z` and adds `g t` at step `t`, for every step below `n`, is at
    step `n` the start plus the sum of the first `n` terms. -/
theorem running_sum_range {M : Type*} [AddCommMonoid M] (a g : ℕ → M) (z : M) (n : ℕ)
    (h0 : a 0 = z) (hs : ∀ t, t < n → a (t + 1) = a t + g t) : a n = z + ∑ t ∈ Finset.range n, g t := by
  induction n with
  | zero => rw [Finset.range_zero, Finset.sum_empty, add_zero, h0]
  | succ m ih =>
    rw [hs m (Nat.lt_succ_self m), ih fun t ht => hs t (Nat.lt_succ_of_lt ht), Finset.sum_range_succ, add_assoc]

/-- The same for every step, without a bound. -/
theorem running_sum_range_all {M : Type*} [AddCommMonoid M] (a g : ℕ → M) (z : M)
    (h0 : a 0 = z) (hs : ∀ t, a (t + 1) = a t + g t) (n : ℕ) : a n = z + ∑ t ∈ Finset.range n, g t :=
  running_sum_range a g z n h0 fun t _ => hs t

/-- The running form with the terms indexed by `Fin n`: a sequence that starts at `z` and adds `g t` at step
    `t : Fin n` is at step `n` the start plus the sum of all `n` terms. -/
theorem running_sum_fin {M : Type*} [AddCommMonoid M] {n : ℕ} (a : ℕ → M) (g : Fin n → M) (z : M)
    (h0 : a 0 = z) (hs : ∀ t : Fin n, a (t.val + 1) = a t.val + g t) : a n = z + ∑ t : Fin n, g t := by
  have h := running_sum_range a (fun t => if ht : t < n then g ⟨t, ht⟩ else 0) z n h0 fun t ht => by
    rw [dif_pos ht]; exact hs ⟨t, ht⟩
  rw [h, ← Fin.sum_univ_eq_sum_range (fun t => if ht : t < n then g ⟨t, ht⟩ else 0) n]
  exact congrArg (z + ·) (Finset.sum_congr rfl fun t _ => dif_pos t.isLt)

/-- An accumulator that starts at zero: the sum of the terms alone. -/
theorem running_sum_fin_zero {M : Type*} [AddCommMonoid M] {n : ℕ} (a : ℕ → M) (g : Fin n → M)
    (h0 : a 0 = 0) (hs : ∀ t : Fin n, a (t.val + 1) = a t.val + g t) : a n = ∑ t : Fin n, g t := by
  rw [running_sum_fin a g 0 h0 hs, zero_add]

end BlockedSum
-- ==== Proof.R0ValueFinal.lean ====
/-
  The value of the first pallas_call at the ideal values: what its result array holds after the region, as one
  function of the arrays the region finds, index by index.

  At row `p` and column `q` it is `(∑ f, (pd · y)(p, f) * tw(q, f)) + tb(q)` for `q < 32` and
  `max ((∑ f, (pd · y)(p, f) * twr(q − 32, f)) + tbr(q − 32)) 0` for `32 ≤ q`, with
  `(pd · y)(p, f) = ∑ k : Fin 8192, pd(p, k) * y(k, f)`: the kernel accumulates that sum as
  `(((0 + S₀) + S₁) + S₂) + S₃` over the four blocks of 2048 of the contracted axis, which over the extended reals is
  the sum over all 8192 (a sum over consecutive blocks is the sum over the whole range; `0 + s = s`). Row `p` is
  written back by the one point whose output row-block holds it and which meets the last contracted block.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.R0ValueChain
import proofs.«103437_j49752901157443_2_alg».proof.Proof.R0ValueBlocks
import proofs.«103437_j49752901157443_2_alg».proof.Proof.PayAtIndexK0
import proofs.«103437_j49752901157443_2_alg».proof.Proof.LibBlockedSum
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.PayAt

variable (V : (c : Dev nD) → (b : Ref sig .tc) → Buf (Elt Ideal) ((c : Thread nD τ).loc b))

/-! ## The arrays the region finds, and the blocks, as arrays of extended reals -/

/-- `pd`, `y`, the two weights and the two bias rows as the region finds them. -/
abbrev pdA (c : Dev nD) : FVec Ideal S4096x8192 .f32 := V c main_arg5
abbrev yA (c : Dev nD) : FVec Ideal S8192x64 .f32 := V c main_arg0
abbrev twA (c : Dev nD) : FVec Ideal S32x64 .f32 := V c main_arg6
abbrev tbA (c : Dev nD) : FVec Ideal S1x32 .f32 := V c main_v0
abbrev twrA (c : Dev nD) : FVec Ideal S32x64 .f32 := V c main_arg8
abbrev tbrA (c : Dev nD) : FVec Ideal S1x32 .f32 := V c main_v1
/-- The result array after the region. -/
abbrev result (c : Dev nD) : FVec Ideal S4096x64 .f32 := (dat (F := Ideal) V c).arrAt 6 cfg0.N

/-- The six input windows' blocks at a point. -/
abbrev B0 (c : Dev nD) (s : Fin cfg0.N) : FVec Ideal S1024x2048 .f32 := iblk V c 0 s
abbrev B1 (c : Dev nD) (s : Fin cfg0.N) : FVec Ideal S2048x64 .f32 := iblk V c 1 s
abbrev B2 (c : Dev nD) (s : Fin cfg0.N) : FVec Ideal S32x64 .f32 := iblk V c 2 s
abbrev B3 (c : Dev nD) (s : Fin cfg0.N) : FVec Ideal S1x32 .f32 := iblk V c 3 s
abbrev B4 (c : Dev nD) (s : Fin cfg0.N) : FVec Ideal S32x64 .f32 := iblk V c 4 s
abbrev B5 (c : Dev nD) (s : Fin cfg0.N) : FVec Ideal S1x32 .f32 := iblk V c 5 s

theorem B0_apply (c : Dev nD) (s : Fin cfg0.N) (r : Fin 1024) (k : Fin 2048) (P : Fin 4096) (K : Fin 8192)
    (hP : P.val = s.val / 4 * 1024 + r.val) (hK : K.val = s.val % 4 * 2048 + k.val) :
    B0 V c s (ix2 r k) = pdA V c (ix2 P K) := iblk_0_apply V c s r k P K hP hK
theorem B1_apply (c : Dev nD) (s : Fin cfg0.N) (k : Fin 2048) (f : Fin 64) (K : Fin 8192)
    (hK : K.val = s.val % 4 * 2048 + k.val) : B1 V c s (ix2 k f) = yA V c (ix2 K f) := iblk_1_apply V c s k f K hK
theorem B2_apply (c : Dev nD) (s : Fin cfg0.N) (j : Fin 32) (f : Fin 64) : B2 V c s (ix2 j f) = twA V c (ix2 j f) :=
  iblk_2_apply V c s j f
theorem B3_apply (c : Dev nD) (s : Fin cfg0.N) (z : Fin 1) (j : Fin 32) : B3 V c s (ix2 z j) = tbA V c (ix2 z j) :=
  iblk_3_apply V c s z j
theorem B4_apply (c : Dev nD) (s : Fin cfg0.N) (j : Fin 32) (f : Fin 64) : B4 V c s (ix2 j f) = twrA V c (ix2 j f) :=
  iblk_4_apply V c s j f
theorem B5_apply (c : Dev nD) (s : Fin cfg0.N) (z : Fin 1) (j : Fin 32) : B5 V c s (ix2 z j) = tbrA V c (ix2 z j) :=
  iblk_5_apply V c s z j

/-! ## The accumulated product -/

/-- One term of `(pd · y)(P, f)`: the contracted position `K`. -/
def term (c : Dev nD) (P : Fin 4096) (f : Fin 64) (K : Fin 8192) : EReal :=
  pdA V c (ix2 P K) * yA V c (ix2 K f)

/-- The block product of point `s`, whose contracted block is `b`, is the sum of the terms of that block. -/
theorem blockSum_eq (c : Dev nD) (s : Fin cfg0.N) (b : Fin 4) (hb : s.val % 4 = b.val) (r : Fin 1024) (f : Fin 64)
    (P : Fin 4096) (hP : P.val = s.val / 4 * 1024 + r.val) :
    (∑ k : Fin 2048, B0 V c s (ix2 r k) * B1 V c s (ix2 k f))
      = ∑ j : Fin 2048, term V c P f ⟨b.val * 2048 + j.val, by have := b.isLt; have := j.isLt; omega⟩ := by
  refine Finset.sum_congr rfl fun k _ => ?_
  exact congrArg₂ (fun x y : EReal => x * y)
    (B0_apply V c s r k P ⟨b.val * 2048 + k.val, by have := b.isLt; have := k.isLt; omega⟩ hP (by rw [hb]))
    (B1_apply V c s k f ⟨b.val * 2048 + k.val, by have := b.isLt; have := k.isLt; omega⟩ (by rw [hb]))

/-- The four nested accumulation steps of a last point, read at `(r, f)`: the whole sum over the contracted axis. -/
theorem acc4_apply (c : Dev nD) (t : Fin cfg0.N) (h3 : t.val % 4 = 3) (r : Fin 1024) (f : Fin 64)
    (P : Fin 4096) (hP : P.val = t.val / 4 * 1024 + r.val) :
    k0_pay2 (F := Ideal) (B0 V c t) (B1 V c t)
        (k0_pay2 (F := Ideal) (B0 V c (prev t)) (B1 V c (prev t))
          (k0_pay2 (F := Ideal) (B0 V c (prev (prev t))) (B1 V c (prev (prev t)))
            (k0_pay2 (F := Ideal) (B0 V c (prev (prev (prev t)))) (B1 V c (prev (prev (prev t)))) (k0_pay1 (F := Ideal)))))
        (ix2 r f)
      = ∑ K : Fin 8192, term V c P f K := by
  have e3 := blockSum_eq V c t (3 : Fin 4) h3 r f P hP
  have e2 := blockSum_eq V c (prev t) (2 : Fin 4) (by show (t.val - 1) % 4 = 2; omega) r f P
    (by show P.val = (t.val - 1) / 4 * 1024 + r.val; omega)
  have e1 := blockSum_eq V c (prev (prev t)) (1 : Fin 4) (by show (t.val - 1 - 1) % 4 = 1; omega) r f P
    (by show P.val = (t.val - 1 - 1) / 4 * 1024 + r.val; omega)
  have e0 := blockSum_eq V c (prev (prev (prev t))) (0 : Fin 4) (by show (t.val - 1 - 1 - 1) % 4 = 0; omega) r f P
    (by show P.val = (t.val - 1 - 1 - 1) / 4 * 1024 + r.val; omega)
  have a0 := (k0_pay2_apply (B0 V c (prev (prev (prev t)))) (B1 V c (prev (prev (prev t)))) (k0_pay1 (F := Ideal)) r f).trans
    (congrArg₂ (fun x y : EReal => x + y) (k0_pay1_apply r f) e0)
  have a1 := (k0_pay2_apply (B0 V c (prev (prev t))) (B1 V c (prev (prev t))) _ r f).trans
    (congrArg₂ (fun x y : EReal => x + y) a0 e1)
  have a2 := (k0_pay2_apply (B0 V c (prev t)) (B1 V c (prev t)) _ r f).trans
    (congrArg₂ (fun x y : EReal => x + y) a1 e2)
  have a3 := (k0_pay2_apply (B0 V c t) (B1 V c t) _ r f).trans
    (congrArg₂ (fun x y : EReal => x + y) a2 e3)
  refine a3.trans ?_
  rw [← BlockedSum.sum_blocks_4_2048 (term V c P f), Fin.sum_univ_four, zero_add]

/-! ## The value -/

/-- The value at row `P`, column `q`. -/
def valueAt (c : Dev nD) (P : Fin 4096) (q : Fin 64) : EReal :=
  if h : q.val < 32 then
    (∑ f : Fin 64, (∑ k : Fin 8192, pdA V c (ix2 P k) * yA V c (ix2 k f)) * twA V c (ix2 (⟨q.val, h⟩ : Fin 32) f))
      + tbA V c (ix2 (0 : Fin 1) (⟨q.val, h⟩ : Fin 32))
  else
    max ((∑ f : Fin 64, (∑ k : Fin 8192, pdA V c (ix2 P k) * yA V c (ix2 k f)) * twrA V c (ix2 (⟨q.val - 32, by have := q.isLt; omega⟩ : Fin 32) f))
      + tbrA V c (ix2 (0 : Fin 1) (⟨q.val - 32, by have := q.isLt; omega⟩ : Fin 32))) 0

/-- The array of those values. -/
def value (c : Dev nD) : FVec Ideal S4096x64 .f32 :=
  fun i => valueAt V c (⟨(i 0).val, idx2_lt0 i⟩ : Fin 4096) (⟨(i 1).val, idx2_lt1 i⟩ : Fin 64)

theorem value_apply (c : Dev nD) (P : Fin 4096) (q : Fin 64) : value V c (ix2 P q) = valueAt V c P q := rfl

/-- What a last point leaves in the output block's staging buffer, at `(r, q)`: the value at the block's row. -/
theorem out_last_apply (c : Dev nD) (t : Fin cfg0.N) (h3 : t.val % 4 = 3) (r : Fin 1024) (q : Fin 64)
    (P : Fin 4096) (hP : P.val = t.val / 4 * 1024 + r.val) :
    ((outsAt V c t.val t.isLt).1 : FVec Ideal S1024x64 .f32) (ix2 r q) = valueAt V c P q := by
  rw [out_last_closed V c t h3]
  unfold valueAt
  by_cases h : q.val < 32
  · rw [dif_pos h]
    refine (k0_pay3_apply_left _ (B2 V c t) (B4 V c t) (B3 V c t) (B5 V c t) r q h).trans ?_
    exact congrArg₂ (fun x y : EReal => x + y)
      (Finset.sum_congr rfl fun f _ => congrArg₂ (fun x y : EReal => x * y) (acc4_apply V c t h3 r f P hP) (B2_apply V c t _ f))
      (B3_apply V c t 0 _)
  · rw [dif_neg h]
    refine (k0_pay3_apply_right _ (B2 V c t) (B4 V c t) (B3 V c t) (B5 V c t) r q (Nat.le_of_not_lt h)).trans ?_
    refine congrArg (fun x : EReal => max x 0) ?_
    exact congrArg₂ (fun x y : EReal => x + y)
      (Finset.sum_congr rfl fun f _ => congrArg₂ (fun x y : EReal => x * y) (acc4_apply V c t h3 r f P hP) (B4_apply V c t _ f))
      (B5_apply V c t 0 _)

/-- What every writing point writes back is its block of the value array. -/
theorem flushed_eq (c : Dev nD) (t : Fin cfg0.N) (hf : (cfg0.win 6).flush t = true) :
    (dat (F := Ideal) V c).flushed 6 t = ((cfg0.win 6).blk t).view.read (Elt Ideal) (value V c) := by
  have h3 : t.val % 4 = 3 := (flush0_6 t).mp hf
  have hN : cfg0.N = 16 := N_0
  show (cfg0.win 6).cut (grid0.coords t) ((dat (F := Ideal) V c).after 6 t) = _
  rw [after_6]
  refine funext fun (j : S1024x64.Idx) => ?_
  obtain ⟨r, q, rfl⟩ : ∃ (r : Fin 1024) (q : Fin 64), j = ix2 r q := ⟨j 0, j 1, eq_ix2 j⟩
  have hP : (⟨t.val / 4 * 1024 + r.val, by have := t.isLt; have := r.isLt; omega⟩ : Fin 4096).val = t.val / 4 * 1024 + r.val := rfl
  rw [View.read_apply, blk6_emb t r q _ hP]
  exact out_last_apply V c t h3 r q _ hP

/-- Every row of the result array is in the block of the point that meets its row-block and the last contracted block. -/
theorem covered (P : Fin 4096) (q : Fin 64) :
    ∃ t : Fin cfg0.N, (cfg0.win 6).flush t = true ∧ (ix2 P q : S4096x64.Idx) ∈ ((cfg0.win 6).blk t).view.set := by
  have hN : cfg0.N = 16 := N_0
  have ht : P.val / 1024 * 4 + 3 < cfg0.N := by have := P.isLt; omega
  refine ⟨⟨P.val / 1024 * 4 + 3, ht⟩, (flush0_6 _).mpr (by show (P.val / 1024 * 4 + 3) % 4 = 3; omega), ?_⟩
  refine (mem_blk6 ⟨P.val / 1024 * 4 + 3, ht⟩ P q).mpr ?_
  show (P.val / 1024 * 4 + 3) / 4 * 1024 ≤ P.val ∧ P.val < (P.val / 1024 * 4 + 3) / 4 * 1024 + 1024
  omega

/-- THE RESULT ARRAY after the region is the value array. -/
theorem final_eq (c : Dev nD) : (dat (F := Ideal) V c).arrAt 6 cfg0.N = value V c :=
  (dat (F := Ideal) V c).arrAt_eq_of_cover 6 (value V c) (flushed_eq V c) fun (i : S4096x64.Idx) => by
    obtain ⟨P, q, rfl⟩ : ∃ (P : Fin 4096) (q : Fin 64), i = ix2 P q := ⟨i 0, i 1, eq_ix2 i⟩
    exact covered P q

/-- THE RESULT ARRAY after the region, at row `p` and column `q`. -/
theorem final_apply (c : Dev nD) (p : Fin 4096) (q : Fin 64) :
    result V c (ix2 p q)
      = if h : q.val < 32 then
          (∑ f : Fin 64, (∑ k : Fin 8192, pdA V c (ix2 p k) * yA V c (ix2 k f)) * twA V c (ix2 (⟨q.val, h⟩ : Fin 32) f))
            + tbA V c (ix2 (0 : Fin 1) (⟨q.val, h⟩ : Fin 32))
        else
          max ((∑ f : Fin 64, (∑ k : Fin 8192, pdA V c (ix2 p k) * yA V c (ix2 k f)) * twrA V c (ix2 (⟨q.val - 32, by have := q.isLt; omega⟩ : Fin 32) f))
            + tbrA V c (ix2 (0 : Fin 1) (⟨q.val - 32, by have := q.isLt; omega⟩ : Fin 32))) 0 :=
  congrFun (final_eq V c) (ix2 p q)

end Cert.KernelIdeal.Reg0

end
-- ==== Proof.KBridge0.lean ====
/-
  The first pallas_call's output array is the specification's xPre of the arrays it reads.

  That array was read index by index as: the blocked sum over all 8192 contracted positions of pd · y, times the
  transposed weight, plus the bias ROW's entry in row 0; the second half rectified. With the two bias rows equal,
  entry by entry, to two bias vectors, this is xPre, term for term: nothing is rearranged.
-/
import proofs.«103437_j49752901157443_2_alg».proof.Proof.R0ValueFinal
import proofs.«103437_j49752901157443_2_alg».proof.Proof.RefStagesSpec
import Idealize.ShloMosaic.Lib.ValueIdx

noncomputable section

open scoped BigOperators

namespace Cert.KernelIdeal.Bridge

open Cert.KernelIdeal Cert.KernelIdeal.Gen
open Idealize.ShloMosaic Idealize.ShloMosaic.TcCoe Idealize.SL.Sem
open Idealize.ShloMosaic.ValueIdx Cert.RefStages

variable (V : (c : Dev nD) → (b : Ref sig .tc) → Buf (Elt Ideal) ((c : Thread nD τ).loc b))

/-- The first region's value is xPre of its operands, the bias rows read as the vectors they were reshaped from. -/
theorem value0_eq_xPre (c : Dev nD) (tb tbr : Arr (Sh1 32))
    (hb : ∀ j : Fin 32, V c main_v0 (ix2 (0 : Fin 1) j) = tb (ix1 j))
    (hbr : ∀ j : Fin 32, V c main_v1 (ix2 (0 : Fin 1) j) = tbr (ix1 j)) :
    Reg0.value V c = xPre (V c main_arg5) (V c main_arg0) (V c main_arg6) tb (V c main_arg8) tbr := by
  funext i
  obtain ⟨p, q, rfl⟩ : ∃ (p : Fin 4096) (q : Fin 64), i = ix2 p q := ⟨i 0, i 1, eq_ix2 i⟩
  rw [Reg0.value_apply, xPre_apply]
  unfold Reg0.valueAt xPreAt
  by_cases h : q.val < 32
  · rw [dif_pos h, dif_pos h, linear64_def]
    simp only [pdY_apply, Reg0.pdA, Reg0.yA, Reg0.twA, Reg0.tbA]
    rw [hb]
  · rw [dif_neg h, dif_neg h, linear64_def]
    simp only [pdY_apply, Reg0.pdA, Reg0.yA, Reg0.twrA, Reg0.tbrA]
    rw [hbr]

end Cert.KernelIdeal.Bridge

end
-- ==== Proof.R1ValueCases.lean ====
/-
  What each case of the second pallas_call's body leaves, read as the kernel's own arithmetic (at any float
  instance, the arithmetic kept folded): a first block leaves, in the accumulator, the block product added to the
  zero block; a last block leaves the block product added to what the accumulator held, in the accumulator and —
  read back from it — in the output block. So at an odd point the output block holds the sum of the two block
  products over zero.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.R1Frame
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz : (![0, 0] : Fin 2 → Nat) = fun _ => 0 := funext fun a => by fin_cases a <;> rfl

/-- A first block: the accumulator ends at the block product added to the zero block. -/
theorem accFirst_eq (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond0 i) (hc1 : ¬cond1 i)
    (x0 : Vec F S2048x1024 .f32) (x1 : Vec F S2048x64 .f32) :
    accFirst c i arg2 harg2 arg3 harg3 arg4 harg4 arg5 harg5 hc0 hc1 x0 x1 = k1_pay2 x0 x1 (k1_pay1 (F := F)) := by
  unfold accFirst
  rw [View.read_writes_eq_canon _ _ _ (scoverFirst c i arg2 harg2 arg3 harg3 arg4 harg4 arg5 harg5 hc0 hc1 x0 x1)]
  unfold runFirst
  dsimp only
  sl_unfold_words
  rw [View.canon_cons_unit_zero (S := S1024x64) hz, View.readCov_unit_zero (S := S1024x64) _ hz]
  simp only [View.readAt_eq_ld, harg2.read_unread, harg3.read_unread, harg4.read_unread, harg5.read_unread, View.ld_unit_zero (S := S2048x1024) hz, View.ld_unit_zero (S := S2048x64) hz, View.ld_unit_zero (S := S1024x64) hz]

/-- A last block: the accumulator ends at the block product added to what it held. -/
theorem accLast_eq (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0 i) (hc1 : cond1 i)
    (x0 : Vec F S2048x1024 .f32) (x1 : Vec F S2048x64 .f32) (xs : Vec F S1024x64 .f32) :
    accLast c i arg2 harg2 arg3 harg3 arg4 harg4 arg5 harg5 hc0 hc1 x0 x1 xs = k1_pay2 x0 x1 xs := by
  unfold accLast
  rw [View.read_writes_eq_canon _ _ _ (scoverLast c i arg2 harg2 arg3 harg3 arg4 harg4 arg5 harg5 hc0 hc1 x0 x1 xs)]
  unfold runLast
  dsimp only
  sl_unfold_words
  rw [View.canon_unit_zero hz]
  simp only [View.readAt_eq_ld, harg2.read_unread, harg3.read_unread, harg4.read_unread, harg5.read_unread, View.ld_unit_zero (S := S2048x1024) hz, View.ld_unit_zero (S := S2048x64) hz, View.ld_unit_zero (S := S1024x64) hz]

/-- A last block: the output block ends at the same sum, read back from the accumulator. -/
theorem outLast_eq (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0 i) (hc1 : cond1 i)
    (x0 : Vec F S2048x1024 .f32) (x1 : Vec F S2048x64 .f32) (xs : Vec F S1024x64 .f32) :
    outLast c i arg2 harg2 arg3 harg3 arg4 harg4 arg5 harg5 hc0 hc1 x0 x1 xs = k1_pay2 x0 x1 xs := by
  unfold outLast
  rw [View.read_writes_eq_canon _ _ _ (coverLast c i arg2 harg2 arg3 harg3 arg4 harg4 arg5 harg5 hc0 hc1 x0 x1 xs)]
  unfold runLast
  dsimp only
  sl_unfold_words
  rw [View.canon_unit_zero hz, View.readCov_unit_zero (S := S1024x64) _ hz]
  simp only [View.readAt_eq_ld, harg2.read_unread, harg3.read_unread, harg4.read_unread, harg5.read_unread, View.ld_unit_zero (S := S2048x1024) hz, View.ld_unit_zero (S := S2048x64) hz, View.ld_unit_zero (S := S1024x64) hz]

/-- At an odd point the output block's staging buffer holds the two block products summed over the zero block: the
    point's own block added to what the even point before it left. -/
theorem out_odd (c : Dev nD) (t : Fin cfg1.N) (h : t.val % 2 = 1) :
    (outsAt V c t.val t.isLt).1
      = k1_pay2 (iblk V c 0 t) (iblk V c 1 t)
          (k1_pay2 (iblk V c 0 ⟨t.val - 1, Nat.lt_of_le_of_lt (Nat.sub_le _ _) t.isLt⟩) (iblk V c 1 ⟨t.val - 1, Nat.lt_of_le_of_lt (Nat.sub_le _ _) t.isLt⟩) (k1_pay1 (F := F))) := by
  have h0 : ¬t.val % 2 = 0 := by omega
  rw [outsAt_last V c t h0]
  dsimp only
  rw [outLast_eq]
  have he : (⟨t.val - 1, Nat.lt_of_le_of_lt (Nat.sub_le _ _) t.isLt⟩ : Fin cfg1.N).val % 2 = 0 := by dsimp only; omega
  have hp := outsAt_first V c ⟨t.val - 1, Nat.lt_of_le_of_lt (Nat.sub_le _ _) t.isLt⟩ he
  dsimp only at hp
  rw [hp]
  dsimp only
  rw [accFirst_eq]

end Cert.KernelIdeal.Reg1

end
-- ==== Proof.PayAtIndexK1.lean ====
/-
  The second kernel's two payloads read at an index, at the ideal values.

  The second kernel computes `pm.T @ x` block by block: the left operand's block is [2048, 1024] and is
  contracted on its FIRST axis, so the product at `(p, q)` sums `lhs (k, p) * rhs (k, q)` over the 2048 rows
  of both blocks. The accumulator is the left summand: `acc + product`.
-/
import proofs.«103437_j49752901157443_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.PayAt

open Cert.KernelIdeal Cert.KernelIdeal.Gen Idealize.ShloMosaic Idealize.ShloMosaic.ValueIdx

/-- The accumulator's first value: zero at every index. -/
theorem k1_pay1_apply (p : Fin 1024) (q : Fin 64) : k1_pay1 (F := Ideal) (ix2 p q) = 0 := by
  unfold k1_pay1
  refine (congrFun (shapeCast_self _ _) (ix2 p q)).trans ?_
  exact Ideal.ofBits_zero_f32

/-! ### The operand indices of the product contracted on the first axis of both operands -/

/-- The left operand's first coordinate is the contraction position. -/
theorem k1_lhs_0 (i : S1024x64.Idx) (κ : dot_S2048x1024_S2048x64_S1024x64_0_0_1_1_n_n.contr.Idx) :
    (dot_S2048x1024_S2048x64_S1024x64_0_0_1_1_n_n.lhsIdx i κ 0).val = (κ ⟨0, by decide⟩).val :=
  dot_S2048x1024_S2048x64_S1024x64_0_0_1_1_n_n.lhsIdx_val_of_single rfl i κ
/-- The left operand's second coordinate is the result's row. -/
theorem k1_lhs_1 (i : S1024x64.Idx) (κ : dot_S2048x1024_S2048x64_S1024x64_0_0_1_1_n_n.contr.Idx) :
    (dot_S2048x1024_S2048x64_S1024x64_0_0_1_1_n_n.lhsIdx i κ 1).val = (i 0).val := by
  unfold DotDims.lhsIdx
  rw [dif_neg (show ¬(1 : Fin S2048x1024.rank) ∈ dot_S2048x1024_S2048x64_S1024x64_0_0_1_1_n_n.lhsBatch by decide), dif_pos (show (1 : Fin S2048x1024.rank) ∈ dot_S2048x1024_S2048x64_S1024x64_0_0_1_1_n_n.lhsNonContracting by decide)]
  rfl
/-- The right operand's first coordinate is the contraction position. -/
theorem k1_rhs_0 (i : S1024x64.Idx) (κ : dot_S2048x1024_S2048x64_S1024x64_0_0_1_1_n_n.contr.Idx) :
    (dot_S2048x1024_S2048x64_S1024x64_0_0_1_1_n_n.rhsIdx i κ 0).val = (κ ⟨0, by decide⟩).val :=
  dot_S2048x1024_S2048x64_S1024x64_0_0_1_1_n_n.rhsIdx_val_of_single rfl i κ
/-- The right operand's second coordinate is the result's column. -/
theorem k1_rhs_1 (i : S1024x64.Idx) (κ : dot_S2048x1024_S2048x64_S1024x64_0_0_1_1_n_n.contr.Idx) :
    (dot_S2048x1024_S2048x64_S1024x64_0_0_1_1_n_n.rhsIdx i κ 1).val = (i 1).val := by
  unfold DotDims.rhsIdx
  rw [dif_neg (show ¬(1 : Fin S2048x64.rank) ∈ dot_S2048x1024_S2048x64_S1024x64_0_0_1_1_n_n.rhsBatch by decide), dif_pos (show (1 : Fin S2048x64.rank) ∈ dot_S2048x1024_S2048x64_S1024x64_0_0_1_1_n_n.rhsNonContracting by decide)]
  rfl

/-- The block product into the zero accumulator, at `(p, q)`: `∑ k, lhs (k, p) * rhs (k, q)`. -/
theorem k1_matmul_zero_apply (l : FVec Ideal S2048x1024 .bf16) (r : FVec Ideal S2048x64 .bf16) (p : Fin 1024) (q : Fin 64) :
    matmul (F := Ideal) dot_S2048x1024_S2048x64_S1024x64_0_0_1_1_n_n none l r (constant (F := Ideal) S1024x64 .f32 0x00000000#32) (ix2 p q)
      = ∑ k : Fin 2048, l (ix2 k p) * r (ix2 k q) := by
  refine (Ideal.matmul_constant_zero_apply dot_S2048x1024_S2048x64_S1024x64_0_0_1_1_n_n none l r (ix2 p q)).trans ?_
  rw [← Equiv.sum_comp (contrEquiv1 dot_S2048x1024_S2048x64_S1024x64_0_0_1_1_n_n 2048 rfl rfl).symm]
  refine Finset.sum_congr rfl fun k _ => ?_
  have hk := contrEquiv1_symm_val dot_S2048x1024_S2048x64_S1024x64_0_0_1_1_n_n 2048 rfl rfl k
  have el : dot_S2048x1024_S2048x64_S1024x64_0_0_1_1_n_n.lhsIdx (ix2 p q) ((contrEquiv1 dot_S2048x1024_S2048x64_S1024x64_0_0_1_1_n_n 2048 rfl rfl).symm k) = ix2 k p := funext fun a => Fin.ext (by
    match a with
    | ⟨0, _⟩ => exact (k1_lhs_0 _ _).trans hk
    | ⟨1, _⟩ => exact k1_lhs_1 _ _)
  have er : dot_S2048x1024_S2048x64_S1024x64_0_0_1_1_n_n.rhsIdx (ix2 p q) ((contrEquiv1 dot_S2048x1024_S2048x64_S1024x64_0_0_1_1_n_n 2048 rfl rfl).symm k) = ix2 k q := funext fun a => Fin.ext (by
    match a with
    | ⟨0, _⟩ => exact (k1_rhs_0 _ _).trans hk
    | ⟨1, _⟩ => exact k1_rhs_1 _ _)
  rw [el, er]

/-- The accumulation step at `(p, q)`: the accumulator (LEFT summand) plus the block product,
    `acc (p, q) + ∑ k : Fin 2048, lhs (k, p) * rhs (k, q)` — the left block read transposed. -/
theorem k1_pay2_apply (v3 : Vec Ideal S2048x1024 .f32) (v5 : Vec Ideal S2048x64 .f32) (v8 : Vec Ideal S1024x64 .f32)
    (p : Fin 1024) (q : Fin 64) :
    k1_pay2 (F := Ideal) v3 v5 v8 (ix2 p q) = v8 (ix2 p q) + ∑ k : Fin 2048, v3 (ix2 k p) * v5 (ix2 k q) := by
  unfold k1_pay2
  refine (congrFun (shapeCast_self _ _) (ix2 p q)).trans ?_
  refine congrArg (v8 (ix2 p q) + ·) ?_
  refine (k1_matmul_zero_apply _ _ p q).trans ?_
  refine Finset.sum_congr rfl fun k _ => ?_
  exact congrArg (v3 (ix2 k p) * ·) (congrFun (shapeCast_self v5 _) (ix2 k q))

end Cert.KernelIdeal.PayAt
-- ==== Proof.R1Value.lean ====
/-
  What the second pallas_call leaves in its output array, at the extended reals: entry (e, j) is the sum over all 4096
  rows n of the left operand's entry (n, e) times the right operand's entry (n, j) — the left operand contracted on its
  FIRST axis. The output block of rows 1024·i … is written back once, after the second of the two blocks of the
  contracted axis; it then holds the first block's partial sum (added to zero) plus the second block's, and the two
  blocks of 2048 rows together are all 4096 rows. The output blocks tile the array, so this names the whole array.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.R1ValueCases
import proofs.«103437_j49752901157443_2_alg».proof.Proof.PayAtIndexK1
import proofs.«103437_j49752901157443_2_alg».proof.Proof.LibBlockedSum
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.PayAt

variable (V : (c : Dev nD) → (b : Ref sig .tc) → Buf (Elt Ideal) ((c : Thread nD τ).loc b))

/-- The region-entry contents of the left operand (pm) and of the right operand (x after batch-norm), as arrays. -/
abbrev lhsArr (c : Dev nD) : S4096x8192.Idx → EReal := V c main_arg4
abbrev rhsArr (c : Dev nD) : S4096x64.Idx → EReal := V c main_v31

/-- The two operands' blocks at a point, as plain arrays of extended reals. -/
abbrev lhsBlk (c : Dev nD) (t : Fin cfg1.N) : S2048x1024.Idx → EReal := iblk V c 0 t
abbrev rhsBlk (c : Dev nD) (t : Fin cfg1.N) : S2048x64.Idx → EReal := iblk V c 1 t

/-- What the output array ends holding. -/
def pmT (c : Dev nD) : S8192x64.Idx → EReal := fun i =>
  ∑ n : Fin 4096, lhsArr V c (ix2 n (⟨(i 0).val, (i 0).isLt⟩ : Fin 8192)) * rhsArr V c (ix2 n (⟨(i 1).val, (i 1).isLt⟩ : Fin 64))

theorem pmT_apply (c : Dev nD) (e : Fin 8192) (j : Fin 64) :
    pmT V c (ix2 e j) = ∑ n : Fin 4096, lhsArr V c (ix2 n e) * rhsArr V c (ix2 n j) := rfl

/-- The printed index maps over the sixteen grid points: the contracted-axis block is the point's parity, the
    output row-block the point's half. -/
theorem idx_facts : ∀ t : Fin cfg1.N, win1_0.index t (0 : Fin 2) = t.val % 2 ∧ win1_0.index t (1 : Fin 2) = t.val / 2
    ∧ win1_1.index t (0 : Fin 2) = t.val % 2 ∧ win1_1.index t (1 : Fin 2) = 0
    ∧ win1_2.index t (0 : Fin 2) = t.val / 2 ∧ win1_2.index t (1 : Fin 2) = 0 :=
  (by decide +kernel : ∀ t : Fin grid1.N, _)

/-- The left operand's block at a point, read at (k, p), is the array at (2048·parity + k, 1024·half + p). -/
theorem lhs_blk_apply (c : Dev nD) (t : Fin cfg1.N) (k : Fin 2048) (p : Fin 1024) (n : Fin 4096) (e : Fin 8192)
    (hn : n.val = t.val % 2 * 2048 + k.val) (he : e.val = t.val / 2 * 1024 + p.val) :
    lhsBlk V c t (ix2 k p) = lhsArr V c (ix2 n e) := by
  unfold lhsBlk iblk
  rw [View.read_apply]
  show V c main_arg4 (((cfg1.win 0).blk t).view.emb (ix2 k p)) = V c main_arg4 (ix2 n e)
  congr 1
  funext a
  apply Fin.ext
  obtain ⟨e0, e1, -⟩ := idx_facts t
  match a with
  | ⟨0, _⟩ => show win1_0.index t (0 : Fin 2) * 2048 + 1 * k.val = n.val; rw [e0, hn]; omega
  | ⟨1, _⟩ => show win1_0.index t (1 : Fin 2) * 1024 + 1 * p.val = e.val; rw [e1, he]; omega

/-- The right operand's block at a point, read at (k, q), is the array at (2048·parity + k, q). -/
theorem rhs_blk_apply (c : Dev nD) (t : Fin cfg1.N) (k : Fin 2048) (q : Fin 64) (n : Fin 4096)
    (hn : n.val = t.val % 2 * 2048 + k.val) :
    rhsBlk V c t (ix2 k q) = rhsArr V c (ix2 n q) := by
  unfold rhsBlk iblk
  rw [View.read_apply]
  show V c main_v31 (((cfg1.win 1).blk t).view.emb (ix2 k q)) = V c main_v31 (ix2 n q)
  congr 1
  funext a
  apply Fin.ext
  obtain ⟨-, -, e2, e3, -⟩ := idx_facts t
  match a with
  | ⟨0, _⟩ => show win1_1.index t (0 : Fin 2) * 2048 + 1 * k.val = n.val; rw [e2, hn]; omega
  | ⟨1, _⟩ => show win1_1.index t (1 : Fin 2) * 64 + 1 * q.val = q.val; rw [e3]; omega

/-- One block's partial sum at a point of parity `b` and half `h`: rows 2048·b … of the contraction. -/
theorem blk_sum (c : Dev nD) (t : Fin cfg1.N) (b : Fin 2) (hb : t.val % 2 = b.val) (p : Fin 1024) (q : Fin 64) (e : Fin 8192)
    (he : e.val = t.val / 2 * 1024 + p.val) :
    (∑ k : Fin 2048, lhsBlk V c t (ix2 k p) * rhsBlk V c t (ix2 k q))
      = ∑ k : Fin 2048, lhsArr V c (ix2 (⟨b.val * 2048 + k.val, by have := b.isLt; have := k.isLt; omega⟩ : Fin 4096) e)
          * rhsArr V c (ix2 (⟨b.val * 2048 + k.val, by have := b.isLt; have := k.isLt; omega⟩ : Fin 4096) q) :=
  Finset.sum_congr rfl fun k _ => by
    rw [lhs_blk_apply V c t k p ⟨b.val * 2048 + k.val, by have := b.isLt; have := k.isLt; omega⟩ e (by rw [hb]) he,
      rhs_blk_apply V c t k q ⟨b.val * 2048 + k.val, by have := b.isLt; have := k.isLt; omega⟩ (by rw [hb])]

/-- WHAT AN ODD POINT WRITES BACK is its block of the whole-array function. -/
theorem flushed_eq (c : Dev nD) (t : Fin cfg1.N) (hf : (cfg1.win 2).flush t = true) :
    (dat V c).flushed 2 t = ((cfg1.win 2).blk t).view.read (Elt Ideal) (pmT V c) := by
  have h1 : t.val % 2 = 1 := (flush1_2 t).mp hf
  have hN : t.val < 16 := lt_of_lt_of_eq t.isLt N_1
  show (cfg1.win 2).cut (grid1.coords t) ((dat V c).after 2 t) = _
  rw [after_2, out_odd V c t h1]
  funext j
  obtain ⟨p, q, rfl⟩ : ∃ (p : Fin 1024) (q : Fin 64), j = ix2 p q := ⟨j 0, j 1, eq_ix2 j⟩
  rw [View.read_apply]
  obtain ⟨-, -, -, -, e4, e5⟩ := idx_facts t
  have hemb : ((cfg1.win 2).blk t).view.emb (ix2 p q) = ix2 (⟨t.val / 2 * 1024 + p.val, by have := p.isLt; omega⟩ : Fin 8192) q := by
    funext a
    apply Fin.ext
    match a with
    | ⟨0, _⟩ => show win1_2.index t (0 : Fin 2) * 1024 + 1 * p.val = t.val / 2 * 1024 + p.val; rw [e4]; omega
    | ⟨1, _⟩ => show win1_2.index t (1 : Fin 2) * 64 + 1 * q.val = q.val; rw [e5]; omega
  rw [hemb, pmT_apply]
  show k1_pay2 (F := Ideal) (iblk V c 0 t) (iblk V c 1 t) (k1_pay2 (F := Ideal) (iblk V c 0 _) (iblk V c 1 _) (k1_pay1 (F := Ideal))) (ix2 p q) = _
  rw [k1_pay2_apply, k1_pay2_apply, k1_pay1_apply, zero_add]
  have s0 := blk_sum V c ⟨t.val - 1, Nat.lt_of_le_of_lt (Nat.sub_le _ _) t.isLt⟩ 0 (by show (t.val - 1) % 2 = 0; omega) p q
    ⟨t.val / 2 * 1024 + p.val, by have := p.isLt; omega⟩ (by show t.val / 2 * 1024 + p.val = (t.val - 1) / 2 * 1024 + p.val; omega)
  have s1 := blk_sum V c t 1 (by show t.val % 2 = 1; exact h1) p q ⟨t.val / 2 * 1024 + p.val, by have := p.isLt; omega⟩ rfl
  refine (congrArg₂ (· + ·) s0 s1).trans ?_
  rw [← BlockedSum.sum_blocks_2_2048 (fun n : Fin 4096 => lhsArr V c (ix2 n _) * rhsArr V c (ix2 n q)), Fin.sum_univ_two]
  rfl

/-- An index of the array is in a point's output block iff each coordinate is in the block's range. -/
theorem mem_blk (t : Fin cfg1.N) (i : S8192x64.Idx) :
    i ∈ ((cfg1.win 2).blk t).view.set ↔ ∀ a : Fin 2, win1_2.index t a * S1024x64.size a ≤ (i a).val ∧ (i a).val < win1_2.index t a * S1024x64.size a + S1024x64.size a := by
  show i ∈ ((View.whole main_v32).slice (win1_2.rect t)).set ↔ _
  rw [View.set_slice_whole, Rect.mem_set_unit]
  exact Iff.rfl

/-- THE ARRAY after the region: the whole-array function (the eight output blocks tile its 8192 rows). -/
theorem final (c : Dev nD) : (dat V c).arrAt 2 cfg1.N = pmT V c :=
  (dat V c).arrAt_eq_of_cover 2 (pmT V c) (flushed_eq V c) fun i => by
    have hi0 : (i 0).val < 8192 := (i 0).isLt
    have hi1 : (i 1).val < 64 := (i 1).isLt
    refine ⟨⟨2 * ((i 0).val / 1024) + 1, by rw [show cfg1.N = 16 from N_1]; omega⟩, (flush1_2 _).mpr (by dsimp only; omega), ?_⟩
    rw [mem_blk]
    obtain ⟨-, -, -, -, e4, e5⟩ := idx_facts ⟨2 * ((i 0).val / 1024) + 1, by rw [show cfg1.N = 16 from N_1]; omega⟩
    intro a
    match a with
    | ⟨0, _⟩ => show win1_2.index _ (0 : Fin 2) * 1024 ≤ (i 0).val ∧ (i 0).val < win1_2.index _ (0 : Fin 2) * 1024 + 1024; rw [e4]; dsimp only; omega
    | ⟨1, _⟩ => show win1_2.index _ (1 : Fin 2) * 64 ≤ (i 1).val ∧ (i 1).val < win1_2.index _ (1 : Fin 2) * 64 + 64; rw [e5]; omega

end Cert.KernelIdeal.Reg1

end
-- ==== Proof.KBridge1.lean ====
/-
  The second pallas_call's output array is the specification's pmX of its two operand arrays: both are, entry by
  entry, the sum over the 4096 rows of the left operand's entry (n, e) times the right operand's entry (n, j).
-/
import proofs.«103437_j49752901157443_2_alg».proof.Proof.R1Value
import proofs.«103437_j49752901157443_2_alg».proof.Proof.RefStagesSpec
import Idealize.ShloMosaic.Lib.ValueIdx

noncomputable section

open scoped BigOperators

namespace Cert.KernelIdeal.Bridge

open Cert.KernelIdeal Cert.KernelIdeal.Gen
open Idealize.ShloMosaic Idealize.ShloMosaic.TcCoe Idealize.SL.Sem
open Idealize.ShloMosaic.ValueIdx Cert.RefStages

variable (V : (c : Dev nD) → (b : Ref sig .tc) → Buf (Elt Ideal) ((c : Thread nD τ).loc b))

/-- The second region's value is pmX of its operands. -/
theorem value1_eq_pmX (c : Dev nD) : Reg1.pmT V c = pmX (V c main_arg4) (V c main_v31) := by
  funext i
  obtain ⟨e, j, rfl⟩ : ∃ (e : Fin 8192) (j : Fin 64), i = ix2 e j := ⟨i 0, i 1, eq_ix2 i⟩
  rw [Reg1.pmT_apply, pmX_apply]

end Cert.KernelIdeal.Bridge

end
-- ==== Proof.R2ValueCases.lean ====
/-
  What each case of the third pallas_call's body leaves, as the body's payloads of the blocks it loaded (at any float
  instance; the payloads stay folded): a first block leaves in the accumulator the accumulation step over the zero
  block, a middle or last block the accumulation step over what the accumulator held, and a last block leaves in the
  output block the epilogue of the accumulator it has just stored, of the second summand's block and of the eight
  small arrays.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.R2Frame
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- A middle block leaves `acc + block product`: its one covering store's payload, whose loads read the whole buffers. -/
theorem accMid_eq (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : ¬cond0 i) (hc1 : ¬cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) (xs : Vec F S1024x64 .f32) :
    accMid c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs = k2_pay2 x0 x1 xs := by
  unfold accMid
  rw [View.read_writes_eq_canon _ _ _ (scoverMid c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs)]
  unfold runMid
  dsimp only
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz, View.ld_unit_zero (S := S2048x64) hz, View.ld_unit_zero (S := S32x64) hz, View.ld_unit_zero (S := S1x32) hz, View.ld_unit_zero (S := S1024x64) hz]

/-- A first block stores the zero block, reads it back, and leaves `zero + block product`. -/
theorem accFirst_eq (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : cond0 i) (hc1 : ¬cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) :
    accFirst c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 = k2_pay2 x0 x1 (k2_pay1 (F := F)) := by
  unfold accFirst
  rw [View.read_writes_eq_canon _ _ _ (scoverFirst c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10)]
  unfold runFirst
  dsimp only
  sl_unfold_words
  rw [View.canon_cons_unit_zero (S := S1024x64) hz, View.readCov_unit_zero (S := S1024x64) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz, View.ld_unit_zero (S := S2048x64) hz, View.ld_unit_zero (S := S32x64) hz, View.ld_unit_zero (S := S1x32) hz, View.ld_unit_zero (S := S1024x64) hz]

/-- A last block leaves in the accumulator `acc + block product`, as a middle block does. -/
theorem accLast_eq (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : ¬cond0 i) (hc1 : cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) (xs : Vec F S1024x64 .f32) :
    accLast c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs = k2_pay2 x0 x1 xs := by
  unfold accLast
  rw [View.read_writes_eq_canon _ _ _ (scoverLast c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs)]
  unfold runLast
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz, View.ld_unit_zero (S := S2048x64) hz, View.ld_unit_zero (S := S32x64) hz, View.ld_unit_zero (S := S1x32) hz, View.ld_unit_zero (S := S1024x64) hz]

/-- A last block leaves in the output block the epilogue of the accumulator it has just stored (read back) and of the
    second summand's block: the first half through the first and third weights with their bias rows, the second half
    through the second and fourth weights with theirs, the payload's order of arguments. -/
theorem outLast_eq (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S1024x64 .f32) (harg13 : arg13.IsWhole) (arg14 : Memref sig .tc .vmem S1024x64 .f32) (harg14 : arg14.IsWhole) (hc0 : ¬cond0 i) (hc1 : cond1 i)
    (x0 : Vec F S1024x2048 .f32) (x1 : Vec F S2048x64 .f32) (x2 : Vec F S1024x64 .f32) (x3 : Vec F S32x64 .f32) (x4 : Vec F S1x32 .f32) (x5 : Vec F S32x64 .f32) (x6 : Vec F S1x32 .f32) (x7 : Vec F S32x64 .f32) (x8 : Vec F S1x32 .f32) (x9 : Vec F S32x64 .f32) (x10 : Vec F S1x32 .f32) (xs : Vec F S1024x64 .f32) :
    outLast c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs = k2_pay3 (k2_pay6 (k2_pay2 x0 x1 xs) x2 x3 x7 x4 x8) (k2_pay7 (k2_pay2 x0 x1 xs) x2 x5 x9 x6) x10 := by
  unfold outLast
  rw [View.read_writes_eq_canon _ _ _ (coverLast c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs)]
  unfold runLast
  dsimp only
  sl_unfold_words
  rw [View.canon_unit_zero hz, View.readCov_unit_zero (S := S1024x64) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz, View.ld_unit_zero (S := S2048x64) hz, View.ld_unit_zero (S := S32x64) hz, View.ld_unit_zero (S := S1x32) hz, View.ld_unit_zero (S := S1024x64) hz]

end Cert.KernelIdeal.Reg2

end
-- ==== Proof.R2ValueChain.lean ====
/-
  The third pallas_call's accumulation in closed form, at any float instance, the payloads folded: after a point ≡ 0
  (mod 4) the accumulator holds the accumulation step over the zero block, after any other point the step over what
  the point before left; so at a point ≡ 3 (mod 4) the output block's staging buffer holds the epilogue of four nested
  accumulation steps, over the blocks of that point and of the three points before it.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.R2ValueCases
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The second component of a pair given by an equation. -/
theorem snd_eq_of_eq {α β : Type} {p : α × β} {a : α} {b : β} (h : p = (a, b)) : p.2 = b := by rw [h]
/-- The first component of a pair given by an equation. -/
theorem fst_eq_of_eq {α β : Type} {p : α × β} {a : α} {b : β} (h : p = (a, b)) : p.1 = a := by rw [h]

/-- The point before (the first point's is itself). -/
abbrev prev (t : Fin cfg2.N) : Fin cfg2.N := ⟨t.val - 1, Nat.lt_of_le_of_lt (Nat.sub_le _ _) t.isLt⟩

/-- After a first block the accumulator holds the step over the zero block. -/
theorem acc_first (c : Dev nD) (t : Fin cfg2.N) (h0 : t.val % 4 = 0) :
    (outsAt V c t.val t.isLt).2 = k2_pay2 (iblk V c 0 t) (iblk V c 1 t) (k2_pay1 (F := F)) := by
  exact (snd_eq_of_eq (outsAt_first V c t h0)).trans
    (accFirst_eq (F := F) c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) ((hcond0 t).mpr h0) (fun h => (fun h' => by omega) ((hcond1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t))

/-- After any other block it holds the step over what the point before left. -/
theorem acc_next (c : Dev nD) (t : Fin cfg2.N) (h0 : ¬t.val % 4 = 0) :
    (outsAt V c t.val t.isLt).2 = k2_pay2 (iblk V c 0 t) (iblk V c 1 t) (outsAt V c (prev t).val (prev t).isLt).2 := by
  by_cases h3 : t.val % 4 = 3
  · exact (snd_eq_of_eq (outsAt_last V c t h0 h3)).trans
      (accLast_eq (F := F) c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (fun h => h0 ((hcond0 t).mp h)) ((hcond1 t).mpr h3) (iblk V c 0 t) (iblk V c 1 t) (iblk V c 2 t) (iblk V c 3 t) (iblk V c 4 t) (iblk V c 5 t) (iblk V c 6 t) (iblk V c 7 t) (iblk V c 8 t) (iblk V c 9 t) (iblk V c 10 t) (outsAt V c (prev t).val (prev t).isLt).2)
  · exact (snd_eq_of_eq (outsAt_mid V c t h0 h3)).trans
      (accMid_eq (F := F) c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (fun h => h0 ((hcond0 t).mp h)) (fun h => h3 ((hcond1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (outsAt V c (prev t).val (prev t).isLt).2)

/-- After a last block the output block's staging buffer holds the epilogue of the accumulator just stored. -/
theorem out_last (c : Dev nD) (t : Fin cfg2.N) (h3 : t.val % 4 = 3) :
    (outsAt V c t.val t.isLt).1
      = k2_pay3 (k2_pay6 (k2_pay2 (iblk V c 0 t) (iblk V c 1 t) (outsAt V c (prev t).val (prev t).isLt).2) (iblk V c 2 t) (iblk V c 3 t) (iblk V c 7 t) (iblk V c 4 t) (iblk V c 8 t))
          (k2_pay7 (k2_pay2 (iblk V c 0 t) (iblk V c 1 t) (outsAt V c (prev t).val (prev t).isLt).2) (iblk V c 2 t) (iblk V c 5 t) (iblk V c 9 t) (iblk V c 6 t))
          (iblk V c 10 t) := by
  have h0 : ¬t.val % 4 = 0 := by omega
  exact (fst_eq_of_eq (outsAt_last V c t h0 h3)).trans
    (outLast_eq (F := F) c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (fun h => h0 ((hcond0 t).mp h)) ((hcond1 t).mpr h3) (iblk V c 0 t) (iblk V c 1 t) (iblk V c 2 t) (iblk V c 3 t) (iblk V c 4 t) (iblk V c 5 t) (iblk V c 6 t) (iblk V c 7 t) (iblk V c 8 t) (iblk V c 9 t) (iblk V c 10 t) (outsAt V c (prev t).val (prev t).isLt).2)

/-- Four nested accumulation steps from the zero block: what the accumulator holds after a last block. -/
def acc4 (c : Dev nD) (t : Fin cfg2.N) : FVec F S1024x64 .f32 :=
  k2_pay2 (iblk V c 0 t) (iblk V c 1 t)
    (k2_pay2 (iblk V c 0 (prev t)) (iblk V c 1 (prev t))
      (k2_pay2 (iblk V c 0 (prev (prev t))) (iblk V c 1 (prev (prev t)))
        (k2_pay2 (iblk V c 0 (prev (prev (prev t)))) (iblk V c 1 (prev (prev (prev t)))) (k2_pay1 (F := F)))))

/-- The closed form at a last block: four nested accumulation steps from the zero block, then the epilogue. -/
theorem out_last_closed (c : Dev nD) (t : Fin cfg2.N) (h3 : t.val % 4 = 3) :
    (outsAt V c t.val t.isLt).1
      = k2_pay3 (k2_pay6 (acc4 V c t) (iblk V c 2 t) (iblk V c 3 t) (iblk V c 7 t) (iblk V c 4 t) (iblk V c 8 t)) (k2_pay7 (acc4 V c t) (iblk V c 2 t) (iblk V c 5 t) (iblk V c 9 t) (iblk V c 6 t)) (iblk V c 10 t) := by
  unfold acc4
  rw [out_last V c t h3,
    acc_next V c (prev t) (by show ¬(t.val - 1) % 4 = 0; omega),
    acc_next V c (prev (prev t)) (by show ¬(t.val - 1 - 1) % 4 = 0; omega),
    acc_first V c (prev (prev (prev t))) (by show (t.val - 1 - 1 - 1) % 4 = 0; omega)]

end Cert.KernelIdeal.Reg2

end
-- ==== Proof.R2ValueBlocks.lean ====
/-
  The third pallas_call's windows read at an index given by coordinates, at any float instance. Point `t` of the
  thirty-two has output row-block `t / 4` and contracted-axis block `t % 4`: the left operand's block there is rows
  `(t / 4) · 1024 …`, columns `(t % 4) · 2048 …` of its array, the right operand's block rows `(t % 4) · 2048 …`, the
  second summand's block rows `(t / 4) · 1024 …`, the eight small windows' block is their whole array, and the output
  window's block is rows `(t / 4) · 1024 …` of its array.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.R2Runs
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! The printed index maps, decided over the grid. -/
theorem idx_0 : ∀ t : Fin cfg2.N, win2_0.index t (0 : Fin 2) = t.val / 4 ∧ win2_0.index t (1 : Fin 2) = t.val % 4 :=
  (by decide +kernel : ∀ t : Fin grid2.N, _)
theorem idx_1 : ∀ t : Fin cfg2.N, win2_1.index t (0 : Fin 2) = t.val % 4 ∧ win2_1.index t (1 : Fin 2) = 0 :=
  (by decide +kernel : ∀ t : Fin grid2.N, _)
theorem idx_2 : ∀ t : Fin cfg2.N, win2_2.index t (0 : Fin 2) = t.val / 4 ∧ win2_2.index t (1 : Fin 2) = 0 :=
  (by decide +kernel : ∀ t : Fin grid2.N, _)
theorem idx_3 : ∀ t : Fin cfg2.N, win2_3.index t (0 : Fin 2) = 0 ∧ win2_3.index t (1 : Fin 2) = 0 :=
  (by decide +kernel : ∀ t : Fin grid2.N, _)
theorem idx_4 : ∀ t : Fin cfg2.N, win2_4.index t (0 : Fin 2) = 0 ∧ win2_4.index t (1 : Fin 2) = 0 :=
  (by decide +kernel : ∀ t : Fin grid2.N, _)
theorem idx_5 : ∀ t : Fin cfg2.N, win2_5.index t (0 : Fin 2) = 0 ∧ win2_5.index t (1 : Fin 2) = 0 :=
  (by decide +kernel : ∀ t : Fin grid2.N, _)
theorem idx_6 : ∀ t : Fin cfg2.N, win2_6.index t (0 : Fin 2) = 0 ∧ win2_6.index t (1 : Fin 2) = 0 :=
  (by decide +kernel : ∀ t : Fin grid2.N, _)
theorem idx_7 : ∀ t : Fin cfg2.N, win2_7.index t (0 : Fin 2) = 0 ∧ win2_7.index t (1 : Fin 2) = 0 :=
  (by decide +kernel : ∀ t : Fin grid2.N, _)
theorem idx_8 : ∀ t : Fin cfg2.N, win2_8.index t (0 : Fin 2) = 0 ∧ win2_8.index t (1 : Fin 2) = 0 :=
  (by decide +kernel : ∀ t : Fin grid2.N, _)
theorem idx_9 : ∀ t : Fin cfg2.N, win2_9.index t (0 : Fin 2) = 0 ∧ win2_9.index t (1 : Fin 2) = 0 :=
  (by decide +kernel : ∀ t : Fin grid2.N, _)
theorem idx_10 : ∀ t : Fin cfg2.N, win2_10.index t (0 : Fin 2) = 0 ∧ win2_10.index t (1 : Fin 2) = 0 :=
  (by decide +kernel : ∀ t : Fin grid2.N, _)
theorem idx_11 : ∀ t : Fin cfg2.N, win2_11.index t (0 : Fin 2) = t.val / 4 ∧ win2_11.index t (1 : Fin 2) = 0 :=
  (by decide +kernel : ∀ t : Fin grid2.N, _)

/-- The left operand's block at `(r, k)`: the array at row `(t / 4) · 1024 + r`, column `(t % 4) · 2048 + k`. -/
theorem iblk_0_apply (c : Dev nD) (t : Fin cfg2.N) (r : Fin 1024) (k : Fin 2048) (P : Fin 8192) (K : Fin 8192)
    (hP : P.val = t.val / 4 * 1024 + r.val) (hK : K.val = t.val % 4 * 2048 + k.val) :
    (iblk V c 0 t : Vec F S1024x2048 .f32) (ix2 r k) = V c main_arg3 (ix2 P K) := by
  obtain ⟨e0, e1⟩ := idx_0 t
  unfold iblk
  rw [View.read_apply]
  show V c main_arg3 _ = V c main_arg3 _
  congr 1
  funext a
  apply Fin.ext
  match a with
  | ⟨0, _⟩ => show win2_0.index t (0 : Fin 2) * 1024 + 1 * r.val = P.val; rw [e0, hP]; omega
  | ⟨1, _⟩ => show win2_0.index t (1 : Fin 2) * 2048 + 1 * k.val = K.val; rw [e1, hK]; omega

/-- The right operand's block at `(k, f)`: the array at row `(t % 4) · 2048 + k`, column `f`. -/
theorem iblk_1_apply (c : Dev nD) (t : Fin cfg2.N) (k : Fin 2048) (f : Fin 64) (K : Fin 8192)
    (hK : K.val = t.val % 4 * 2048 + k.val) :
    (iblk V c 1 t : Vec F S2048x64 .f32) (ix2 k f) = V c main_arg0 (ix2 K f) := by
  obtain ⟨e0, e1⟩ := idx_1 t
  unfold iblk
  rw [View.read_apply]
  show V c main_arg0 _ = V c main_arg0 _
  congr 1
  funext a
  apply Fin.ext
  match a with
  | ⟨0, _⟩ => show win2_1.index t (0 : Fin 2) * 2048 + 1 * k.val = K.val; rw [e0, hK]; omega
  | ⟨1, _⟩ => show win2_1.index t (1 : Fin 2) * 64 + 1 * f.val = f.val; rw [e1]; omega

/-- The second summand's block at `(r, f)`: the array at row `(t / 4) · 1024 + r`, column `f`. -/
theorem iblk_2_apply (c : Dev nD) (t : Fin cfg2.N) (r : Fin 1024) (f : Fin 64) (P : Fin 8192)
    (hP : P.val = t.val / 4 * 1024 + r.val) :
    (iblk V c 2 t : Vec F S1024x64 .f32) (ix2 r f) = V c main_v32 (ix2 P f) := by
  obtain ⟨e0, e1⟩ := idx_2 t
  unfold iblk
  rw [View.read_apply]
  show V c main_v32 _ = V c main_v32 _
  congr 1
  funext a
  apply Fin.ext
  match a with
  | ⟨0, _⟩ => show win2_2.index t (0 : Fin 2) * 1024 + 1 * r.val = P.val; rw [e0, hP]; omega
  | ⟨1, _⟩ => show win2_2.index t (1 : Fin 2) * 64 + 1 * f.val = f.val; rw [e1]; omega

/-- The first weight's window holds the whole [32, 64] array. -/
theorem iblk_3_apply (c : Dev nD) (t : Fin cfg2.N) (j : Fin 32) (f : Fin 64) :
    (iblk V c 3 t : Vec F S32x64 .f32) (ix2 j f) = V c main_arg10 (ix2 j f) := by
  obtain ⟨e0, e1⟩ := idx_3 t
  unfold iblk
  rw [View.read_apply]
  show V c main_arg10 _ = V c main_arg10 _
  congr 1
  funext a
  apply Fin.ext
  match a with
  | ⟨0, _⟩ => show win2_3.index t (0 : Fin 2) * 32 + 1 * j.val = j.val; rw [e0]; omega
  | ⟨1, _⟩ => show win2_3.index t (1 : Fin 2) * 64 + 1 * f.val = f.val; rw [e1]; omega

/-- The first bias row's window holds the whole [1, 32] array. -/
theorem iblk_4_apply (c : Dev nD) (t : Fin cfg2.N) (z : Fin 1) (j : Fin 32) :
    (iblk V c 4 t : Vec F S1x32 .f32) (ix2 z j) = V c main_v2 (ix2 z j) := by
  obtain ⟨e0, e1⟩ := idx_4 t
  unfold iblk
  rw [View.read_apply]
  show V c main_v2 _ = V c main_v2 _
  congr 1
  funext a
  apply Fin.ext
  match a with
  | ⟨0, _⟩ => show win2_4.index t (0 : Fin 2) * 1 + 1 * z.val = z.val; rw [e0]; omega
  | ⟨1, _⟩ => show win2_4.index t (1 : Fin 2) * 32 + 1 * j.val = j.val; rw [e1]; omega

/-- The second weight's window holds the whole [32, 64] array. -/
theorem iblk_5_apply (c : Dev nD) (t : Fin cfg2.N) (j : Fin 32) (f : Fin 64) :
    (iblk V c 5 t : Vec F S32x64 .f32) (ix2 j f) = V c main_arg14 (ix2 j f) := by
  obtain ⟨e0, e1⟩ := idx_5 t
  unfold iblk
  rw [View.read_apply]
  show V c main_arg14 _ = V c main_arg14 _
  congr 1
  funext a
  apply Fin.ext
  match a with
  | ⟨0, _⟩ => show win2_5.index t (0 : Fin 2) * 32 + 1 * j.val = j.val; rw [e0]; omega
  | ⟨1, _⟩ => show win2_5.index t (1 : Fin 2) * 64 + 1 * f.val = f.val; rw [e1]; omega

/-- The second bias row's window holds the whole [1, 32] array. -/
theorem iblk_6_apply (c : Dev nD) (t : Fin cfg2.N) (z : Fin 1) (j : Fin 32) :
    (iblk V c 6 t : Vec F S1x32 .f32) (ix2 z j) = V c main_v4 (ix2 z j) := by
  obtain ⟨e0, e1⟩ := idx_6 t
  unfold iblk
  rw [View.read_apply]
  show V c main_v4 _ = V c main_v4 _
  congr 1
  funext a
  apply Fin.ext
  match a with
  | ⟨0, _⟩ => show win2_6.index t (0 : Fin 2) * 1 + 1 * z.val = z.val; rw [e0]; omega
  | ⟨1, _⟩ => show win2_6.index t (1 : Fin 2) * 32 + 1 * j.val = j.val; rw [e1]; omega

/-- The third weight's window holds the whole [32, 64] array. -/
theorem iblk_7_apply (c : Dev nD) (t : Fin cfg2.N) (j : Fin 32) (f : Fin 64) :
    (iblk V c 7 t : Vec F S32x64 .f32) (ix2 j f) = V c main_arg12 (ix2 j f) := by
  obtain ⟨e0, e1⟩ := idx_7 t
  unfold iblk
  rw [View.read_apply]
  show V c main_arg12 _ = V c main_arg12 _
  congr 1
  funext a
  apply Fin.ext
  match a with
  | ⟨0, _⟩ => show win2_7.index t (0 : Fin 2) * 32 + 1 * j.val = j.val; rw [e0]; omega
  | ⟨1, _⟩ => show win2_7.index t (1 : Fin 2) * 64 + 1 * f.val = f.val; rw [e1]; omega

/-- The third bias row's window holds the whole [1, 32] array. -/
theorem iblk_8_apply (c : Dev nD) (t : Fin cfg2.N) (z : Fin 1) (j : Fin 32) :
    (iblk V c 8 t : Vec F S1x32 .f32) (ix2 z j) = V c main_v3 (ix2 z j) := by
  obtain ⟨e0, e1⟩ := idx_8 t
  unfold iblk
  rw [View.read_apply]
  show V c main_v3 _ = V c main_v3 _
  congr 1
  funext a
  apply Fin.ext
  match a with
  | ⟨0, _⟩ => show win2_8.index t (0 : Fin 2) * 1 + 1 * z.val = z.val; rw [e0]; omega
  | ⟨1, _⟩ => show win2_8.index t (1 : Fin 2) * 32 + 1 * j.val = j.val; rw [e1]; omega

/-- The fourth weight's window holds the whole [32, 64] array. -/
theorem iblk_9_apply (c : Dev nD) (t : Fin cfg2.N) (j : Fin 32) (f : Fin 64) :
    (iblk V c 9 t : Vec F S32x64 .f32) (ix2 j f) = V c main_arg16 (ix2 j f) := by
  obtain ⟨e0, e1⟩ := idx_9 t
  unfold iblk
  rw [View.read_apply]
  show V c main_arg16 _ = V c main_arg16 _
  congr 1
  funext a
  apply Fin.ext
  match a with
  | ⟨0, _⟩ => show win2_9.index t (0 : Fin 2) * 32 + 1 * j.val = j.val; rw [e0]; omega
  | ⟨1, _⟩ => show win2_9.index t (1 : Fin 2) * 64 + 1 * f.val = f.val; rw [e1]; omega

/-- The fourth bias row's window holds the whole [1, 32] array. -/
theorem iblk_10_apply (c : Dev nD) (t : Fin cfg2.N) (z : Fin 1) (j : Fin 32) :
    (iblk V c 10 t : Vec F S1x32 .f32) (ix2 z j) = V c main_v5 (ix2 z j) := by
  obtain ⟨e0, e1⟩ := idx_10 t
  unfold iblk
  rw [View.read_apply]
  show V c main_v5 _ = V c main_v5 _
  congr 1
  funext a
  apply Fin.ext
  match a with
  | ⟨0, _⟩ => show win2_10.index t (0 : Fin 2) * 1 + 1 * z.val = z.val; rw [e0]; omega
  | ⟨1, _⟩ => show win2_10.index t (1 : Fin 2) * 32 + 1 * j.val = j.val; rw [e1]; omega

/-- The output window's block at `(r, q)` sits in its array at row `(t / 4) · 1024 + r`, column `q`. -/
theorem blk11_emb (t : Fin cfg2.N) (r : Fin 1024) (q : Fin 64) (P : Fin 8192) (hP : P.val = t.val / 4 * 1024 + r.val) :
    ((cfg2.win 11).blk t).view.emb (ix2 r q) = ix2 P q := by
  obtain ⟨e0, e1⟩ := idx_11 t
  funext a
  apply Fin.ext
  match a with
  | ⟨0, _⟩ => show win2_11.index t (0 : Fin 2) * 1024 + 1 * r.val = P.val; rw [e0, hP]; omega
  | ⟨1, _⟩ => show win2_11.index t (1 : Fin 2) * 64 + 1 * q.val = q.val; rw [e1]; omega

/-- An index of the output array is in point `t`'s block iff its row is in the block's range. -/
theorem mem_blk11 (t : Fin cfg2.N) (P : Fin 8192) (q : Fin 64) :
    (ix2 P q : S8192x64.Idx) ∈ ((cfg2.win 11).blk t).view.set ↔ t.val / 4 * 1024 ≤ P.val ∧ P.val < t.val / 4 * 1024 + 1024 := by
  obtain ⟨e0, e1⟩ := idx_11 t
  show (ix2 P q : S8192x64.Idx) ∈ ((View.whole main_v33).slice (win2_11.rect t)).set ↔ _
  rw [View.set_slice_whole, Rect.mem_set_unit]
  constructor
  · intro h
    have h0 : win2_11.index t (0 : Fin 2) * 1024 ≤ P.val ∧ P.val < win2_11.index t (0 : Fin 2) * 1024 + 1024 := h 0
    rw [e0] at h0
    exact h0
  · intro h a
    match a with
    | ⟨0, _⟩ => show win2_11.index t (0 : Fin 2) * 1024 ≤ P.val ∧ P.val < win2_11.index t (0 : Fin 2) * 1024 + 1024; rw [e0]; exact h
    | ⟨1, _⟩ => show win2_11.index t (1 : Fin 2) * 64 ≤ q.val ∧ q.val < win2_11.index t (1 : Fin 2) * 64 + 64; rw [e1]; have := q.isLt; omega

end Cert.KernelIdeal.Reg2

end
-- ==== Proof.PayAtIndexK2.lean ====
/-
  The third kernel's seven payloads read at an index, at the ideal values.

  The third kernel computes `lg_a1 @ y` block by block (the accumulator starts at zero, is the LEFT summand of each
  step) and at the last step combines the accumulated [1024, 64] block `a` with the [1024, 64] block `m` of
  `pm.T @ x` through four linear layers 64 → 32 with their bias rows. The four-term sums are associated as the
  printed term has them: the first half is `((a·gawᵀ + gab) + m·gxwᵀ) + gxb`, the second half is
  `max (((a·garwᵀ + garb) + m·gxrwᵀ) + gxrb) 0`; the two halves are joined along the columns. The two changes of
  float format are the identity.
-/
import proofs.«103437_j49752901157443_2_alg».proof.Proof.Gen.KernelIdeal.Skeleton
import proofs.«103437_j49752901157443_2_alg».proof.Proof.PayAtIndexDots
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayAt

open Cert.KernelIdeal Cert.KernelIdeal.Gen Idealize.ShloMosaic Idealize.ShloMosaic.ValueIdx

/-- The accumulator's first value: zero at every index. -/
theorem k2_pay1_apply (p : Fin 1024) (q : Fin 64) : k2_pay1 (F := Ideal) (ix2 p q) = 0 := by
  unfold k2_pay1
  refine (congrFun (shapeCast_self _ _) (ix2 p q)).trans ?_
  exact Ideal.ofBits_zero_f32

/-- The accumulation step at `(p, q)`: the accumulator (LEFT summand) plus the block product,
    `acc (p, q) + ∑ k : Fin 2048, lg (p, k) * y (k, q)`. -/
theorem k2_pay2_apply (v3 : Vec Ideal S1024x2048 .f32) (v5 : Vec Ideal S2048x64 .f32) (v7 : Vec Ideal S1024x64 .f32)
    (p : Fin 1024) (q : Fin 64) :
    k2_pay2 (F := Ideal) v3 v5 v7 (ix2 p q) = v7 (ix2 p q) + ∑ k : Fin 2048, v3 (ix2 p k) * v5 (ix2 k q) := by
  unfold k2_pay2
  refine (congrFun (shapeCast_self _ _) (ix2 p q)).trans ?_
  refine congrArg (v7 (ix2 p q) + ·) ?_
  exact blockDot_zero_apply _ _ p q

/-- The first change of float format is the identity. -/
theorem k2_pay4_apply (v16 : Vec Ideal S1024x64 .f32) (p : Fin 1024) (q : Fin 64) :
    k2_pay4 (F := Ideal) v16 (ix2 p q) = v16 (ix2 p q) := rfl

/-- The second change of float format (after a cast to the same shape) is the identity. -/
theorem k2_pay5_apply (v18 : Vec Ideal S1024x64 .f32) (p : Fin 1024) (q : Fin 64) :
    k2_pay5 (F := Ideal) v18 (ix2 p q) = v18 (ix2 p q) := by
  unfold k2_pay5
  exact congrFun (shapeCast_self v18 _) (ix2 p q)

/-- A linear layer of the accumulated block through the first format change: `∑ k, a (p, k) * w (j, k)`. -/
theorem k2_linear4_apply (v16 : Vec Ideal S1024x64 .f32) (w : FVec Ideal S32x64 .bf16) (p : Fin 1024) (j : Fin 32) :
    matmul (F := Ideal) dot_S1024x64_S64x32_S1024x32_1_0_0_1_n_n none (k2_pay4 (F := Ideal) v16) (transpose S64x32 [1, 0] w transposes_S32x64_p1_0_S64x32)
        (constant (F := Ideal) S1024x32 .f32 0x00000000#32) (ix2 p j)
      = ∑ k : Fin 64, v16 (ix2 p k) * w (ix2 j k) :=
  linear_apply (k2_pay4 (F := Ideal) v16) w p j

/-- A linear layer of the second block through the second format change: `∑ k, m (p, k) * w (j, k)`. -/
theorem k2_linear5_apply (v18 : Vec Ideal S1024x64 .f32) (w : FVec Ideal S32x64 .bf16) (p : Fin 1024) (j : Fin 32) :
    matmul (F := Ideal) dot_S1024x64_S64x32_S1024x32_1_0_0_1_n_n none (k2_pay5 (F := Ideal) v18) (transpose S64x32 [1, 0] w transposes_S32x64_p1_0_S64x32)
        (constant (F := Ideal) S1024x32 .f32 0x00000000#32) (ix2 p j)
      = ∑ k : Fin 64, v18 (ix2 p k) * w (ix2 j k) := by
  refine (linear_apply (k2_pay5 (F := Ideal) v18) w p j).trans ?_
  exact Finset.sum_congr rfl fun k _ => congrArg (· * w (ix2 j k)) (k2_pay5_apply v18 p k)

/-- The first half before the join, at `(p, j)`:
    `(((∑ k, a (p, k) * gaw (j, k)) + gab (0, j)) + ∑ k, m (p, k) * gxw (j, k)) + gxb (0, j)`. -/
theorem k2_pay6_apply (v16 v18 : Vec Ideal S1024x64 .f32) (v21 v25 : Vec Ideal S32x64 .f32) (v31 v38 : Vec Ideal S1x32 .f32)
    (p : Fin 1024) (j : Fin 32) :
    k2_pay6 (F := Ideal) v16 v18 v21 v25 v31 v38 (ix2 p j)
      = (((∑ k : Fin 64, v16 (ix2 p k) * v21 (ix2 j k)) + v31 (ix2 (0 : Fin 1) j))
          + ∑ k : Fin 64, v18 (ix2 p k) * v25 (ix2 j k)) + v38 (ix2 (0 : Fin 1) j) := by
  unfold k2_pay6
  refine congrArg₂ (· + ·) ?_ (biasRow_apply v38 p j)
  refine congrArg₂ (· + ·) ?_ (k2_linear5_apply v18 _ p j)
  exact congrArg₂ (· + ·) (k2_linear4_apply v16 _ p j) (biasRow_apply v31 p j)

/-- The second half before its last bias, at `(p, j)`:
    `((∑ k, a (p, k) * garw (j, k)) + garb (0, j)) + ∑ k, m (p, k) * gxrw (j, k)`. -/
theorem k2_pay7_apply (v16 v18 : Vec Ideal S1024x64 .f32) (v23 v27 : Vec Ideal S32x64 .f32) (v44 : Vec Ideal S1x32 .f32)
    (p : Fin 1024) (j : Fin 32) :
    k2_pay7 (F := Ideal) v16 v18 v23 v27 v44 (ix2 p j)
      = ((∑ k : Fin 64, v16 (ix2 p k) * v23 (ix2 j k)) + v44 (ix2 (0 : Fin 1) j))
          + ∑ k : Fin 64, v18 (ix2 p k) * v27 (ix2 j k) := by
  unfold k2_pay7
  refine congrArg₂ (· + ·) ?_ (k2_linear5_apply v18 _ p j)
  exact congrArg₂ (· + ·) (k2_linear4_apply v16 _ p j) (biasRow_apply v44 p j)

/-- The stored result at a column below 32: the first half at that column. -/
theorem k2_pay3_apply_left (v41 v50 : FVec Ideal S1024x32 .f32) (v51 : Vec Ideal S1x32 .f32)
    (p : Fin 1024) (q : Fin 64) (hq : q.val < 32) :
    k2_pay3 (F := Ideal) v41 v50 v51 (ix2 p q) = v41 (ix2 p (⟨q.val, hq⟩ : Fin 32)) := by
  unfold k2_pay3
  exact concat_left_apply _ _ p q hq

/-- The stored result at a column from 32 on: the second half plus its last bias, then the maximum with zero,
    `max (s (p, q - 32) + gxrb (0, q - 32)) 0`. -/
theorem k2_pay3_apply_right (v41 v50 : FVec Ideal S1024x32 .f32) (v51 : Vec Ideal S1x32 .f32)
    (p : Fin 1024) (q : Fin 64) (hq : 32 ≤ q.val) :
    k2_pay3 (F := Ideal) v41 v50 v51 (ix2 p q)
      = max (v50 (ix2 p (⟨q.val - 32, by have := q.isLt; omega⟩ : Fin 32))
          + v51 (ix2 (0 : Fin 1) (⟨q.val - 32, by have := q.isLt; omega⟩ : Fin 32))) 0 := by
  unfold k2_pay3
  refine (concat_right_apply _ _ p q hq).trans ?_
  refine (maximumf_apply _ _ _).trans ?_
  refine congrArg₂ max ?_ Ideal.ofBits_zero_f32
  exact congrArg (v50 _ + ·) (biasRow_apply v51 p _)

/-- The whole epilogue at a column below 32, from the loads:
    `(((∑ k, a (p, k) * gaw (q, k)) + gab (0, q)) + ∑ k, m (p, k) * gxw (q, k)) + gxb (0, q)`. -/
theorem k2_epilogue_apply_left (v16 v18 : Vec Ideal S1024x64 .f32) (v21 v25 v23 v27 : Vec Ideal S32x64 .f32)
    (v31 v38 v44 v51 : Vec Ideal S1x32 .f32) (p : Fin 1024) (q : Fin 64) (hq : q.val < 32) :
    k2_pay3 (F := Ideal) (k2_pay6 (F := Ideal) v16 v18 v21 v25 v31 v38) (k2_pay7 (F := Ideal) v16 v18 v23 v27 v44) v51 (ix2 p q)
      = (((∑ k : Fin 64, v16 (ix2 p k) * v21 (ix2 (⟨q.val, hq⟩ : Fin 32) k)) + v31 (ix2 (0 : Fin 1) (⟨q.val, hq⟩ : Fin 32)))
          + ∑ k : Fin 64, v18 (ix2 p k) * v25 (ix2 (⟨q.val, hq⟩ : Fin 32) k)) + v38 (ix2 (0 : Fin 1) (⟨q.val, hq⟩ : Fin 32)) :=
  (k2_pay3_apply_left _ _ v51 p q hq).trans (k2_pay6_apply v16 v18 v21 v25 v31 v38 p _)

/-- The whole epilogue at a column from 32 on, from the loads:
    `max ((((∑ k, a (p, k) * garw (q - 32, k)) + garb (0, q - 32)) + ∑ k, m (p, k) * gxrw (q - 32, k)) + gxrb (0, q - 32)) 0`. -/
theorem k2_epilogue_apply_right (v16 v18 : Vec Ideal S1024x64 .f32) (v21 v25 v23 v27 : Vec Ideal S32x64 .f32)
    (v31 v38 v44 v51 : Vec Ideal S1x32 .f32) (p : Fin 1024) (q : Fin 64) (hq : 32 ≤ q.val) :
    k2_pay3 (F := Ideal) (k2_pay6 (F := Ideal) v16 v18 v21 v25 v31 v38) (k2_pay7 (F := Ideal) v16 v18 v23 v27 v44) v51 (ix2 p q)
      = max ((((∑ k : Fin 64, v16 (ix2 p k) * v23 (ix2 (⟨q.val - 32, by have := q.isLt; omega⟩ : Fin 32) k))
            + v44 (ix2 (0 : Fin 1) (⟨q.val - 32, by have := q.isLt; omega⟩ : Fin 32)))
          + ∑ k : Fin 64, v18 (ix2 p k) * v27 (ix2 (⟨q.val - 32, by have := q.isLt; omega⟩ : Fin 32) k))
          + v51 (ix2 (0 : Fin 1) (⟨q.val - 32, by have := q.isLt; omega⟩ : Fin 32))) 0 := by
  refine (k2_pay3_apply_right _ _ v51 p q hq).trans ?_
  exact congrArg (fun t => max (t + v51 (ix2 (0 : Fin 1) (⟨q.val - 32, by have := q.isLt; omega⟩ : Fin 32))) 0)
    (k2_pay7_apply v16 v18 v23 v27 v44 p _)

end Cert.KernelIdeal.PayAt
-- ==== Proof.R2ValueFinal.lean ====
/-
  The value of the third pallas_call at the ideal values: what its result array holds after the region, as one
  function of the arrays the region finds, index by index.

  Write `a(e, f) = ∑ k : Fin 8192, lg(e, k) * y(k, f)` and `m` for the second summand's array. At row `e` and column
  `q < 32` the result is `(((∑ f, a(e, f) * w₁(q, f)) + b₁(q)) + ∑ f, m(e, f) * w₃(q, f)) + b₃(q)`; at a column `32 ≤ q`,
  with `j = q − 32`, it is `max ((((∑ f, a(e, f) * w₂(j, f)) + b₂(j)) + ∑ f, m(e, f) * w₄(j, f)) + b₄(j)) 0`. The kernel
  accumulates `a(e, f)` as `(((0 + S₀) + S₁) + S₂) + S₃` over the four blocks of 2048 of the contracted axis, which
  over the extended reals is the sum over all 8192 (a sum over consecutive blocks is the sum over the whole range;
  `0 + s = s`). Row `e` is written back by the one point whose output row-block holds it and which meets the last
  contracted block.
-/
import proofs.«103437_j49752901157443_2_alg».proof.Proof.Gen.KernelIdeal.Launch
import proofs.«103437_j49752901157443_2_alg».proof.Proof.Gen.KernelIdeal.Skeleton
import proofs.«103437_j49752901157443_2_alg».proof.Proof.Gen.KernelIdeal.Points
import proofs.«103437_j49752901157443_2_alg».proof.Proof.R2ValueChain
import proofs.«103437_j49752901157443_2_alg».proof.Proof.R2ValueBlocks
import proofs.«103437_j49752901157443_2_alg».proof.Proof.PayAtIndexK2
import proofs.«103437_j49752901157443_2_alg».proof.Proof.LibBlockedSum
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.PayAt

variable (V : (c : Dev nD) → (b : Ref sig .tc) → Buf (Elt Ideal) ((c : Thread nD τ).loc b))

/-! ## The arrays the region finds, and the blocks, as arrays of extended reals -/

/-- `lg_a1` as the region finds it. -/
abbrev lgA (c : Dev nD) : S8192x8192.Idx → EReal := V c main_arg3
/-- `y` as the region finds it. -/
abbrev yA (c : Dev nD) : S8192x64.Idx → EReal := V c main_arg0
/-- `pm_x` (the second pallas_call's result) as the region finds it. -/
abbrev pmxA (c : Dev nD) : S8192x64.Idx → EReal := V c main_v32
/-- `gamma_a`'s weight as the region finds it. -/
abbrev gawA (c : Dev nD) : S32x64.Idx → EReal := V c main_arg10
/-- its bias row as the region finds it. -/
abbrev gabA (c : Dev nD) : S1x32.Idx → EReal := V c main_v2
/-- `gamma_a_r`'s weight as the region finds it. -/
abbrev garwA (c : Dev nD) : S32x64.Idx → EReal := V c main_arg14
/-- its bias row as the region finds it. -/
abbrev garbA (c : Dev nD) : S1x32.Idx → EReal := V c main_v4
/-- `gamma_x`'s weight as the region finds it. -/
abbrev gxwA (c : Dev nD) : S32x64.Idx → EReal := V c main_arg12
/-- its bias row as the region finds it. -/
abbrev gxbA (c : Dev nD) : S1x32.Idx → EReal := V c main_v3
/-- `gamma_x_r`'s weight as the region finds it. -/
abbrev gxrwA (c : Dev nD) : S32x64.Idx → EReal := V c main_arg16
/-- its bias row as the region finds it. -/
abbrev gxrbA (c : Dev nD) : S1x32.Idx → EReal := V c main_v5
/-- The result array after the region. -/
abbrev result (c : Dev nD) : S8192x64.Idx → EReal := (dat (F := Ideal) V c).arrAt 11 cfg2.N

/-! The eleven input windows' blocks at a point, and each read as its array. -/
abbrev B0 (c : Dev nD) (s : Fin cfg2.N) : S1024x2048.Idx → EReal := iblk V c 0 s
abbrev B1 (c : Dev nD) (s : Fin cfg2.N) : S2048x64.Idx → EReal := iblk V c 1 s
abbrev B2 (c : Dev nD) (s : Fin cfg2.N) : S1024x64.Idx → EReal := iblk V c 2 s
abbrev B3 (c : Dev nD) (s : Fin cfg2.N) : S32x64.Idx → EReal := iblk V c 3 s
abbrev B4 (c : Dev nD) (s : Fin cfg2.N) : S1x32.Idx → EReal := iblk V c 4 s
abbrev B5 (c : Dev nD) (s : Fin cfg2.N) : S32x64.Idx → EReal := iblk V c 5 s
abbrev B6 (c : Dev nD) (s : Fin cfg2.N) : S1x32.Idx → EReal := iblk V c 6 s
abbrev B7 (c : Dev nD) (s : Fin cfg2.N) : S32x64.Idx → EReal := iblk V c 7 s
abbrev B8 (c : Dev nD) (s : Fin cfg2.N) : S1x32.Idx → EReal := iblk V c 8 s
abbrev B9 (c : Dev nD) (s : Fin cfg2.N) : S32x64.Idx → EReal := iblk V c 9 s
abbrev B10 (c : Dev nD) (s : Fin cfg2.N) : S1x32.Idx → EReal := iblk V c 10 s

theorem B0_apply (c : Dev nD) (s : Fin cfg2.N) (r : Fin 1024) (k : Fin 2048) (P : Fin 8192) (K : Fin 8192) (hP : P.val = s.val / 4 * 1024 + r.val) (hK : K.val = s.val % 4 * 2048 + k.val) :
    B0 V c s (ix2 r k) = lgA V c (ix2 P K) := iblk_0_apply V c s r k P K hP hK
theorem B1_apply (c : Dev nD) (s : Fin cfg2.N) (k : Fin 2048) (f : Fin 64) (K : Fin 8192) (hK : K.val = s.val % 4 * 2048 + k.val) :
    B1 V c s (ix2 k f) = yA V c (ix2 K f) := iblk_1_apply V c s k f K hK
theorem B2_apply (c : Dev nD) (s : Fin cfg2.N) (r : Fin 1024) (f : Fin 64) (P : Fin 8192) (hP : P.val = s.val / 4 * 1024 + r.val) :
    B2 V c s (ix2 r f) = pmxA V c (ix2 P f) := iblk_2_apply V c s r f P hP
theorem B3_apply (c : Dev nD) (s : Fin cfg2.N) (j : Fin 32) (f : Fin 64) :
    B3 V c s (ix2 j f) = gawA V c (ix2 j f) := iblk_3_apply V c s j f
theorem B4_apply (c : Dev nD) (s : Fin cfg2.N) (z : Fin 1) (j : Fin 32) :
    B4 V c s (ix2 z j) = gabA V c (ix2 z j) := iblk_4_apply V c s z j
theorem B5_apply (c : Dev nD) (s : Fin cfg2.N) (j : Fin 32) (f : Fin 64) :
    B5 V c s (ix2 j f) = garwA V c (ix2 j f) := iblk_5_apply V c s j f
theorem B6_apply (c : Dev nD) (s : Fin cfg2.N) (z : Fin 1) (j : Fin 32) :
    B6 V c s (ix2 z j) = garbA V c (ix2 z j) := iblk_6_apply V c s z j
theorem B7_apply (c : Dev nD) (s : Fin cfg2.N) (j : Fin 32) (f : Fin 64) :
    B7 V c s (ix2 j f) = gxwA V c (ix2 j f) := iblk_7_apply V c s j f
theorem B8_apply (c : Dev nD) (s : Fin cfg2.N) (z : Fin 1) (j : Fin 32) :
    B8 V c s (ix2 z j) = gxbA V c (ix2 z j) := iblk_8_apply V c s z j
theorem B9_apply (c : Dev nD) (s : Fin cfg2.N) (j : Fin 32) (f : Fin 64) :
    B9 V c s (ix2 j f) = gxrwA V c (ix2 j f) := iblk_9_apply V c s j f
theorem B10_apply (c : Dev nD) (s : Fin cfg2.N) (z : Fin 1) (j : Fin 32) :
    B10 V c s (ix2 z j) = gxrbA V c (ix2 z j) := iblk_10_apply V c s z j

/-! ## The accumulated product -/

/-- One term of `a(e, f)`: the contracted position `K`. -/
def term (c : Dev nD) (e : Fin 8192) (f : Fin 64) (K : Fin 8192) : EReal :=
  lgA V c (ix2 e K) * yA V c (ix2 K f)

/-- The block product of point `s`, whose contracted block is `b`, is the sum of the terms of that block. -/
theorem blockSum_eq (c : Dev nD) (s : Fin cfg2.N) (b : Fin 4) (hb : s.val % 4 = b.val) (r : Fin 1024) (f : Fin 64)
    (e : Fin 8192) (he : e.val = s.val / 4 * 1024 + r.val) :
    (∑ k : Fin 2048, B0 V c s (ix2 r k) * B1 V c s (ix2 k f))
      = ∑ j : Fin 2048, term V c e f ⟨b.val * 2048 + j.val, by have := b.isLt; have := j.isLt; omega⟩ := by
  refine Finset.sum_congr rfl fun k _ => ?_
  exact congrArg₂ (fun x y : EReal => x * y)
    (B0_apply V c s r k e ⟨b.val * 2048 + k.val, by have := b.isLt; have := k.isLt; omega⟩ he (by rw [hb]))
    (B1_apply V c s k f ⟨b.val * 2048 + k.val, by have := b.isLt; have := k.isLt; omega⟩ (by rw [hb]))

/-- The four nested accumulation steps of a last point, read at `(r, f)`: the whole sum over the contracted axis. -/
theorem acc4_apply (c : Dev nD) (t : Fin cfg2.N) (h3 : t.val % 4 = 3) (r : Fin 1024) (f : Fin 64)
    (e : Fin 8192) (he : e.val = t.val / 4 * 1024 + r.val) :
    acc4 (F := Ideal) V c t (ix2 r f) = ∑ K : Fin 8192, term V c e f K := by
  unfold acc4
  have e3 := blockSum_eq V c t (3 : Fin 4) h3 r f e he
  have e2 := blockSum_eq V c (prev t) (2 : Fin 4) (by show (t.val - 1) % 4 = 2; omega) r f e
    (by show e.val = (t.val - 1) / 4 * 1024 + r.val; omega)
  have e1 := blockSum_eq V c (prev (prev t)) (1 : Fin 4) (by show (t.val - 1 - 1) % 4 = 1; omega) r f e
    (by show e.val = (t.val - 1 - 1) / 4 * 1024 + r.val; omega)
  have e0 := blockSum_eq V c (prev (prev (prev t))) (0 : Fin 4) (by show (t.val - 1 - 1 - 1) % 4 = 0; omega) r f e
    (by show e.val = (t.val - 1 - 1 - 1) / 4 * 1024 + r.val; omega)
  have a0 := (k2_pay2_apply (B0 V c (prev (prev (prev t)))) (B1 V c (prev (prev (prev t)))) (k2_pay1 (F := Ideal)) r f).trans
    (congrArg₂ (fun x y : EReal => x + y) (k2_pay1_apply r f) e0)
  have a1 := (k2_pay2_apply (B0 V c (prev (prev t))) (B1 V c (prev (prev t))) _ r f).trans
    (congrArg₂ (fun x y : EReal => x + y) a0 e1)
  have a2 := (k2_pay2_apply (B0 V c (prev t)) (B1 V c (prev t)) _ r f).trans
    (congrArg₂ (fun x y : EReal => x + y) a1 e2)
  have a3 := (k2_pay2_apply (B0 V c t) (B1 V c t) _ r f).trans
    (congrArg₂ (fun x y : EReal => x + y) a2 e3)
  refine a3.trans ?_
  rw [← BlockedSum.sum_blocks_4_2048 (term V c e f), Fin.sum_univ_four, zero_add]

/-! ## The value -/

/-- The value at row `e`, column `q`. -/
def valueAt (c : Dev nD) (e : Fin 8192) (q : Fin 64) : EReal :=
  if h : q.val < 32 then
    (((∑ f : Fin 64, (∑ k : Fin 8192, lgA V c (ix2 e k) * yA V c (ix2 k f)) * gawA V c (ix2 (⟨q.val, h⟩ : Fin 32) f)) + gabA V c (ix2 (0 : Fin 1) (⟨q.val, h⟩ : Fin 32)))
          + ∑ f : Fin 64, pmxA V c (ix2 e f) * gxwA V c (ix2 (⟨q.val, h⟩ : Fin 32) f)) + gxbA V c (ix2 (0 : Fin 1) (⟨q.val, h⟩ : Fin 32))
  else
    max ((((∑ f : Fin 64, (∑ k : Fin 8192, lgA V c (ix2 e k) * yA V c (ix2 k f)) * garwA V c (ix2 (⟨q.val - 32, by have := q.isLt; omega⟩ : Fin 32) f)) + garbA V c (ix2 (0 : Fin 1) (⟨q.val - 32, by have := q.isLt; omega⟩ : Fin 32)))
          + ∑ f : Fin 64, pmxA V c (ix2 e f) * gxrwA V c (ix2 (⟨q.val - 32, by have := q.isLt; omega⟩ : Fin 32) f)) + gxrbA V c (ix2 (0 : Fin 1) (⟨q.val - 32, by have := q.isLt; omega⟩ : Fin 32))) 0

/-- The array of those values. -/
def value (c : Dev nD) : S8192x64.Idx → EReal :=
  fun i => valueAt V c (⟨(i 0).val, idx2_lt0 i⟩ : Fin 8192) (⟨(i 1).val, idx2_lt1 i⟩ : Fin 64)

theorem value_apply (c : Dev nD) (e : Fin 8192) (q : Fin 64) : value V c (ix2 e q) = valueAt V c e q := rfl

/-- What a last point leaves in the output block's staging buffer, at `(r, q)`: the value at the block's row. -/
theorem out_last_apply (c : Dev nD) (t : Fin cfg2.N) (h3 : t.val % 4 = 3) (r : Fin 1024) (q : Fin 64)
    (e : Fin 8192) (he : e.val = t.val / 4 * 1024 + r.val) :
    ((outsAt V c t.val t.isLt).1 : FVec Ideal S1024x64 .f32) (ix2 r q) = valueAt V c e q := by
  rw [out_last_closed V c t h3]
  unfold valueAt
  by_cases h : q.val < 32
  · rw [dif_pos h]
    refine (k2_epilogue_apply_left (acc4 V c t) (B2 V c t) (B3 V c t) (B7 V c t) (B5 V c t) (B9 V c t) (B4 V c t) (B8 V c t) (B6 V c t) (B10 V c t) r q h).trans ?_
    refine congrArg₂ (fun x y : EReal => x + y) (congrArg₂ (fun x y : EReal => x + y) (congrArg₂ (fun x y : EReal => x + y) ?_ (B4_apply V c t 0 _)) ?_) (B8_apply V c t 0 _)
    · exact Finset.sum_congr rfl fun f _ => congrArg₂ (fun x y : EReal => x * y) (acc4_apply V c t h3 r f e he) (B3_apply V c t _ f)
    · exact Finset.sum_congr rfl fun f _ => congrArg₂ (fun x y : EReal => x * y) (B2_apply V c t r f e he) (B7_apply V c t _ f)
  · rw [dif_neg h]
    refine (k2_epilogue_apply_right (acc4 V c t) (B2 V c t) (B3 V c t) (B7 V c t) (B5 V c t) (B9 V c t) (B4 V c t) (B8 V c t) (B6 V c t) (B10 V c t) r q (Nat.le_of_not_lt h)).trans ?_
    refine congrArg (fun x : EReal => max x 0) ?_
    refine congrArg₂ (fun x y : EReal => x + y) (congrArg₂ (fun x y : EReal => x + y) (congrArg₂ (fun x y : EReal => x + y) ?_ (B6_apply V c t 0 _)) ?_) (B10_apply V c t 0 _)
    · exact Finset.sum_congr rfl fun f _ => congrArg₂ (fun x y : EReal => x * y) (acc4_apply V c t h3 r f e he) (B5_apply V c t _ f)
    · exact Finset.sum_congr rfl fun f _ => congrArg₂ (fun x y : EReal => x * y) (B2_apply V c t r f e he) (B9_apply V c t _ f)

/-- What every writing point writes back is its block of the value array. -/
theorem flushed_eq (c : Dev nD) (t : Fin cfg2.N) (hf : (cfg2.win 11).flush t = true) :
    (dat (F := Ideal) V c).flushed 11 t = ((cfg2.win 11).blk t).view.read (Elt Ideal) (value V c) := by
  have h3 : t.val % 4 = 3 := (flush2_11 t).mp hf
  have hN : cfg2.N = 32 := N_2
  show (cfg2.win 11).cut (grid2.coords t) ((dat (F := Ideal) V c).after 11 t) = _
  rw [after_11]
  refine funext fun (j : S1024x64.Idx) => ?_
  obtain ⟨r, q, rfl⟩ : ∃ (r : Fin 1024) (q : Fin 64), j = ix2 r q := ⟨j 0, j 1, eq_ix2 j⟩
  have he : (⟨t.val / 4 * 1024 + r.val, by have := t.isLt; have := r.isLt; omega⟩ : Fin 8192).val = t.val / 4 * 1024 + r.val := rfl
  rw [View.read_apply, blk11_emb t r q _ he]
  exact out_last_apply V c t h3 r q _ he

/-- Every row of the result array is in the block of the point that meets its row-block and the last contracted block. -/
theorem covered (e : Fin 8192) (q : Fin 64) :
    ∃ t : Fin cfg2.N, (cfg2.win 11).flush t = true ∧ (ix2 e q : S8192x64.Idx) ∈ ((cfg2.win 11).blk t).view.set := by
  have hN : cfg2.N = 32 := N_2
  have ht : e.val / 1024 * 4 + 3 < cfg2.N := by have := e.isLt; omega
  refine ⟨⟨e.val / 1024 * 4 + 3, ht⟩, (flush2_11 _).mpr (by show (e.val / 1024 * 4 + 3) % 4 = 3; omega), ?_⟩
  refine (mem_blk11 ⟨e.val / 1024 * 4 + 3, ht⟩ e q).mpr ?_
  show (e.val / 1024 * 4 + 3) / 4 * 1024 ≤ e.val ∧ e.val < (e.val / 1024 * 4 + 3) / 4 * 1024 + 1024
  omega

/-- THE RESULT ARRAY after the region is the value array. -/
theorem final_eq (c : Dev nD) : (dat (F := Ideal) V c).arrAt 11 cfg2.N = value V c :=
  (dat (F := Ideal) V c).arrAt_eq_of_cover 11 (value V c) (flushed_eq V c) fun (i : S8192x64.Idx) => by
    obtain ⟨e, q, rfl⟩ : ∃ (e : Fin 8192) (q : Fin 64), i = ix2 e q := ⟨i 0, i 1, eq_ix2 i⟩
    exact covered e q

/-- THE RESULT ARRAY after the region, at row `e` and column `q`. -/
theorem final_apply (c : Dev nD) (e : Fin 8192) (q : Fin 64) :
    result V c (ix2 e q) =
      if h : q.val < 32 then
        (((∑ f : Fin 64, (∑ k : Fin 8192, lgA V c (ix2 e k) * yA V c (ix2 k f)) * gawA V c (ix2 (⟨q.val, h⟩ : Fin 32) f)) + gabA V c (ix2 (0 : Fin 1) (⟨q.val, h⟩ : Fin 32)))
          + ∑ f : Fin 64, pmxA V c (ix2 e f) * gxwA V c (ix2 (⟨q.val, h⟩ : Fin 32) f)) + gxbA V c (ix2 (0 : Fin 1) (⟨q.val, h⟩ : Fin 32))
      else
        max ((((∑ f : Fin 64, (∑ k : Fin 8192, lgA V c (ix2 e k) * yA V c (ix2 k f)) * garwA V c (ix2 (⟨q.val - 32, by have := q.isLt; omega⟩ : Fin 32) f)) + garbA V c (ix2 (0 : Fin 1) (⟨q.val - 32, by have := q.isLt; omega⟩ : Fin 32)))
          + ∑ f : Fin 64, pmxA V c (ix2 e f) * gxrwA V c (ix2 (⟨q.val - 32, by have := q.isLt; omega⟩ : Fin 32) f)) + gxrbA V c (ix2 (0 : Fin 1) (⟨q.val - 32, by have := q.isLt; omega⟩ : Fin 32))) 0 :=
  congrFun (final_eq V c) (ix2 e q)

end Cert.KernelIdeal.Reg2

end
-- ==== Proof.KBridge2.lean ====
/-
  The third pallas_call's output array is the specification's yPre of lg · y, of the second pallas_call's output
  and of the eight weights and biases.

  That array was read index by index in the kernel's association of the four summands, ((A + a) + B) + b, where
  A = (lg · y) · gawᵀ, a its bias, B = pmX · gxwᵀ, b its bias (and likewise for the rectified half). The
  specification has (A + a) + (B + b). Addition of extended reals is associative, so the two agree; that is the
  only algebra used.
-/
import proofs.«103437_j49752901157443_2_alg».proof.Proof.R2ValueFinal
import proofs.«103437_j49752901157443_2_alg».proof.Proof.RefStagesSpec
import Idealize.ShloMosaic.Lib.ValueIdx

noncomputable section

open scoped BigOperators

namespace Cert.KernelIdeal.Bridge

open Cert.KernelIdeal Cert.KernelIdeal.Gen
open Idealize.ShloMosaic Idealize.ShloMosaic.TcCoe Idealize.SL.Sem
open Idealize.ShloMosaic.ValueIdx Cert.RefStages

variable (V : (c : Dev nD) → (b : Ref sig .tc) → Buf (Elt Ideal) ((c : Thread nD τ).loc b))

/-- The third region's value is yPre of lg · y and its other operands, the bias rows read as the vectors they were
    reshaped from. -/
theorem value2_eq_yPre (c : Dev nD) (gab gxb garb gxrb : Arr (Sh1 32))
    (h2 : ∀ j : Fin 32, V c main_v2 (ix2 (0 : Fin 1) j) = gab (ix1 j))
    (h3 : ∀ j : Fin 32, V c main_v3 (ix2 (0 : Fin 1) j) = gxb (ix1 j))
    (h4 : ∀ j : Fin 32, V c main_v4 (ix2 (0 : Fin 1) j) = garb (ix1 j))
    (h5 : ∀ j : Fin 32, V c main_v5 (ix2 (0 : Fin 1) j) = gxrb (ix1 j)) :
    Reg2.value V c = yPre (lgY (V c main_arg3) (V c main_arg0)) (V c main_v32) (V c main_arg10) gab (V c main_arg12) gxb
      (V c main_arg14) garb (V c main_arg16) gxrb := by
  funext i
  obtain ⟨e, q, rfl⟩ : ∃ (e : Fin 8192) (q : Fin 64), i = ix2 e q := ⟨i 0, i 1, eq_ix2 i⟩
  rw [Reg2.value_apply, yPre_apply]
  unfold Reg2.valueAt yPreAt
  by_cases h : q.val < 32
  · rw [dif_pos h, dif_pos h, linear64_def, linear64_def]
    simp only [lgY_apply, Reg2.lgA, Reg2.yA, Reg2.pmxA, Reg2.gawA, Reg2.gabA, Reg2.gxwA, Reg2.gxbA]
    rw [h2, h3, add_assoc]
  · rw [dif_neg h, dif_neg h, linear64_def, linear64_def]
    simp only [lgY_apply, Reg2.lgA, Reg2.yA, Reg2.pmxA, Reg2.garwA, Reg2.garbA, Reg2.gxrwA, Reg2.gxrbA]
    rw [h4, h5, add_assoc]

end Cert.KernelIdeal.Bridge

end
-- ==== Proof.KBridge.lean ====
/-
  The kernel program's result array is the specification's refOut of the kernel's own argument arrays.

  The program is: six bias vectors reshaped to rows; the first pallas_call; a batch norm (host operations); the
  second and third pallas_calls; a second batch norm. Each pallas_call's output array has been read as one function
  of the arrays it reads; each batch norm is the specification's own composition of host operations. Reading the
  arrays each stage reads back to the launch contents — an argument array is never written; a bias row is entry by
  entry its vector — the five stages are, in order, xPre, bnX, pmX, yPre (of lg · y, computed inside the third
  pallas_call) and bnY, which composed are refOut.
-/
import proofs.«103437_j49752901157443_2_alg».proof.Proof.KRun
import proofs.«103437_j49752901157443_2_alg».proof.Proof.KHost
import proofs.«103437_j49752901157443_2_alg».proof.Proof.KBridge0
import proofs.«103437_j49752901157443_2_alg».proof.Proof.KBridge1
import proofs.«103437_j49752901157443_2_alg».proof.Proof.KBridge2
import Idealize.ShloMosaic.Lib.ValueIdx

noncomputable section

open scoped BigOperators

namespace Cert.KernelIdeal.Bridge

open Cert.KernelIdeal Cert.KernelIdeal.Gen
open Idealize.ShloMosaic Idealize.ShloMosaic.TcCoe Idealize.SL.Sem
open Idealize.ShloMosaic.ValueIdx Cert.RefStages

variable (m : (ℓ : Loc nD τ sig) → Buf (Elt Ideal) ℓ)

/-- The first pallas_call's output array, as the program holds it afterwards, is xPre of the argument arrays. -/
theorem x6_eq (c : Dev nD) :
    V2 m (Asm.outs₂ m) c main_v6 = xPre (m ((c.tc : Thread nD τ).loc main_arg5)) (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9)) := by
  show Function.update (V1 m c) main_v6 (Asm.outs₂ m 2 main_v6 c) main_v6 = _
  rw [Function.update_self]
  show Asm.U2 m c (Proc.devRef .tc (Pipeline.arrRef spec0 6)) = _
  unfold Asm.U2
  rw [Pipeline.withArrays_arr spec0 launch0.win.arr_inj c (V1 m c) (fun w => (Reg0.dat (Asm.Vat (V1 m)) c).arrAt w cfg0.N) 6]
  have e5 : Asm.Vat (V1 m) c main_arg5 = (m ((c.tc : Thread nD τ).loc main_arg5)) := Host.V1_keep m c main_arg5 (by decide)
  have e0 : Asm.Vat (V1 m) c main_arg0 = (m ((c.tc : Thread nD τ).loc main_arg0)) := Host.V1_keep m c main_arg0 (by decide)
  have e6 : Asm.Vat (V1 m) c main_arg6 = (m ((c.tc : Thread nD τ).loc main_arg6)) := Host.V1_keep m c main_arg6 (by decide)
  have e8 : Asm.Vat (V1 m) c main_arg8 = (m ((c.tc : Thread nD τ).loc main_arg8)) := Host.V1_keep m c main_arg8 (by decide)
  have hv : (Reg0.dat (Asm.Vat (V1 m)) c).arrAt 6 cfg0.N
      = xPre (Asm.Vat (V1 m) c main_arg5) (Asm.Vat (V1 m) c main_arg0) (Asm.Vat (V1 m) c main_arg6) (m ((c.tc : Thread nD τ).loc main_arg7))
          (Asm.Vat (V1 m) c main_arg8) (m ((c.tc : Thread nD τ).loc main_arg9)) :=
    (Reg0.final_eq (Asm.Vat (V1 m)) c).trans
      (value0_eq_xPre (Asm.Vat (V1 m)) c (m ((c.tc : Thread nD τ).loc main_arg7)) (m ((c.tc : Thread nD τ).loc main_arg9)) (Host.bias_v0 m c) (Host.bias_v1 m c))
  rw [hv, e5, e0, e6, e8]

/-- The second pallas_call's output array is pmX of pm and the batch-normalised first stage. -/
theorem x32_eq (c : Dev nD) :
    V4 m (Asm.outs₄ m) c main_v32 = pmX (m ((c.tc : Thread nD τ).loc main_arg4)) (bnX (xPre (m ((c.tc : Thread nD τ).loc main_arg5)) (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg18)) (m ((c.tc : Thread nD τ).loc main_arg19))) := by
  show Function.update (V3 m (Asm.outs₄ m) c) main_v32 (Asm.outs₄ m 4 main_v32 c) main_v32 = _
  rw [Function.update_self]
  show Asm.U4 m c (Proc.devRef .tc (Pipeline.arrRef spec1 2)) = _
  unfold Asm.U4
  rw [Pipeline.withArrays_arr spec1 launch1.win.arr_inj c (V3 m (Asm.outs₂ m) c)
    (fun w => (Reg1.dat (Asm.Vat (V3 m (Asm.outs₂ m))) c).arrAt w cfg1.N) 2]
  have e4 : Asm.Vat (V3 m (Asm.outs₂ m)) c main_arg4 = (m ((c.tc : Thread nD τ).loc main_arg4)) :=
    Host.V3_keep m (Asm.outs₂ m) c main_arg4 (by decide) (by decide) (by decide)
  have e31 : Asm.Vat (V3 m (Asm.outs₂ m)) c main_v31 = bnX (xPre (m ((c.tc : Thread nD τ).loc main_arg5)) (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg18)) (m ((c.tc : Thread nD τ).loc main_arg19)) := by
    show V3 m (Asm.outs₂ m) c main_v31 = _
    rw [Host.v31_eq, x6_eq, Host.V2_keep m (Asm.outs₂ m) c main_arg18 (by decide) (by decide),
      Host.V2_keep m (Asm.outs₂ m) c main_arg19 (by decide) (by decide)]
  have hv : (Reg1.dat (Asm.Vat (V3 m (Asm.outs₂ m))) c).arrAt 2 cfg1.N
      = pmX (Asm.Vat (V3 m (Asm.outs₂ m)) c main_arg4) (Asm.Vat (V3 m (Asm.outs₂ m)) c main_v31) :=
    (Reg1.final (Asm.Vat (V3 m (Asm.outs₂ m))) c).trans (value1_eq_pmX (Asm.Vat (V3 m (Asm.outs₂ m))) c)
  rw [hv, e4, e31]

/-- The third pallas_call's output array is yPre of lg · y, the second pallas_call's output and the eight weights
    and biases. -/
theorem y33_eq (c : Dev nD) :
    V5 m (Asm.outs m) c main_v33 = yPre (lgY (m ((c.tc : Thread nD τ).loc main_arg3)) (m ((c.tc : Thread nD τ).loc main_arg0))) (pmX (m ((c.tc : Thread nD τ).loc main_arg4)) (bnX (xPre (m ((c.tc : Thread nD τ).loc main_arg5)) (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg18)) (m ((c.tc : Thread nD τ).loc main_arg19)))) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  show Function.update (V4 m (Asm.outs m) c) main_v33 (Asm.outs m 5 main_v33 c) main_v33 = _
  rw [Function.update_self]
  show Asm.U5 m c (Proc.devRef .tc (Pipeline.arrRef spec2 11)) = _
  unfold Asm.U5
  rw [Pipeline.withArrays_arr spec2 launch2.win.arr_inj c (V4 m (Asm.outs₄ m) c)
    (fun w => (Reg2.dat (Asm.Vat (V4 m (Asm.outs₄ m))) c).arrAt w cfg2.N) 11]
  have e3 : Asm.Vat (V4 m (Asm.outs₄ m)) c main_arg3 = (m ((c.tc : Thread nD τ).loc main_arg3)) := Host.V4_keep m (Asm.outs₄ m) c main_arg3 (by decide) (by decide) (by decide) (by decide)
  have e0 : Asm.Vat (V4 m (Asm.outs₄ m)) c main_arg0 = (m ((c.tc : Thread nD τ).loc main_arg0)) := Host.V4_keep m (Asm.outs₄ m) c main_arg0 (by decide) (by decide) (by decide) (by decide)
  have e10 : Asm.Vat (V4 m (Asm.outs₄ m)) c main_arg10 = (m ((c.tc : Thread nD τ).loc main_arg10)) := Host.V4_keep m (Asm.outs₄ m) c main_arg10 (by decide) (by decide) (by decide) (by decide)
  have e12 : Asm.Vat (V4 m (Asm.outs₄ m)) c main_arg12 = (m ((c.tc : Thread nD τ).loc main_arg12)) := Host.V4_keep m (Asm.outs₄ m) c main_arg12 (by decide) (by decide) (by decide) (by decide)
  have e14 : Asm.Vat (V4 m (Asm.outs₄ m)) c main_arg14 = (m ((c.tc : Thread nD τ).loc main_arg14)) := Host.V4_keep m (Asm.outs₄ m) c main_arg14 (by decide) (by decide) (by decide) (by decide)
  have e16 : Asm.Vat (V4 m (Asm.outs₄ m)) c main_arg16 = (m ((c.tc : Thread nD τ).loc main_arg16)) := Host.V4_keep m (Asm.outs₄ m) c main_arg16 (by decide) (by decide) (by decide) (by decide)
  have e32 : Asm.Vat (V4 m (Asm.outs₄ m)) c main_v32 = pmX (m ((c.tc : Thread nD τ).loc main_arg4)) (bnX (xPre (m ((c.tc : Thread nD τ).loc main_arg5)) (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg18)) (m ((c.tc : Thread nD τ).loc main_arg19))) := x32_eq m c
  have h2 : ∀ j : Fin 32, Asm.Vat (V4 m (Asm.outs₄ m)) c main_v2 (ix2 (0 : Fin 1) j) = (m ((c.tc : Thread nD τ).loc main_arg11)) (ix1 j) := fun j =>
    (congrFun (Host.V4_row m (Asm.outs₄ m) c main_v2 (by decide) (by decide) (by decide)) _).trans (Host.bias_v2 m c j)
  have h3 : ∀ j : Fin 32, Asm.Vat (V4 m (Asm.outs₄ m)) c main_v3 (ix2 (0 : Fin 1) j) = (m ((c.tc : Thread nD τ).loc main_arg13)) (ix1 j) := fun j =>
    (congrFun (Host.V4_row m (Asm.outs₄ m) c main_v3 (by decide) (by decide) (by decide)) _).trans (Host.bias_v3 m c j)
  have h4 : ∀ j : Fin 32, Asm.Vat (V4 m (Asm.outs₄ m)) c main_v4 (ix2 (0 : Fin 1) j) = (m ((c.tc : Thread nD τ).loc main_arg15)) (ix1 j) := fun j =>
    (congrFun (Host.V4_row m (Asm.outs₄ m) c main_v4 (by decide) (by decide) (by decide)) _).trans (Host.bias_v4 m c j)
  have h5 : ∀ j : Fin 32, Asm.Vat (V4 m (Asm.outs₄ m)) c main_v5 (ix2 (0 : Fin 1) j) = (m ((c.tc : Thread nD τ).loc main_arg17)) (ix1 j) := fun j =>
    (congrFun (Host.V4_row m (Asm.outs₄ m) c main_v5 (by decide) (by decide) (by decide)) _).trans (Host.bias_v5 m c j)
  have hv : (Reg2.dat (Asm.Vat (V4 m (Asm.outs₄ m))) c).arrAt 11 cfg2.N
      = yPre (lgY (Asm.Vat (V4 m (Asm.outs₄ m)) c main_arg3) (Asm.Vat (V4 m (Asm.outs₄ m)) c main_arg0))
          (Asm.Vat (V4 m (Asm.outs₄ m)) c main_v32) (Asm.Vat (V4 m (Asm.outs₄ m)) c main_arg10) (m ((c.tc : Thread nD τ).loc main_arg11))
          (Asm.Vat (V4 m (Asm.outs₄ m)) c main_arg12) (m ((c.tc : Thread nD τ).loc main_arg13)) (Asm.Vat (V4 m (Asm.outs₄ m)) c main_arg14) (m ((c.tc : Thread nD τ).loc main_arg15))
          (Asm.Vat (V4 m (Asm.outs₄ m)) c main_arg16) (m ((c.tc : Thread nD τ).loc main_arg17)) :=
    (Reg2.final_eq (Asm.Vat (V4 m (Asm.outs₄ m))) c).trans
      (value2_eq_yPre (Asm.Vat (V4 m (Asm.outs₄ m))) c (m ((c.tc : Thread nD τ).loc main_arg11)) (m ((c.tc : Thread nD τ).loc main_arg13)) (m ((c.tc : Thread nD τ).loc main_arg15)) (m ((c.tc : Thread nD τ).loc main_arg17)) h2 h3 h4 h5)
  rw [hv, e3, e0, e32, e10, e12, e14, e16]

/-- THE KERNEL IS THE SPECIFICATION: the result array after the run is refOut of the argument arrays at launch. -/
theorem result_eq (c : Dev nD) :
    V6 m (Asm.outs m) c main_v58
      = refOut (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  rw [Host.v58_eq, Host.V5_keep m (Asm.outs m) c main_arg20 (by decide) (by decide) (by decide) (by decide) (by decide),
    Host.V5_keep m (Asm.outs m) c main_arg21 (by decide) (by decide) (by decide) (by decide) (by decide), y33_eq]
  rfl

end Cert.KernelIdeal.Bridge

end
-- ==== Proof.RefModules.lean ====
/-
  The reference's run and its stages read at an index, gathered under one import.
-/
import proofs.«103437_j49752901157443_2_alg».proof.Proof.RefRunP
import proofs.«103437_j49752901157443_2_alg».proof.Proof.RefReadP
-- ==== Proof.RefStagesIdx.lean ====
/-
  Two remarks on indices: a matrix index is determined by its two coordinates and a vector index by its one.
  They turn the composed index maps of the reference's stages into indices built from coordinates.
-/
import proofs.«103437_j49752901157443_2_alg».proof.Proof.RefStagesSpec

namespace Cert.RefStages

open Idealize.ShloMosaic Idealize.ShloMosaic.ValueIdx

/-- A matrix index is determined by its two coordinates. -/
theorem idx2_eq {n0 n1 : Nat} (g : (Sh2 n0 n1).Idx) (a : Fin n0) (b : Fin n1) (h0 : (g 0).val = a.val)
    (h1 : (g 1).val = b.val) : g = ix2 a b :=
  funext fun d => Fin.ext (by match d with | ⟨0, _⟩ => exact h0 | ⟨1, _⟩ => exact h1)

/-- A vector index is determined by its coordinate. -/
theorem idx1_eq {n : Nat} (g : (Sh1 n).Idx) (a : Fin n) (h0 : (g 0).val = a.val) : g = ix1 a :=
  funext fun d => Fin.ext (by match d with | ⟨0, _⟩ => exact h0)

end Cert.RefStages
-- ==== Proof.RefStagesXPre.lean ====
/-
  The reference's first stage: the array it batch-normalises into x is xPre of its arguments.

  The reference forms pd · y once, multiplies it by the transposes of the two [32,64] weights, adds each [32] bias
  (broadcast first to a [1,32] row, then down the 4096 rows), rectifies the SECOND product-plus-bias against a
  broadcast zero, and joins the two [4096,32] halves along the columns: the unrectified half first. Read at an index
  this is, element by element and with nothing rearranged, the function xPre: every product has the factor from
  pd · y on the left, and the bias is the right summand.
-/
import proofs.«103437_j49752901157443_2_alg».proof.Proof.RefModules
import proofs.«103437_j49752901157443_2_alg».proof.Proof.RefStagesSpec
import proofs.«103437_j49752901157443_2_alg».proof.Proof.RefStagesIdx

noncomputable section

open scoped BigOperators

namespace Cert.RefStages

open Cert.ReferenceIdeal Cert.ReferenceIdeal.Gen Cert.ReferenceIdeal.ReadP Idealize.ShloMosaic Idealize.ShloMosaic.ValueIdx

/-- The first product is pd · y. -/
theorem val_main_v0_eq (x0 : (⟨S8192x64, .f32⟩ : BufTy).Contents (Elt Ideal)) (x5 : (⟨S4096x8192, .f32⟩ : BufTy).Contents (Elt Ideal)) :
    val_main_v0 (F := Ideal) x0 x5 = pdY x5 x0 := by
  funext i
  obtain ⟨p, f, rfl⟩ : ∃ (p : Fin 4096) (f : Fin 64), i = ix2 p f := ⟨i 0, i 1, eq_ix2 i⟩
  rw [val_main_v0_apply, pdY_apply]
  refine Finset.sum_congr rfl fun k _ => ?_
  rw [idx2_eq (lidx_main_v0 (ix2 p f) k) p k rfl rfl, idx2_eq (ridx_main_v0 (ix2 p f) k) k f rfl rfl]

/-- The unrectified half: pd · y times the transpose of the first weight, plus the first bias. -/
theorem val_main_v10_at (x0 : (⟨S8192x64, .f32⟩ : BufTy).Contents (Elt Ideal)) (x5 : (⟨S4096x8192, .f32⟩ : BufTy).Contents (Elt Ideal)) (x6 : (⟨S32x64, .f32⟩ : BufTy).Contents (Elt Ideal)) (x7 : (⟨S32, .f32⟩ : BufTy).Contents (Elt Ideal)) (p : Fin 4096) (j : Fin 32) :
    val_main_v10 (F := Ideal) x0 x5 x6 x7 (ix2 p j) = linear64 (pdY x5 x0) x6 x7 p j := by
  rw [val_main_v10_apply, val_main_v7_apply, val_main_v9_apply, val_main_v8_apply, val_main_v0_eq, linear64_def,
    Ideal.addf_def]
  congr 1
  · refine Finset.sum_congr rfl fun f _ => ?_
    rw [val_main_v6_apply, idx2_eq (lidx_main_v7 (ix2 p j) f) p f rfl rfl,
      idx2_eq (idx_main_v6 (ridx_main_v7 (ix2 p j) f)) j f rfl rfl]
  · rw [idx1_eq (idx_main_v8 (idx_main_v9 (ix2 p j))) j rfl]

/-- The half that is rectified, before the rectifier: the same with the second weight and bias. -/
theorem val_main_v5_at (x0 : (⟨S8192x64, .f32⟩ : BufTy).Contents (Elt Ideal)) (x5 : (⟨S4096x8192, .f32⟩ : BufTy).Contents (Elt Ideal)) (x8 : (⟨S32x64, .f32⟩ : BufTy).Contents (Elt Ideal)) (x9 : (⟨S32, .f32⟩ : BufTy).Contents (Elt Ideal)) (p : Fin 4096) (j : Fin 32) :
    val_main_v5 (F := Ideal) x0 x5 x8 x9 (ix2 p j) = linear64 (pdY x5 x0) x8 x9 p j := by
  rw [val_main_v5_apply, val_main_v2_apply, val_main_v4_apply, val_main_v3_apply, val_main_v0_eq, linear64_def,
    Ideal.addf_def]
  congr 1
  · refine Finset.sum_congr rfl fun f _ => ?_
    rw [val_main_v1_apply, idx2_eq (lidx_main_v2 (ix2 p j) f) p f rfl rfl,
      idx2_eq (idx_main_v1 (ridx_main_v2 (ix2 p j) f)) j f rfl rfl]
  · rw [idx1_eq (idx_main_v3 (idx_main_v4 (ix2 p j))) j rfl]

/-- The rectified half: the maximum of that and zero, the value on the left. -/
theorem val_main_v11_at (x0 : (⟨S8192x64, .f32⟩ : BufTy).Contents (Elt Ideal)) (x5 : (⟨S4096x8192, .f32⟩ : BufTy).Contents (Elt Ideal)) (x8 : (⟨S32x64, .f32⟩ : BufTy).Contents (Elt Ideal)) (x9 : (⟨S32, .f32⟩ : BufTy).Contents (Elt Ideal)) (p : Fin 4096) (j : Fin 32) :
    val_main_v11 (F := Ideal) x0 x5 x8 x9 (ix2 p j) = max (linear64 (pdY x5 x0) x8 x9 p j) 0 := by
  rw [val_main_v11_apply, val_main_v5_at, val_main_call0_v0_apply, val_main_call0_cst_apply, Ideal.maximumf_def,
    Ideal.ofBits_def, Ideal.ofBits_zero_f32]

/-- THE FIRST STAGE: the two halves joined along the columns are xPre. -/
theorem val_main_v12_eq (x0 : (⟨S8192x64, .f32⟩ : BufTy).Contents (Elt Ideal)) (x5 : (⟨S4096x8192, .f32⟩ : BufTy).Contents (Elt Ideal)) (x6 : (⟨S32x64, .f32⟩ : BufTy).Contents (Elt Ideal)) (x7 : (⟨S32, .f32⟩ : BufTy).Contents (Elt Ideal)) (x8 : (⟨S32x64, .f32⟩ : BufTy).Contents (Elt Ideal)) (x9 : (⟨S32, .f32⟩ : BufTy).Contents (Elt Ideal)) :
    val_main_v12 (F := Ideal) x0 x5 x6 x7 x8 x9 = xPre x5 x0 x6 x7 x8 x9 := by
  funext i
  obtain ⟨p, q, rfl⟩ : ∃ (p : Fin 4096) (q : Fin 64), i = ix2 p q := ⟨i 0, i 1, eq_ix2 i⟩
  rw [xPre_apply]
  unfold val_main_v12 xPreAt
  by_cases h : q.val < 32
  · rw [dif_pos h, concatenate_pair_apply_left 1 _ _ concatenates_S4096x32_S4096x32_S4096x64_d1 (ix2 p q) rfl
      (ix2 p (⟨q.val, h⟩ : Fin 32)) (fun b => by match b with | ⟨0, _⟩ => rfl | ⟨1, _⟩ => rfl)]
    exact val_main_v10_at x0 x5 x6 x7 p ⟨q.val, h⟩
  · rw [dif_neg h, concatenate_pair_apply_right 1 _ _ concatenates_S4096x32_S4096x32_S4096x64_d1 (ix2 p q) rfl rfl
      (ix2 p (⟨q.val - 32, by have := q.isLt; omega⟩ : Fin 32))
      (fun b hb => by match b with | ⟨0, _⟩ => rfl | ⟨1, _⟩ => exact absurd rfl hb)
      (by show q.val - 32 + 32 = q.val; omega)]
    exact val_main_v11_at x0 x5 x8 x9 p ⟨q.val - 32, by have := q.isLt; omega⟩

end Cert.RefStages

end
-- ==== Proof.RefStagesMid.lean ====
/-
  The reference's middle stages, each read as one function of the stage before it.

  After the first stage the reference (a) batch-normalises it down the 4096 rows, (b) multiplies the transpose of pm
  by the result, (c) multiplies lg by y, (d) forms from (b) and (c) the four products with the transposed [32,64]
  weights, adds each bias, adds the two unrectified sums and the two sums to be rectified in the association
  (lgY-term + bias) + (pmX-term + bias), rectifies the second against a broadcast zero and joins the halves along the
  columns, and (e) batch-normalises that down the 8192 rows. Here (a) and (e) are shown to BE the host compositions
  bnX and bnY of the specification, by unfolding names only; (b), (c), (d) are read index by index, the earlier stage
  kept closed as an array.
-/
import proofs.«103437_j49752901157443_2_alg».proof.Proof.RefModules
import proofs.«103437_j49752901157443_2_alg».proof.Proof.RefStagesSpec
import proofs.«103437_j49752901157443_2_alg».proof.Proof.RefStagesIdx

noncomputable section

open scoped BigOperators

namespace Cert.RefStages

open Cert.ReferenceIdeal Cert.ReferenceIdeal.Gen Cert.ReferenceIdeal.ReadP Idealize.ShloMosaic Idealize.ShloMosaic.ValueIdx

/-! ## (a) and (e): the batch norms are the specification's host compositions -/

/-- The operations from the first stage to x are bnX of it. -/
theorem val_main_v37_eq (x0 : (⟨S8192x64, .f32⟩ : BufTy).Contents (Elt Ideal)) (x5 : (⟨S4096x8192, .f32⟩ : BufTy).Contents (Elt Ideal)) (x6 : (⟨S32x64, .f32⟩ : BufTy).Contents (Elt Ideal)) (x7 : (⟨S32, .f32⟩ : BufTy).Contents (Elt Ideal)) (x8 : (⟨S32x64, .f32⟩ : BufTy).Contents (Elt Ideal)) (x9 : (⟨S32, .f32⟩ : BufTy).Contents (Elt Ideal)) (x18 : (⟨S64, .f32⟩ : BufTy).Contents (Elt Ideal)) (x19 : (⟨S64, .f32⟩ : BufTy).Contents (Elt Ideal)) :
    val_main_v37 (F := Ideal) x0 x5 x6 x7 x8 x9 x18 x19 = bnX (val_main_v12 (F := Ideal) x0 x5 x6 x7 x8 x9) x18 x19 := by
  unfold val_main_v37 val_main_v34 val_main_v36 val_main_v35 val_main_v31 val_main_v33 val_main_v32 val_main_v25 val_main_v30 val_main_v24 val_main_v23 val_main_v29 val_main_v28 val_main_v27 val_main_v22 val_main_v26 val_main_cst_3 val_main_v20 val_main_v21 val_main_cst_2 val_main_cst_1 val_main_v19 val_main_v18 val_main_v17 val_main_v16 val_main_v15 val_main_v13 val_main_v14 val_main_cst val_main_cst_0
  generalize val_main_v12 (F := Ideal) x0 x5 x6 x7 x8 x9 = a
  unfold bnX colMean4096 downRows4096 splat64
  with_reducible rfl

/-- The operations from the joined array to the result are bnY of it. -/
theorem val_main_v89_eq_bnY (x0 : (⟨S8192x64, .f32⟩ : BufTy).Contents (Elt Ideal)) (x3 : (⟨S8192x8192, .f32⟩ : BufTy).Contents (Elt Ideal)) (x4 : (⟨S4096x8192, .f32⟩ : BufTy).Contents (Elt Ideal)) (x5 : (⟨S4096x8192, .f32⟩ : BufTy).Contents (Elt Ideal)) (x6 : (⟨S32x64, .f32⟩ : BufTy).Contents (Elt Ideal)) (x7 : (⟨S32, .f32⟩ : BufTy).Contents (Elt Ideal)) (x8 : (⟨S32x64, .f32⟩ : BufTy).Contents (Elt Ideal)) (x9 : (⟨S32, .f32⟩ : BufTy).Contents (Elt Ideal)) (x10 : (⟨S32x64, .f32⟩ : BufTy).Contents (Elt Ideal)) (x11 : (⟨S32, .f32⟩ : BufTy).Contents (Elt Ideal)) (x12 : (⟨S32x64, .f32⟩ : BufTy).Contents (Elt Ideal)) (x13 : (⟨S32, .f32⟩ : BufTy).Contents (Elt Ideal)) (x14 : (⟨S32x64, .f32⟩ : BufTy).Contents (Elt Ideal)) (x15 : (⟨S32, .f32⟩ : BufTy).Contents (Elt Ideal)) (x16 : (⟨S32x64, .f32⟩ : BufTy).Contents (Elt Ideal)) (x17 : (⟨S32, .f32⟩ : BufTy).Contents (Elt Ideal)) (x18 : (⟨S64, .f32⟩ : BufTy).Contents (Elt Ideal)) (x19 : (⟨S64, .f32⟩ : BufTy).Contents (Elt Ideal)) (x20 : (⟨S64, .f32⟩ : BufTy).Contents (Elt Ideal)) (x21 : (⟨S64, .f32⟩ : BufTy).Contents (Elt Ideal)) :
    val_main_v89 (F := Ideal) x0 x3 x4 x5 x6 x7 x8 x9 x10 x11 x12 x13 x14 x15 x16 x17 x18 x19 x20 x21 = bnY (val_main_v64 (F := Ideal) x0 x3 x4 x5 x6 x7 x8 x9 x10 x11 x12 x13 x14 x15 x16 x17 x18 x19) x20 x21 := by
  unfold val_main_v89 val_main_v86 val_main_v88 val_main_v87 val_main_v83 val_main_v85 val_main_v84 val_main_v77 val_main_v82 val_main_v76 val_main_v75 val_main_v81 val_main_v80 val_main_v79 val_main_v74 val_main_v78 val_main_cst_8 val_main_v72 val_main_v73 val_main_cst_7 val_main_cst_6 val_main_v71 val_main_v70 val_main_v69 val_main_v68 val_main_v67 val_main_v65 val_main_v66 val_main_cst_4 val_main_cst_5
  generalize val_main_v64 (F := Ideal) x0 x3 x4 x5 x6 x7 x8 x9 x10 x11 x12 x13 x14 x15 x16 x17 x18 x19 = a
  unfold bnY colMean8192 downRows8192 splat64
  with_reducible rfl

/-! ## (b), (c): the two large products -/

/-- pmᵀ · x. -/
theorem val_main_v39_eq (x0 : (⟨S8192x64, .f32⟩ : BufTy).Contents (Elt Ideal)) (x4 : (⟨S4096x8192, .f32⟩ : BufTy).Contents (Elt Ideal)) (x5 : (⟨S4096x8192, .f32⟩ : BufTy).Contents (Elt Ideal)) (x6 : (⟨S32x64, .f32⟩ : BufTy).Contents (Elt Ideal)) (x7 : (⟨S32, .f32⟩ : BufTy).Contents (Elt Ideal)) (x8 : (⟨S32x64, .f32⟩ : BufTy).Contents (Elt Ideal)) (x9 : (⟨S32, .f32⟩ : BufTy).Contents (Elt Ideal)) (x18 : (⟨S64, .f32⟩ : BufTy).Contents (Elt Ideal)) (x19 : (⟨S64, .f32⟩ : BufTy).Contents (Elt Ideal)) :
    val_main_v39 (F := Ideal) x0 x4 x5 x6 x7 x8 x9 x18 x19 = pmX x4 (val_main_v37 (F := Ideal) x0 x5 x6 x7 x8 x9 x18 x19) := by
  funext i
  obtain ⟨e, j, rfl⟩ : ∃ (e : Fin 8192) (j : Fin 64), i = ix2 e j := ⟨i 0, i 1, eq_ix2 i⟩
  rw [val_main_v39_apply, pmX_apply]
  refine Finset.sum_congr rfl fun n _ => ?_
  rw [val_main_v38_apply, idx2_eq (idx_main_v38 (lidx_main_v39 (ix2 e j) n)) n e rfl rfl,
    idx2_eq (ridx_main_v39 (ix2 e j) n) n j rfl rfl]

/-- lg · y. -/
theorem val_main_v40_eq (x0 : (⟨S8192x64, .f32⟩ : BufTy).Contents (Elt Ideal)) (x3 : (⟨S8192x8192, .f32⟩ : BufTy).Contents (Elt Ideal)) :
    val_main_v40 (F := Ideal) x0 x3 = lgY x3 x0 := by
  funext i
  obtain ⟨e, f, rfl⟩ : ∃ (e : Fin 8192) (f : Fin 64), i = ix2 e f := ⟨i 0, i 1, eq_ix2 i⟩
  rw [val_main_v40_apply, lgY_apply]
  refine Finset.sum_congr rfl fun k _ => ?_
  rw [idx2_eq (lidx_main_v40 (ix2 e f) k) e k rfl rfl, idx2_eq (ridx_main_v40 (ix2 e f) k) k f rfl rfl]

/-! ## (d): the four linear layers, the two sums, the rectifier and the join -/

/-- lgY times the transpose of the first weight, plus its bias (unrectified half). -/
theorem val_main_v56_at (x0 : (⟨S8192x64, .f32⟩ : BufTy).Contents (Elt Ideal)) (x3 : (⟨S8192x8192, .f32⟩ : BufTy).Contents (Elt Ideal)) (x10 : (⟨S32x64, .f32⟩ : BufTy).Contents (Elt Ideal)) (x11 : (⟨S32, .f32⟩ : BufTy).Contents (Elt Ideal)) (e : Fin 8192) (j : Fin 32) :
    val_main_v56 (F := Ideal) x0 x3 x10 x11 (ix2 e j) = linear64 (val_main_v40 (F := Ideal) x0 x3) x10 x11 e j := by
  rw [val_main_v56_apply, val_main_v53_apply, val_main_v55_apply, val_main_v54_apply, linear64_def, Ideal.addf_def]
  congr 1
  · refine Finset.sum_congr rfl fun f _ => ?_
    rw [val_main_v52_apply, idx2_eq (lidx_main_v53 (ix2 e j) f) e f rfl rfl,
      idx2_eq (idx_main_v52 (ridx_main_v53 (ix2 e j) f)) j f rfl rfl]
  · rw [idx1_eq (idx_main_v54 (idx_main_v55 (ix2 e j))) j rfl]

/-- pmX times the transpose of the second weight, plus its bias (unrectified half). -/
theorem val_main_v61_at (x0 : (⟨S8192x64, .f32⟩ : BufTy).Contents (Elt Ideal)) (x4 : (⟨S4096x8192, .f32⟩ : BufTy).Contents (Elt Ideal)) (x5 : (⟨S4096x8192, .f32⟩ : BufTy).Contents (Elt Ideal)) (x6 : (⟨S32x64, .f32⟩ : BufTy).Contents (Elt Ideal)) (x7 : (⟨S32, .f32⟩ : BufTy).Contents (Elt Ideal)) (x8 : (⟨S32x64, .f32⟩ : BufTy).Contents (Elt Ideal)) (x9 : (⟨S32, .f32⟩ : BufTy).Contents (Elt Ideal)) (x12 : (⟨S32x64, .f32⟩ : BufTy).Contents (Elt Ideal)) (x13 : (⟨S32, .f32⟩ : BufTy).Contents (Elt Ideal)) (x18 : (⟨S64, .f32⟩ : BufTy).Contents (Elt Ideal)) (x19 : (⟨S64, .f32⟩ : BufTy).Contents (Elt Ideal)) (e : Fin 8192) (j : Fin 32) :
    val_main_v61 (F := Ideal) x0 x4 x5 x6 x7 x8 x9 x12 x13 x18 x19 (ix2 e j) = linear64 (val_main_v39 (F := Ideal) x0 x4 x5 x6 x7 x8 x9 x18 x19) x12 x13 e j := by
  rw [val_main_v61_apply, val_main_v58_apply, val_main_v60_apply, val_main_v59_apply, linear64_def, Ideal.addf_def]
  congr 1
  · refine Finset.sum_congr rfl fun f _ => ?_
    rw [val_main_v57_apply, idx2_eq (lidx_main_v58 (ix2 e j) f) e f rfl rfl,
      idx2_eq (idx_main_v57 (ridx_main_v58 (ix2 e j) f)) j f rfl rfl]
  · rw [idx1_eq (idx_main_v59 (idx_main_v60 (ix2 e j))) j rfl]

/-- lgY times the transpose of the third weight, plus its bias (half to be rectified). -/
theorem val_main_v45_at (x0 : (⟨S8192x64, .f32⟩ : BufTy).Contents (Elt Ideal)) (x3 : (⟨S8192x8192, .f32⟩ : BufTy).Contents (Elt Ideal)) (x14 : (⟨S32x64, .f32⟩ : BufTy).Contents (Elt Ideal)) (x15 : (⟨S32, .f32⟩ : BufTy).Contents (Elt Ideal)) (e : Fin 8192) (j : Fin 32) :
    val_main_v45 (F := Ideal) x0 x3 x14 x15 (ix2 e j) = linear64 (val_main_v40 (F := Ideal) x0 x3) x14 x15 e j := by
  rw [val_main_v45_apply, val_main_v42_apply, val_main_v44_apply, val_main_v43_apply, linear64_def, Ideal.addf_def]
  congr 1
  · refine Finset.sum_congr rfl fun f _ => ?_
    rw [val_main_v41_apply, idx2_eq (lidx_main_v42 (ix2 e j) f) e f rfl rfl,
      idx2_eq (idx_main_v41 (ridx_main_v42 (ix2 e j) f)) j f rfl rfl]
  · rw [idx1_eq (idx_main_v43 (idx_main_v44 (ix2 e j))) j rfl]

/-- pmX times the transpose of the fourth weight, plus its bias (half to be rectified). -/
theorem val_main_v50_at (x0 : (⟨S8192x64, .f32⟩ : BufTy).Contents (Elt Ideal)) (x4 : (⟨S4096x8192, .f32⟩ : BufTy).Contents (Elt Ideal)) (x5 : (⟨S4096x8192, .f32⟩ : BufTy).Contents (Elt Ideal)) (x6 : (⟨S32x64, .f32⟩ : BufTy).Contents (Elt Ideal)) (x7 : (⟨S32, .f32⟩ : BufTy).Contents (Elt Ideal)) (x8 : (⟨S32x64, .f32⟩ : BufTy).Contents (Elt Ideal)) (x9 : (⟨S32, .f32⟩ : BufTy).Contents (Elt Ideal)) (x16 : (⟨S32x64, .f32⟩ : BufTy).Contents (Elt Ideal)) (x17 : (⟨S32, .f32⟩ : BufTy).Contents (Elt Ideal)) (x18 : (⟨S64, .f32⟩ : BufTy).Contents (Elt Ideal)) (x19 : (⟨S64, .f32⟩ : BufTy).Contents (Elt Ideal)) (e : Fin 8192) (j : Fin 32) :
    val_main_v50 (F := Ideal) x0 x4 x5 x6 x7 x8 x9 x16 x17 x18 x19 (ix2 e j) = linear64 (val_main_v39 (F := Ideal) x0 x4 x5 x6 x7 x8 x9 x18 x19) x16 x17 e j := by
  rw [val_main_v50_apply, val_main_v47_apply, val_main_v49_apply, val_main_v48_apply, linear64_def, Ideal.addf_def]
  congr 1
  · refine Finset.sum_congr rfl fun f _ => ?_
    rw [val_main_v46_apply, idx2_eq (lidx_main_v47 (ix2 e j) f) e f rfl rfl,
      idx2_eq (idx_main_v46 (ridx_main_v47 (ix2 e j) f)) j f rfl rfl]
  · rw [idx1_eq (idx_main_v48 (idx_main_v49 (ix2 e j))) j rfl]

/-- THE SECOND PRE-NORM STAGE: the joined array is yPre of lg · y, pmᵀ · x and the eight weights and biases. -/
theorem val_main_v64_eq (x0 : (⟨S8192x64, .f32⟩ : BufTy).Contents (Elt Ideal)) (x3 : (⟨S8192x8192, .f32⟩ : BufTy).Contents (Elt Ideal)) (x4 : (⟨S4096x8192, .f32⟩ : BufTy).Contents (Elt Ideal)) (x5 : (⟨S4096x8192, .f32⟩ : BufTy).Contents (Elt Ideal)) (x6 : (⟨S32x64, .f32⟩ : BufTy).Contents (Elt Ideal)) (x7 : (⟨S32, .f32⟩ : BufTy).Contents (Elt Ideal)) (x8 : (⟨S32x64, .f32⟩ : BufTy).Contents (Elt Ideal)) (x9 : (⟨S32, .f32⟩ : BufTy).Contents (Elt Ideal)) (x10 : (⟨S32x64, .f32⟩ : BufTy).Contents (Elt Ideal)) (x11 : (⟨S32, .f32⟩ : BufTy).Contents (Elt Ideal)) (x12 : (⟨S32x64, .f32⟩ : BufTy).Contents (Elt Ideal)) (x13 : (⟨S32, .f32⟩ : BufTy).Contents (Elt Ideal)) (x14 : (⟨S32x64, .f32⟩ : BufTy).Contents (Elt Ideal)) (x15 : (⟨S32, .f32⟩ : BufTy).Contents (Elt Ideal)) (x16 : (⟨S32x64, .f32⟩ : BufTy).Contents (Elt Ideal)) (x17 : (⟨S32, .f32⟩ : BufTy).Contents (Elt Ideal)) (x18 : (⟨S64, .f32⟩ : BufTy).Contents (Elt Ideal)) (x19 : (⟨S64, .f32⟩ : BufTy).Contents (Elt Ideal)) :
    val_main_v64 (F := Ideal) x0 x3 x4 x5 x6 x7 x8 x9 x10 x11 x12 x13 x14 x15 x16 x17 x18 x19
      = yPre (val_main_v40 (F := Ideal) x0 x3) (val_main_v39 (F := Ideal) x0 x4 x5 x6 x7 x8 x9 x18 x19) x10 x11 x12 x13 x14 x15 x16 x17 := by
  funext i
  obtain ⟨e, q, rfl⟩ : ∃ (e : Fin 8192) (q : Fin 64), i = ix2 e q := ⟨i 0, i 1, eq_ix2 i⟩
  rw [yPre_apply]
  unfold val_main_v64 yPreAt
  by_cases h : q.val < 32
  · rw [dif_pos h, concatenate_pair_apply_left 1 _ _ concatenates_S8192x32_S8192x32_S8192x64_d1 (ix2 e q) rfl
      (ix2 e (⟨q.val, h⟩ : Fin 32)) (fun b => by match b with | ⟨0, _⟩ => rfl | ⟨1, _⟩ => rfl)]
    rw [val_main_v62_apply, val_main_v56_at, val_main_v61_at, Ideal.addf_def]
  · rw [dif_neg h, concatenate_pair_apply_right 1 _ _ concatenates_S8192x32_S8192x32_S8192x64_d1 (ix2 e q) rfl rfl
      (ix2 e (⟨q.val - 32, by have := q.isLt; omega⟩ : Fin 32))
      (fun b hb => by match b with | ⟨0, _⟩ => rfl | ⟨1, _⟩ => exact absurd rfl hb)
      (by show q.val - 32 + 32 = q.val; omega)]
    rw [val_main_v63_apply, val_main_v51_apply, val_main_v45_at, val_main_v50_at, val_main_call1_v0_apply,
      val_main_call1_cst_apply, Ideal.maximumf_def, Ideal.addf_def, Ideal.ofBits_def, Ideal.ofBits_zero_f32]

end Cert.RefStages

end
-- ==== Proof.RefStages.lean ====
/-
  The reference's result is the staged specification of its arguments.

  Chaining the stages, first to last: the array batch-normalised into x is xPre; x is bnX of it; pmᵀ · x and lg · y
  are pmX and lgY; the array batch-normalised into the result is yPre of those two and the eight weights and biases;
  the result is bnY of it. Each step rewrites one closed stage by the next; no stage is opened here.
-/
import proofs.«103437_j49752901157443_2_alg».proof.Proof.RefStagesXPre
import proofs.«103437_j49752901157443_2_alg».proof.Proof.RefStagesMid

noncomputable section

namespace Cert.RefStages

open Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo

/-- THE REFERENCE IS ITS SPECIFICATION: the last stage of the reference, as a function of the arguments it reads,
    is refOut of them: bnY (yPre (lgY lg y) (pmX pm (bnX (xPre pd y tw tb twr tbr) bnxw bnxb)) …) bnyw bnyb. -/
theorem val_main_v89_eq_refOut (x0 : (⟨S8192x64, .f32⟩ : BufTy).Contents (Elt Ideal)) (x3 : (⟨S8192x8192, .f32⟩ : BufTy).Contents (Elt Ideal)) (x4 : (⟨S4096x8192, .f32⟩ : BufTy).Contents (Elt Ideal)) (x5 : (⟨S4096x8192, .f32⟩ : BufTy).Contents (Elt Ideal)) (x6 : (⟨S32x64, .f32⟩ : BufTy).Contents (Elt Ideal)) (x7 : (⟨S32, .f32⟩ : BufTy).Contents (Elt Ideal)) (x8 : (⟨S32x64, .f32⟩ : BufTy).Contents (Elt Ideal)) (x9 : (⟨S32, .f32⟩ : BufTy).Contents (Elt Ideal)) (x10 : (⟨S32x64, .f32⟩ : BufTy).Contents (Elt Ideal)) (x11 : (⟨S32, .f32⟩ : BufTy).Contents (Elt Ideal)) (x12 : (⟨S32x64, .f32⟩ : BufTy).Contents (Elt Ideal)) (x13 : (⟨S32, .f32⟩ : BufTy).Contents (Elt Ideal)) (x14 : (⟨S32x64, .f32⟩ : BufTy).Contents (Elt Ideal)) (x15 : (⟨S32, .f32⟩ : BufTy).Contents (Elt Ideal)) (x16 : (⟨S32x64, .f32⟩ : BufTy).Contents (Elt Ideal)) (x17 : (⟨S32, .f32⟩ : BufTy).Contents (Elt Ideal)) (x18 : (⟨S64, .f32⟩ : BufTy).Contents (Elt Ideal)) (x19 : (⟨S64, .f32⟩ : BufTy).Contents (Elt Ideal)) (x20 : (⟨S64, .f32⟩ : BufTy).Contents (Elt Ideal)) (x21 : (⟨S64, .f32⟩ : BufTy).Contents (Elt Ideal)) :
    val_main_v89 (F := Ideal) x0 x3 x4 x5 x6 x7 x8 x9 x10 x11 x12 x13 x14 x15 x16 x17 x18 x19 x20 x21
      = refOut x0 x3 x4 x5 x6 x7 x8 x9 x10 x11 x12 x13 x14 x15 x16 x17 x18 x19 x20 x21 := by
  rw [val_main_v89_eq_bnY, val_main_v64_eq, val_main_v40_eq, val_main_v39_eq, val_main_v37_eq, val_main_v12_eq]
  rfl

/-- THE SAME AT THE RUN: the result the reference's run leaves, read at the ideal instance, is refOut of the twenty
    argument arrays as the memory holds them. -/
theorem res_main_v89_eq_refOut (m : (ℓ : Loc nD τ sig) → Buf (Elt Ideal) ℓ) (c : Dev nD) :
    Cert.ReferenceIdeal.ValueP.res_main_v89 (F := Ideal) m c
      = refOut (m ((c.tc : Thread nD τ).loc main_arg0))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16))
        (m ((c.tc : Thread nD τ).loc main_arg17))
        (m ((c.tc : Thread nD τ).loc main_arg18))
        (m ((c.tc : Thread nD τ).loc main_arg19))
        (m ((c.tc : Thread nD τ).loc main_arg20))
        (m ((c.tc : Thread nD τ).loc main_arg21)) := by
  rw [Cert.ReferenceIdeal.ReadP.val_main_v89_eq, val_main_v89_eq_refOut]

end Cert.RefStages

end
-- ==== Proof.lean ====
/-
  The certificate of the three-call graph-convolution layer against its jnp reference.

  The kernel program computes, with E = 8192 edges, N = 4096 nodes and 64 features: pd·y accumulated over four blocks of
  the 8192 contracted columns, then two 64→32 linear maps with biases, the second rectified, concatenated (first
  pallas_call); batch-norm over the rows as host operations; pmᵀ·x accumulated over two blocks of the 4096 contracted
  rows (second pallas_call); lg·y accumulated over four blocks, then four linear maps of that product and of pmᵀ·x
  summed with their biases, the second pair rectified, concatenated (third pallas_call); batch-norm again.

  Frames. Each pallas_call carries a scratch accumulator from one block of its contracted axis to the next. Its proof
  data say what the accumulator and the output block's staging buffer hold after every grid point, by recursion on the
  point over the pieces each case of the body stores (first block: zero, then add; middle block: add; last block: add,
  then the epilogue into the output block); the pipeline's invariant holds the accumulator at exactly those contents.
  The three regions and the three stretches of host operations are chained through thread states "every unscoped
  buffer at the contents so far", which gives, at any float instance, a run ending with every unscoped buffer named —
  the arguments as launched. The word-level program's frame is that statement at the bit-exact instance, the idealized
  program's at the extended reals; the reference is host operations only.

  Values, at the extended reals. A block of an operand read at an index is the operand's array at index × block size +
  the coordinate inside the block; a product accumulated over consecutive blocks from zero is the sum over the whole
  contracted axis (a finite sum of extended reals may be split into blocks and re-associated freely; nothing here needs
  finiteness); the epilogues are the linear maps index by index. The output blocks tile their arrays, so each region's
  output array is one whole-array function of the region's inputs. The host batch-norm chains are operation for
  operation the reference's, carried as one function and never opened. The kernel's four-term sums are associated
  ((a + b) + c) + d where the reference has (a + b) + (c + d): associativity of addition. So the result array is the
  reference's composed stages of the same arguments, index by index.

  The ideal pass rewrote no operation of the kernel, so the preservation conjunct is trivial.
-/
import proofs.«103437_j49752901157443_2_alg».proof.Defs
import proofs.«103437_j49752901157443_2_alg».proof.Proof.Gen.Kernel
import proofs.«103437_j49752901157443_2_alg».proof.Proof.Gen.KernelIdeal
import proofs.«103437_j49752901157443_2_alg».proof.Proof.Gen.ReferenceIdeal
import proofs.«103437_j49752901157443_2_alg».proof.Proof.Gen.Pre_finite_inputs
import proofs.«103437_j49752901157443_2_alg».proof.Proof.BKRun
import proofs.«103437_j49752901157443_2_alg».proof.Proof.KRun
import proofs.«103437_j49752901157443_2_alg».proof.Proof.KBridge
import proofs.«103437_j49752901157443_2_alg».proof.Proof.RefStages
import Idealize.ShloMosaic.Adequacy
import Idealize.ShloMosaic.Init

noncomputable section

namespace Cert.Proof

open Idealize.ShloMosaic Idealize.ShloMosaic.TcCoe Idealize.SL.Sem

/-- The word-level program runs to the end, faults nowhere and leaves its arguments as launched: the whole run
    (three pallas_calls, each with an accumulator carried across the blocks of its contracted axis) at the
    bit-exact instance. -/
theorem frame_kernel : Cert.frame_Kernel := fun m ρ _ => Cert.Kernel.Asm.frame (F := Bits) m ρ

/-- The same of the idealized program, at the extended reals. -/
theorem frame_kernelIdeal : Cert.frame_KernelIdeal := fun m ρ _ => Cert.KernelIdeal.Asm.frame (F := Ideal) m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

set_option maxHeartbeats 8000000 in
/-- At the extended reals both programs end with the result array at ONE function of the arguments: the
    reference's stages composed (pd·y, the two linear maps with the rectified half, batch-norm, pmᵀ·x, lg·y, the four
    linear maps summed pairwise with the rectified half, batch-norm). The kernel accumulates each big product over
    blocks of the contracted axis and associates the four-term sums differently; sums of extended reals may be
    regrouped and re-associated freely, so the two agree at every index. -/
theorem algebraic : Cert.algebraic_KernelIdeal_ReferenceIdeal := by
  intro m ρ m' ρ' _ hagree
  refine ⟨fun c => Cert.RefStages.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · exact (θ_run Cert.KernelIdeal.defs _ _).mono (fun r h c =>
      ⟨(h c _ (Cert.KernelIdeal.Asm.mem_uc Cert.KernelIdeal.main_v58 (by decide))).trans (Cert.KernelIdeal.Bridge.result_eq m c),
      (h c _ (Cert.KernelIdeal.Asm.mem_uc Cert.KernelIdeal.main_arg0 (by decide))).trans (Cert.KernelIdeal.Gen.V6_main_arg0 m (Cert.KernelIdeal.Asm.outs m) c),
      (h c _ (Cert.KernelIdeal.Asm.mem_uc Cert.KernelIdeal.main_arg1 (by decide))).trans (Cert.KernelIdeal.Gen.V6_main_arg1 m (Cert.KernelIdeal.Asm.outs m) c),
      (h c _ (Cert.KernelIdeal.Asm.mem_uc Cert.KernelIdeal.main_arg2 (by decide))).trans (Cert.KernelIdeal.Gen.V6_main_arg2 m (Cert.KernelIdeal.Asm.outs m) c),
      (h c _ (Cert.KernelIdeal.Asm.mem_uc Cert.KernelIdeal.main_arg3 (by decide))).trans (Cert.KernelIdeal.Gen.V6_main_arg3 m (Cert.KernelIdeal.Asm.outs m) c),
      (h c _ (Cert.KernelIdeal.Asm.mem_uc Cert.KernelIdeal.main_arg4 (by decide))).trans (Cert.KernelIdeal.Gen.V6_main_arg4 m (Cert.KernelIdeal.Asm.outs m) c),
      (h c _ (Cert.KernelIdeal.Asm.mem_uc Cert.KernelIdeal.main_arg5 (by decide))).trans (Cert.KernelIdeal.Gen.V6_main_arg5 m (Cert.KernelIdeal.Asm.outs m) c),
      (h c _ (Cert.KernelIdeal.Asm.mem_uc Cert.KernelIdeal.main_arg6 (by decide))).trans (Cert.KernelIdeal.Gen.V6_main_arg6 m (Cert.KernelIdeal.Asm.outs m) c),
      (h c _ (Cert.KernelIdeal.Asm.mem_uc Cert.KernelIdeal.main_arg7 (by decide))).trans (Cert.KernelIdeal.Gen.V6_main_arg7 m (Cert.KernelIdeal.Asm.outs m) c),
      (h c _ (Cert.KernelIdeal.Asm.mem_uc Cert.KernelIdeal.main_arg8 (by decide))).trans (Cert.KernelIdeal.Gen.V6_main_arg8 m (Cert.KernelIdeal.Asm.outs m) c),
      (h c _ (Cert.KernelIdeal.Asm.mem_uc Cert.KernelIdeal.main_arg9 (by decide))).trans (Cert.KernelIdeal.Gen.V6_main_arg9 m (Cert.KernelIdeal.Asm.outs m) c),
      (h c _ (Cert.KernelIdeal.Asm.mem_uc Cert.KernelIdeal.main_arg10 (by decide))).trans (Cert.KernelIdeal.Gen.V6_main_arg10 m (Cert.KernelIdeal.Asm.outs m) c),
      (h c _ (Cert.KernelIdeal.Asm.mem_uc Cert.KernelIdeal.main_arg11 (by decide))).trans (Cert.KernelIdeal.Gen.V6_main_arg11 m (Cert.KernelIdeal.Asm.outs m) c),
      (h c _ (Cert.KernelIdeal.Asm.mem_uc Cert.KernelIdeal.main_arg12 (by decide))).trans (Cert.KernelIdeal.Gen.V6_main_arg12 m (Cert.KernelIdeal.Asm.outs m) c),
      (h c _ (Cert.KernelIdeal.Asm.mem_uc Cert.KernelIdeal.main_arg13 (by decide))).trans (Cert.KernelIdeal.Gen.V6_main_arg13 m (Cert.KernelIdeal.Asm.outs m) c),
      (h c _ (Cert.KernelIdeal.Asm.mem_uc Cert.KernelIdeal.main_arg14 (by decide))).trans (Cert.KernelIdeal.Gen.V6_main_arg14 m (Cert.KernelIdeal.Asm.outs m) c),
      (h c _ (Cert.KernelIdeal.Asm.mem_uc Cert.KernelIdeal.main_arg15 (by decide))).trans (Cert.KernelIdeal.Gen.V6_main_arg15 m (Cert.KernelIdeal.Asm.outs m) c),
      (h c _ (Cert.KernelIdeal.Asm.mem_uc Cert.KernelIdeal.main_arg16 (by decide))).trans (Cert.KernelIdeal.Gen.V6_main_arg16 m (Cert.KernelIdeal.Asm.outs m) c),
      (h c _ (Cert.KernelIdeal.Asm.mem_uc Cert.KernelIdeal.main_arg17 (by decide))).trans (Cert.KernelIdeal.Gen.V6_main_arg17 m (Cert.KernelIdeal.Asm.outs m) c),
      (h c _ (Cert.KernelIdeal.Asm.mem_uc Cert.KernelIdeal.main_arg18 (by decide))).trans (Cert.KernelIdeal.Gen.V6_main_arg18 m (Cert.KernelIdeal.Asm.outs m) c),
      (h c _ (Cert.KernelIdeal.Asm.mem_uc Cert.KernelIdeal.main_arg19 (by decide))).trans (Cert.KernelIdeal.Gen.V6_main_arg19 m (Cert.KernelIdeal.Asm.outs m) c),
      (h c _ (Cert.KernelIdeal.Asm.mem_uc Cert.KernelIdeal.main_arg20 (by decide))).trans (Cert.KernelIdeal.Gen.V6_main_arg20 m (Cert.KernelIdeal.Asm.outs m) c),
      (h c _ (Cert.KernelIdeal.Asm.mem_uc Cert.KernelIdeal.main_arg21 (by decide))).trans (Cert.KernelIdeal.Gen.V6_main_arg21 m (Cert.KernelIdeal.Asm.outs m) c)⟩) (Cert.KernelIdeal.Asm.run_all (F := Ideal) m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7, a8, a9, a10, a11, a12, a13, a14, a15, a16, a17, a18, a19, a20, a21⟩ := hagree c
    rw [Cert.RefStages.res_main_v89_eq_refOut, a0, a3, a4, a5, a6, a7, a8, a9, a10, a11, a12, a13, a14, a15, a16, a17, a18, a19, a20, a21]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
